-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v266)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v266) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v421) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S8x128x128 : Shape := ⟨3, ![8, 128, 128]⟩
abbrev S8x128 : Shape := ⟨2, ![8, 128]⟩
abbrev S128x5 : Shape := ⟨2, ![128, 5]⟩
abbrev S5 : Shape := ⟨1, ![5]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg9 : FVec F S128x5 .f32) (main_arg10 : FVec F S5 .f32) (main_v33 : IVec S_ 1) : IVec S_ 1 :=
  let main_v34 : FVec F S128x5 .f32 := Host.absf main_arg9
  let main_cst_12 : FVec F S_ .f32 := constant S_ .f32 0x7F800000#32
  let main_v35 : FVec F S128x5 .f32 := broadcastInDim S128x5 ![] bcast_S_S128x5 main_cst_12
  let main_v36 : IVec S128x5 1 := cmpf .olt main_v34 main_v35
  let main_c_13 : IVec S_ 1 := constantI S_ 1 1#1
  let main_v37 : IVec S_ 1 := (fun x v => Host.reduce IntOp.andi x v reducesTo_S128x5_S_d0_1 h_S_) main_v36 main_c_13
  let main_v38 : IVec S_ 1 := andi main_v33 main_v37
  let main_v39 : FVec F S5 .f32 := Host.absf main_arg10
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg6 : FVec F S8x128 .f32) (main_arg7 : FVec F S8x128 .f32) (main_arg8 : FVec F S8x128 .f32) (main_arg9 : FVec F S128x5 .f32) (main_arg10 : FVec F S5 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128 .f32 := Host.absf main_arg7
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8x128 .f32 := Host.absf main_arg8
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x640000 32) (main_arg2 : IVec S50000 32) (main_arg3 : FVec F S8x128x128 .f32) (main_arg4 : FVec F S8x128 .f32) (main_arg5 : FVec F S8x128 .f32) (main_arg6 : FVec F S8x128 .f32) (main_arg7 : FVec F S8x128 .f32) (main_arg8 : FVec F S8x128 .f32) (main_arg9 : FVec F S128x5 .f32) (main_arg10 : FVec F S5 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128 .f32 := Host.absf main_arg5
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S8x128x128 : Shape := ⟨3, ![8, 128, 128]⟩
abbrev S8x128 : Shape := ⟨2, ![8, 128]⟩
abbrev S128x5 : Shape := ⟨2, ![128, 5]⟩
abbrev S5 : Shape := ⟨1, ![5]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S1x128x128 : Shape := ⟨3, ![1, 128, 128]⟩
abbrev S128x128 : Shape := ⟨2, ![128, 128]⟩
abbrev S2000x128 : Shape := ⟨2, ![2000, 128]⟩
abbrev S2000x1 : Shape := ⟨2, ![2000, 1]⟩
abbrev S640000x128 : Shape := ⟨2, ![640000, 128]⟩
abbrev S1x128 : Shape := ⟨2, ![1, 128]⟩
abbrev S128 : Shape := ⟨1, ![128]⟩
abbrev S2048x128 : Shape := ⟨2, ![2048, 128]⟩
abbrev S2048 : Shape := ⟨1, ![2048]⟩
abbrev S2048x1 : Shape := ⟨2, ![2048, 1]⟩
abbrev S1x5 : Shape := ⟨2, ![1, 5]⟩
abbrev S2048x5 : Shape := ⟨2, ![2048, 5]⟩
abbrev S512x128 : Shape := ⟨2, ![512, 128]⟩
abbrev S512x5 : Shape := ⟨2, ![512, 5]⟩

abbrev nBuf : Space → Nat
  | .hbm => 310
  | .vmem => 166
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S8x128x128, .f32⟩
  | 4 => ⟨S8x128, .f32⟩
  | 5 => ⟨S8x128, .f32⟩
  | 6 => ⟨S8x128, .f32⟩
  | 7 => ⟨S8x128, .f32⟩
  | 8 => ⟨S8x128, .f32⟩
  | 9 => ⟨S128x5, .f32⟩
  | 10 => ⟨S5, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S50000, .f32⟩
  | 19 => ⟨S640000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S1x128x128, .f32⟩
  | 29 => ⟨S128x128, .f32⟩
  | 30 => ⟨S50000x128, .bf16⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .bf16⟩
  | 40 => ⟨S640000x128, .f32⟩
  | 41 => ⟨S_, .f32⟩
  | 42 => ⟨S50000x128, .f32⟩
  | 43 => ⟨S640000x1, .i32⟩
  | 44 => ⟨S50000x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S50000x128, .f32⟩
  | 61 => ⟨S1x128x128, .f32⟩
  | 62 => ⟨S128x128, .f32⟩
  | 63 => ⟨S50000x128, .bf16⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S640000x128, .bf16⟩
  | 73 => ⟨S640000x128, .f32⟩
  | 74 => ⟨S_, .f32⟩
  | 75 => ⟨S50000x128, .f32⟩
  | 76 => ⟨S640000x1, .i32⟩
  | 77 => ⟨S50000x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S50000x128, .f32⟩
  | 94 => ⟨S1x128x128, .f32⟩
  | 95 => ⟨S128x128, .f32⟩
  | 96 => ⟨S50000x128, .bf16⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .bf16⟩
  | 106 => ⟨S640000x128, .f32⟩
  | 107 => ⟨S_, .f32⟩
  | 108 => ⟨S50000x128, .f32⟩
  | 109 => ⟨S640000x1, .i32⟩
  | 110 => ⟨S50000x128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .bf16⟩
  | 2 => ⟨S_, .i32⟩
  | 3 => ⟨S640000, .i32⟩
  | 4 => ⟨S640000, .i1⟩
  | 5 => ⟨S_, .i32⟩
  | 6 => ⟨S640000, .i32⟩
  | 7 => ⟨S640000, .i32⟩
  | 8 => ⟨S640000, .i32⟩
  | 9 => ⟨S640000x1, .i32⟩
  | 10 => ⟨S640000x128, .bf16⟩
  | 11 => ⟨S640000x128, .f32⟩
  | 12 => ⟨S_, .f32⟩
  | 13 => ⟨S50000x128, .f32⟩
  | 14 => ⟨S640000x1, .i32⟩
  | 15 => ⟨S50000x128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S50000x128, .f32⟩
  | 32 => ⟨S1x128x128, .f32⟩
  | 33 => ⟨S128x128, .f32⟩
  | 34 => ⟨S50000x128, .bf16⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .bf16⟩
  | 44 => ⟨S640000x128, .f32⟩
  | 45 => ⟨S_, .f32⟩
  | 46 => ⟨S50000x128, .f32⟩
  | 47 => ⟨S640000x1, .i32⟩
  | 48 => ⟨S50000x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S50000x128, .f32⟩
  | 65 => ⟨S1x128x128, .f32⟩
  | 66 => ⟨S128x128, .f32⟩
  | 67 => ⟨S50000x128, .bf16⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x128, .bf16⟩
  | 77 => ⟨S640000x128, .f32⟩
  | 78 => ⟨S_, .f32⟩
  | 79 => ⟨S50000x128, .f32⟩
  | 80 => ⟨S640000x1, .i32⟩
  | 81 => ⟨S50000x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S50000x128, .f32⟩
  | 98 => ⟨S1x128x128, .f32⟩
  | 99 => ⟨S128x128, .f32⟩
  | 100 => ⟨S50000x128, .bf16⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .bf16⟩
  | 110 => ⟨S640000x128, .f32⟩
  | 111 => ⟨S_, .f32⟩
  | 112 => ⟨S50000x128, .f32⟩
  | 113 => ⟨S640000x1, .i32⟩
  | 114 => ⟨S50000x128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S1x128, .f32⟩
  | 127 => ⟨S1x128, .f32⟩
  | _ => ⟨S50000x128, .f32⟩

abbrev hbmTy0_2 (i : Nat) : BufTy := match i % 128 with
  | 0 => ⟨S1x128, .f32⟩
  | 1 => ⟨S1x128, .f32⟩
  | 2 => ⟨S50000x128, .f32⟩
  | 3 => ⟨S1x128x128, .f32⟩
  | 4 => ⟨S128x128, .f32⟩
  | 5 => ⟨S50000x128, .bf16⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .bf16⟩
  | 15 => ⟨S640000x128, .f32⟩
  | 16 => ⟨S_, .f32⟩
  | 17 => ⟨S50000x128, .f32⟩
  | 18 => ⟨S640000x1, .i32⟩
  | 19 => ⟨S50000x128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S50000x128, .f32⟩
  | 36 => ⟨S_, .f32⟩
  | 37 => ⟨S50000, .f32⟩
  | 38 => ⟨S_, .f32⟩
  | 39 => ⟨S2048x128, .f32⟩
  | 40 => ⟨S50000x1, .i32⟩
  | 41 => ⟨S2048x128, .f32⟩
  | 42 => ⟨S_, .f32⟩
  | 43 => ⟨S2048, .f32⟩
  | 44 => ⟨S50000x1, .i32⟩
  | 45 => ⟨S2048, .f32⟩
  | 46 => ⟨S_, .f32⟩
  | 47 => ⟨S2048, .f32⟩
  | 48 => ⟨S2048, .f32⟩
  | 49 => ⟨S2048x1, .f32⟩
  | 50 => ⟨S2048x128, .f32⟩
  | 51 => ⟨S2048x128, .f32⟩
  | 52 => ⟨S1x5, .f32⟩
  | 53 => ⟨S2048x5, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev vmemTy0_0 (i : Nat) : BufTy := match i % 128 with
  | 0 => ⟨S2000x128, .f32⟩
  | 1 => ⟨S2000x128, .f32⟩
  | 2 => ⟨S128x128, .f32⟩
  | 3 => ⟨S2000x1, .f32⟩
  | 4 => ⟨S2000x1, .f32⟩
  | 5 => ⟨S2000x128, .bf16⟩
  | 6 => ⟨S2000x128, .bf16⟩
  | 7 => ⟨S2000x128, .f32⟩
  | 8 => ⟨S2000x128, .f32⟩
  | 9 => ⟨S2000x128, .bf16⟩
  | 10 => ⟨S2000x128, .bf16⟩
  | 11 => ⟨S2000x1, .f32⟩
  | 12 => ⟨S2000x1, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S2000x128, .f32⟩
  | 19 => ⟨S2000x128, .f32⟩
  | 20 => ⟨S2000x128, .f32⟩
  | 21 => ⟨S2000x128, .f32⟩
  | 22 => ⟨S128x128, .f32⟩
  | 23 => ⟨S2000x1, .f32⟩
  | 24 => ⟨S2000x1, .f32⟩
  | 25 => ⟨S2000x128, .bf16⟩
  | 26 => ⟨S2000x128, .bf16⟩
  | 27 => ⟨S2000x128, .f32⟩
  | 28 => ⟨S2000x128, .f32⟩
  | 29 => ⟨S2000x128, .bf16⟩
  | 30 => ⟨S2000x128, .bf16⟩
  | 31 => ⟨S2000x1, .f32⟩
  | 32 => ⟨S2000x1, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S2000x128, .f32⟩
  | 39 => ⟨S2000x128, .f32⟩
  | 40 => ⟨S2000x128, .f32⟩
  | 41 => ⟨S2000x128, .f32⟩
  | 42 => ⟨S128x128, .f32⟩
  | 43 => ⟨S2000x1, .f32⟩
  | 44 => ⟨S2000x1, .f32⟩
  | 45 => ⟨S2000x128, .bf16⟩
  | 46 => ⟨S2000x128, .bf16⟩
  | 47 => ⟨S2000x128, .f32⟩
  | 48 => ⟨S2000x128, .f32⟩
  | 49 => ⟨S2000x128, .bf16⟩
  | 50 => ⟨S2000x128, .bf16⟩
  | 51 => ⟨S2000x1, .f32⟩
  | 52 => ⟨S2000x1, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S2000x128, .f32⟩
  | 59 => ⟨S2000x128, .f32⟩
  | 60 => ⟨S2000x128, .f32⟩
  | 61 => ⟨S2000x128, .f32⟩
  | 62 => ⟨S128x128, .f32⟩
  | 63 => ⟨S2000x1, .f32⟩
  | 64 => ⟨S2000x1, .f32⟩
  | 65 => ⟨S2000x128, .bf16⟩
  | 66 => ⟨S2000x128, .bf16⟩
  | 67 => ⟨S2000x128, .f32⟩
  | 68 => ⟨S2000x128, .f32⟩
  | 69 => ⟨S2000x128, .bf16⟩
  | 70 => ⟨S2000x128, .bf16⟩
  | 71 => ⟨S2000x1, .f32⟩
  | 72 => ⟨S2000x1, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S2000x128, .f32⟩
  | 79 => ⟨S2000x128, .f32⟩
  | 80 => ⟨S2000x128, .f32⟩
  | 81 => ⟨S2000x128, .f32⟩
  | 82 => ⟨S128x128, .f32⟩
  | 83 => ⟨S2000x1, .f32⟩
  | 84 => ⟨S2000x1, .f32⟩
  | 85 => ⟨S2000x128, .bf16⟩
  | 86 => ⟨S2000x128, .bf16⟩
  | 87 => ⟨S2000x128, .f32⟩
  | 88 => ⟨S2000x128, .f32⟩
  | 89 => ⟨S2000x128, .bf16⟩
  | 90 => ⟨S2000x128, .bf16⟩
  | 91 => ⟨S2000x1, .f32⟩
  | 92 => ⟨S2000x1, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S2000x128, .f32⟩
  | 99 => ⟨S2000x128, .f32⟩
  | 100 => ⟨S2000x128, .f32⟩
  | 101 => ⟨S2000x128, .f32⟩
  | 102 => ⟨S128x128, .f32⟩
  | 103 => ⟨S2000x1, .f32⟩
  | 104 => ⟨S2000x1, .f32⟩
  | 105 => ⟨S2000x128, .bf16⟩
  | 106 => ⟨S2000x128, .bf16⟩
  | 107 => ⟨S2000x128, .f32⟩
  | 108 => ⟨S2000x128, .f32⟩
  | 109 => ⟨S2000x128, .bf16⟩
  | 110 => ⟨S2000x128, .bf16⟩
  | 111 => ⟨S2000x1, .f32⟩
  | 112 => ⟨S2000x1, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S2000x128, .f32⟩
  | 119 => ⟨S2000x128, .f32⟩
  | 120 => ⟨S2000x128, .f32⟩
  | 121 => ⟨S2000x128, .f32⟩
  | 122 => ⟨S128x128, .f32⟩
  | 123 => ⟨S2000x1, .f32⟩
  | 124 => ⟨S2000x1, .f32⟩
  | 125 => ⟨S2000x128, .bf16⟩
  | 126 => ⟨S2000x128, .bf16⟩
  | 127 => ⟨S2000x128, .f32⟩
  | _ => ⟨S50000x128, .f32⟩

abbrev vmemTy0_1 (i : Nat) : BufTy := match i % 128 with
  | 0 => ⟨S2000x128, .f32⟩
  | 1 => ⟨S2000x128, .bf16⟩
  | 2 => ⟨S2000x128, .bf16⟩
  | 3 => ⟨S2000x1, .f32⟩
  | 4 => ⟨S2000x1, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S2000x128, .f32⟩
  | 11 => ⟨S2000x128, .f32⟩
  | 12 => ⟨S2000x128, .f32⟩
  | 13 => ⟨S2000x128, .f32⟩
  | 14 => ⟨S128x128, .f32⟩
  | 15 => ⟨S2000x1, .f32⟩
  | 16 => ⟨S2000x1, .f32⟩
  | 17 => ⟨S2000x128, .bf16⟩
  | 18 => ⟨S2000x128, .bf16⟩
  | 19 => ⟨S2000x128, .f32⟩
  | 20 => ⟨S2000x128, .f32⟩
  | 21 => ⟨S2000x128, .bf16⟩
  | 22 => ⟨S2000x128, .bf16⟩
  | 23 => ⟨S2000x1, .f32⟩
  | 24 => ⟨S2000x1, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S2000x128, .f32⟩
  | 31 => ⟨S2000x128, .f32⟩
  | 32 => ⟨S512x128, .f32⟩
  | 33 => ⟨S512x128, .f32⟩
  | 34 => ⟨S128x5, .f32⟩
  | 35 => ⟨S1x5, .f32⟩
  | 36 => ⟨S512x5, .f32⟩
  | 37 => ⟨S512x5, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 166 → Bool
  | ⟨i, _⟩ => dmaSemScopedAt i

abbrev sig : RefSig :=
  ofTc nBuf bufTy 0 166 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_8 : Ref sig .tc := ⟨.hbm, 97, rfl⟩
abbrev main_v76 : Ref sig .tc := ⟨.hbm, 98, rfl⟩
abbrev main_v77 : Ref sig .tc := ⟨.hbm, 99, rfl⟩
abbrev main_c_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_10 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_c_11 : Ref sig .tc := ⟨.hbm, 130, rfl⟩
abbrev main_v106 : Ref sig .tc := ⟨.hbm, 131, rfl⟩
abbrev main_v107 : Ref sig .tc := ⟨.hbm, 132, rfl⟩
abbrev main_c_12 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_13 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_c_14 : Ref sig .tc := ⟨.hbm, 163, rfl⟩
abbrev main_v136 : Ref sig .tc := ⟨.hbm, 164, rfl⟩
abbrev main_v137 : Ref sig .tc := ⟨.hbm, 165, rfl⟩
abbrev main_c_15 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_16 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_c_17 : Ref sig .tc := ⟨.hbm, 196, rfl⟩
abbrev main_v166 : Ref sig .tc := ⟨.hbm, 197, rfl⟩
abbrev main_v167 : Ref sig .tc := ⟨.hbm, 198, rfl⟩
abbrev main_c_18 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_19 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_c_20 : Ref sig .tc := ⟨.hbm, 229, rfl⟩
abbrev main_v196 : Ref sig .tc := ⟨.hbm, 230, rfl⟩
abbrev main_v197 : Ref sig .tc := ⟨.hbm, 231, rfl⟩
abbrev main_c_21 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_cst_22 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_c_23 : Ref sig .tc := ⟨.hbm, 262, rfl⟩
abbrev main_v226 : Ref sig .tc := ⟨.hbm, 263, rfl⟩
abbrev main_v227 : Ref sig .tc := ⟨.hbm, 264, rfl⟩
abbrev main_c_24 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_cst_25 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_cst_26 : Ref sig .tc := ⟨.hbm, 292, rfl⟩
abbrev main_v253 : Ref sig .tc := ⟨.hbm, 293, rfl⟩
abbrev main_cst_27 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_cst_28 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_cst_29 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg2_1 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_stg7_0 : Ref sig .tc := ⟨.vmem, 77, rfl⟩
abbrev cc7_stg8_0 : Ref sig .tc := ⟨.vmem, 78, rfl⟩
abbrev cc7_stg8_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg2_1 : Ref sig .tc := ⟨.vmem, 84, rfl⟩
abbrev cc8_stg3_0 : Ref sig .tc := ⟨.vmem, 85, rfl⟩
abbrev cc8_stg3_1 : Ref sig .tc := ⟨.vmem, 86, rfl⟩
abbrev cc9_stg0_0 : Ref sig .tc := ⟨.vmem, 87, rfl⟩
abbrev cc9_stg0_1 : Ref sig .tc := ⟨.vmem, 88, rfl⟩
abbrev cc9_stg1_0 : Ref sig .tc := ⟨.vmem, 89, rfl⟩
abbrev cc9_stg1_1 : Ref sig .tc := ⟨.vmem, 90, rfl⟩
abbrev cc9_stg2_0 : Ref sig .tc := ⟨.vmem, 91, rfl⟩
abbrev cc9_stg2_1 : Ref sig .tc := ⟨.vmem, 92, rfl⟩
abbrev cc9_stg3_0 : Ref sig .tc := ⟨.vmem, 93, rfl⟩
abbrev cc9_stg4_0 : Ref sig .tc := ⟨.vmem, 94, rfl⟩
abbrev cc9_stg5_0 : Ref sig .tc := ⟨.vmem, 95, rfl⟩
abbrev cc9_stg6_0 : Ref sig .tc := ⟨.vmem, 96, rfl⟩
abbrev cc9_stg7_0 : Ref sig .tc := ⟨.vmem, 97, rfl⟩
abbrev cc9_stg8_0 : Ref sig .tc := ⟨.vmem, 98, rfl⟩
abbrev cc9_stg8_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg2_0 : Ref sig .tc := ⟨.vmem, 103, rfl⟩
abbrev cc10_stg2_1 : Ref sig .tc := ⟨.vmem, 104, rfl⟩
abbrev cc10_stg3_0 : Ref sig .tc := ⟨.vmem, 105, rfl⟩
abbrev cc10_stg3_1 : Ref sig .tc := ⟨.vmem, 106, rfl⟩
abbrev cc11_stg0_0 : Ref sig .tc := ⟨.vmem, 107, rfl⟩
abbrev cc11_stg0_1 : Ref sig .tc := ⟨.vmem, 108, rfl⟩
abbrev cc11_stg1_0 : Ref sig .tc := ⟨.vmem, 109, rfl⟩
abbrev cc11_stg1_1 : Ref sig .tc := ⟨.vmem, 110, rfl⟩
abbrev cc11_stg2_0 : Ref sig .tc := ⟨.vmem, 111, rfl⟩
abbrev cc11_stg2_1 : Ref sig .tc := ⟨.vmem, 112, rfl⟩
abbrev cc11_stg3_0 : Ref sig .tc := ⟨.vmem, 113, rfl⟩
abbrev cc11_stg4_0 : Ref sig .tc := ⟨.vmem, 114, rfl⟩
abbrev cc11_stg5_0 : Ref sig .tc := ⟨.vmem, 115, rfl⟩
abbrev cc11_stg6_0 : Ref sig .tc := ⟨.vmem, 116, rfl⟩
abbrev cc11_stg7_0 : Ref sig .tc := ⟨.vmem, 117, rfl⟩
abbrev cc11_stg8_0 : Ref sig .tc := ⟨.vmem, 118, rfl⟩
abbrev cc11_stg8_1 : Ref sig .tc := ⟨.vmem, 119, rfl⟩
abbrev cc12_stg0_0 : Ref sig .tc := ⟨.vmem, 120, rfl⟩
abbrev cc12_stg0_1 : Ref sig .tc := ⟨.vmem, 121, rfl⟩
abbrev cc12_stg1_0 : Ref sig .tc := ⟨.vmem, 122, rfl⟩
abbrev cc12_stg2_0 : Ref sig .tc := ⟨.vmem, 123, rfl⟩
abbrev cc12_stg2_1 : Ref sig .tc := ⟨.vmem, 124, rfl⟩
abbrev cc12_stg3_0 : Ref sig .tc := ⟨.vmem, 125, rfl⟩
abbrev cc12_stg3_1 : Ref sig .tc := ⟨.vmem, 126, rfl⟩
abbrev cc13_stg0_0 : Ref sig .tc := ⟨.vmem, 127, rfl⟩
abbrev cc13_stg0_1 : Ref sig .tc := ⟨.vmem, 128, rfl⟩
abbrev cc13_stg1_0 : Ref sig .tc := ⟨.vmem, 129, rfl⟩
abbrev cc13_stg1_1 : Ref sig .tc := ⟨.vmem, 130, rfl⟩
abbrev cc13_stg2_0 : Ref sig .tc := ⟨.vmem, 131, rfl⟩
abbrev cc13_stg2_1 : Ref sig .tc := ⟨.vmem, 132, rfl⟩
abbrev cc13_stg3_0 : Ref sig .tc := ⟨.vmem, 133, rfl⟩
abbrev cc13_stg4_0 : Ref sig .tc := ⟨.vmem, 134, rfl⟩
abbrev cc13_stg5_0 : Ref sig .tc := ⟨.vmem, 135, rfl⟩
abbrev cc13_stg6_0 : Ref sig .tc := ⟨.vmem, 136, rfl⟩
abbrev cc13_stg7_0 : Ref sig .tc := ⟨.vmem, 137, rfl⟩
abbrev cc13_stg8_0 : Ref sig .tc := ⟨.vmem, 138, rfl⟩
abbrev cc13_stg8_1 : Ref sig .tc := ⟨.vmem, 139, rfl⟩
abbrev cc14_stg0_0 : Ref sig .tc := ⟨.vmem, 140, rfl⟩
abbrev cc14_stg0_1 : Ref sig .tc := ⟨.vmem, 141, rfl⟩
abbrev cc14_stg1_0 : Ref sig .tc := ⟨.vmem, 142, rfl⟩
abbrev cc14_stg2_0 : Ref sig .tc := ⟨.vmem, 143, rfl⟩
abbrev cc14_stg2_1 : Ref sig .tc := ⟨.vmem, 144, rfl⟩
abbrev cc14_stg3_0 : Ref sig .tc := ⟨.vmem, 145, rfl⟩
abbrev cc14_stg3_1 : Ref sig .tc := ⟨.vmem, 146, rfl⟩
abbrev cc15_stg0_0 : Ref sig .tc := ⟨.vmem, 147, rfl⟩
abbrev cc15_stg0_1 : Ref sig .tc := ⟨.vmem, 148, rfl⟩
abbrev cc15_stg1_0 : Ref sig .tc := ⟨.vmem, 149, rfl⟩
abbrev cc15_stg1_1 : Ref sig .tc := ⟨.vmem, 150, rfl⟩
abbrev cc15_stg2_0 : Ref sig .tc := ⟨.vmem, 151, rfl⟩
abbrev cc15_stg2_1 : Ref sig .tc := ⟨.vmem, 152, rfl⟩
abbrev cc15_stg3_0 : Ref sig .tc := ⟨.vmem, 153, rfl⟩
abbrev cc15_stg4_0 : Ref sig .tc := ⟨.vmem, 154, rfl⟩
abbrev cc15_stg5_0 : Ref sig .tc := ⟨.vmem, 155, rfl⟩
abbrev cc15_stg6_0 : Ref sig .tc := ⟨.vmem, 156, rfl⟩
abbrev cc15_stg7_0 : Ref sig .tc := ⟨.vmem, 157, rfl⟩
abbrev cc15_stg8_0 : Ref sig .tc := ⟨.vmem, 158, rfl⟩
abbrev cc15_stg8_1 : Ref sig .tc := ⟨.vmem, 159, rfl⟩
abbrev cc16_stg0_0 : Ref sig .tc := ⟨.vmem, 160, rfl⟩
abbrev cc16_stg0_1 : Ref sig .tc := ⟨.vmem, 161, rfl⟩
abbrev cc16_stg1_0 : Ref sig .tc := ⟨.vmem, 162, rfl⟩
abbrev cc16_stg2_0 : Ref sig .tc := ⟨.vmem, 163, rfl⟩
abbrev cc16_stg3_0 : Ref sig .tc := ⟨.vmem, 164, rfl⟩
abbrev cc16_stg3_1 : Ref sig .tc := ⟨.vmem, 165, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem8_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem2_1 : DmaSem sig := 64
abbrev cc6_sem3_0 : DmaSem sig := 65
abbrev cc6_sem3_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem2_1 : DmaSem sig := 72
abbrev cc7_sem3_0 : DmaSem sig := 73
abbrev cc7_sem4_0 : DmaSem sig := 74
abbrev cc7_sem5_0 : DmaSem sig := 75
abbrev cc7_sem6_0 : DmaSem sig := 76
abbrev cc7_sem7_0 : DmaSem sig := 77
abbrev cc7_sem8_0 : DmaSem sig := 78
abbrev cc7_sem8_1 : DmaSem sig := 79
abbrev cc8_sem0_0 : DmaSem sig := 80
abbrev cc8_sem0_1 : DmaSem sig := 81
abbrev cc8_sem1_0 : DmaSem sig := 82
abbrev cc8_sem2_0 : DmaSem sig := 83
abbrev cc8_sem2_1 : DmaSem sig := 84
abbrev cc8_sem3_0 : DmaSem sig := 85
abbrev cc8_sem3_1 : DmaSem sig := 86
abbrev cc9_sem0_0 : DmaSem sig := 87
abbrev cc9_sem0_1 : DmaSem sig := 88
abbrev cc9_sem1_0 : DmaSem sig := 89
abbrev cc9_sem1_1 : DmaSem sig := 90
abbrev cc9_sem2_0 : DmaSem sig := 91
abbrev cc9_sem2_1 : DmaSem sig := 92
abbrev cc9_sem3_0 : DmaSem sig := 93
abbrev cc9_sem4_0 : DmaSem sig := 94
abbrev cc9_sem5_0 : DmaSem sig := 95
abbrev cc9_sem6_0 : DmaSem sig := 96
abbrev cc9_sem7_0 : DmaSem sig := 97
abbrev cc9_sem8_0 : DmaSem sig := 98
abbrev cc9_sem8_1 : DmaSem sig := 99
abbrev cc10_sem0_0 : DmaSem sig := 100
abbrev cc10_sem0_1 : DmaSem sig := 101
abbrev cc10_sem1_0 : DmaSem sig := 102
abbrev cc10_sem2_0 : DmaSem sig := 103
abbrev cc10_sem2_1 : DmaSem sig := 104
abbrev cc10_sem3_0 : DmaSem sig := 105
abbrev cc10_sem3_1 : DmaSem sig := 106
abbrev cc11_sem0_0 : DmaSem sig := 107
abbrev cc11_sem0_1 : DmaSem sig := 108
abbrev cc11_sem1_0 : DmaSem sig := 109
abbrev cc11_sem1_1 : DmaSem sig := 110
abbrev cc11_sem2_0 : DmaSem sig := 111
abbrev cc11_sem2_1 : DmaSem sig := 112
abbrev cc11_sem3_0 : DmaSem sig := 113
abbrev cc11_sem4_0 : DmaSem sig := 114
abbrev cc11_sem5_0 : DmaSem sig := 115
abbrev cc11_sem6_0 : DmaSem sig := 116
abbrev cc11_sem7_0 : DmaSem sig := 117
abbrev cc11_sem8_0 : DmaSem sig := 118
abbrev cc11_sem8_1 : DmaSem sig := 119
abbrev cc12_sem0_0 : DmaSem sig := 120
abbrev cc12_sem0_1 : DmaSem sig := 121
abbrev cc12_sem1_0 : DmaSem sig := 122
abbrev cc12_sem2_0 : DmaSem sig := 123
abbrev cc12_sem2_1 : DmaSem sig := 124
abbrev cc12_sem3_0 : DmaSem sig := 125
abbrev cc12_sem3_1 : DmaSem sig := 126
abbrev cc13_sem0_0 : DmaSem sig := 127
abbrev cc13_sem0_1 : DmaSem sig := 128
abbrev cc13_sem1_0 : DmaSem sig := 129
abbrev cc13_sem1_1 : DmaSem sig := 130
abbrev cc13_sem2_0 : DmaSem sig := 131
abbrev cc13_sem2_1 : DmaSem sig := 132
abbrev cc13_sem3_0 : DmaSem sig := 133
abbrev cc13_sem4_0 : DmaSem sig := 134
abbrev cc13_sem5_0 : DmaSem sig := 135
abbrev cc13_sem6_0 : DmaSem sig := 136
abbrev cc13_sem7_0 : DmaSem sig := 137
abbrev cc13_sem8_0 : DmaSem sig := 138
abbrev cc13_sem8_1 : DmaSem sig := 139
abbrev cc14_sem0_0 : DmaSem sig := 140
abbrev cc14_sem0_1 : DmaSem sig := 141
abbrev cc14_sem1_0 : DmaSem sig := 142
abbrev cc14_sem2_0 : DmaSem sig := 143
abbrev cc14_sem2_1 : DmaSem sig := 144
abbrev cc14_sem3_0 : DmaSem sig := 145
abbrev cc14_sem3_1 : DmaSem sig := 146
abbrev cc15_sem0_0 : DmaSem sig := 147
abbrev cc15_sem0_1 : DmaSem sig := 148
abbrev cc15_sem1_0 : DmaSem sig := 149
abbrev cc15_sem1_1 : DmaSem sig := 150
abbrev cc15_sem2_0 : DmaSem sig := 151
abbrev cc15_sem2_1 : DmaSem sig := 152
abbrev cc15_sem3_0 : DmaSem sig := 153
abbrev cc15_sem4_0 : DmaSem sig := 154
abbrev cc15_sem5_0 : DmaSem sig := 155
abbrev cc15_sem6_0 : DmaSem sig := 156
abbrev cc15_sem7_0 : DmaSem sig := 157
abbrev cc15_sem8_0 : DmaSem sig := 158
abbrev cc15_sem8_1 : DmaSem sig := 159
abbrev cc16_sem0_0 : DmaSem sig := 160
abbrev cc16_sem0_1 : DmaSem sig := 161
abbrev cc16_sem1_0 : DmaSem sig := 162
abbrev cc16_sem2_0 : DmaSem sig := 163
abbrev cc16_sem3_0 : DmaSem sig := 164
abbrev cc16_sem3_1 : DmaSem sig := 165

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S2000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S2000x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x128 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 2 → Memref sig .tc .vmem S2000x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S2000x128 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_8 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x128 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1x128 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev stage13_8 : Fin 2 → Memref sig .tc .vmem S2000x128 .f32 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S2000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S2000x128 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_8 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x128 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S2000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S1x128 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev stage15_8 : Fin 2 → Memref sig .tc .vmem S2000x128 .f32 := fun | 0 => Memref.whole cc15_stg8_0 | 1 => Memref.whole cc15_stg8_1 | ⟨_ + 2, h⟩ => absurd h (Nat.not_lt.2 (Nat.le_add_left _ _))
abbrev sem15_8 : Fin 2 → DmaSem sig := fun | 0 => cc15_sem8_0 | 1 => cc15_sem8_1 | ⟨_ + 2, h⟩ => absurd h (Nat.not_lt.2 (Nat.le_add_left _ _))
abbrev reads15_8 : Fin grid15.rank → Bool := ![true]

abbrev grid16 : Pipeline.Grid := ⟨1, ![4], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S512x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x5 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x5 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S512x5 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  slices_S8x128x128_S1x128x128_0_0_0 : S8x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  slices_S8x128_S1x128_0_0 : S8x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  bcast_S_S2048x128 : S_.BroadcastsInDim S2048x128 (![] : Fin 0 → Fin S2048x128.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  shapeCasts_S5_S1x5 : S5.ShapeCasts S1x5
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S512x5 : S1x5.Broadcasts S512x5
  inb_S512x5_S512x5_0_0 : ∀ a, (![0, 0] : Fin 2 → Nat) a + S512x5.size a ≤ S512x5.size a
  h_S512x5 : 0 < S512x5.numel
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S2048x128_S50000x1_S50000x128_1_0_0_1_wf : ScatterDims.WF S2048x128 S50000x1 S50000x128 [1] [0] [0] 1
  scatter_S2048_S50000x1_S50000_n_0_0_1_wf : ScatterDims.WF S2048 S50000x1 S50000 [] [0] [0] 1
  dot_S512x128_S128x5_S512x5_1_0_0_1_n_n_wf : DotDims.WF S512x128 S128x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x128.size a ≤ S50000x128.size a
  hwx5_8 : ∀ i : grid5.Coords, EltTy.bits .f32 = 32 ∨ (Rect.block (s := S50000x128) S2000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .bf16 = 32 ∨ (Rect.block (s := S50000x128) S2000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .bf16 = 32 ∨ (Rect.block (s := S50000x128) S2000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2000x128.size a ≤ S50000x128.size a
  hwx7_8 : ∀ i : grid7.Coords, EltTy.bits .f32 = 32 ∨ (Rect.block (s := S50000x128) S2000x128.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S50000x1.size a
  hwx8_2 : ∀ i : grid8.Coords, EltTy.bits .f32 = 32 ∨ (Rect.block (s := S50000x1) S2000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .bf16 = 32 ∨ (Rect.block (s := S50000x128) S2000x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .bf16 = 32 ∨ (Rect.block (s := S50000x128) S2000x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S50000x1.size a
  hwx9_2 : ∀ i : grid9.Coords, EltTy.bits .f32 = 32 ∨ (Rect.block (s := S50000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S2000x128.size a ≤ S50000x128.size a
  hwx9_8 : ∀ i : grid9.Coords, EltTy.bits .f32 = 32 ∨ (Rect.block (s := S50000x128) S2000x128.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x1.size a ≤ S50000x1.size a
  hwx10_2 : ∀ i : grid10.Coords, EltTy.bits .f32 = 32 ∨ (Rect.block (s := S50000x1) S2000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .bf16 = 32 ∨ (Rect.block (s := S50000x128) S2000x128.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S50000x128.size a
  hwx11_1 : ∀ i : grid11.Coords, EltTy.bits .bf16 = 32 ∨ (Rect.block (s := S50000x128) S2000x128.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x1.size a ≤ S50000x1.size a
  hwx11_2 : ∀ i : grid11.Coords, EltTy.bits .f32 = 32 ∨ (Rect.block (s := S50000x1) S2000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S2000x128.size a ≤ S50000x128.size a
  hwx11_8 : ∀ i : grid11.Coords, EltTy.bits .f32 = 32 ∨ (Rect.block (s := S50000x128) S2000x128.size (cc11_transform_8 i) (hinb11_8 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x1.size a ≤ S50000x1.size a
  hwx12_2 : ∀ i : grid12.Coords, EltTy.bits .f32 = 32 ∨ (Rect.block (s := S50000x1) S2000x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S50000x128.size a
  hwx12_3 : ∀ i : grid12.Coords, EltTy.bits .bf16 = 32 ∨ (Rect.block (s := S50000x128) S2000x128.size (cc12_transform_3 i) (hinb12_3 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x128.size a ≤ S50000x128.size a
  hwx13_1 : ∀ i : grid13.Coords, EltTy.bits .bf16 = 32 ∨ (Rect.block (s := S50000x128) S2000x128.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x1.size a ≤ S50000x1.size a
  hwx13_2 : ∀ i : grid13.Coords, EltTy.bits .f32 = 32 ∨ (Rect.block (s := S50000x1) S2000x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1x128.size a ≤ S1x128.size a
  hwx13_7 : ∀ i : grid13.Coords, EltTy.bits .f32 = 32 ∨ (Rect.block (s := S1x128) S1x128.size (cc13_transform_7 i) (hinb13_7 i)).WholeWords (EltTy.packing .f32)
  hstage13_8 : ∀ j, (stage13_8 j).IsWhole
  nbuf13_8 : grid13.bufCount reads13_8 false = 2
  hreads13_8 : ∀ i i' : grid13.Coords, (∀ a, reads13_8 a = true → i a = i' a) → cc13_transform_8 i = cc13_transform_8 i'
  hinb13_8 : ∀ (i : grid13.Coords) a, (cc13_transform_8 i a + 1) * S2000x128.size a ≤ S50000x128.size a
  hwx13_8 : ∀ i : grid13.Coords, EltTy.bits .f32 = 32 ∨ (Rect.block (s := S50000x128) S2000x128.size (cc13_transform_8 i) (hinb13_8 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x1.size a ≤ S50000x1.size a
  hwx14_2 : ∀ i : grid14.Coords, EltTy.bits .f32 = 32 ∨ (Rect.block (s := S50000x1) S2000x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S50000x128.size a
  hwx14_3 : ∀ i : grid14.Coords, EltTy.bits .bf16 = 32 ∨ (Rect.block (s := S50000x128) S2000x128.size (cc14_transform_3 i) (hinb14_3 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S50000x128.size a
  hwx15_0 : ∀ i : grid15.Coords, EltTy.bits .f32 = 32 ∨ (Rect.block (s := S50000x128) S2000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x128.size a ≤ S50000x128.size a
  hwx15_1 : ∀ i : grid15.Coords, EltTy.bits .bf16 = 32 ∨ (Rect.block (s := S50000x128) S2000x128.size (cc15_transform_1 i) (hinb15_1 i)).WholeWords (EltTy.packing .bf16)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x1.size a ≤ S50000x1.size a
  hwx15_2 : ∀ i : grid15.Coords, EltTy.bits .f32 = 32 ∨ (Rect.block (s := S50000x1) S2000x1.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x128.size a ≤ S1x128.size a
  hwx15_5 : ∀ i : grid15.Coords, EltTy.bits .f32 = 32 ∨ (Rect.block (s := S1x128) S1x128.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x128.size a ≤ S1x128.size a
  hwx15_6 : ∀ i : grid15.Coords, EltTy.bits .f32 = 32 ∨ (Rect.block (s := S1x128) S1x128.size (cc15_transform_6 i) (hinb15_6 i)).WholeWords (EltTy.packing .f32)
  hstage15_7 : ∀ j, (stage15_7 j).IsWhole
  nbuf15_7 : grid15.bufCount reads15_7 true = 1
  hreads15_7 : ∀ i i' : grid15.Coords, (∀ a, reads15_7 a = true → i a = i' a) → cc15_transform_7 i = cc15_transform_7 i'
  hinb15_7 : ∀ (i : grid15.Coords) a, (cc15_transform_7 i a + 1) * S1x128.size a ≤ S1x128.size a
  hwx15_7 : ∀ i : grid15.Coords, EltTy.bits .f32 = 32 ∨ (Rect.block (s := S1x128) S1x128.size (cc15_transform_7 i) (hinb15_7 i)).WholeWords (EltTy.packing .f32)
  hstage15_8 : ∀ j, (stage15_8 j).IsWhole
  nbuf15_8 : grid15.bufCount reads15_8 false = 2
  hreads15_8 : ∀ i i' : grid15.Coords, (∀ a, reads15_8 a = true → i a = i' a) → cc15_transform_8 i = cc15_transform_8 i'
  hinb15_8 : ∀ (i : grid15.Coords) a, (cc15_transform_8 i a + 1) * S2000x128.size a ≤ S50000x128.size a
  hwx15_8 : ∀ i : grid15.Coords, EltTy.bits .f32 = 32 ∨ (Rect.block (s := S50000x128) S2000x128.size (cc15_transform_8 i) (hinb15_8 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S512x128.size a ≤ S2048x128.size a
  hwx16_0 : ∀ i : grid16.Coords, EltTy.bits .f32 = 32 ∨ (Rect.block (s := S2048x128) S512x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x5.size a ≤ S128x5.size a
  hwx16_1 : ∀ i : grid16.Coords, EltTy.bits .f32 = 32 ∨ (Rect.block (s := S128x5) S128x5.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x5.size a ≤ S1x5.size a
  hwx16_2 : ∀ i : grid16.Coords, EltTy.bits .f32 = 32 ∨ (Rect.block (s := S1x5) S1x5.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S512x5.size a ≤ S2048x5.size a
  hwx16_3 : ∀ i : grid16.Coords, EltTy.bits .f32 = 32 ∨ (Rect.block (s := S2048x5) S512x5.size (cc16_transform_3 i) (hinb16_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S512x128_S128x5_S512x5_1_0_0_1_n_n : DotDims S512x128 S128x5 S512x5 where
  lhsContracting := [1]
  rhsContracting := [0]
  lhsNonContracting := [0]
  rhsNonContracting := [1]
  lhsBatch := []
  rhsBatch := []
  wf := dot_S512x128_S128x5_S512x5_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v71) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v72) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v72) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v86) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v97) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v101) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v102) S2000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v102) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v104) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v105) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v116) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v128) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v129) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v131) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v132) S2000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v132) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v134) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v12) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v135) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v146) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v135) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v12) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v157) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v158) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v159) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v160) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v161) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v162) S2000x128.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v162) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v164) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v12) S2000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v165) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v176) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v165) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v12) S2000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v187) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v188) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v189) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v190) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v191) S1x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v192) S2000x128.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

abbrev win12_0 : Pipeline.Window sig grid12 :=
  Pipeline.Window.ofSpec (Memref.whole main_v192) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v194) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v12) S2000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v195) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v206) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v195) S2000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v12) S2000x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v217) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v218) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v219) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v220) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v221) S1x128.size cc13_transform_7 reads13_7 false true 1 stage13_7 sem13_7
    hrank13 hreads13_7 hinb13_7 nbuf13_7 (Memref.isWhole_whole _) hwx13_7 hstage13_7

abbrev win13_8 : Pipeline.Window sig grid13 :=
  Pipeline.Window.ofSpec (Memref.whole main_v222) S2000x128.size cc13_transform_8 reads13_8 true false 2 stage13_8 sem13_8
    hrank13 hreads13_8 hinb13_8 nbuf13_8 (Memref.isWhole_whole _) hwx13_8 hstage13_8

abbrev win13 : Fin 9 → Pipeline.Window sig grid13 := fun | 0 => win13_0 | 1 => win13_1 | 2 => win13_2 | 3 => win13_3 | 4 => win13_4 | 5 => win13_5 | 6 => win13_6 | 7 => win13_7 | 8 => win13_8 | ⟨_ + 9, h⟩ => absurd h (Nat.not_lt.2 (Nat.le_add_left _ _))
abbrev spec13 : Fin 9 → Pipeline.WinSpec sig grid13.rank := fun w => (win13 w).toWinSpec

abbrev win14_0 : Pipeline.Window sig grid14 :=
  Pipeline.Window.ofSpec (Memref.whole main_v222) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v224) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v12) S2000x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v225) S2000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v236) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v225) S2000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v12) S2000x1.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v247) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v248) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v249) S1x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v250) S1x128.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v251) S1x128.size cc15_transform_7 reads15_7 false true 1 stage15_7 sem15_7
    hrank15 hreads15_7 hinb15_7 nbuf15_7 (Memref.isWhole_whole _) hwx15_7 hstage15_7

abbrev win15_8 : Pipeline.Window sig grid15 :=
  Pipeline.Window.ofSpec (Memref.whole main_v252) S2000x128.size cc15_transform_8 reads15_8 true false 2 stage15_8 sem15_8
    hrank15 hreads15_8 hinb15_8 nbuf15_8 (Memref.isWhole_whole _) hwx15_8 hstage15_8

abbrev win15 : Fin 9 → Pipeline.Window sig grid15 := fun | 0 => win15_0 | 1 => win15_1 | 2 => win15_2 | 3 => win15_3 | 4 => win15_4 | 5 => win15_5 | 6 => win15_6 | 7 => win15_7 | 8 => win15_8 | ⟨_ + 9, h⟩ => absurd h (Nat.not_lt.2 (Nat.le_add_left _ _))
abbrev spec15 : Fin 9 → Pipeline.WinSpec sig grid15.rank := fun w => (win15 w).toWinSpec

abbrev win16_0 : Pipeline.Window sig grid16 :=
  Pipeline.Window.ofSpec (Memref.whole main_v264) S512x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg9) S128x5.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v265) S1x5.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v266) S512x5.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S8x128x128 : Shape := ⟨3, ![8, 128, 128]⟩
abbrev S8x128 : Shape := ⟨2, ![8, 128]⟩
abbrev S128x5 : Shape := ⟨2, ![128, 5]⟩
abbrev S5 : Shape := ⟨1, ![5]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S1x128x128 : Shape := ⟨3, ![1, 128, 128]⟩
abbrev S128x128 : Shape := ⟨2, ![128, 128]⟩
abbrev S640000x128 : Shape := ⟨2, ![640000, 128]⟩
abbrev S1x128 : Shape := ⟨2, ![1, 128]⟩
abbrev S128 : Shape := ⟨1, ![128]⟩
abbrev S2048x128 : Shape := ⟨2, ![2048, 128]⟩
abbrev S2048 : Shape := ⟨1, ![2048]⟩
abbrev S2048x1 : Shape := ⟨2, ![2048, 1]⟩
abbrev S2048x5 : Shape := ⟨2, ![2048, 5]⟩
abbrev S1x5 : Shape := ⟨2, ![1, 5]⟩

abbrev nBuf : Space → Nat
  | .hbm => 493
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S8x128x128, .f32⟩
  | 4 => ⟨S8x128, .f32⟩
  | 5 => ⟨S8x128, .f32⟩
  | 6 => ⟨S8x128, .f32⟩
  | 7 => ⟨S8x128, .f32⟩
  | 8 => ⟨S8x128, .f32⟩
  | 9 => ⟨S128x5, .f32⟩
  | 10 => ⟨S5, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S50000, .f32⟩
  | 19 => ⟨S640000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000, .f32⟩
  | 45 => ⟨S640000, .f32⟩
  | 46 => ⟨S640000x1, .f32⟩
  | 47 => ⟨S50000, .f32⟩
  | 48 => ⟨S50000x1, .f32⟩
  | 49 => ⟨S1x128x128, .f32⟩
  | 50 => ⟨S128x128, .f32⟩
  | 51 => ⟨S50000x128, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S640000x128, .f32⟩
  | 62 => ⟨S640000x128, .f32⟩
  | 63 => ⟨S_, .f32⟩
  | 64 => ⟨S50000x128, .f32⟩
  | 65 => ⟨S640000x1, .i32⟩
  | 66 => ⟨S50000x128, .f32⟩
  | 67 => ⟨S50000x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x128, .f32⟩
  | 114 => ⟨S640000x128, .f32⟩
  | 115 => ⟨S640000x128, .f32⟩
  | 116 => ⟨S_, .f32⟩
  | 117 => ⟨S50000x128, .f32⟩
  | 118 => ⟨S640000x1, .i32⟩
  | 119 => ⟨S50000x128, .f32⟩
  | 120 => ⟨S50000x128, .f32⟩
  | 121 => ⟨S50000x128, .f32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x128, .f32⟩
  | 39 => ⟨S640000x128, .f32⟩
  | 40 => ⟨S640000x128, .f32⟩
  | 41 => ⟨S_, .f32⟩
  | 42 => ⟨S50000x128, .f32⟩
  | 43 => ⟨S640000x1, .i32⟩
  | 44 => ⟨S50000x128, .f32⟩
  | 45 => ⟨S50000x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x128, .f32⟩
  | 92 => ⟨S640000x128, .f32⟩
  | 93 => ⟨S640000x128, .f32⟩
  | 94 => ⟨S_, .f32⟩
  | 95 => ⟨S50000x128, .f32⟩
  | 96 => ⟨S640000x1, .i32⟩
  | 97 => ⟨S50000x128, .f32⟩
  | 98 => ⟨S50000x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S1x128x128, .f32⟩
  | 6 => ⟨S128x128, .f32⟩
  | 7 => ⟨S50000x128, .f32⟩
  | 8 => ⟨S_, .i32⟩
  | 9 => ⟨S640000, .i32⟩
  | 10 => ⟨S640000, .i1⟩
  | 11 => ⟨S_, .i32⟩
  | 12 => ⟨S640000, .i32⟩
  | 13 => ⟨S640000, .i32⟩
  | 14 => ⟨S640000, .i32⟩
  | 15 => ⟨S640000x1, .i32⟩
  | 16 => ⟨S640000x128, .f32⟩
  | 17 => ⟨S640000x128, .f32⟩
  | 18 => ⟨S640000x128, .f32⟩
  | 19 => ⟨S_, .f32⟩
  | 20 => ⟨S50000x128, .f32⟩
  | 21 => ⟨S640000x1, .i32⟩
  | 22 => ⟨S50000x128, .f32⟩
  | 23 => ⟨S50000x128, .f32⟩
  | 24 => ⟨S50000x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S128, .f32⟩
  | 38 => ⟨S_, .f32⟩
  | 39 => ⟨S128, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S640000x128, .f32⟩
  | 71 => ⟨S640000x128, .f32⟩
  | 72 => ⟨S_, .f32⟩
  | 73 => ⟨S50000x128, .f32⟩
  | 74 => ⟨S640000x1, .i32⟩
  | 75 => ⟨S50000x128, .f32⟩
  | 76 => ⟨S50000x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x128, .f32⟩
  | 123 => ⟨S640000x128, .f32⟩
  | 124 => ⟨S640000x128, .f32⟩
  | 125 => ⟨S_, .f32⟩
  | 126 => ⟨S50000x128, .f32⟩
  | 127 => ⟨S640000x1, .i32⟩
  | _ => ⟨S50000x128, .f32⟩

abbrev hbmTy0_3 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S_, .f32⟩
  | 17 => ⟨S128, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S640000x128, .f32⟩
  | 49 => ⟨S640000x128, .f32⟩
  | 50 => ⟨S_, .f32⟩
  | 51 => ⟨S50000x128, .f32⟩
  | 52 => ⟨S640000x1, .i32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S2048x128, .f32⟩
  | 91 => ⟨S50000x1, .i32⟩
  | 92 => ⟨S2048x128, .f32⟩
  | 93 => ⟨S_, .f32⟩
  | 94 => ⟨S50000, .f32⟩
  | 95 => ⟨S_, .f32⟩
  | 96 => ⟨S2048, .f32⟩
  | 97 => ⟨S50000x1, .i32⟩
  | 98 => ⟨S2048, .f32⟩
  | 99 => ⟨S_, .f32⟩
  | 100 => ⟨S2048, .f32⟩
  | 101 => ⟨S2048, .f32⟩
  | 102 => ⟨S2048x1, .f32⟩
  | 103 => ⟨S2048x128, .f32⟩
  | 104 => ⟨S2048x128, .f32⟩
  | 105 => ⟨S2048x5, .f32⟩
  | 106 => ⟨S1x5, .f32⟩
  | 107 => ⟨S2048x5, .f32⟩
  | 108 => ⟨S2048x5, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call0_cst : Ref sig .tc := ⟨.hbm, 99, rfl⟩
abbrev main_call0_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_v80 : Ref sig .tc := ⟨.hbm, 106, rfl⟩
abbrev main_v81 : Ref sig .tc := ⟨.hbm, 107, rfl⟩
abbrev main_c_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_13 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_call1_cst : Ref sig .tc := ⟨.hbm, 152, rfl⟩
abbrev main_call1_v0 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c_14 : Ref sig .tc := ⟨.hbm, 158, rfl⟩
abbrev main_v127 : Ref sig .tc := ⟨.hbm, 159, rfl⟩
abbrev main_v128 : Ref sig .tc := ⟨.hbm, 160, rfl⟩
abbrev main_c_15 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_16 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_17 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_call2_cst : Ref sig .tc := ⟨.hbm, 205, rfl⟩
abbrev main_call2_v0 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_c_18 : Ref sig .tc := ⟨.hbm, 211, rfl⟩
abbrev main_v174 : Ref sig .tc := ⟨.hbm, 212, rfl⟩
abbrev main_v175 : Ref sig .tc := ⟨.hbm, 213, rfl⟩
abbrev main_c_19 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_20 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_cst_21 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_call3_cst : Ref sig .tc := ⟨.hbm, 258, rfl⟩
abbrev main_call3_v0 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_c_22 : Ref sig .tc := ⟨.hbm, 264, rfl⟩
abbrev main_v221 : Ref sig .tc := ⟨.hbm, 265, rfl⟩
abbrev main_v222 : Ref sig .tc := ⟨.hbm, 266, rfl⟩
abbrev main_c_23 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_24 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_cst_25 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_call4_cst : Ref sig .tc := ⟨.hbm, 311, rfl⟩
abbrev main_call4_v0 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_c_26 : Ref sig .tc := ⟨.hbm, 317, rfl⟩
abbrev main_v268 : Ref sig .tc := ⟨.hbm, 318, rfl⟩
abbrev main_v269 : Ref sig .tc := ⟨.hbm, 319, rfl⟩
abbrev main_c_27 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_cst_28 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_cst_29 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_call5_cst : Ref sig .tc := ⟨.hbm, 364, rfl⟩
abbrev main_call5_v0 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_c_30 : Ref sig .tc := ⟨.hbm, 370, rfl⟩
abbrev main_v315 : Ref sig .tc := ⟨.hbm, 371, rfl⟩
abbrev main_v316 : Ref sig .tc := ⟨.hbm, 372, rfl⟩
abbrev main_c_31 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_cst_32 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_cst_33 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_v345 : Ref sig .tc := ⟨.hbm, 404, rfl⟩
abbrev main_v346 : Ref sig .tc := ⟨.hbm, 405, rfl⟩
abbrev main_v347 : Ref sig .tc := ⟨.hbm, 406, rfl⟩
abbrev main_v348 : Ref sig .tc := ⟨.hbm, 407, rfl⟩
abbrev main_v349 : Ref sig .tc := ⟨.hbm, 408, rfl⟩
abbrev main_v350 : Ref sig .tc := ⟨.hbm, 409, rfl⟩
abbrev main_v351 : Ref sig .tc := ⟨.hbm, 410, rfl⟩
abbrev main_v352 : Ref sig .tc := ⟨.hbm, 411, rfl⟩
abbrev main_v353 : Ref sig .tc := ⟨.hbm, 412, rfl⟩
abbrev main_v354 : Ref sig .tc := ⟨.hbm, 413, rfl⟩
abbrev main_v355 : Ref sig .tc := ⟨.hbm, 414, rfl⟩
abbrev main_v356 : Ref sig .tc := ⟨.hbm, 415, rfl⟩
abbrev main_v357 : Ref sig .tc := ⟨.hbm, 416, rfl⟩
abbrev main_call6_cst : Ref sig .tc := ⟨.hbm, 417, rfl⟩
abbrev main_call6_v0 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_c_34 : Ref sig .tc := ⟨.hbm, 423, rfl⟩
abbrev main_v362 : Ref sig .tc := ⟨.hbm, 424, rfl⟩
abbrev main_v363 : Ref sig .tc := ⟨.hbm, 425, rfl⟩
abbrev main_c_35 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_cst_36 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_cst_37 : Ref sig .tc := ⟨.hbm, 453, rfl⟩
abbrev main_v389 : Ref sig .tc := ⟨.hbm, 454, rfl⟩
abbrev main_v390 : Ref sig .tc := ⟨.hbm, 455, rfl⟩
abbrev main_v391 : Ref sig .tc := ⟨.hbm, 456, rfl⟩
abbrev main_v392 : Ref sig .tc := ⟨.hbm, 457, rfl⟩
abbrev main_v393 : Ref sig .tc := ⟨.hbm, 458, rfl⟩
abbrev main_v394 : Ref sig .tc := ⟨.hbm, 459, rfl⟩
abbrev main_v395 : Ref sig .tc := ⟨.hbm, 460, rfl⟩
abbrev main_v396 : Ref sig .tc := ⟨.hbm, 461, rfl⟩
abbrev main_v397 : Ref sig .tc := ⟨.hbm, 462, rfl⟩
abbrev main_v398 : Ref sig .tc := ⟨.hbm, 463, rfl⟩
abbrev main_v399 : Ref sig .tc := ⟨.hbm, 464, rfl⟩
abbrev main_v400 : Ref sig .tc := ⟨.hbm, 465, rfl⟩
abbrev main_v401 : Ref sig .tc := ⟨.hbm, 466, rfl⟩
abbrev main_v402 : Ref sig .tc := ⟨.hbm, 467, rfl⟩
abbrev main_v403 : Ref sig .tc := ⟨.hbm, 468, rfl⟩
abbrev main_v404 : Ref sig .tc := ⟨.hbm, 469, rfl⟩
abbrev main_call7_cst : Ref sig .tc := ⟨.hbm, 470, rfl⟩
abbrev main_call7_v0 : Ref sig .tc := ⟨.hbm, 471, rfl⟩
abbrev main_v405 : Ref sig .tc := ⟨.hbm, 472, rfl⟩
abbrev main_cst_38 : Ref sig .tc := ⟨.hbm, 473, rfl⟩
abbrev main_v406 : Ref sig .tc := ⟨.hbm, 474, rfl⟩
abbrev main_v407 : Ref sig .tc := ⟨.hbm, 475, rfl⟩
abbrev main_v408 : Ref sig .tc := ⟨.hbm, 476, rfl⟩
abbrev main_cst_39 : Ref sig .tc := ⟨.hbm, 477, rfl⟩
abbrev main_v409 : Ref sig .tc := ⟨.hbm, 478, rfl⟩
abbrev main_cst_40 : Ref sig .tc := ⟨.hbm, 479, rfl⟩
abbrev main_v410 : Ref sig .tc := ⟨.hbm, 480, rfl⟩
abbrev main_v411 : Ref sig .tc := ⟨.hbm, 481, rfl⟩
abbrev main_v412 : Ref sig .tc := ⟨.hbm, 482, rfl⟩
abbrev main_cst_41 : Ref sig .tc := ⟨.hbm, 483, rfl⟩
abbrev main_v413 : Ref sig .tc := ⟨.hbm, 484, rfl⟩
abbrev main_v414 : Ref sig .tc := ⟨.hbm, 485, rfl⟩
abbrev main_v415 : Ref sig .tc := ⟨.hbm, 486, rfl⟩
abbrev main_v416 : Ref sig .tc := ⟨.hbm, 487, rfl⟩
abbrev main_v417 : Ref sig .tc := ⟨.hbm, 488, rfl⟩
abbrev main_v418 : Ref sig .tc := ⟨.hbm, 489, rfl⟩
abbrev main_v419 : Ref sig .tc := ⟨.hbm, 490, rfl⟩
abbrev main_v420 : Ref sig .tc := ⟨.hbm, 491, rfl⟩
abbrev main_v421 : Ref sig .tc := ⟨.hbm, 492, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  slices_S8x128x128_S1x128x128_0_0_0 : S8x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S8x128_S1x128_0_0 : S8x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S2048x128_S50000x1_S50000x128_1_0_0_1_wf : ScatterDims.WF S2048x128 S50000x1 S50000x128 [1] [0] [0] 1
  scatter_S2048_S50000x1_S50000_n_0_0_1_wf : ScatterDims.WF S2048 S50000x1 S50000 [] [0] [0] 1
  dot_S2048x128_S128x5_S2048x5_1_0_0_1_n_n_wf : DotDims.WF S2048x128 S128x5 S2048x5 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S2048x128_S50000x1_S50000x128_1_0_0_1 : ScatterDims S2048x128 S50000x1 S50000x128 where
  updateWindowDims := [1]
  insertedWindowDims := [0]
  scatterDimsToOperandDims := [0]
  indexVectorDim := 1
  wf := scatter_S2048x128_S50000x1_S50000x128_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x128_S128x5_S2048x5_1_0_0_1_n_n : DotDims S2048x128 S128x5 S2048x5 where
  lhsContracting := [1]
  rhsContracting := [0]
  lhsNonContracting := [0]
  rhsNonContracting := [1]
  lhsBatch := []
  rhsBatch := []
  wf := dot_S2048x128_S128x5_S2048x5_1_0_0_1_n_n_wf

class Facts : Prop extends Facts₀ where

variable [Facts]
-- ==== Proof.KRun.lean ====
/-
  The idealized kernel program's run with its result named: every weakly fair execution terminates without a fault,
  the argument arrays end as launched, and the result array ends at the contents the last boundary of the program's
  fold of buffer contents gives it (the last region's written-back output). The frame certificate states the same
  run with the result forgotten; here the final state is read once more, at the result's buffer.
-/
import proofs.«127734_j69286412419642_2_alg».proof.Proof.Gen.KernelIdeal.Frame

set_option maxRecDepth 16384

noncomputable section

namespace Cert.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and every argument array as launched. -/
theorem run_result : θ_run defs (onTc (τ := τ) (main (F := F))) ⟨m, fun _ => 0, ρ⟩ (fun r => ∀ c : Dev nD,
      r.2.mem ((c.tc : Thread nD τ).loc main_v266) = W34 m ρ c (Proc.devRef .tc main_v266)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v266 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c),
       (h c _ (mem_uc main_arg9 (by decide))).trans (W34_main_arg9 m ρ c),
       (h c _ (mem_uc main_arg10 (by decide))).trans (W34_main_arg10 m ρ c)⟩)

end Cert.KVal

end
-- ==== Proof.KKeep.lean ====
/-
  Buffers that live across the program: the argument arrays, the two columns of the edge list and the per-node
  factor are written once, before the first region, and no later host operation or region writes them. So at every
  later boundary of the program's fold of buffer contents each still holds what it held after the first stretch of
  host operations — an argument array what it was launched with.
-/
import proofs.«127734_j69286412419642_2_alg».proof.Proof.Gen.KernelIdeal.Frame

set_option maxRecDepth 16384

noncomputable section

namespace Cert.KVal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The long-lived buffers. -/
abbrev kept : List (Ref sig .tc) := [main_arg2, main_arg3, main_arg4, main_arg5, main_arg6, main_arg7, main_arg8, main_arg9, main_arg10, main_v1, main_v3, main_v12]

/-- Region 0 writes none of them (the per-node factor is one of its input windows, which a region leaves as found). -/
theorem keep1 (c : Dev nD) (b : Ref sig .tc) (hb : b ∈ kept) :
    W2 m ρ c (Proc.devRef .tc b) = W1 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W2_arr m ρ c 2).trans (((dat0 (V1 m ρ) c).arrAt_in 2 rfl _).trans (A_eq0 (V1 m ρ) c 2))
  all_goals exact W2_of_ne m ρ c _ (by decide)
/-- Host stretch 1 writes none of them. -/
theorem keep2 (c : Dev nD) (b : Ref sig .tc) (hb : b ∈ kept) :
    W3 m ρ c (Proc.devRef .tc b) = W2 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 1 writes none of them (the per-node factor is one of its input windows, which a region leaves as found). -/
theorem keep3 (c : Dev nD) (b : Ref sig .tc) (hb : b ∈ kept) :
    W4 m ρ c (Proc.devRef .tc b) = W3 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W4_arr m ρ c 2).trans (((dat1 (V3 m ρ) c).arrAt_in 2 rfl _).trans (A_eq1 (V3 m ρ) c 2))
  all_goals exact W4_of_ne m ρ c _ (by decide)
/-- Host stretch 2 writes none of them. -/
theorem keep4 (c : Dev nD) (b : Ref sig .tc) (hb : b ∈ kept) :
    W5 m ρ c (Proc.devRef .tc b) = W4 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 2 writes none of them (the per-node factor is one of its input windows, which a region leaves as found). -/
theorem keep5 (c : Dev nD) (b : Ref sig .tc) (hb : b ∈ kept) :
    W6 m ρ c (Proc.devRef .tc b) = W5 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W6_arr m ρ c 2).trans (((dat2 (V5 m ρ) c).arrAt_in 2 rfl _).trans (A_eq2 (V5 m ρ) c 2))
  all_goals exact W6_of_ne m ρ c _ (by decide)
/-- Host stretch 3 writes none of them. -/
theorem keep6 (c : Dev nD) (b : Ref sig .tc) (hb : b ∈ kept) :
    W7 m ρ c (Proc.devRef .tc b) = W6 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 3 writes none of them (the per-node factor is one of its input windows, which a region leaves as found). -/
theorem keep7 (c : Dev nD) (b : Ref sig .tc) (hb : b ∈ kept) :
    W8 m ρ c (Proc.devRef .tc b) = W7 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W8_arr m ρ c 2).trans (((dat3 (V7 m ρ) c).arrAt_in 2 rfl _).trans (A_eq3 (V7 m ρ) c 2))
  all_goals exact W8_of_ne m ρ c _ (by decide)
/-- Host stretch 4 writes none of them. -/
theorem keep8 (c : Dev nD) (b : Ref sig .tc) (hb : b ∈ kept) :
    W9 m ρ c (Proc.devRef .tc b) = W8 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 4 writes none of them (the per-node factor is one of its input windows, which a region leaves as found). -/
theorem keep9 (c : Dev nD) (b : Ref sig .tc) (hb : b ∈ kept) :
    W10 m ρ c (Proc.devRef .tc b) = W9 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W10_arr m ρ c 2).trans (((dat4 (V9 m ρ) c).arrAt_in 2 rfl _).trans (A_eq4 (V9 m ρ) c 2))
  all_goals exact W10_of_ne m ρ c _ (by decide)
/-- Host stretch 5 writes none of them. -/
theorem keep10 (c : Dev nD) (b : Ref sig .tc) (hb : b ∈ kept) :
    W11 m ρ c (Proc.devRef .tc b) = W10 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 5 writes none of them (the per-node factor is one of its input windows, which a region leaves as found). -/
theorem keep11 (c : Dev nD) (b : Ref sig .tc) (hb : b ∈ kept) :
    W12 m ρ c (Proc.devRef .tc b) = W11 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W12_arr m ρ c 2).trans (((dat5 (V11 m ρ) c).arrAt_in 2 rfl _).trans (A_eq5 (V11 m ρ) c 2))
  all_goals exact W12_of_ne m ρ c _ (by decide)
/-- Host stretch 6 writes none of them. -/
theorem keep12 (c : Dev nD) (b : Ref sig .tc) (hb : b ∈ kept) :
    W13 m ρ c (Proc.devRef .tc b) = W12 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 6 writes none of them (the per-node factor is one of its input windows, which a region leaves as found). -/
theorem keep13 (c : Dev nD) (b : Ref sig .tc) (hb : b ∈ kept) :
    W14 m ρ c (Proc.devRef .tc b) = W13 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W14_arr m ρ c 2).trans (((dat6 (V13 m ρ) c).arrAt_in 2 rfl _).trans (A_eq6 (V13 m ρ) c 2))
  all_goals exact W14_of_ne m ρ c _ (by decide)
/-- Host stretch 7 writes none of them. -/
theorem keep14 (c : Dev nD) (b : Ref sig .tc) (hb : b ∈ kept) :
    W15 m ρ c (Proc.devRef .tc b) = W14 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 7 writes none of them (the per-node factor is one of its input windows, which a region leaves as found). -/
theorem keep15 (c : Dev nD) (b : Ref sig .tc) (hb : b ∈ kept) :
    W16 m ρ c (Proc.devRef .tc b) = W15 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W16_arr m ρ c 2).trans (((dat7 (V15 m ρ) c).arrAt_in 2 rfl _).trans (A_eq7 (V15 m ρ) c 2))
  all_goals exact W16_of_ne m ρ c _ (by decide)
/-- Host stretch 8 writes none of them. -/
theorem keep16 (c : Dev nD) (b : Ref sig .tc) (hb : b ∈ kept) :
    W17 m ρ c (Proc.devRef .tc b) = W16 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 8 writes none of them (the per-node factor is one of its input windows, which a region leaves as found). -/
theorem keep17 (c : Dev nD) (b : Ref sig .tc) (hb : b ∈ kept) :
    W18 m ρ c (Proc.devRef .tc b) = W17 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W18_arr m ρ c 2).trans (((dat8 (V17 m ρ) c).arrAt_in 2 rfl _).trans (A_eq8 (V17 m ρ) c 2))
  all_goals exact W18_of_ne m ρ c _ (by decide)
/-- Host stretch 9 writes none of them. -/
theorem keep18 (c : Dev nD) (b : Ref sig .tc) (hb : b ∈ kept) :
    W19 m ρ c (Proc.devRef .tc b) = W18 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 9 writes none of them (the per-node factor is one of its input windows, which a region leaves as found). -/
theorem keep19 (c : Dev nD) (b : Ref sig .tc) (hb : b ∈ kept) :
    W20 m ρ c (Proc.devRef .tc b) = W19 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W20_arr m ρ c 2).trans (((dat9 (V19 m ρ) c).arrAt_in 2 rfl _).trans (A_eq9 (V19 m ρ) c 2))
  all_goals exact W20_of_ne m ρ c _ (by decide)
/-- Host stretch 10 writes none of them. -/
theorem keep20 (c : Dev nD) (b : Ref sig .tc) (hb : b ∈ kept) :
    W21 m ρ c (Proc.devRef .tc b) = W20 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 10 writes none of them (the per-node factor is one of its input windows, which a region leaves as found). -/
theorem keep21 (c : Dev nD) (b : Ref sig .tc) (hb : b ∈ kept) :
    W22 m ρ c (Proc.devRef .tc b) = W21 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W22_arr m ρ c 2).trans (((dat10 (V21 m ρ) c).arrAt_in 2 rfl _).trans (A_eq10 (V21 m ρ) c 2))
  all_goals exact W22_of_ne m ρ c _ (by decide)
/-- Host stretch 11 writes none of them. -/
theorem keep22 (c : Dev nD) (b : Ref sig .tc) (hb : b ∈ kept) :
    W23 m ρ c (Proc.devRef .tc b) = W22 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 11 writes none of them (the per-node factor is one of its input windows, which a region leaves as found). -/
theorem keep23 (c : Dev nD) (b : Ref sig .tc) (hb : b ∈ kept) :
    W24 m ρ c (Proc.devRef .tc b) = W23 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W24_arr m ρ c 2).trans (((dat11 (V23 m ρ) c).arrAt_in 2 rfl _).trans (A_eq11 (V23 m ρ) c 2))
  all_goals exact W24_of_ne m ρ c _ (by decide)
/-- Host stretch 12 writes none of them. -/
theorem keep24 (c : Dev nD) (b : Ref sig .tc) (hb : b ∈ kept) :
    W25 m ρ c (Proc.devRef .tc b) = W24 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 12 writes none of them (the per-node factor is one of its input windows, which a region leaves as found). -/
theorem keep25 (c : Dev nD) (b : Ref sig .tc) (hb : b ∈ kept) :
    W26 m ρ c (Proc.devRef .tc b) = W25 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W26_arr m ρ c 2).trans (((dat12 (V25 m ρ) c).arrAt_in 2 rfl _).trans (A_eq12 (V25 m ρ) c 2))
  all_goals exact W26_of_ne m ρ c _ (by decide)
/-- Host stretch 13 writes none of them. -/
theorem keep26 (c : Dev nD) (b : Ref sig .tc) (hb : b ∈ kept) :
    W27 m ρ c (Proc.devRef .tc b) = W26 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 13 writes none of them (the per-node factor is one of its input windows, which a region leaves as found). -/
theorem keep27 (c : Dev nD) (b : Ref sig .tc) (hb : b ∈ kept) :
    W28 m ρ c (Proc.devRef .tc b) = W27 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W28_arr m ρ c 2).trans (((dat13 (V27 m ρ) c).arrAt_in 2 rfl _).trans (A_eq13 (V27 m ρ) c 2))
  all_goals exact W28_of_ne m ρ c _ (by decide)
/-- Host stretch 14 writes none of them. -/
theorem keep28 (c : Dev nD) (b : Ref sig .tc) (hb : b ∈ kept) :
    W29 m ρ c (Proc.devRef .tc b) = W28 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 14 writes none of them (the per-node factor is one of its input windows, which a region leaves as found). -/
theorem keep29 (c : Dev nD) (b : Ref sig .tc) (hb : b ∈ kept) :
    W30 m ρ c (Proc.devRef .tc b) = W29 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W30_arr m ρ c 2).trans (((dat14 (V29 m ρ) c).arrAt_in 2 rfl _).trans (A_eq14 (V29 m ρ) c 2))
  all_goals exact W30_of_ne m ρ c _ (by decide)
/-- Host stretch 15 writes none of them. -/
theorem keep30 (c : Dev nD) (b : Ref sig .tc) (hb : b ∈ kept) :
    W31 m ρ c (Proc.devRef .tc b) = W30 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Region 15 writes none of them (the per-node factor is one of its input windows, which a region leaves as found). -/
theorem keep31 (c : Dev nD) (b : Ref sig .tc) (hb : b ∈ kept) :
    W32 m ρ c (Proc.devRef .tc b) = W31 m ρ c (Proc.devRef .tc b) := by
  simp only [kept, List.mem_cons, List.not_mem_nil, or_false] at hb
  rcases hb with rfl | rfl | rfl | rfl | rfl | rfl | rfl | rfl | rfl | rfl | rfl | rfl
  case inr.inr.inr.inr.inr.inr.inr.inr.inr.inr.inr =>
    exact (W32_arr m ρ c 2).trans (((dat15 (V31 m ρ) c).arrAt_in 2 rfl _).trans (A_eq15 (V31 m ρ) c 2))
  all_goals exact W32_of_ne m ρ c _ (by decide)
/-- Host stretch 16 writes none of them. -/
theorem keep32 (c : Dev nD) (b : Ref sig .tc) (hb : b ∈ kept) :
    W33 m ρ c (Proc.devRef .tc b) = W32 m ρ c (Proc.devRef .tc b) := by
  simp only [kept, List.mem_cons, List.not_mem_nil, or_false] at hb
  rcases hb with rfl | rfl | rfl | rfl | rfl | rfl | rfl | rfl | rfl | rfl | rfl | rfl
  all_goals exact StableHlo.after_of_forall_not_mem _ _ (List.forall_iff_forall_mem.mp (by
    simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- So at every boundary from the first on, each still holds what the first stretch of host operations left. -/
theorem to1_1 (c : Dev nD) (b : Ref sig .tc) (hb : b ∈ kept) : W1 m ρ c (Proc.devRef .tc b) = W1 m ρ c (Proc.devRef .tc b) := rfl
theorem to1_2 (c : Dev nD) (b : Ref sig .tc) (hb : b ∈ kept) : W2 m ρ c (Proc.devRef .tc b) = W1 m ρ c (Proc.devRef .tc b) :=
  (keep1 m ρ c b hb).trans (to1_1 m ρ c b hb)
theorem to1_3 (c : Dev nD) (b : Ref sig .tc) (hb : b ∈ kept) : W3 m ρ c (Proc.devRef .tc b) = W1 m ρ c (Proc.devRef .tc b) :=
  (keep2 m ρ c b hb).trans (to1_2 m ρ c b hb)
theorem to1_4 (c : Dev nD) (b : Ref sig .tc) (hb : b ∈ kept) : W4 m ρ c (Proc.devRef .tc b) = W1 m ρ c (Proc.devRef .tc b) :=
  (keep3 m ρ c b hb).trans (to1_3 m ρ c b hb)
theorem to1_5 (c : Dev nD) (b : Ref sig .tc) (hb : b ∈ kept) : W5 m ρ c (Proc.devRef .tc b) = W1 m ρ c (Proc.devRef .tc b) :=
  (keep4 m ρ c b hb).trans (to1_4 m ρ c b hb)
theorem to1_6 (c : Dev nD) (b : Ref sig .tc) (hb : b ∈ kept) : W6 m ρ c (Proc.devRef .tc b) = W1 m ρ c (Proc.devRef .tc b) :=
  (keep5 m ρ c b hb).trans (to1_5 m ρ c b hb)
theorem to1_7 (c : Dev nD) (b : Ref sig .tc) (hb : b ∈ kept) : W7 m ρ c (Proc.devRef .tc b) = W1 m ρ c (Proc.devRef .tc b) :=
  (keep6 m ρ c b hb).trans (to1_6 m ρ c b hb)
theorem to1_8 (c : Dev nD) (b : Ref sig .tc) (hb : b ∈ kept) : W8 m ρ c (Proc.devRef .tc b) = W1 m ρ c (Proc.devRef .tc b) :=
  (keep7 m ρ c b hb).trans (to1_7 m ρ c b hb)
theorem to1_9 (c : Dev nD) (b : Ref sig .tc) (hb : b ∈ kept) : W9 m ρ c (Proc.devRef .tc b) = W1 m ρ c (Proc.devRef .tc b) :=
  (keep8 m ρ c b hb).trans (to1_8 m ρ c b hb)
theorem to1_10 (c : Dev nD) (b : Ref sig .tc) (hb : b ∈ kept) : W10 m ρ c (Proc.devRef .tc b) = W1 m ρ c (Proc.devRef .tc b) :=
  (keep9 m ρ c b hb).trans (to1_9 m ρ c b hb)
theorem to1_11 (c : Dev nD) (b : Ref sig .tc) (hb : b ∈ kept) : W11 m ρ c (Proc.devRef .tc b) = W1 m ρ c (Proc.devRef .tc b) :=
  (keep10 m ρ c b hb).trans (to1_10 m ρ c b hb)
theorem to1_12 (c : Dev nD) (b : Ref sig .tc) (hb : b ∈ kept) : W12 m ρ c (Proc.devRef .tc b) = W1 m ρ c (Proc.devRef .tc b) :=
  (keep11 m ρ c b hb).trans (to1_11 m ρ c b hb)
theorem to1_13 (c : Dev nD) (b : Ref sig .tc) (hb : b ∈ kept) : W13 m ρ c (Proc.devRef .tc b) = W1 m ρ c (Proc.devRef .tc b) :=
  (keep12 m ρ c b hb).trans (to1_12 m ρ c b hb)
theorem to1_14 (c : Dev nD) (b : Ref sig .tc) (hb : b ∈ kept) : W14 m ρ c (Proc.devRef .tc b) = W1 m ρ c (Proc.devRef .tc b) :=
  (keep13 m ρ c b hb).trans (to1_13 m ρ c b hb)
theorem to1_15 (c : Dev nD) (b : Ref sig .tc) (hb : b ∈ kept) : W15 m ρ c (Proc.devRef .tc b) = W1 m ρ c (Proc.devRef .tc b) :=
  (keep14 m ρ c b hb).trans (to1_14 m ρ c b hb)
theorem to1_16 (c : Dev nD) (b : Ref sig .tc) (hb : b ∈ kept) : W16 m ρ c (Proc.devRef .tc b) = W1 m ρ c (Proc.devRef .tc b) :=
  (keep15 m ρ c b hb).trans (to1_15 m ρ c b hb)
theorem to1_17 (c : Dev nD) (b : Ref sig .tc) (hb : b ∈ kept) : W17 m ρ c (Proc.devRef .tc b) = W1 m ρ c (Proc.devRef .tc b) :=
  (keep16 m ρ c b hb).trans (to1_16 m ρ c b hb)
theorem to1_18 (c : Dev nD) (b : Ref sig .tc) (hb : b ∈ kept) : W18 m ρ c (Proc.devRef .tc b) = W1 m ρ c (Proc.devRef .tc b) :=
  (keep17 m ρ c b hb).trans (to1_17 m ρ c b hb)
theorem to1_19 (c : Dev nD) (b : Ref sig .tc) (hb : b ∈ kept) : W19 m ρ c (Proc.devRef .tc b) = W1 m ρ c (Proc.devRef .tc b) :=
  (keep18 m ρ c b hb).trans (to1_18 m ρ c b hb)
theorem to1_20 (c : Dev nD) (b : Ref sig .tc) (hb : b ∈ kept) : W20 m ρ c (Proc.devRef .tc b) = W1 m ρ c (Proc.devRef .tc b) :=
  (keep19 m ρ c b hb).trans (to1_19 m ρ c b hb)
theorem to1_21 (c : Dev nD) (b : Ref sig .tc) (hb : b ∈ kept) : W21 m ρ c (Proc.devRef .tc b) = W1 m ρ c (Proc.devRef .tc b) :=
  (keep20 m ρ c b hb).trans (to1_20 m ρ c b hb)
theorem to1_22 (c : Dev nD) (b : Ref sig .tc) (hb : b ∈ kept) : W22 m ρ c (Proc.devRef .tc b) = W1 m ρ c (Proc.devRef .tc b) :=
  (keep21 m ρ c b hb).trans (to1_21 m ρ c b hb)
theorem to1_23 (c : Dev nD) (b : Ref sig .tc) (hb : b ∈ kept) : W23 m ρ c (Proc.devRef .tc b) = W1 m ρ c (Proc.devRef .tc b) :=
  (keep22 m ρ c b hb).trans (to1_22 m ρ c b hb)
theorem to1_24 (c : Dev nD) (b : Ref sig .tc) (hb : b ∈ kept) : W24 m ρ c (Proc.devRef .tc b) = W1 m ρ c (Proc.devRef .tc b) :=
  (keep23 m ρ c b hb).trans (to1_23 m ρ c b hb)
theorem to1_25 (c : Dev nD) (b : Ref sig .tc) (hb : b ∈ kept) : W25 m ρ c (Proc.devRef .tc b) = W1 m ρ c (Proc.devRef .tc b) :=
  (keep24 m ρ c b hb).trans (to1_24 m ρ c b hb)
theorem to1_26 (c : Dev nD) (b : Ref sig .tc) (hb : b ∈ kept) : W26 m ρ c (Proc.devRef .tc b) = W1 m ρ c (Proc.devRef .tc b) :=
  (keep25 m ρ c b hb).trans (to1_25 m ρ c b hb)
theorem to1_27 (c : Dev nD) (b : Ref sig .tc) (hb : b ∈ kept) : W27 m ρ c (Proc.devRef .tc b) = W1 m ρ c (Proc.devRef .tc b) :=
  (keep26 m ρ c b hb).trans (to1_26 m ρ c b hb)
theorem to1_28 (c : Dev nD) (b : Ref sig .tc) (hb : b ∈ kept) : W28 m ρ c (Proc.devRef .tc b) = W1 m ρ c (Proc.devRef .tc b) :=
  (keep27 m ρ c b hb).trans (to1_27 m ρ c b hb)
theorem to1_29 (c : Dev nD) (b : Ref sig .tc) (hb : b ∈ kept) : W29 m ρ c (Proc.devRef .tc b) = W1 m ρ c (Proc.devRef .tc b) :=
  (keep28 m ρ c b hb).trans (to1_28 m ρ c b hb)
theorem to1_30 (c : Dev nD) (b : Ref sig .tc) (hb : b ∈ kept) : W30 m ρ c (Proc.devRef .tc b) = W1 m ρ c (Proc.devRef .tc b) :=
  (keep29 m ρ c b hb).trans (to1_29 m ρ c b hb)
theorem to1_31 (c : Dev nD) (b : Ref sig .tc) (hb : b ∈ kept) : W31 m ρ c (Proc.devRef .tc b) = W1 m ρ c (Proc.devRef .tc b) :=
  (keep30 m ρ c b hb).trans (to1_30 m ρ c b hb)
theorem to1_32 (c : Dev nD) (b : Ref sig .tc) (hb : b ∈ kept) : W32 m ρ c (Proc.devRef .tc b) = W1 m ρ c (Proc.devRef .tc b) :=
  (keep31 m ρ c b hb).trans (to1_31 m ρ c b hb)
theorem to1_33 (c : Dev nD) (b : Ref sig .tc) (hb : b ∈ kept) : W33 m ρ c (Proc.devRef .tc b) = W1 m ρ c (Proc.devRef .tc b) :=
  (keep32 m ρ c b hb).trans (to1_32 m ρ c b hb)

end Cert.KVal

end
-- ==== Proof.Spec.lean ====
/-
  The mathematics both programs compute, index by index over the extended reals: eight rounds of a normalised
  neighbourhood sum over a graph, each followed by a per-feature affine normalisation and a clamp, then a mean over
  node groups and a final affine map.

  One round, from node features `h : [N, D]`, a weight matrix `W : [D, D]` and a per-node factor `dis`: `t = h · W`;
  node `v` collects the rows `t[u]` over the edges `u → v` and its own row, each summand scaled by the factors of its
  two ends; then bias, centring, an inverse root, gain, shift, and a maximum with a constant.

  The two programs differ in where the factor of the receiving node is applied: inside the sum, once per edge
  (`roundRef`), or once, to the whole sum, whose summands carry only the sender's factor (`roundKer`).
-/
import Idealize.ShloMosaic.Lib.ValueIdx
import Idealize.ShloMosaic.PureOps.Ideal
import Mathlib.Data.EReal.Operations

noncomputable section

open scoped BigOperators

namespace Cert.Spec

open Idealize.ShloMosaic Idealize.ShloMosaic.ValueIdx

/-- A product of a matrix `[M, K]` and a matrix `[K, N]`, element by element. -/
def mm {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- The per-node linear map with the sender's factor folded in: `t'[u, j] = (h · W)[u, j] · dis[u]`. -/
def linScaled {N D : Nat} (h : (⟨2, ![N, D]⟩ : Shape).Idx → EReal) (W : (⟨2, ![D, D]⟩ : Shape).Idx → EReal)
    (dis : (⟨2, ![N, 1]⟩ : Shape).Idx → EReal) : (⟨2, ![N, D]⟩ : Shape).Idx → EReal :=
  fun i => mm h W i * dis (ix2 (i 0) 0)

/-- The normalisation after the collection: centring, inverse root of the shifted variance, gain, shift, and the
    maximum with `zr`. -/
def norm {N D : Nat} (val : (⟨2, ![N, D]⟩ : Shape).Idx → EReal)
    (rm rv g bt : (⟨2, ![1, D]⟩ : Shape).Idx → EReal) (eps zr : EReal) : (⟨2, ![N, D]⟩ : Shape).Idx → EReal :=
  fun i => max ((((val i - rm (ix2 0 (i 1))) * Ideal.rsqrt (rv (ix2 0 (i 1)) + eps)) * g (ix2 0 (i 1)))
    + bt (ix2 0 (i 1))) zr

/-- The receiving node's factor applied once, to the collected sum of pre-scaled rows plus the node's own pre-scaled
    row, then the bias: `dis[v] · (agg'[v, j] + t'[v, j]) + b[j]`. -/
def sumOutside {N D : Nat} (agg t' : (⟨2, ![N, D]⟩ : Shape).Idx → EReal)
    (dis : (⟨2, ![N, 1]⟩ : Shape).Idx → EReal) (b : (⟨2, ![1, D]⟩ : Shape).Idx → EReal) :
    (⟨2, ![N, D]⟩ : Shape).Idx → EReal :=
  fun i => dis (ix2 (i 0) 0) * (agg i + t' i) + b (ix2 0 (i 1))

/-- The final affine map: `(p · W)[g, o] + b[o]`. -/
def head {G D O : Nat} (p : (⟨2, ![G, D]⟩ : Shape).Idx → EReal) (W : (⟨2, ![D, O]⟩ : Shape).Idx → EReal)
    (b : (⟨2, ![1, O]⟩ : Shape).Idx → EReal) : (⟨2, ![G, O]⟩ : Shape).Idx → EReal :=
  fun i => mm p W i + b (ix2 0 (i 1))

/-- The row a column of 32-bit indices names for a READ of an `N`-row array at position `e`: the word read signed and
    clamped into `[0, N − 1]`. -/
def row {N E : Nat} (hN : 0 < N) (idx : IVec ⟨2, ![E, 1]⟩ 32) (e : Fin E) : Fin N :=
  ⟨min (idx (ix2 e (0 : Fin 1))).toInt.toNat (N - 1), by omega⟩

/-- The positions of a column of 32-bit indices whose word, read signed and NOT clamped, is `v`: the updates an
    accumulating write lands on row `v`. -/
def lands {E : Nat} (dcol : IVec ⟨2, ![E, 1]⟩ 32) (v : Nat) : Finset (Fin E) :=
  Finset.univ.filter (fun e : Fin E => (dcol (ix2 e (0 : Fin 1))).toInt = (v : Int))

/-- Rows read at `nsrc` and accumulated at `dcol` onto the constant `z`: element `(v, j)` is `z` plus the sum over
    the positions landing on `v` of `u[row nsrc e, j]`. -/
def collect {N E D : Nat} (hN : 0 < N) (z : EReal) (nsrc dcol : IVec ⟨2, ![E, 1]⟩ 32)
    (u : (⟨2, ![N, D]⟩ : Shape).Idx → EReal) : (⟨2, ![N, D]⟩ : Shape).Idx → EReal :=
  fun i => z + ∑ e ∈ lands dcol (i 0).val, u (ix2 (row hN nsrc e) (i 1))

/-- The same with every read row scaled by a per-position factor `en[e]` before it is accumulated. -/
def collectScaled {N E D : Nat} (hN : 0 < N) (z : EReal) (nsrc dcol : IVec ⟨2, ![E, 1]⟩ 32)
    (t : (⟨2, ![N, D]⟩ : Shape).Idx → EReal) (en : (⟨2, ![E, 1]⟩ : Shape).Idx → EReal) :
    (⟨2, ![N, D]⟩ : Shape).Idx → EReal :=
  fun i => z + ∑ e ∈ lands dcol (i 0).val, t (ix2 (row hN nsrc e) (i 1)) * en (ix2 e 0)

/-- One round with the receiving node's factor inside the sum: `en[e]` is the product of the two ends' factors,
    `sn[v]` the square of the node's own. -/
def roundRef {N E D : Nat} (hN : 0 < N) (z eps zr : EReal) (nsrc dcol : IVec ⟨2, ![E, 1]⟩ 32)
    (h : (⟨2, ![N, D]⟩ : Shape).Idx → EReal) (W : (⟨2, ![D, D]⟩ : Shape).Idx → EReal)
    (en : (⟨2, ![E, 1]⟩ : Shape).Idx → EReal) (sn : (⟨2, ![N, 1]⟩ : Shape).Idx → EReal)
    (b rm rv g bt : (⟨2, ![1, D]⟩ : Shape).Idx → EReal) : (⟨2, ![N, D]⟩ : Shape).Idx → EReal :=
  norm (fun i => (collectScaled hN z nsrc dcol (mm h W) en i + mm h W i * sn (ix2 (i 0) 0)) + b (ix2 0 (i 1)))
    rm rv g bt eps zr

/-- One round with the receiving node's factor applied once to the whole sum. -/
def roundKer {N E D : Nat} (hN : 0 < N) (z eps zr : EReal) (nsrc dcol : IVec ⟨2, ![E, 1]⟩ 32)
    (h : (⟨2, ![N, D]⟩ : Shape).Idx → EReal) (W : (⟨2, ![D, D]⟩ : Shape).Idx → EReal)
    (dis : (⟨2, ![N, 1]⟩ : Shape).Idx → EReal)
    (b rm rv g bt : (⟨2, ![1, D]⟩ : Shape).Idx → EReal) : (⟨2, ![N, D]⟩ : Shape).Idx → EReal :=
  norm (sumOutside (collect hN z nsrc dcol (linScaled h W dis)) (linScaled h W dis) dis b) rm rv g bt eps zr

/-- Layer `k` of a stack of `L` square matrices `[L, D, D]`. -/
def sliceW {L D : Nat} (x : (⟨3, ![L, D, D]⟩ : Shape).Idx → EReal) (k : Fin L) : (⟨2, ![D, D]⟩ : Shape).Idx → EReal :=
  fun i => x (ix3 k (i 0) (i 1))

/-- Row `k` of a stack of `L` vectors `[L, D]`, as a `[1, D]` array. -/
def sliceRow {L D : Nat} (x : (⟨2, ![L, D]⟩ : Shape).Idx → EReal) (k : Fin L) : (⟨2, ![1, D]⟩ : Shape).Idx → EReal :=
  fun i => x (ix2 k (i 1))

end Cert.Spec

end
-- ==== Proof.KBase.lean ====
/-
  What the first stretch of host operations leaves: the argument arrays untouched, the two columns of the edge
  list cut out of it, and the per-node factor — the count of edges ending at the node, plus one, to the power −1/2 —
  as a one-column matrix. These are the contents every later stage reads.
-/
import proofs.«127734_j69286412419642_2_alg».proof.Proof.KKeep
import proofs.«127734_j69286412419642_2_alg».proof.Proof.Spec
import Idealize.ShloMosaic.Lib.StableHlo.Run

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- A column of words with every negative word moved up by the row count, as a one-column matrix: the rows a read
    names. -/
def wrapCol (col : (⟨S640000, .i32⟩ : BufTy).Contents (Elt Ideal)) : (⟨S640000x1, .i32⟩ : BufTy).Contents (Elt Ideal) :=
  broadcastInDim S640000x1 ![0] bcast_S640000_S640000x1_0
    (select (cmpi .slt col (broadcastInDim S640000 ![] bcast_S_S640000 (constantI S_ 32 0#32)))
      (addi col (broadcastInDim S640000 ![] bcast_S_S640000 (constantI S_ 32 50000#32))) col)

/-- A column of words as a one-column matrix: the rows an accumulating write names. -/
def rawCol (col : (⟨S640000, .i32⟩ : BufTy).Contents (Elt Ideal)) : (⟨S640000x1, .i32⟩ : BufTy).Contents (Elt Ideal) :=
  broadcastInDim S640000x1 ![0] bcast_S640000_S640000x1_0 col

/-- The start column and the end column of the edge list. -/
def srcCol (x1 : (⟨S2x640000, .i32⟩ : BufTy).Contents (Elt Ideal)) : (⟨S640000, .i32⟩ : BufTy).Contents (Elt Ideal) :=
  shapeCast S640000 (extractStridedSlice S1x640000 ![0, 0] x1 slices_S2x640000_S1x640000_0_0) shapeCasts_S1x640000_S640000
def dstCol (x1 : (⟨S2x640000, .i32⟩ : BufTy).Contents (Elt Ideal)) : (⟨S640000, .i32⟩ : BufTy).Contents (Elt Ideal) :=
  shapeCast S640000 (extractStridedSlice S1x640000 ![1, 0] x1 slices_S2x640000_S1x640000_1_0) shapeCasts_S1x640000_S640000

/-- The per-node factor: one plus the count of edges ending at the node, to the power −1/2. -/
def disVec (x1 : (⟨S2x640000, .i32⟩ : BufTy).Contents (Elt Ideal)) : (⟨S50000, .f32⟩ : BufTy).Contents (Elt Ideal) :=
  Host.powf (F := Ideal)
    (addf (F := Ideal)
      (Host.scatterAdd (F := Ideal) scatter_S50000_S640000x1_S640000_n_0_0_1
        (broadcastInDim S50000 ![] bcast_S_S50000 (constant (F := Ideal) S_ .f32 0x00000000#32))
        (rawCol (dstCol x1))
        (broadcastInDim S640000 ![] bcast_S_S640000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The factor as the one-column matrix the regions read. -/
def disCol (x1 : (⟨S2x640000, .i32⟩ : BufTy).Contents (Elt Ideal)) : (⟨S50000x1, .f32⟩ : BufTy).Contents (Elt Ideal) :=
  shapeCast S50000x1 (disVec x1) shapeCasts_S50000_S50000x1

theorem W1_v1 (c : Dev nD) : W1 m ρ c (Proc.devRef .tc main_v1) = srcCol (m ((c.tc : Thread nD τ).loc main_arg1)) := by
  show StableHlo.after hostOps0 (W0 m ρ c) (Proc.devRef .tc main_v1) = _
  after_results
  rfl

theorem W1_v3 (c : Dev nD) : W1 m ρ c (Proc.devRef .tc main_v3) = dstCol (m ((c.tc : Thread nD τ).loc main_arg1)) := by
  show StableHlo.after hostOps0 (W0 m ρ c) (Proc.devRef .tc main_v3) = _
  after_results
  rfl

theorem W1_v12 (c : Dev nD) : W1 m ρ c (Proc.devRef .tc main_v12) = disCol (m ((c.tc : Thread nD τ).loc main_arg1)) := by
  show StableHlo.after hostOps0 (W0 m ρ c) (Proc.devRef .tc main_v12) = _
  after_results
  rfl

theorem W1_v14 (c : Dev nD) : W1 m ρ c (Proc.devRef .tc main_v14) =
    shapeCast S128x128 (extractStridedSlice S1x128x128 ![0, 0, 0] (m ((c.tc : Thread nD τ).loc main_arg3)) slices_S8x128x128_S1x128x128_0_0_0) shapeCasts_S1x128x128_S128x128 := by
  show StableHlo.after hostOps0 (W0 m ρ c) (Proc.devRef .tc main_v14) = _
  after_results
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  after_results

theorem W1_arg2 (c : Dev nD) : W1 m ρ c (Proc.devRef .tc main_arg2) = m ((c.tc : Thread nD τ).loc main_arg2) := by
  show StableHlo.after hostOps0 (W0 m ρ c) (Proc.devRef .tc main_arg2) = _
  after_results

theorem W1_arg3 (c : Dev nD) : W1 m ρ c (Proc.devRef .tc main_arg3) = m ((c.tc : Thread nD τ).loc main_arg3) := by
  show StableHlo.after hostOps0 (W0 m ρ c) (Proc.devRef .tc main_arg3) = _
  after_results

theorem W1_arg4 (c : Dev nD) : W1 m ρ c (Proc.devRef .tc main_arg4) = m ((c.tc : Thread nD τ).loc main_arg4) := by
  show StableHlo.after hostOps0 (W0 m ρ c) (Proc.devRef .tc main_arg4) = _
  after_results

theorem W1_arg5 (c : Dev nD) : W1 m ρ c (Proc.devRef .tc main_arg5) = m ((c.tc : Thread nD τ).loc main_arg5) := by
  show StableHlo.after hostOps0 (W0 m ρ c) (Proc.devRef .tc main_arg5) = _
  after_results

theorem W1_arg6 (c : Dev nD) : W1 m ρ c (Proc.devRef .tc main_arg6) = m ((c.tc : Thread nD τ).loc main_arg6) := by
  show StableHlo.after hostOps0 (W0 m ρ c) (Proc.devRef .tc main_arg6) = _
  after_results

theorem W1_arg7 (c : Dev nD) : W1 m ρ c (Proc.devRef .tc main_arg7) = m ((c.tc : Thread nD τ).loc main_arg7) := by
  show StableHlo.after hostOps0 (W0 m ρ c) (Proc.devRef .tc main_arg7) = _
  after_results

theorem W1_arg8 (c : Dev nD) : W1 m ρ c (Proc.devRef .tc main_arg8) = m ((c.tc : Thread nD τ).loc main_arg8) := by
  show StableHlo.after hostOps0 (W0 m ρ c) (Proc.devRef .tc main_arg8) = _
  after_results

theorem W1_arg9 (c : Dev nD) : W1 m ρ c (Proc.devRef .tc main_arg9) = m ((c.tc : Thread nD τ).loc main_arg9) := by
  show StableHlo.after hostOps0 (W0 m ρ c) (Proc.devRef .tc main_arg9) = _
  after_results

theorem W1_arg10 (c : Dev nD) : W1 m ρ c (Proc.devRef .tc main_arg10) = m ((c.tc : Thread nD τ).loc main_arg10) := by
  show StableHlo.after hostOps0 (W0 m ρ c) (Proc.devRef .tc main_arg10) = _
  after_results

end Cert.KVal

end
-- ==== Proof.LibHostRead.lean ====
/-
  Three host (StableHLO) operations READ AT AN INDEX, for the dimension numbers an indexed row read, an indexed
  accumulation and a two-piece join of flat arrays lower to. Generic over the sizes; nothing here mentions a program.

  * `stablehlo.gather` of rows (`x[idx]` along axis 0, `idx : [E, 1]`), of a matrix and of a flat array: the operand
    at the start index read signed and clamped into `[0, N − 1]` (`gather_rows2_apply`, `gather_rows1_apply`);
  * the accumulating `stablehlo.scatter` of rows (`x.at[idx].add(u)`), at the ideal instance: each operand element
    plus the sum, over the updates whose raw signed index IS that row, of the update's element — an index outside
    `[0, N)` lands nowhere and contributes nothing (`scatterAdd_rows2_apply`, `scatterAdd_rows1_apply`);
  * `concatenate` of two flat arrays: the first below the first extent, the second past it (`concat1_apply`).
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Idealize.ShloMosaic.HostRead

open Idealize.ShloMosaic Idealize.ShloMosaic.ValueIdx

/-! ## `stablehlo.gather` of whole rows, read at an index

What `x[idx]` of a matrix `x : [N, D]` (or of a flat array `x : [N]`) at a column of row numbers `idx : [E, 1]`
lowers to: the start index is one scalar, mapped to operand axis 0, which is collapsed; the slice is one whole row.
Result element `(e, c)` is the operand at row `idx[e, 0]`, read as a signed integer and clamped into `[0, N − 1]`
(StableHLO clamps every gather start index so that the slice fits), column `c`. -/

section Gather
variable {α : Type}

/-- The row-gather dimension numbers for an operand `[N, D]`, start indices `[E, 1]` and result `[E, D]`: offset axis
    `1` of the result, operand axis `0` collapsed and indexed, slice `1 × D`. The conditions `wf` are decided on a
    program's literal shapes. -/
abbrev gdims2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER OF A MATRIX READ AT `y = (e, c)`: the operand at row `idx[e, 0]` — read signed and clamped into
    `[0, N − 1]` — and column `c`. -/
theorem gather_rows2_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (gdims2 N E D wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (gdims2 N E D wf).start y idx 0 + (gdims2 N E D wf).batchCoord y 0 + (gdims2 N E D wf).offCoord y 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdims2 N E D wf).startIndexMap from List.mem_singleton.mpr rfl)]
    have hsi : (gdims2 N E D wf).siIdx y ⟨List.idxOf (0 : Fin 2) (gdims2 N E D wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (gdims2 N E D wf).start y idx 1 + (gdims2 N E D wf).batchCoord y 1 + (gdims2 N E D wf).offCoord y 1 = (y 1).val
    rw [GatherDims.batchCoord_eq_zero _ _ _ List.not_mem_nil]
    have hs : (gdims2 N E D wf).start y idx 1 = 0 := by
      unfold GatherDims.start
      rw [dif_neg (show (1 : Fin 2) ∉ [(0 : Fin 2)] by decide)]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same at a result index given by its coordinates: row `e`, column `c` of the gather is the operand at the
    clamped row `idx[e, 0]`, column `c`. -/
theorem gather_rows2_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gdims2 N E D wf) x idx (ix2 e c)
      = x (ix2 ⟨min (idx (ix2 e (0 : Fin 1))).toInt.toNat (N - 1), by omega⟩ c) :=
  gather_rows2_apply hN wf x idx (ix2 e c)

/-- The row-gather dimension numbers for a flat operand `[N]`, start indices `[E, 1]` and result `[E]`: no offset
    axis, operand axis `0` collapsed and indexed, slice of one element. -/
abbrev gdims1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER OF A FLAT ARRAY READ AT `y = (e)`: the operand at `idx[e, 0]`, read signed and clamped into
    `[0, N − 1]`. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gdims1 N E wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (gdims1 N E wf).start y idx 0 + (gdims1 N E wf).batchCoord y 0 + (gdims1 N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gdims1 N E wf).startIndexMap from List.mem_singleton.mpr rfl)]
  have hsi : (gdims1 N E wf).siIdx y ⟨List.idxOf (0 : Fin 1) (gdims1 N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The same at a result index given by its coordinate: element `e` of the gather is the operand at the clamped
    `idx[e, 0]`. -/
theorem gather_rows1_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gdims1 N E wf) x idx (ix1 e)
      = x (ix1 ⟨min (idx (ix2 e (0 : Fin 1))).toInt.toNat (N - 1), by omega⟩) :=
  gather_rows1_apply hN wf x idx (ix1 e)

end Gather

/-! ## The accumulating `stablehlo.scatter` of rows, at the ideal instance, read at an index

What `x.at[idx].add(u)` of a matrix `x : [N, D]` (or a flat array `x : [N]`) at a column of row numbers `idx : [E, 1]`
lowers to: the scatter index is one scalar, mapped to operand axis 0, which is an inserted window axis; an update is one
whole row. Update `(e, c)` lands at row `idx[e, 0]` — read as a signed integer and NOT clamped —, column `c`, when that
row is in `[0, N)`, and nowhere otherwise. At the ideal instance the result element is the operand's plus the exact sum
of the updates landing on it. -/

section Scatter

/-- The row-scatter dimension numbers for an operand `[N, D]`, scatter indices `[E, 1]` and updates `[E, D]`: window
    axis `1` of the updates, operand axis `0` inserted and indexed. The conditions `wf` are decided on a program's
    literal shapes. -/
abbrev sdims2 (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Where update `(e, b)` lands: on operand element `(n, d)` exactly when its raw signed index `idx[e, 0]` is `n` and
    its column `b` is `d` (the start on axis 0 is the index, unclamped, and on axis 1 zero; the window coordinate is
    zero on axis 0 and `b` on axis 1; an index outside `[0, N)` lands nowhere). -/
theorem sdims2_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (b : Fin D) (n : Fin N) (d : Fin D) :
    (sdims2 N E D wf).resultIdx? (ix2 e b) idx = some (ix2 n d)
      ↔ (idx (ix2 e (0 : Fin 1))).toInt = (n.val : Int) ∧ b = d := by
  have hs0 : (sdims2 N E D wf).start (ix2 e b) idx 0 = (idx (ix2 e (0 : Fin 1))).toInt := by
    unfold ScatterDims.start
    rw [dif_pos (show (0 : Fin 2) ∈ (sdims2 N E D wf).scatterDimsToOperandDims from List.mem_singleton.mpr rfl)]
    have hsi : (sdims2 N E D wf).siIdx (ix2 e b) ⟨List.idxOf (0 : Fin 2) (sdims2 N E D wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hs1 : (sdims2 N E D wf).start (ix2 e b) idx 1 = 0 := by
    unfold ScatterDims.start
    rw [dif_neg (show (1 : Fin 2) ∉ [(0 : Fin 2)] by decide)]
  have hw0 : (sdims2 N E D wf).window (ix2 e b) 0 = 0 := by
    unfold ScatterDims.window
    rw [dif_neg (show (0 : Fin 2) ∉ (sdims2 N E D wf).sKept from (show (0 : Fin 2) ∉ (List.finRange 2).filter (· ∉ [(0 : Fin 2)]) by decide))]
  have hw1 : (sdims2 N E D wf).window (ix2 e b) 1 = b.val := by
    unfold ScatterDims.window
    rw [dif_pos (show (1 : Fin 2) ∈ (sdims2 N E D wf).sKept from (show (1 : Fin 2) ∈ (List.finRange 2).filter (· ∉ [(0 : Fin 2)]) by decide))]
    rfl
  unfold ScatterDims.resultIdx?
  constructor
  · intro h
    split at h
    · rename_i hall
      have hf := Option.some.inj h
      have h0 := congrArg (fun f => (f 0).val) hf
      have h1 := congrArg (fun f => (f 1).val) hf
      simp only [hs0, hs1, hw0, hw1] at h0 h1
      have hall0 := (hall 0).1
      rw [hs0, hw0] at hall0
      have hn : ((ix2 n d : (⟨2, ![N, D]⟩ : Shape).Idx) 0).val = n.val := rfl
      have hd : ((ix2 n d : (⟨2, ![N, D]⟩ : Shape).Idx) 1).val = d.val := rfl
      rw [hn] at h0; rw [hd] at h1
      refine ⟨by omega, Fin.ext (by omega)⟩
    · exact absurd h (by simp)
  · rintro ⟨h0, rfl⟩
    have hall : ∀ a, 0 ≤ (sdims2 N E D wf).start (ix2 e b) idx a + (sdims2 N E D wf).window (ix2 e b) a ∧
        (sdims2 N E D wf).start (ix2 e b) idx a + (sdims2 N E D wf).window (ix2 e b) a < (⟨2, ![N, D]⟩ : Shape).size a := by
      intro a
      match a with
      | ⟨0, _⟩ =>
        show 0 ≤ (sdims2 N E D wf).start (ix2 e b) idx 0 + (sdims2 N E D wf).window (ix2 e b) 0 ∧
          (sdims2 N E D wf).start (ix2 e b) idx 0 + (sdims2 N E D wf).window (ix2 e b) 0 < (N : Int)
        rw [hs0, hw0, h0]; have := n.isLt; omega
      | ⟨1, _⟩ =>
        show 0 ≤ (sdims2 N E D wf).start (ix2 e b) idx 1 + (sdims2 N E D wf).window (ix2 e b) 1 ∧
          (sdims2 N E D wf).start (ix2 e b) idx 1 + (sdims2 N E D wf).window (ix2 e b) 1 < (D : Int)
        rw [hs1, hw1]; have := b.isLt; omega
    rw [dif_pos hall]
    congr 1
    funext a; refine Fin.ext ?_
    match a with
    | ⟨0, _⟩ =>
      show ((sdims2 N E D wf).start (ix2 e b) idx 0 + (sdims2 N E D wf).window (ix2 e b) 0).toNat = n.val
      rw [hs0, hw0, h0]; omega
    | ⟨1, _⟩ =>
      show ((sdims2 N E D wf).start (ix2 e b) idx 1 + (sdims2 N E D wf).window (ix2 e b) 1).toNat = b.val
      rw [hs1, hw1]; omega

/-- THE ACCUMULATING ROW SCATTER INTO A MATRIX READ AT `(n, d)`: the operand's element plus the sum, over the updates
    `e` whose raw signed index `idx[e, 0]` equals `n`, of `upd[e, d]`. (The sum over the rank-2 update indices splits by
    coordinates; in row `e` only column `d` can land on `(n, d)`.) -/
theorem scatterAdd_rows2_ix2 {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (d : Fin D) :
    Host.scatterAdd (F := Ideal) (sdims2 N E D wf) x idx upd (ix2 n d)
      = x (ix2 n d) + ∑ e ∈ Finset.univ.filter (fun e : Fin E => (idx (ix2 e (0 : Fin 1))).toInt = (n.val : Int)),
          upd (ix2 e d) := by
  show x (ix2 n d) + ∑ j ∈ Finset.univ.filter (fun j => (sdims2 N E D wf).resultIdx? j idx = some (ix2 n d)), upd j = _
  congr 1
  rw [Finset.sum_filter, sum_idx2, Finset.sum_filter]
  refine Finset.sum_congr rfl fun e _ => ?_
  rw [Finset.sum_eq_single d]
  · by_cases hq : (idx (ix2 e (0 : Fin 1))).toInt = (n.val : Int)
    · rw [if_pos hq, if_pos ((sdims2_resultIdx?_eq_some wf idx e d n d).mpr ⟨hq, rfl⟩)]
    · rw [if_neg hq, if_neg (fun h => hq ((sdims2_resultIdx?_eq_some wf idx e d n d).mp h).1)]
  · intro b _ hb
    exact if_neg (fun h => hb ((sdims2_resultIdx?_eq_some wf idx e b n d).mp h).2)
  · intro h; exact absurd (Finset.mem_univ d) h

/-- The same at any operand index `i`: `x i` plus the sum over the updates whose raw signed index is `i`'s row of the
    update's element in `i`'s column. -/
theorem scatterAdd_rows2_apply {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : (⟨2, ![N, D]⟩ : Shape).Idx) :
    Host.scatterAdd (F := Ideal) (sdims2 N E D wf) x idx upd i
      = x i + ∑ e ∈ Finset.univ.filter (fun e : Fin E => (idx (ix2 e (0 : Fin 1))).toInt = ((i 0).val : Int)),
          upd (ix2 e (i 1)) := by
  obtain ⟨n, d, rfl⟩ : ∃ (n : Fin N) (d : Fin D), i = ix2 n d := ⟨i 0, i 1, eq_ix2 i⟩
  exact scatterAdd_rows2_ix2 wf x idx upd n d

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The element-scatter dimension numbers for a flat operand `[N]`, scatter indices `[E, 1]` and updates `[E]`: no
    window axis, operand axis `0` inserted and indexed. -/
abbrev sdims1 (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update `e` lands: on operand element `n` exactly when its raw signed index `idx[e, 0]` is `n` (the start on
    axis 0 is the index, unclamped; the window coordinate is zero; an index outside `[0, N)` lands nowhere). -/
theorem sdims1_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (sdims1 N E wf).resultIdx? (ix1 e) idx = some (ix1 n)
      ↔ (idx (ix2 e (0 : Fin 1))).toInt = (n.val : Int) := by
  have hs0 : (sdims1 N E wf).start (ix1 e) idx 0 = (idx (ix2 e (0 : Fin 1))).toInt := by
    unfold ScatterDims.start
    rw [dif_pos (show (0 : Fin 1) ∈ (sdims1 N E wf).scatterDimsToOperandDims from List.mem_singleton.mpr rfl)]
    have hsi : (sdims1 N E wf).siIdx (ix1 e) ⟨List.idxOf (0 : Fin 1) (sdims1 N E wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hw0 : (sdims1 N E wf).window (ix1 e) 0 = 0 := by
    unfold ScatterDims.window
    rw [dif_neg (show (0 : Fin 1) ∉ (sdims1 N E wf).sKept from
      (show (0 : Fin 1) ∉ (List.finRange 1).filter (· ∉ [(0 : Fin 1)]) by decide))]
  unfold ScatterDims.resultIdx?
  constructor
  · intro h
    split at h
    · rename_i hall
      have hf := Option.some.inj h
      have h0 := congrArg (fun f => (f 0).val) hf
      simp only [hs0, hw0] at h0
      have hall0 := (hall 0).1
      rw [hs0, hw0] at hall0
      have hn : ((ix1 n : (⟨1, ![N]⟩ : Shape).Idx) 0).val = n.val := rfl
      rw [hn] at h0
      omega
    · exact absurd h (by simp)
  · intro h0
    have hall : ∀ a, 0 ≤ (sdims1 N E wf).start (ix1 e) idx a + (sdims1 N E wf).window (ix1 e) a ∧
        (sdims1 N E wf).start (ix1 e) idx a + (sdims1 N E wf).window (ix1 e) a < (⟨1, ![N]⟩ : Shape).size a := by
      intro a
      obtain rfl : a = 0 := Subsingleton.elim _ _
      show 0 ≤ (sdims1 N E wf).start (ix1 e) idx 0 + (sdims1 N E wf).window (ix1 e) 0 ∧
        (sdims1 N E wf).start (ix1 e) idx 0 + (sdims1 N E wf).window (ix1 e) 0 < (N : Int)
      rw [hs0, hw0, h0]; have := n.isLt; omega
    rw [dif_pos hall]
    congr 1
    funext a; refine Fin.ext ?_
    obtain rfl : a = 0 := Subsingleton.elim _ _
    show ((sdims1 N E wf).start (ix1 e) idx 0 + (sdims1 N E wf).window (ix1 e) 0).toNat = n.val
    rw [hs0, hw0, h0]; omega

/-- THE ACCUMULATING SCATTER INTO A FLAT ARRAY READ AT `n`: the operand's element plus the sum, over the updates `e`
    whose raw signed index `idx[e, 0]` equals `n`, of `upd[e]`. -/
theorem scatterAdd_rows1_ix1 {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (sdims1 N E wf) x idx upd (ix1 n)
      = x (ix1 n) + ∑ e ∈ Finset.univ.filter (fun e : Fin E => (idx (ix2 e (0 : Fin 1))).toInt = (n.val : Int)),
          upd (ix1 e) := by
  show x (ix1 n) + ∑ j ∈ Finset.univ.filter (fun j => (sdims1 N E wf).resultIdx? j idx = some (ix1 n)), upd j = _
  congr 1
  rw [Finset.sum_filter, sum_idx1, Finset.sum_filter]
  refine Finset.sum_congr rfl fun e _ => ?_
  by_cases hq : (idx (ix2 e (0 : Fin 1))).toInt = (n.val : Int)
  · rw [if_pos hq, if_pos ((sdims1_resultIdx?_eq_some wf idx e n).mpr hq)]
  · rw [if_neg hq, if_neg (fun h => hq ((sdims1_resultIdx?_eq_some wf idx e n).mp h))]

/-- The same at any operand index `i`: `x i` plus the sum over the updates whose raw signed index is `i`'s coordinate. -/
theorem scatterAdd_rows1_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (i : (⟨1, ![N]⟩ : Shape).Idx) :
    Host.scatterAdd (F := Ideal) (sdims1 N E wf) x idx upd i
      = x i + ∑ e ∈ Finset.univ.filter (fun e : Fin E => (idx (ix2 e (0 : Fin 1))).toInt = ((i 0).val : Int)),
          upd (ix1 e) := by
  obtain ⟨n, rfl⟩ : ∃ n : Fin N, i = ix1 n := ⟨i 0, eq_ix1 i⟩
  exact scatterAdd_rows1_ix1 wf x idx upd n

end Scatter

/-! ## A two-piece `concatenate` of flat arrays, read at an index

`jnp.concatenate([a, b])` of `a : [A]` and `b : [B]` into `[T]`, `T = A + B`: position `k` reads `a` at `k` below `A`
and `b` at `k − A` from `A` on. The total `T` is a parameter of its own (with `T = A + B` a hypothesis) so that the
lemmas apply to a program's literal total. -/

section Concatenate
variable {α : Type}

/-- A position below the first extent reads the first piece there. -/
theorem concat1_apply_left {A B T : Nat} (a : (⟨1, ![A]⟩ : Shape).Idx → α) (b : (⟨1, ![B]⟩ : Shape).Idx → α)
    (h : Shape.Concatenates [⟨1, ![A]⟩, ⟨1, ![B]⟩] ⟨1, ![T]⟩ 0) (k : Fin T) (hk : k.val < A) :
    concatenate ⟨1, ![T]⟩ 0 [⟨⟨1, ![A]⟩, a⟩, ⟨⟨1, ![B]⟩, b⟩] h (ix1 k) = a (ix1 ⟨k.val, hk⟩) := by
  refine concatenate_pair_apply_left 0 a b h (ix1 k) rfl (ix1 ⟨k.val, hk⟩) ?_
  intro c
  obtain rfl : c = 0 := Subsingleton.elim _ _
  rfl

/-- A position at or past the first extent reads the second piece, the first extent less. -/
theorem concat1_apply_right {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T)
    (hk : A ≤ k.val) :
    concatenate ⟨1, ![T]⟩ 0 [⟨⟨1, ![A]⟩, a⟩, ⟨⟨1, ![B]⟩, b⟩] h (ix1 k)
      = b (ix1 ⟨k.val - A, by have := k.isLt; omega⟩) := by
  refine concatenate_pair_apply_right 0 a b h (ix1 k) rfl rfl (ix1 ⟨k.val - A, by have := k.isLt; omega⟩) ?_ ?_
  · intro c hc
    exact absurd (Subsingleton.elim _ _) hc
  · show (k.val - A) + A = k.val
    omega

/-- Both at once: the concatenation read at `k` is the two pieces' coordinate functions appended, at `k`. -/
theorem concat1_apply {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T) :
    concatenate ⟨1, ![T]⟩ 0 [⟨⟨1, ![A]⟩, a⟩, ⟨⟨1, ![B]⟩, b⟩] h (ix1 k)
      = Fin.append (fun e => a (ix1 e)) (fun j => b (ix1 j)) (k.cast hT) := by
  by_cases hk : k.val < A
  · rw [concat1_apply_left a b h k hk]
    have hc : k.cast hT = Fin.castAdd B ⟨k.val, hk⟩ := Fin.ext rfl
    rw [hc, Fin.append_left]
  · have hk' : A ≤ k.val := Nat.le_of_not_lt hk
    rw [concat1_apply_right hT a b h k hk']
    have hc : k.cast hT = Fin.natAdd A ⟨k.val - A, by have := k.isLt; omega⟩ :=
      Fin.ext (by show k.val = A + (k.val - A); omega)
    rw [hc, Fin.append_right]

end Concatenate

end Idealize.ShloMosaic.HostRead

end
-- ==== Proof.Algebra.lean ====
/-
  The algebraic law between the two arrangements of one round, over the extended reals.

  At a node `v` whose factor `d = dis[v]` is a non-negative real, multiplication by `d` distributes over any finite sum
  of extended reals (infinite summands included), so the factor of the receiving node may be applied once to the whole
  collected sum instead of once per edge. Every edge in the sum for `v` has `v` as its receiving end, hence carries the
  same factor `d`.
-/
import proofs.«127734_j69286412419642_2_alg».proof.Proof.Spec
import Mathlib.Data.EReal.Operations
import Mathlib.Data.EReal.Basic
import Idealize.ShloMosaic.PureOps.Ideal.Laws
import Mathlib.Analysis.SpecialFunctions.Pow.Real

noncomputable section

open scoped BigOperators

namespace Cert.Spec

open Idealize.ShloMosaic Idealize.ShloMosaic.ValueIdx

/-- A non-negative real factor distributes over a finite sum of extended reals. -/
theorem mul_sum_of_nonneg_of_ne_top {ι : Type*} (s : Finset ι) (d : EReal) (hd0 : 0 ≤ d) (hdt : d ≠ ⊤)
    (f : ι → EReal) : d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd0 hdt, ih]

/-- The law at one entry: summands `a e · (c e · d)` and the own term `t · (d · d)` on one side; `d` times the sum of
    `a e · c e` plus `t · d` on the other. -/
theorem collect_law {ι : Type*} (s : Finset ι) (d t : EReal) (hd0 : 0 ≤ d) (hdt : d ≠ ⊤) (a c : ι → EReal) :
    (0 + ∑ e ∈ s, a e * (c e * d)) + t * (d * d) = d * ((0 + ∑ e ∈ s, a e * c e) + t * d) := by
  rw [zero_add, zero_add, EReal.left_distrib_of_nonneg_of_ne_top hd0 hdt, mul_sum_of_nonneg_of_ne_top s d hd0 hdt]
  congr 1
  · refine Finset.sum_congr rfl (fun e _ => ?_)
    rw [← mul_assoc, mul_comm]
  · rw [← mul_assoc, mul_comm]

/-- One round computes the same array whether the receiving node's factor is applied inside the sum or once outside. -/
theorem round_eq {N E D : Nat} (hN : 0 < N) (z eps zr : EReal) (nsrc ndst dcol : IVec ⟨2, ![E, 1]⟩ 32)
    (h : (⟨2, ![N, D]⟩ : Shape).Idx → EReal) (W : (⟨2, ![D, D]⟩ : Shape).Idx → EReal)
    (dis : (⟨2, ![N, 1]⟩ : Shape).Idx → EReal) (en : (⟨2, ![E, 1]⟩ : Shape).Idx → EReal)
    (sn : (⟨2, ![N, 1]⟩ : Shape).Idx → EReal) (b rm rv g bt : (⟨2, ![1, D]⟩ : Shape).Idx → EReal)
    (hz : z = 0)
    (hdis : ∀ v : Fin N, 0 ≤ dis (ix2 v 0) ∧ dis (ix2 v 0) ≠ ⊤)
    (hen : ∀ e : Fin E, en (ix2 e 0) = dis (ix2 (row hN nsrc e) 0) * dis (ix2 (row hN ndst e) 0))
    (hsn : ∀ v : Fin N, sn (ix2 v 0) = dis (ix2 v 0) * dis (ix2 v 0))
    (hland : ∀ (e : Fin E) (v : Fin N), (dcol (ix2 e (0 : Fin 1))).toInt = (v.val : Int) → row hN ndst e = v) :
    roundRef hN z eps zr nsrc dcol h W en sn b rm rv g bt = roundKer hN z eps zr nsrc dcol h W dis b rm rv g bt := by
  unfold roundRef roundKer
  refine congrArg (fun val => norm val rm rv g bt eps zr) (funext fun i => ?_)
  obtain ⟨v, j, rfl⟩ : ∃ (v : Fin N) (j : Fin D), i = ix2 v j := ⟨i 0, i 1, eq_ix2 i⟩
  obtain ⟨hd0, hdt⟩ := hdis v
  subst hz
  show (collectScaled hN 0 nsrc dcol (mm h W) en (ix2 v j) + mm h W (ix2 v j) * sn (ix2 v 0)) + b (ix2 0 j)
    = dis (ix2 v 0) * (collect hN 0 nsrc dcol (linScaled h W dis) (ix2 v j) + linScaled h W dis (ix2 v j)) + b (ix2 0 j)
  refine congrArg (· + b (ix2 0 j)) ?_
  show (0 + ∑ e ∈ lands dcol v.val, mm h W (ix2 (row hN nsrc e) j) * en (ix2 e 0)) + mm h W (ix2 v j) * sn (ix2 v 0)
    = dis (ix2 v 0) * ((0 + ∑ e ∈ lands dcol v.val, mm h W (ix2 (row hN nsrc e) j) * dis (ix2 (row hN nsrc e) 0))
        + mm h W (ix2 v j) * dis (ix2 v 0))
  rw [hsn v, ← collect_law (lands dcol v.val) (dis (ix2 v 0)) (mm h W (ix2 v j)) hd0 hdt
    (fun e => mm h W (ix2 (row hN nsrc e) j)) (fun e => dis (ix2 (row hN nsrc e) 0))]
  refine congrArg (fun S => (0 + S) + mm h W (ix2 v j) * (dis (ix2 v 0) * dis (ix2 v 0))) ?_
  refine Finset.sum_congr rfl (fun e he => ?_)
  have hv : row hN ndst e = v := hland e v (Finset.mem_filter.mp he).2
  rw [hen e, hv]

/-- A finite sum of copies of a non-negative real is a non-negative real. -/
theorem sum_const_coe {ι : Type*} (s : Finset ι) (c : ℝ) (hc : 0 ≤ c) :
    ∃ r : ℝ, 0 ≤ r ∧ (∑ _e ∈ s, (c : EReal)) = (r : EReal) := by
  classical
  induction s using Finset.induction_on with
  | empty => exact ⟨0, le_rfl, by simp⟩
  | insert a s ha ih =>
    obtain ⟨r, hr, h⟩ := ih
    exact ⟨c + r, add_nonneg hc hr, by rw [Finset.sum_insert ha, h, EReal.coe_add]⟩

/-- The word `0x3F800000` denotes the real `1`. -/
theorem ofBits_one_f32 : Ideal.ofBits .f32 0x3F800000#32 = ((1 : ℝ) : EReal) := by
  simp [Ideal.ofBits, Ideal.ieee, -EReal.coe_mul]; norm_num

/-- The word `0xBF000000` denotes a real (it is `−1/2`). -/
theorem ofBits_neg_half_f32 : Ideal.ofBits .f32 0xBF000000#32 = ((-(1 / 2) : ℝ) : EReal) := by
  simp [Ideal.ofBits, Ideal.ieee, -EReal.coe_mul]; norm_num

/-- The per-node factor `(0 + Σ 1 + 1) ^ (−1/2)` is a non-negative real: the base is a non-negative real, and a real
    power of a non-negative real is a non-negative real. -/
theorem dis_fact {ι : Type*} (s : Finset ι) :
    0 ≤ Ideal.pow ((Ideal.ofBits .f32 0x00000000#32 + ∑ _e ∈ s, Ideal.ofBits .f32 0x3F800000#32)
        + Ideal.ofBits .f32 0x3F800000#32) (Ideal.ofBits .f32 0xBF000000#32)
    ∧ Ideal.pow ((Ideal.ofBits .f32 0x00000000#32 + ∑ _e ∈ s, Ideal.ofBits .f32 0x3F800000#32)
        + Ideal.ofBits .f32 0x3F800000#32) (Ideal.ofBits .f32 0xBF000000#32) ≠ ⊤ := by
  obtain ⟨r, hr, hs⟩ := sum_const_coe s 1 zero_le_one
  rw [Ideal.ofBits_zero_f32, ofBits_one_f32, ofBits_neg_half_f32, zero_add, hs, ← EReal.coe_add, Ideal.pow_coe_coe]
  exact ⟨EReal.coe_nonneg.mpr (Real.rpow_nonneg (add_nonneg hr zero_le_one) _), EReal.coe_ne_top _⟩

end Cert.Spec

end
-- ==== Proof.HostIdx.lean ====
/-
  Host operations of the round, read whole: rows read at a column of indices and accumulated at another column
  onto a zero constant are the specification's `collect`; a layer of a stack of matrices, or a row of a stack of
  vectors, cut out and re-laid, is the specification's `sliceW` / `sliceRow`; and a wrapped index column names,
  for a position that lands on a row, that very row.
-/
import proofs.«127734_j69286412419642_2_alg».proof.Proof.Spec
import proofs.«127734_j69286412419642_2_alg».proof.Proof.LibHostRead
import Idealize.ShloMosaic.Lib.ValueLayout
import proofs.«127734_j69286412419642_2_alg».proof.Proof.Algebra

noncomputable section

open scoped BigOperators

namespace Cert.HostIdx

open Idealize.ShloMosaic Idealize.ShloMosaic.ValueIdx Idealize.ShloMosaic.HostRead Cert.Spec

/-- Rows of `u` read at `nsrc`, widened (the identity on extended reals) and accumulated at `dcol` onto a
    constant array: the specification's `collect` over that constant. -/
theorem collect_read {N E D : Nat} (hN : 0 < N)
    (wfg : GatherDims.WF ⟨2, ![N, D]⟩ ⟨2, ![E, 1]⟩ ⟨2, ![E, D]⟩ [1] [0] [] [0] [] 1 ![1, D])
    (wfs : ScatterDims.WF ⟨2, ![N, D]⟩ ⟨2, ![E, 1]⟩ ⟨2, ![E, D]⟩ [1] [0] [0] 1)
    (hb : (⟨0, ![]⟩ : Shape).BroadcastsInDim ⟨2, ![N, D]⟩ ![]) (w : BitVec 32)
    (hlt : FTy.bf16.bits < FTy.f32.bits)
    (u : FVec Ideal ⟨2, ![N, D]⟩ .bf16) (nsrc dcol : IVec ⟨2, ![E, 1]⟩ 32) :
    Host.scatterAdd (F := Ideal) (sdims2 N E D wfs)
        (broadcastInDim ⟨2, ![N, D]⟩ ![] hb (constant (F := Ideal) ⟨0, ![]⟩ .f32 w)) dcol
        (extf (F := Ideal) .f32 (Host.gather (gdims2 N E D wfg) u nsrc) hlt)
      = collect hN (Ideal.ofBits .f32 w) nsrc dcol u := by
  funext i
  rw [scatterAdd_rows2_apply]
  unfold collect lands
  congr 1
  refine Finset.sum_congr rfl fun e _ => ?_
  show FloatOps.extf (F := Ideal) .f32 hlt (Host.gather (gdims2 N E D wfg) u nsrc (ix2 e (i 1))) = _
  exact gather_rows2_ix2 hN wfg u nsrc e (i 1)

/-! ## A layer of a stack, cut out and re-laid -/

/-- Layer `k` of a stack of `L` square matrices, cut out as a `[1, D, D]` block at offset `o = k` and re-laid as
    `[D, D]`: the specification's `sliceW`. (The offset is a natural number of its own, equal to `k`, so that the
    statement applies to a literal offset.) -/
theorem slice_W {L D : Nat} (o : Nat) (k : Fin L) (hk : k.val = o)
    (x : FVec Ideal ⟨3, ![L, D, D]⟩ .f32)
    (hs : (⟨3, ![L, D, D]⟩ : Shape).Slices ![o, 0, 0] ⟨3, ![1, D, D]⟩)
    (hc : (⟨3, ![1, D, D]⟩ : Shape).ShapeCasts ⟨2, ![D, D]⟩) :
    shapeCast ⟨2, ![D, D]⟩ (extractStridedSlice ⟨3, ![1, D, D]⟩ ![o, 0, 0] x hs) hc = sliceW x k := by
  funext i
  obtain ⟨p, q, rfl⟩ : ∃ (p : Fin D) (q : Fin D), i = ix2 p q := ⟨i 0, i 1, eq_ix2 i⟩
  rw [shapeCast_1ab_ab_apply]
  show _ = x (ix3 k p q)
  refine extractStridedSlice_apply _ _ _ _ (ix3 k p q) (fun ax => ?_)
  match ax with
  | ⟨0, _⟩ => exact hk.trans (Nat.add_zero o).symm
  | ⟨1, _⟩ => exact (Nat.zero_add _).symm
  | ⟨2, _⟩ => exact (Nat.zero_add _).symm

/-- Row `k` of a stack of `L` vectors, cut out as a `[1, D]` block at offset `o = k`, flattened to `[D]` and re-laid
    as `[1, D]`: the specification's `sliceRow`. -/
theorem slice_row {L D : Nat} (o : Nat) (k : Fin L) (hk : k.val = o)
    (x : FVec Ideal ⟨2, ![L, D]⟩ .f32)
    (hs : (⟨2, ![L, D]⟩ : Shape).Slices ![o, 0] ⟨2, ![1, D]⟩)
    (h1 : (⟨2, ![1, D]⟩ : Shape).ShapeCasts ⟨1, ![D]⟩)
    (h2 : (⟨1, ![D]⟩ : Shape).ShapeCasts ⟨2, ![1, D]⟩) :
    shapeCast ⟨2, ![1, D]⟩ (shapeCast ⟨1, ![D]⟩ (extractStridedSlice ⟨2, ![1, D]⟩ ![o, 0] x hs) h1) h2
      = sliceRow x k := by
  funext i
  obtain ⟨u, q, rfl⟩ : ∃ (u : Fin 1) (q : Fin D), i = ix2 u q := ⟨i 0, i 1, eq_ix2 i⟩
  rw [shapeCast_a_1a_apply, shapeCast_1a_a_apply]
  show _ = x (ix2 k q)
  exact slice2_axis0_apply o x hs 0 q k (hk.trans (Nat.add_zero o).symm)

/-! ## A flat array as a column -/

/-- A flat array `[N]` re-laid as a column `[N, 1]` reads, at `(v, 0)`, the array at `v`. -/
theorem col_apply {α : Type} {N : Nat} (x : (⟨1, ![N]⟩ : Shape).Idx → α)
    (h : (⟨1, ![N]⟩ : Shape).ShapeCasts ⟨2, ![N, 1]⟩) (v : Fin N) :
    shapeCast ⟨2, ![N, 1]⟩ x h (ix2 v (0 : Fin 1)) = x (ix1 v) :=
  shapeCast_apply x h _ _ (by
    rw [Shape.rowMajor_val_two, Shape.rowMajor_val_one]
    show v.val = v.val * 1 + 0
    rw [Nat.mul_one, Nat.add_zero])

/-- A flat array `[E]` broadcast along a new trailing unit axis to a column `[E, 1]` reads, at `(e, 0)`, the array
    at `e`. -/
theorem bcol_apply {α : Type} {E : Nat} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) := by
  refine broadcastInDim_apply _ h x _ (ix1 e) (fun a => ?_)
  match a with
  | ⟨0, _⟩ =>
    show e.val = if E = 1 then 0 else e.val
    split
    · have := e.isLt; omega
    · rfl

/-! ## A wrapped index column -/

/-- A column of words `W1`, and the same column with `c` added to the words that are negative as signed integers.
    At a position whose raw word is the number of a row `v` (so it is not negative), the wrapped word is the raw
    word, and clamping it into `[0, N − 1]` changes nothing: the wrapped column names row `v` there. -/
theorem wrap_lands {N E : Nat} (hN : 0 < N) (c : BitVec 32)
    (h : (⟨1, ![E]⟩ : Shape).BroadcastsInDim ⟨2, ![E, 1]⟩ ![0])
    (h0 : (⟨0, ![]⟩ : Shape).BroadcastsInDim ⟨1, ![E]⟩ ![])
    (W1 : IVec ⟨1, ![E]⟩ 32) (e : Fin E) (v : Fin N)
    (hv : (broadcastInDim ⟨2, ![E, 1]⟩ ![0] h W1 (ix2 e (0 : Fin 1))).toInt = (v.val : Int)) :
    row hN (broadcastInDim ⟨2, ![E, 1]⟩ ![0] h
      (select (cmpi .slt W1 (broadcastInDim ⟨1, ![E]⟩ ![] h0 (constantI ⟨0, ![]⟩ 32 0#32)))
        (addi W1 (broadcastInDim ⟨1, ![E]⟩ ![] h0 (constantI ⟨0, ![]⟩ 32 c))) W1)) e = v := by
  have hw : (W1 (ix1 e)).toInt = (v.val : Int) := by rw [← bcol_apply h W1 e]; exact hv
  have hslt : (W1 (ix1 e)).slt 0#32 = false := by
    rw [BitVec.slt_eq_decide, BitVec.toInt_zero, hw]
    exact decide_eq_false (by omega)
  have hsel : select (cmpi .slt W1 (broadcastInDim ⟨1, ![E]⟩ ![] h0 (constantI ⟨0, ![]⟩ 32 0#32)))
      (addi W1 (broadcastInDim ⟨1, ![E]⟩ ![] h0 (constantI ⟨0, ![]⟩ 32 c))) W1 (ix1 e) = W1 (ix1 e) := by
    show Scalar.select (IntOp.cmpi .slt (W1 (ix1 e)) 0#32) _ (W1 (ix1 e)) = W1 (ix1 e)
    unfold Scalar.select IntOp.cmpi
    rw [hslt, BitVec.ofBool_false, if_neg (by decide)]
  apply Fin.ext
  show min (BitVec.toInt _).toNat (N - 1) = v.val
  rw [bcol_apply, hsel, hw]
  have := v.isLt
  omega

/-! ## The per-node factor -/

/-- The per-node factor as the host computes it: ones accumulated at the column `dcol` onto zeros, plus one, raised
    to the power the word `0xBF000000` denotes. -/
abbrev factor (N E : Nat)
    (wf : ScatterDims.WF ⟨1, ![N]⟩ ⟨2, ![E, 1]⟩ ⟨1, ![E]⟩ [] [0] [0] 1)
    (hb0 : (⟨0, ![]⟩ : Shape).BroadcastsInDim ⟨1, ![N]⟩ ![])
    (hb1 : (⟨0, ![]⟩ : Shape).BroadcastsInDim ⟨1, ![E]⟩ ![])
    (dcol : IVec ⟨2, ![E, 1]⟩ 32) : FVec Ideal ⟨1, ![N]⟩ .f32 :=
  Host.powf (F := Ideal)
    (addf (F := Ideal)
      (Host.scatterAdd (F := Ideal) (sdims1 N E wf)
        (broadcastInDim ⟨1, ![N]⟩ ![] hb0 (constant (F := Ideal) ⟨0, ![]⟩ .f32 0x00000000#32)) dcol
        (broadcastInDim ⟨1, ![E]⟩ ![] hb1 (constant (F := Ideal) ⟨0, ![]⟩ .f32 0x3F800000#32)))
      (broadcastInDim ⟨1, ![N]⟩ ![] hb0 (constant (F := Ideal) ⟨0, ![]⟩ .f32 0x3F800000#32)))
    (broadcastInDim ⟨1, ![N]⟩ ![] hb0 (constant (F := Ideal) ⟨0, ![]⟩ .f32 0xBF000000#32))

/-- Every node's factor is a non-negative real: its base is zero plus a sum of ones plus one. -/
theorem dis_read {N E : Nat}
    (wf : ScatterDims.WF ⟨1, ![N]⟩ ⟨2, ![E, 1]⟩ ⟨1, ![E]⟩ [] [0] [0] 1)
    (hb0 : (⟨0, ![]⟩ : Shape).BroadcastsInDim ⟨1, ![N]⟩ ![])
    (hb1 : (⟨0, ![]⟩ : Shape).BroadcastsInDim ⟨1, ![E]⟩ ![])
    (dcol : IVec ⟨2, ![E, 1]⟩ 32) (v : Fin N) :
    0 ≤ factor N E wf hb0 hb1 dcol (ix1 v) ∧ factor N E wf hb0 hb1 dcol (ix1 v) ≠ ⊤ := by
  have hread : factor N E wf hb0 hb1 dcol (ix1 v)
      = Ideal.pow ((Ideal.ofBits .f32 0x00000000#32
          + ∑ _e ∈ Finset.univ.filter (fun e : Fin E => (dcol (ix2 e (0 : Fin 1))).toInt = (v.val : Int)),
              Ideal.ofBits .f32 0x3F800000#32) + Ideal.ofBits .f32 0x3F800000#32)
          (Ideal.ofBits .f32 0xBF000000#32) := by
    show Ideal.pow (Host.scatterAdd (F := Ideal) (sdims1 N E wf) _ dcol _ (ix1 v) + Ideal.ofBits .f32 0x3F800000#32)
      (Ideal.ofBits .f32 0xBF000000#32) = _
    rw [scatterAdd_rows1_ix1]
    rfl
  rw [hread]
  exact dis_fact _

end Cert.HostIdx

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.RegLinA.lean ====
/-
  The linear regions 0, 2, 4, 6, value side: each region's output array after its run is the specification's
  `linScaled` of the three arrays the region is entered with (features, weight, per-node factors). Each region runs over
  25 points, each writing one block of 2000 rows; a block's payload is the scaled product of the blocks it loads, the
  blocks restrict the arrays (the weight whole), and the 25 output blocks tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzLinA : (![0, 0] : Fin 2 → Nat) = fun _ => 0 := funext fun a => by fin_cases a <;> rfl

/-- On the 25-point grid the row-block index of an index map `![arg0, 0]` at the `t`-th point is `t` (decided over the
    25 points; the regions' grids are this grid). -/
theorem gridRowLinA : ∀ t : Fin grid0.N, (BitVec.ofNat 32 ((grid0.coords t) 0).val).toNat = t.val :=
  (by decide +kernel : ∀ t : Fin grid0.N, _)

/-- Region 0's block payload is the scaled product of its three blocks: entry `(p, q)` is row `p` of the feature block
    against column `q` of the weight, times the row's factor (narrowing and widening are the identity on the extended reals). -/
theorem linPay0_eq (x0 : FVec Ideal S2000x128 .f32) (x1 : FVec Ideal S128x128 .f32) (x2 : FVec Ideal S2000x1 .f32) :
    k0_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k0_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 0's index maps at any point: the feature block and the factor block move with the output block down the
    rows; the weight's block and every column index are zero (each map is `![arg0, 0]` or `![0, 0]`). -/
theorem idx0 (t : Fin cfg0.N) :
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 :=
  ⟨rfl, rfl, rfl, rfl, rfl, rfl, rfl⟩

/-- The row-block index of region 0's output at the `t`-th point is `t`. -/
theorem rowPt0 (t : Fin cfg0.N) : win0_3.index t (0 : Fin 2) = t.val := gridRowLinA t

/-- An index of region 0's output array is in point `t`'s block iff each coordinate is in the block's range. -/
theorem mem0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- Region 0's output blocks tile its array: row `v` is in the block of point `v / 2000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := lt_of_lt_of_eq (by omega : (i 0).val / 2000 < 25) N_0.symm
  obtain ⟨t, ht⟩ : ∃ t : Fin cfg0.N, t.val = (i 0).val / 2000 := ⟨⟨_, hN⟩, rfl⟩
  have q0 : win0_3.index t (0 : Fin 2) = (i 0).val / 2000 := (rowPt0 t).trans ht
  have q1 : win0_3.index t (1 : Fin 2) = 0 := (idx0 t).2.2.2.2.2.2
  refine ⟨t, flush0_3 t, ?_⟩
  rw [mem0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega
/-- Block `t` of the scaled product of the arrays is the scaled product of the blocks at `t`: the block's rows of the
    features and of the factors, the whole weight. -/
theorem blkLin0 (t : Fin cfg0.N) (A0 : S50000x128.Idx → EReal) (A1 : S128x128.Idx → EReal) (A2 : S50000x1.Idx → EReal) :
    (cfg0.win 3).cut (grid0.coords t) (Cert.Spec.linScaled (((cfg0.win 0).blk t).view.read (Elt Ideal) A0)
        (((cfg0.win 1).blk t).view.read (Elt Ideal) A1) (((cfg0.win 2).blk t).view.read (Elt Ideal) A2))
      = ((cfg0.win 3).blk t).view.read (Elt Ideal) (Cert.Spec.linScaled A0 A1 A2) := by
  obtain ⟨e0, e1, e2, e3, e4, e5, e6⟩ := idx0 t
  funext y
  show (∑ k : Fin 128, A0 (((cfg0.win 0).blk t).view.emb (ix2 (y 0) k)) * A1 (((cfg0.win 1).blk t).view.emb (ix2 k (y 1))))
        * A2 (((cfg0.win 2).blk t).view.emb (ix2 (y 0) (0 : Fin 1)))
      = (∑ k : Fin 128, A0 (ix2 ((((cfg0.win 3).blk t).view.emb y) 0) k) * A1 (ix2 k ((((cfg0.win 3).blk t).view.emb y) 1)))
        * A2 (ix2 ((((cfg0.win 3).blk t).view.emb y) 0) (0 : Fin 1))
  have hy0 : (y 0).val < 2000 := (y 0).isLt
  have hy1 : (y 1).val < 128 := (y 1).isLt
  have h0 : ∀ k : Fin 128, ((cfg0.win 0).blk t).view.emb (ix2 (y 0) k) = ix2 ((((cfg0.win 3).blk t).view.emb y) 0) k := by
    intro k; funext a; apply Fin.ext
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 128 + 1 * k.val = k.val; omega
  have h1 : ∀ k : Fin 128, ((cfg0.win 1).blk t).view.emb (ix2 k (y 1)) = ix2 k ((((cfg0.win 3).blk t).view.emb y) 1) := by
    intro k; funext a; apply Fin.ext
    match a with
    | ⟨0, _⟩ => show win0_1.index t (0 : Fin 2) * 128 + 1 * k.val = k.val; omega
    | ⟨1, _⟩ => show win0_1.index t (1 : Fin 2) * 128 + 1 * (y 1).val = win0_3.index t (1 : Fin 2) * 128 + 1 * (y 1).val; omega
  have h2 : ((cfg0.win 2).blk t).view.emb (ix2 (y 0) (0 : Fin 1)) = ix2 ((((cfg0.win 3).blk t).view.emb y) 0) (0 : Fin 1) := by
    funext a; apply Fin.ext
    match a with
    | ⟨0, _⟩ => show win0_2.index t (0 : Fin 2) * 2000 + 1 * (y 0).val = win0_3.index t (0 : Fin 2) * 2000 + 1 * (y 0).val; omega
    | ⟨1, _⟩ => show win0_2.index t (1 : Fin 2) * 1 + 1 * 0 = 0; omega
  simp only [h0, h1, h2]
  rfl

/-- Region 2's block payload is the scaled product of its three blocks: entry `(p, q)` is row `p` of the feature block
    against column `q` of the weight, times the row's factor (narrowing and widening are the identity on the extended reals). -/
theorem linPay2_eq (x0 : FVec Ideal S2000x128 .f32) (x1 : FVec Ideal S128x128 .f32) (x2 : FVec Ideal S2000x1 .f32) :
    k2_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k2_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 2's index maps at any point: the feature block and the factor block move with the output block down the
    rows; the weight's block and every column index are zero (each map is `![arg0, 0]` or `![0, 0]`). -/
theorem idx2 (t : Fin cfg2.N) :
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 :=
  ⟨rfl, rfl, rfl, rfl, rfl, rfl, rfl⟩

/-- The row-block index of region 2's output at the `t`-th point is `t`. -/
theorem rowPt2 (t : Fin cfg2.N) : win2_3.index t (0 : Fin 2) = t.val := gridRowLinA t

/-- An index of region 2's output array is in point `t`'s block iff each coordinate is in the block's range. -/
theorem mem2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v45).slice (win2_3.rect t)).set ↔ _
  rw [View.set_slice_whole, Rect.mem_set_unit]
  exact Iff.rfl

/-- Region 2's output blocks tile its array: row `v` is in the block of point `v / 2000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 2000 < cfg2.N := lt_of_lt_of_eq (by omega : (i 0).val / 2000 < 25) N_2.symm
  obtain ⟨t, ht⟩ : ∃ t : Fin cfg2.N, t.val = (i 0).val / 2000 := ⟨⟨_, hN⟩, rfl⟩
  have q0 : win2_3.index t (0 : Fin 2) = (i 0).val / 2000 := (rowPt2 t).trans ht
  have q1 : win2_3.index t (1 : Fin 2) = 0 := (idx2 t).2.2.2.2.2.2
  refine ⟨t, flush2_3 t, ?_⟩
  rw [mem2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega
/-- Block `t` of the scaled product of the arrays is the scaled product of the blocks at `t`: the block's rows of the
    features and of the factors, the whole weight. -/
theorem blkLin2 (t : Fin cfg2.N) (A0 : S50000x128.Idx → EReal) (A1 : S128x128.Idx → EReal) (A2 : S50000x1.Idx → EReal) :
    (cfg2.win 3).cut (grid2.coords t) (Cert.Spec.linScaled (((cfg2.win 0).blk t).view.read (Elt Ideal) A0)
        (((cfg2.win 1).blk t).view.read (Elt Ideal) A1) (((cfg2.win 2).blk t).view.read (Elt Ideal) A2))
      = ((cfg2.win 3).blk t).view.read (Elt Ideal) (Cert.Spec.linScaled A0 A1 A2) := by
  obtain ⟨e0, e1, e2, e3, e4, e5, e6⟩ := idx2 t
  funext y
  show (∑ k : Fin 128, A0 (((cfg2.win 0).blk t).view.emb (ix2 (y 0) k)) * A1 (((cfg2.win 1).blk t).view.emb (ix2 k (y 1))))
        * A2 (((cfg2.win 2).blk t).view.emb (ix2 (y 0) (0 : Fin 1)))
      = (∑ k : Fin 128, A0 (ix2 ((((cfg2.win 3).blk t).view.emb y) 0) k) * A1 (ix2 k ((((cfg2.win 3).blk t).view.emb y) 1)))
        * A2 (ix2 ((((cfg2.win 3).blk t).view.emb y) 0) (0 : Fin 1))
  have hy0 : (y 0).val < 2000 := (y 0).isLt
  have hy1 : (y 1).val < 128 := (y 1).isLt
  have h0 : ∀ k : Fin 128, ((cfg2.win 0).blk t).view.emb (ix2 (y 0) k) = ix2 ((((cfg2.win 3).blk t).view.emb y) 0) k := by
    intro k; funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 128 + 1 * k.val = k.val; omega
  have h1 : ∀ k : Fin 128, ((cfg2.win 1).blk t).view.emb (ix2 k (y 1)) = ix2 k ((((cfg2.win 3).blk t).view.emb y) 1) := by
    intro k; funext a; apply Fin.ext
    match a with
    | ⟨0, _⟩ => show win2_1.index t (0 : Fin 2) * 128 + 1 * k.val = k.val; omega
    | ⟨1, _⟩ => show win2_1.index t (1 : Fin 2) * 128 + 1 * (y 1).val = win2_3.index t (1 : Fin 2) * 128 + 1 * (y 1).val; omega
  have h2 : ((cfg2.win 2).blk t).view.emb (ix2 (y 0) (0 : Fin 1)) = ix2 ((((cfg2.win 3).blk t).view.emb y) 0) (0 : Fin 1) := by
    funext a; apply Fin.ext
    match a with
    | ⟨0, _⟩ => show win2_2.index t (0 : Fin 2) * 2000 + 1 * (y 0).val = win2_3.index t (0 : Fin 2) * 2000 + 1 * (y 0).val; omega
    | ⟨1, _⟩ => show win2_2.index t (1 : Fin 2) * 1 + 1 * 0 = 0; omega
  simp only [h0, h1, h2]
  rfl

/-- Region 4's block payload is the scaled product of its three blocks: entry `(p, q)` is row `p` of the feature block
    against column `q` of the weight, times the row's factor (narrowing and widening are the identity on the extended reals). -/
theorem linPay4_eq (x0 : FVec Ideal S2000x128 .f32) (x1 : FVec Ideal S128x128 .f32) (x2 : FVec Ideal S2000x1 .f32) :
    k4_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k4_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 4's index maps at any point: the feature block and the factor block move with the output block down the
    rows; the weight's block and every column index are zero (each map is `![arg0, 0]` or `![0, 0]`). -/
theorem idx4 (t : Fin cfg4.N) :
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = win4_3.index t (0 : Fin 2) ∧ win4_2.index t (1 : Fin 2) = 0
    ∧ win4_3.index t (1 : Fin 2) = 0 :=
  ⟨rfl, rfl, rfl, rfl, rfl, rfl, rfl⟩

/-- The row-block index of region 4's output at the `t`-th point is `t`. -/
theorem rowPt4 (t : Fin cfg4.N) : win4_3.index t (0 : Fin 2) = t.val := gridRowLinA t

/-- An index of region 4's output array is in point `t`'s block iff each coordinate is in the block's range. -/
theorem mem4 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v75).slice (win4_3.rect t)).set ↔ _
  rw [View.set_slice_whole, Rect.mem_set_unit]
  exact Iff.rfl

/-- Region 4's output blocks tile its array: row `v` is in the block of point `v / 2000`. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : (i 0).val / 2000 < cfg4.N := lt_of_lt_of_eq (by omega : (i 0).val / 2000 < 25) N_4.symm
  obtain ⟨t, ht⟩ : ∃ t : Fin cfg4.N, t.val = (i 0).val / 2000 := ⟨⟨_, hN⟩, rfl⟩
  have q0 : win4_3.index t (0 : Fin 2) = (i 0).val / 2000 := (rowPt4 t).trans ht
  have q1 : win4_3.index t (1 : Fin 2) = 0 := (idx4 t).2.2.2.2.2.2
  refine ⟨t, flush4_3 t, ?_⟩
  rw [mem4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega
/-- Block `t` of the scaled product of the arrays is the scaled product of the blocks at `t`: the block's rows of the
    features and of the factors, the whole weight. -/
theorem blkLin4 (t : Fin cfg4.N) (A0 : S50000x128.Idx → EReal) (A1 : S128x128.Idx → EReal) (A2 : S50000x1.Idx → EReal) :
    (cfg4.win 3).cut (grid4.coords t) (Cert.Spec.linScaled (((cfg4.win 0).blk t).view.read (Elt Ideal) A0)
        (((cfg4.win 1).blk t).view.read (Elt Ideal) A1) (((cfg4.win 2).blk t).view.read (Elt Ideal) A2))
      = ((cfg4.win 3).blk t).view.read (Elt Ideal) (Cert.Spec.linScaled A0 A1 A2) := by
  obtain ⟨e0, e1, e2, e3, e4, e5, e6⟩ := idx4 t
  funext y
  show (∑ k : Fin 128, A0 (((cfg4.win 0).blk t).view.emb (ix2 (y 0) k)) * A1 (((cfg4.win 1).blk t).view.emb (ix2 k (y 1))))
        * A2 (((cfg4.win 2).blk t).view.emb (ix2 (y 0) (0 : Fin 1)))
      = (∑ k : Fin 128, A0 (ix2 ((((cfg4.win 3).blk t).view.emb y) 0) k) * A1 (ix2 k ((((cfg4.win 3).blk t).view.emb y) 1)))
        * A2 (ix2 ((((cfg4.win 3).blk t).view.emb y) 0) (0 : Fin 1))
  have hy0 : (y 0).val < 2000 := (y 0).isLt
  have hy1 : (y 1).val < 128 := (y 1).isLt
  have h0 : ∀ k : Fin 128, ((cfg4.win 0).blk t).view.emb (ix2 (y 0) k) = ix2 ((((cfg4.win 3).blk t).view.emb y) 0) k := by
    intro k; funext a; apply Fin.ext
    match a with
    | ⟨0, _⟩ => show win4_0.index t (0 : Fin 2) * 2000 + 1 * (y 0).val = win4_3.index t (0 : Fin 2) * 2000 + 1 * (y 0).val; omega
    | ⟨1, _⟩ => show win4_0.index t (1 : Fin 2) * 128 + 1 * k.val = k.val; omega
  have h1 : ∀ k : Fin 128, ((cfg4.win 1).blk t).view.emb (ix2 k (y 1)) = ix2 k ((((cfg4.win 3).blk t).view.emb y) 1) := by
    intro k; funext a; apply Fin.ext
    match a with
    | ⟨0, _⟩ => show win4_1.index t (0 : Fin 2) * 128 + 1 * k.val = k.val; omega
    | ⟨1, _⟩ => show win4_1.index t (1 : Fin 2) * 128 + 1 * (y 1).val = win4_3.index t (1 : Fin 2) * 128 + 1 * (y 1).val; omega
  have h2 : ((cfg4.win 2).blk t).view.emb (ix2 (y 0) (0 : Fin 1)) = ix2 ((((cfg4.win 3).blk t).view.emb y) 0) (0 : Fin 1) := by
    funext a; apply Fin.ext
    match a with
    | ⟨0, _⟩ => show win4_2.index t (0 : Fin 2) * 2000 + 1 * (y 0).val = win4_3.index t (0 : Fin 2) * 2000 + 1 * (y 0).val; omega
    | ⟨1, _⟩ => show win4_2.index t (1 : Fin 2) * 1 + 1 * 0 = 0; omega
  simp only [h0, h1, h2]
  rfl

/-- Region 6's block payload is the scaled product of its three blocks: entry `(p, q)` is row `p` of the feature block
    against column `q` of the weight, times the row's factor (narrowing and widening are the identity on the extended reals). -/
theorem linPay6_eq (x0 : FVec Ideal S2000x128 .f32) (x1 : FVec Ideal S128x128 .f32) (x2 : FVec Ideal S2000x1 .f32) :
    k6_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k6_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 6's index maps at any point: the feature block and the factor block move with the output block down the
    rows; the weight's block and every column index are zero (each map is `![arg0, 0]` or `![0, 0]`). -/
theorem idx6 (t : Fin cfg6.N) :
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = win6_3.index t (0 : Fin 2) ∧ win6_2.index t (1 : Fin 2) = 0
    ∧ win6_3.index t (1 : Fin 2) = 0 :=
  ⟨rfl, rfl, rfl, rfl, rfl, rfl, rfl⟩

/-- The row-block index of region 6's output at the `t`-th point is `t`. -/
theorem rowPt6 (t : Fin cfg6.N) : win6_3.index t (0 : Fin 2) = t.val := gridRowLinA t

/-- An index of region 6's output array is in point `t`'s block iff each coordinate is in the block's range. -/
theorem mem6 (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v105).slice (win6_3.rect t)).set ↔ _
  rw [View.set_slice_whole, Rect.mem_set_unit]
  exact Iff.rfl

/-- Region 6's output blocks tile its array: row `v` is in the block of point `v / 2000`. -/
theorem cover6 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : (i 0).val / 2000 < cfg6.N := lt_of_lt_of_eq (by omega : (i 0).val / 2000 < 25) N_6.symm
  obtain ⟨t, ht⟩ : ∃ t : Fin cfg6.N, t.val = (i 0).val / 2000 := ⟨⟨_, hN⟩, rfl⟩
  have q0 : win6_3.index t (0 : Fin 2) = (i 0).val / 2000 := (rowPt6 t).trans ht
  have q1 : win6_3.index t (1 : Fin 2) = 0 := (idx6 t).2.2.2.2.2.2
  refine ⟨t, flush6_3 t, ?_⟩
  rw [mem6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega
/-- Block `t` of the scaled product of the arrays is the scaled product of the blocks at `t`: the block's rows of the
    features and of the factors, the whole weight. -/
theorem blkLin6 (t : Fin cfg6.N) (A0 : S50000x128.Idx → EReal) (A1 : S128x128.Idx → EReal) (A2 : S50000x1.Idx → EReal) :
    (cfg6.win 3).cut (grid6.coords t) (Cert.Spec.linScaled (((cfg6.win 0).blk t).view.read (Elt Ideal) A0)
        (((cfg6.win 1).blk t).view.read (Elt Ideal) A1) (((cfg6.win 2).blk t).view.read (Elt Ideal) A2))
      = ((cfg6.win 3).blk t).view.read (Elt Ideal) (Cert.Spec.linScaled A0 A1 A2) := by
  obtain ⟨e0, e1, e2, e3, e4, e5, e6⟩ := idx6 t
  funext y
  show (∑ k : Fin 128, A0 (((cfg6.win 0).blk t).view.emb (ix2 (y 0) k)) * A1 (((cfg6.win 1).blk t).view.emb (ix2 k (y 1))))
        * A2 (((cfg6.win 2).blk t).view.emb (ix2 (y 0) (0 : Fin 1)))
      = (∑ k : Fin 128, A0 (ix2 ((((cfg6.win 3).blk t).view.emb y) 0) k) * A1 (ix2 k ((((cfg6.win 3).blk t).view.emb y) 1)))
        * A2 (ix2 ((((cfg6.win 3).blk t).view.emb y) 0) (0 : Fin 1))
  have hy0 : (y 0).val < 2000 := (y 0).isLt
  have hy1 : (y 1).val < 128 := (y 1).isLt
  have h0 : ∀ k : Fin 128, ((cfg6.win 0).blk t).view.emb (ix2 (y 0) k) = ix2 ((((cfg6.win 3).blk t).view.emb y) 0) k := by
    intro k; funext a; apply Fin.ext
    match a with
    | ⟨0, _⟩ => show win6_0.index t (0 : Fin 2) * 2000 + 1 * (y 0).val = win6_3.index t (0 : Fin 2) * 2000 + 1 * (y 0).val; omega
    | ⟨1, _⟩ => show win6_0.index t (1 : Fin 2) * 128 + 1 * k.val = k.val; omega
  have h1 : ∀ k : Fin 128, ((cfg6.win 1).blk t).view.emb (ix2 k (y 1)) = ix2 k ((((cfg6.win 3).blk t).view.emb y) 1) := by
    intro k; funext a; apply Fin.ext
    match a with
    | ⟨0, _⟩ => show win6_1.index t (0 : Fin 2) * 128 + 1 * k.val = k.val; omega
    | ⟨1, _⟩ => show win6_1.index t (1 : Fin 2) * 128 + 1 * (y 1).val = win6_3.index t (1 : Fin 2) * 128 + 1 * (y 1).val; omega
  have h2 : ((cfg6.win 2).blk t).view.emb (ix2 (y 0) (0 : Fin 1)) = ix2 ((((cfg6.win 3).blk t).view.emb y) 0) (0 : Fin 1) := by
    funext a; apply Fin.ext
    match a with
    | ⟨0, _⟩ => show win6_2.index t (0 : Fin 2) * 2000 + 1 * (y 0).val = win6_3.index t (0 : Fin 2) * 2000 + 1 * (y 0).val; omega
    | ⟨1, _⟩ => show win6_2.index t (1 : Fin 2) * 1 + 1 * 0 = 0; omega
  simp only [h0, h1, h2]
  rfl

-- The buffer contents a region is entered with: every statement below holds for any such contents.
variable (V : (c : Dev nD) → (b : Ref sig .tc) → Buf (Elt Ideal) ((c : Thread nD τ).loc b))

/-- What point `t` of region 0 writes back is block `t` of the scaled product of the arrays the region finds. -/
theorem flushed0 (c : Dev nD) (t : Fin cfg0.N) :
    (dat0 (F := Ideal) V c).flushed 3 t
      = ((cfg0.win 3).blk t).view.read (Elt Ideal) (Cert.Spec.linScaled (V c main_arg0) (V c main_v14) (V c main_v12)) := by
  show (cfg0.win 3).cut (grid0.coords t) ((dat0 (F := Ideal) V c).after 3 t) = _
  rw [after0_3]
  unfold out0_3
  rw [View.canon_unit_zero hzLinA]
  simp only [View.ld_unit_zero (S := S2000x128) hzLinA, View.ld_unit_zero (S := S128x128) hzLinA, View.ld_unit_zero (S := S2000x1) hzLinA]
  rw [linPay0_eq]
  exact blkLin0 t _ _ _

/-- Region 0's whole output array after its run: the scaled product of the features, the weight and the factors as the
    region finds them. -/
theorem lin0 (c : Dev nD) :
    (dat0 (F := Ideal) V c).arrAt 3 cfg0.N = Cert.Spec.linScaled (V c main_arg0) (V c main_v14) (V c main_v12) :=
  (dat0 (F := Ideal) V c).arrAt_eq_of_cover 3 _ (fun t _ => flushed0 V c t) cover0

/-- What point `t` of region 2 writes back is block `t` of the scaled product of the arrays the region finds. -/
theorem flushed2 (c : Dev nD) (t : Fin cfg2.N) :
    (dat2 (F := Ideal) V c).flushed 3 t
      = ((cfg2.win 3).blk t).view.read (Elt Ideal) (Cert.Spec.linScaled (V c main_v42) (V c main_v44) (V c main_v12)) := by
  show (cfg2.win 3).cut (grid2.coords t) ((dat2 (F := Ideal) V c).after 3 t) = _
  rw [after2_3]
  unfold out2_3
  rw [View.canon_unit_zero hzLinA]
  simp only [View.ld_unit_zero (S := S2000x128) hzLinA, View.ld_unit_zero (S := S128x128) hzLinA, View.ld_unit_zero (S := S2000x1) hzLinA]
  rw [linPay2_eq]
  exact blkLin2 t _ _ _

/-- Region 2's whole output array after its run: the scaled product of the features, the weight and the factors as the
    region finds them. -/
theorem lin2 (c : Dev nD) :
    (dat2 (F := Ideal) V c).arrAt 3 cfg2.N = Cert.Spec.linScaled (V c main_v42) (V c main_v44) (V c main_v12) :=
  (dat2 (F := Ideal) V c).arrAt_eq_of_cover 3 _ (fun t _ => flushed2 V c t) cover2

/-- What point `t` of region 4 writes back is block `t` of the scaled product of the arrays the region finds. -/
theorem flushed4 (c : Dev nD) (t : Fin cfg4.N) :
    (dat4 (F := Ideal) V c).flushed 3 t
      = ((cfg4.win 3).blk t).view.read (Elt Ideal) (Cert.Spec.linScaled (V c main_v72) (V c main_v74) (V c main_v12)) := by
  show (cfg4.win 3).cut (grid4.coords t) ((dat4 (F := Ideal) V c).after 3 t) = _
  rw [after4_3]
  unfold out4_3
  rw [View.canon_unit_zero hzLinA]
  simp only [View.ld_unit_zero (S := S2000x128) hzLinA, View.ld_unit_zero (S := S128x128) hzLinA, View.ld_unit_zero (S := S2000x1) hzLinA]
  rw [linPay4_eq]
  exact blkLin4 t _ _ _

/-- Region 4's whole output array after its run: the scaled product of the features, the weight and the factors as the
    region finds them. -/
theorem lin4 (c : Dev nD) :
    (dat4 (F := Ideal) V c).arrAt 3 cfg4.N = Cert.Spec.linScaled (V c main_v72) (V c main_v74) (V c main_v12) :=
  (dat4 (F := Ideal) V c).arrAt_eq_of_cover 3 _ (fun t _ => flushed4 V c t) cover4

/-- What point `t` of region 6 writes back is block `t` of the scaled product of the arrays the region finds. -/
theorem flushed6 (c : Dev nD) (t : Fin cfg6.N) :
    (dat6 (F := Ideal) V c).flushed 3 t
      = ((cfg6.win 3).blk t).view.read (Elt Ideal) (Cert.Spec.linScaled (V c main_v102) (V c main_v104) (V c main_v12)) := by
  show (cfg6.win 3).cut (grid6.coords t) ((dat6 (F := Ideal) V c).after 3 t) = _
  rw [after6_3]
  unfold out6_3
  rw [View.canon_unit_zero hzLinA]
  simp only [View.ld_unit_zero (S := S2000x128) hzLinA, View.ld_unit_zero (S := S128x128) hzLinA, View.ld_unit_zero (S := S2000x1) hzLinA]
  rw [linPay6_eq]
  exact blkLin6 t _ _ _

/-- Region 6's whole output array after its run: the scaled product of the features, the weight and the factors as the
    region finds them. -/
theorem lin6 (c : Dev nD) :
    (dat6 (F := Ideal) V c).arrAt 3 cfg6.N = Cert.Spec.linScaled (V c main_v102) (V c main_v104) (V c main_v12) :=
  (dat6 (F := Ideal) V c).arrAt_eq_of_cover 3 _ (fun t _ => flushed6 V c t) cover6

end Cert.KVal

end
-- ==== Proof.RegPostA.lean ====
/-
  The post regions 1, 3, value side: each region's output array after its run is the specification's `norm` of
  `sumOutside` of the arrays the region is entered with (collected sum, pre-scaled rows, per-node factors, bias; mean,
  variance, gain, shift). Each region runs over 25 points, each writing one block of 2000 rows; a block's payload is that
  function of the blocks it loads, the blocks restrict the arrays (the five row vectors whole), and the 25 output blocks
  tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzPostA : (![0, 0] : Fin 2 → Nat) = fun _ => 0 := funext fun a => by fin_cases a <;> rfl

/-- On the 25-point grid the row-block index of an index map `![arg0, 0]` at the `t`-th point is `t` (decided over the
    25 points; the regions' grids are this grid). -/
theorem gridRowPostA : ∀ t : Fin grid0.N, (BitVec.ofNat 32 ((grid0.coords t) 0).val).toNat = t.val :=
  (by decide +kernel : ∀ t : Fin grid0.N, _)

/-- The inverse root of a vector, read at an index. -/
theorem rsqrtApplyPostA {s : Shape} {φ : FTy} (a : FVec Ideal s φ) (i : s.Idx) : rsqrt a i = Ideal.rsqrt (a i) := rfl

/-- Region 1's block payload: the receiving row's factor times the sum of the collected block and the node's own
    pre-scaled block, plus the bias; then centred, scaled by the inverse root of the shifted variance and by the gain,
    shifted, and clamped below. The payload's fifth and sixth arguments are the variance row and the mean row. -/
theorem postPay1_eq (x0 : FVec Ideal S2000x128 .f32) (x1 : FVec Ideal S2000x128 .bf16) (x2 : FVec Ideal S2000x1 .f32)
    (x3 xv xm x6 x7 : FVec Ideal S1x128 .f32) :
    k1_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k1_pay1
  simp only [maximumf_apply, addf_apply, mulf_apply, subf_apply, extf_apply, rsqrtApplyPostA, broadcast_apply, shapeCast_self,
    broadcastTo_1b_ab_apply, MatmulRead.broadcastTo_a1_ab_apply]
  rfl

/-- Region 1's index maps at any point: the collected block, the pre-scaled block and the factor block move with the
    output block down the rows; the five row vectors' blocks and every column index are zero (each map is `![arg0, 0]`
    or `![0, 0]`). -/
theorem idx1 (t : Fin cfg1.N) :
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (1 : Fin 2) = 0 :=
  ⟨rfl, rfl, rfl, rfl, rfl, rfl, rfl, rfl, rfl, rfl, rfl, rfl, rfl, rfl, rfl, rfl, rfl⟩

/-- The row-block index of region 1's output at the `t`-th point is `t`. -/
theorem rowPt1 (t : Fin cfg1.N) : win1_8.index t (0 : Fin 2) = t.val := gridRowPostA t

/-- An index of region 1's output array is in point `t`'s block iff each coordinate is in the block's range. -/
theorem mem1 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v42).slice (win1_8.rect t)).set ↔ _
  rw [View.set_slice_whole, Rect.mem_set_unit]
  exact Iff.rfl

/-- Region 1's output blocks tile its array: row `v` is in the block of point `v / 2000`. -/
theorem cover1 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : (i 0).val / 2000 < cfg1.N := lt_of_lt_of_eq (by omega : (i 0).val / 2000 < 25) N_1.symm
  obtain ⟨t, ht⟩ : ∃ t : Fin cfg1.N, t.val = (i 0).val / 2000 := ⟨⟨_, hN⟩, rfl⟩
  have q0 : win1_8.index t (0 : Fin 2) = (i 0).val / 2000 := (rowPt1 t).trans ht
  have q1 : win1_8.index t (1 : Fin 2) = 0 := (idx1 t).2.2.2.2.2.2.2.2.2.2.2.2.2.2.2.2
  refine ⟨t, flush1_8 t, ?_⟩
  rw [mem1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega
/-- Block `t` of the normalised sum of the arrays is the normalised sum of the blocks at `t`: the block's rows of the
    collected array, of the pre-scaled array and of the factors, and the five whole row vectors. -/
theorem blkPost1 (t : Fin cfg1.N) (A0 A1 : S50000x128.Idx → EReal) (A2 : S50000x1.Idx → EReal)
    (A3 A4 A5 A6 A7 : S1x128.Idx → EReal) (eps zr : EReal) :
    (cfg1.win 8).cut (grid1.coords t) (Cert.Spec.norm (Cert.Spec.sumOutside
          (((cfg1.win 0).blk t).view.read (Elt Ideal) A0) (((cfg1.win 1).blk t).view.read (Elt Ideal) A1)
          (((cfg1.win 2).blk t).view.read (Elt Ideal) A2) (((cfg1.win 3).blk t).view.read (Elt Ideal) A3))
        (((cfg1.win 4).blk t).view.read (Elt Ideal) A4) (((cfg1.win 5).blk t).view.read (Elt Ideal) A5)
        (((cfg1.win 6).blk t).view.read (Elt Ideal) A6) (((cfg1.win 7).blk t).view.read (Elt Ideal) A7) eps zr)
      = ((cfg1.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx1 t
  funext y
  show max (((((A2 (((cfg1.win 2).blk t).view.emb (ix2 (y 0) (0 : Fin 1))) * (A0 (((cfg1.win 0).blk t).view.emb y) + A1 (((cfg1.win 1).blk t).view.emb y)) + A3 (((cfg1.win 3).blk t).view.emb (ix2 (0 : Fin 1) (y 1))))
          - A4 (((cfg1.win 4).blk t).view.emb (ix2 (0 : Fin 1) (y 1)))) * Ideal.rsqrt (A5 (((cfg1.win 5).blk t).view.emb (ix2 (0 : Fin 1) (y 1))) + eps)) * A6 (((cfg1.win 6).blk t).view.emb (ix2 (0 : Fin 1) (y 1)))) + A7 (((cfg1.win 7).blk t).view.emb (ix2 (0 : Fin 1) (y 1)))) zr
      = max (((((A2 (ix2 ((((cfg1.win 8).blk t).view.emb y) 0) (0 : Fin 1)) * (A0 (((cfg1.win 8).blk t).view.emb y) + A1 (((cfg1.win 8).blk t).view.emb y)) + A3 (ix2 (0 : Fin 1) ((((cfg1.win 8).blk t).view.emb y) 1)))
          - A4 (ix2 (0 : Fin 1) ((((cfg1.win 8).blk t).view.emb y) 1))) * Ideal.rsqrt (A5 (ix2 (0 : Fin 1) ((((cfg1.win 8).blk t).view.emb y) 1)) + eps)) * A6 (ix2 (0 : Fin 1) ((((cfg1.win 8).blk t).view.emb y) 1))) + A7 (ix2 (0 : Fin 1) ((((cfg1.win 8).blk t).view.emb y) 1))) zr
  have hy0 : (y 0).val < 2000 := (y 0).isLt
  have hy1 : (y 1).val < 128 := (y 1).isLt
  have h0 : ((cfg1.win 0).blk t).view.emb y = (((cfg1.win 8).blk t).view.emb y) := by
    funext a; apply Fin.ext
    match a with
    | ⟨0, _⟩ => show win1_0.index t (0 : Fin 2) * 2000 + 1 * (y 0).val = win1_8.index t (0 : Fin 2) * 2000 + 1 * (y 0).val; omega
    | ⟨1, _⟩ => show win1_0.index t (1 : Fin 2) * 128 + 1 * (y 1).val = win1_8.index t (1 : Fin 2) * 128 + 1 * (y 1).val; omega
  have h1 : ((cfg1.win 1).blk t).view.emb y = (((cfg1.win 8).blk t).view.emb y) := by
    funext a; apply Fin.ext
    match a with
    | ⟨0, _⟩ => show win1_1.index t (0 : Fin 2) * 2000 + 1 * (y 0).val = win1_8.index t (0 : Fin 2) * 2000 + 1 * (y 0).val; omega
    | ⟨1, _⟩ => show win1_1.index t (1 : Fin 2) * 128 + 1 * (y 1).val = win1_8.index t (1 : Fin 2) * 128 + 1 * (y 1).val; omega
  have h2 : ((cfg1.win 2).blk t).view.emb (ix2 (y 0) (0 : Fin 1)) = ix2 ((((cfg1.win 8).blk t).view.emb y) 0) (0 : Fin 1) := by
    funext a; apply Fin.ext
    match a with
    | ⟨0, _⟩ => show win1_2.index t (0 : Fin 2) * 2000 + 1 * (y 0).val = win1_8.index t (0 : Fin 2) * 2000 + 1 * (y 0).val; omega
    | ⟨1, _⟩ => show win1_2.index t (1 : Fin 2) * 1 + 1 * 0 = 0; omega
  have h3 : ((cfg1.win 3).blk t).view.emb (ix2 (0 : Fin 1) (y 1)) = ix2 (0 : Fin 1) ((((cfg1.win 8).blk t).view.emb y) 1) := by
    funext a; apply Fin.ext
    match a with
    | ⟨0, _⟩ => show win1_3.index t (0 : Fin 2) * 1 + 1 * 0 = 0; omega
    | ⟨1, _⟩ => show win1_3.index t (1 : Fin 2) * 128 + 1 * (y 1).val = win1_8.index t (1 : Fin 2) * 128 + 1 * (y 1).val; omega
  have h4 : ((cfg1.win 4).blk t).view.emb (ix2 (0 : Fin 1) (y 1)) = ix2 (0 : Fin 1) ((((cfg1.win 8).blk t).view.emb y) 1) := by
    funext a; apply Fin.ext
    match a with
    | ⟨0, _⟩ => show win1_4.index t (0 : Fin 2) * 1 + 1 * 0 = 0; omega
    | ⟨1, _⟩ => show win1_4.index t (1 : Fin 2) * 128 + 1 * (y 1).val = win1_8.index t (1 : Fin 2) * 128 + 1 * (y 1).val; omega
  have h5 : ((cfg1.win 5).blk t).view.emb (ix2 (0 : Fin 1) (y 1)) = ix2 (0 : Fin 1) ((((cfg1.win 8).blk t).view.emb y) 1) := by
    funext a; apply Fin.ext
    match a with
    | ⟨0, _⟩ => show win1_5.index t (0 : Fin 2) * 1 + 1 * 0 = 0; omega
    | ⟨1, _⟩ => show win1_5.index t (1 : Fin 2) * 128 + 1 * (y 1).val = win1_8.index t (1 : Fin 2) * 128 + 1 * (y 1).val; omega
  have h6 : ((cfg1.win 6).blk t).view.emb (ix2 (0 : Fin 1) (y 1)) = ix2 (0 : Fin 1) ((((cfg1.win 8).blk t).view.emb y) 1) := by
    funext a; apply Fin.ext
    match a with
    | ⟨0, _⟩ => show win1_6.index t (0 : Fin 2) * 1 + 1 * 0 = 0; omega
    | ⟨1, _⟩ => show win1_6.index t (1 : Fin 2) * 128 + 1 * (y 1).val = win1_8.index t (1 : Fin 2) * 128 + 1 * (y 1).val; omega
  have h7 : ((cfg1.win 7).blk t).view.emb (ix2 (0 : Fin 1) (y 1)) = ix2 (0 : Fin 1) ((((cfg1.win 8).blk t).view.emb y) 1) := by
    funext a; apply Fin.ext
    match a with
    | ⟨0, _⟩ => show win1_7.index t (0 : Fin 2) * 1 + 1 * 0 = 0; omega
    | ⟨1, _⟩ => show win1_7.index t (1 : Fin 2) * 128 + 1 * (y 1).val = win1_8.index t (1 : Fin 2) * 128 + 1 * (y 1).val; omega
  rw [h0, h1, h2, h3, h4, h5, h6, h7]
  rfl

/-- Region 3's block payload: the receiving row's factor times the sum of the collected block and the node's own
    pre-scaled block, plus the bias; then centred, scaled by the inverse root of the shifted variance and by the gain,
    shifted, and clamped below. The payload's fifth and sixth arguments are the variance row and the mean row. -/
theorem postPay3_eq (x0 : FVec Ideal S2000x128 .f32) (x1 : FVec Ideal S2000x128 .bf16) (x2 : FVec Ideal S2000x1 .f32)
    (x3 xv xm x6 x7 : FVec Ideal S1x128 .f32) :
    k3_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k3_pay1
  simp only [maximumf_apply, addf_apply, mulf_apply, subf_apply, extf_apply, rsqrtApplyPostA, broadcast_apply, shapeCast_self,
    broadcastTo_1b_ab_apply, MatmulRead.broadcastTo_a1_ab_apply]
  rfl

/-- Region 3's index maps at any point: the collected block, the pre-scaled block and the factor block move with the
    output block down the rows; the five row vectors' blocks and every column index are zero (each map is `![arg0, 0]`
    or `![0, 0]`). -/
theorem idx3 (t : Fin cfg3.N) :
    win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = win3_8.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (1 : Fin 2) = 0 :=
  ⟨rfl, rfl, rfl, rfl, rfl, rfl, rfl, rfl, rfl, rfl, rfl, rfl, rfl, rfl, rfl, rfl, rfl⟩

/-- The row-block index of region 3's output at the `t`-th point is `t`. -/
theorem rowPt3 (t : Fin cfg3.N) : win3_8.index t (0 : Fin 2) = t.val := gridRowPostA t

/-- An index of region 3's output array is in point `t`'s block iff each coordinate is in the block's range. -/
theorem mem3 (t : Fin cfg3.N) (i : S50000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_v72).slice (win3_8.rect t)).set ↔ _
  rw [View.set_slice_whole, Rect.mem_set_unit]
  exact Iff.rfl

/-- Region 3's output blocks tile its array: row `v` is in the block of point `v / 2000`. -/
theorem cover3 (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  have hN : (i 0).val / 2000 < cfg3.N := lt_of_lt_of_eq (by omega : (i 0).val / 2000 < 25) N_3.symm
  obtain ⟨t, ht⟩ : ∃ t : Fin cfg3.N, t.val = (i 0).val / 2000 := ⟨⟨_, hN⟩, rfl⟩
  have q0 : win3_8.index t (0 : Fin 2) = (i 0).val / 2000 := (rowPt3 t).trans ht
  have q1 : win3_8.index t (1 : Fin 2) = 0 := (idx3 t).2.2.2.2.2.2.2.2.2.2.2.2.2.2.2.2
  refine ⟨t, flush3_8 t, ?_⟩
  rw [mem3]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 128 ≤ (i 1).val ∧ (i 1).val < win3_8.index t (1 : Fin 2) * 128 + 128; omega
/-- Block `t` of the normalised sum of the arrays is the normalised sum of the blocks at `t`: the block's rows of the
    collected array, of the pre-scaled array and of the factors, and the five whole row vectors. -/
theorem blkPost3 (t : Fin cfg3.N) (A0 A1 : S50000x128.Idx → EReal) (A2 : S50000x1.Idx → EReal)
    (A3 A4 A5 A6 A7 : S1x128.Idx → EReal) (eps zr : EReal) :
    (cfg3.win 8).cut (grid3.coords t) (Cert.Spec.norm (Cert.Spec.sumOutside
          (((cfg3.win 0).blk t).view.read (Elt Ideal) A0) (((cfg3.win 1).blk t).view.read (Elt Ideal) A1)
          (((cfg3.win 2).blk t).view.read (Elt Ideal) A2) (((cfg3.win 3).blk t).view.read (Elt Ideal) A3))
        (((cfg3.win 4).blk t).view.read (Elt Ideal) A4) (((cfg3.win 5).blk t).view.read (Elt Ideal) A5)
        (((cfg3.win 6).blk t).view.read (Elt Ideal) A6) (((cfg3.win 7).blk t).view.read (Elt Ideal) A7) eps zr)
      = ((cfg3.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx3 t
  funext y
  show max (((((A2 (((cfg3.win 2).blk t).view.emb (ix2 (y 0) (0 : Fin 1))) * (A0 (((cfg3.win 0).blk t).view.emb y) + A1 (((cfg3.win 1).blk t).view.emb y)) + A3 (((cfg3.win 3).blk t).view.emb (ix2 (0 : Fin 1) (y 1))))
          - A4 (((cfg3.win 4).blk t).view.emb (ix2 (0 : Fin 1) (y 1)))) * Ideal.rsqrt (A5 (((cfg3.win 5).blk t).view.emb (ix2 (0 : Fin 1) (y 1))) + eps)) * A6 (((cfg3.win 6).blk t).view.emb (ix2 (0 : Fin 1) (y 1)))) + A7 (((cfg3.win 7).blk t).view.emb (ix2 (0 : Fin 1) (y 1)))) zr
      = max (((((A2 (ix2 ((((cfg3.win 8).blk t).view.emb y) 0) (0 : Fin 1)) * (A0 (((cfg3.win 8).blk t).view.emb y) + A1 (((cfg3.win 8).blk t).view.emb y)) + A3 (ix2 (0 : Fin 1) ((((cfg3.win 8).blk t).view.emb y) 1)))
          - A4 (ix2 (0 : Fin 1) ((((cfg3.win 8).blk t).view.emb y) 1))) * Ideal.rsqrt (A5 (ix2 (0 : Fin 1) ((((cfg3.win 8).blk t).view.emb y) 1)) + eps)) * A6 (ix2 (0 : Fin 1) ((((cfg3.win 8).blk t).view.emb y) 1))) + A7 (ix2 (0 : Fin 1) ((((cfg3.win 8).blk t).view.emb y) 1))) zr
  have hy0 : (y 0).val < 2000 := (y 0).isLt
  have hy1 : (y 1).val < 128 := (y 1).isLt
  have h0 : ((cfg3.win 0).blk t).view.emb y = (((cfg3.win 8).blk t).view.emb y) := by
    funext a; apply Fin.ext
    match a with
    | ⟨0, _⟩ => show win3_0.index t (0 : Fin 2) * 2000 + 1 * (y 0).val = win3_8.index t (0 : Fin 2) * 2000 + 1 * (y 0).val; omega
    | ⟨1, _⟩ => show win3_0.index t (1 : Fin 2) * 128 + 1 * (y 1).val = win3_8.index t (1 : Fin 2) * 128 + 1 * (y 1).val; omega
  have h1 : ((cfg3.win 1).blk t).view.emb y = (((cfg3.win 8).blk t).view.emb y) := by
    funext a; apply Fin.ext
    match a with
    | ⟨0, _⟩ => show win3_1.index t (0 : Fin 2) * 2000 + 1 * (y 0).val = win3_8.index t (0 : Fin 2) * 2000 + 1 * (y 0).val; omega
    | ⟨1, _⟩ => show win3_1.index t (1 : Fin 2) * 128 + 1 * (y 1).val = win3_8.index t (1 : Fin 2) * 128 + 1 * (y 1).val; omega
  have h2 : ((cfg3.win 2).blk t).view.emb (ix2 (y 0) (0 : Fin 1)) = ix2 ((((cfg3.win 8).blk t).view.emb y) 0) (0 : Fin 1) := by
    funext a; apply Fin.ext
    match a with
    | ⟨0, _⟩ => show win3_2.index t (0 : Fin 2) * 2000 + 1 * (y 0).val = win3_8.index t (0 : Fin 2) * 2000 + 1 * (y 0).val; omega
    | ⟨1, _⟩ => show win3_2.index t (1 : Fin 2) * 1 + 1 * 0 = 0; omega
  have h3 : ((cfg3.win 3).blk t).view.emb (ix2 (0 : Fin 1) (y 1)) = ix2 (0 : Fin 1) ((((cfg3.win 8).blk t).view.emb y) 1) := by
    funext a; apply Fin.ext
    match a with
    | ⟨0, _⟩ => show win3_3.index t (0 : Fin 2) * 1 + 1 * 0 = 0; omega
    | ⟨1, _⟩ => show win3_3.index t (1 : Fin 2) * 128 + 1 * (y 1).val = win3_8.index t (1 : Fin 2) * 128 + 1 * (y 1).val; omega
  have h4 : ((cfg3.win 4).blk t).view.emb (ix2 (0 : Fin 1) (y 1)) = ix2 (0 : Fin 1) ((((cfg3.win 8).blk t).view.emb y) 1) := by
    funext a; apply Fin.ext
    match a with
    | ⟨0, _⟩ => show win3_4.index t (0 : Fin 2) * 1 + 1 * 0 = 0; omega
    | ⟨1, _⟩ => show win3_4.index t (1 : Fin 2) * 128 + 1 * (y 1).val = win3_8.index t (1 : Fin 2) * 128 + 1 * (y 1).val; omega
  have h5 : ((cfg3.win 5).blk t).view.emb (ix2 (0 : Fin 1) (y 1)) = ix2 (0 : Fin 1) ((((cfg3.win 8).blk t).view.emb y) 1) := by
    funext a; apply Fin.ext
    match a with
    | ⟨0, _⟩ => show win3_5.index t (0 : Fin 2) * 1 + 1 * 0 = 0; omega
    | ⟨1, _⟩ => show win3_5.index t (1 : Fin 2) * 128 + 1 * (y 1).val = win3_8.index t (1 : Fin 2) * 128 + 1 * (y 1).val; omega
  have h6 : ((cfg3.win 6).blk t).view.emb (ix2 (0 : Fin 1) (y 1)) = ix2 (0 : Fin 1) ((((cfg3.win 8).blk t).view.emb y) 1) := by
    funext a; apply Fin.ext
    match a with
    | ⟨0, _⟩ => show win3_6.index t (0 : Fin 2) * 1 + 1 * 0 = 0; omega
    | ⟨1, _⟩ => show win3_6.index t (1 : Fin 2) * 128 + 1 * (y 1).val = win3_8.index t (1 : Fin 2) * 128 + 1 * (y 1).val; omega
  have h7 : ((cfg3.win 7).blk t).view.emb (ix2 (0 : Fin 1) (y 1)) = ix2 (0 : Fin 1) ((((cfg3.win 8).blk t).view.emb y) 1) := by
    funext a; apply Fin.ext
    match a with
    | ⟨0, _⟩ => show win3_7.index t (0 : Fin 2) * 1 + 1 * 0 = 0; omega
    | ⟨1, _⟩ => show win3_7.index t (1 : Fin 2) * 128 + 1 * (y 1).val = win3_8.index t (1 : Fin 2) * 128 + 1 * (y 1).val; omega
  rw [h0, h1, h2, h3, h4, h5, h6, h7]
  rfl

-- The buffer contents a region is entered with: every statement below holds for any such contents.
variable (V : (c : Dev nD) → (b : Ref sig .tc) → Buf (Elt Ideal) ((c : Thread nD τ).loc b))

/-- What point `t` of region 1 writes back is block `t` of the normalised sum of the arrays the region finds. -/
theorem flushed1 (c : Dev nD) (t : Fin cfg1.N) :
    (dat1 (F := Ideal) V c).flushed 8 t
      = ((cfg1.win 8).blk t).view.read (Elt Ideal) (Cert.Spec.norm (Cert.Spec.sumOutside (V c main_v26) (V c main_v15) (V c main_v12) (V c main_v37)) (V c main_v38) (V c main_v39) (V c main_v40) (V c main_v41)
          (Ideal.ofBits .f32 0x3727C5AC#32) (Ideal.ofBits .f32 0x00000000#32)) := by
  show (cfg1.win 8).cut (grid1.coords t) ((dat1 (F := Ideal) V c).after 8 t) = _
  rw [after1_8]
  unfold out1_8
  rw [View.canon_unit_zero hzPostA]
  simp only [View.ld_unit_zero (S := S2000x128) hzPostA, View.ld_unit_zero (S := S2000x1) hzPostA, View.ld_unit_zero (S := S1x128) hzPostA]
  rw [postPay1_eq]
  exact blkPost1 t _ _ _ _ _ _ _ _ _ _

/-- Region 1's whole output array after its run: the normalised sum of the collected array, the pre-scaled array, the
    factors, the bias, and the mean, variance, gain and shift rows as the region finds them. -/
theorem post1 (c : Dev nD) :
    (dat1 (F := Ideal) V c).arrAt 8 cfg1.N
      = Cert.Spec.norm (Cert.Spec.sumOutside (V c main_v26) (V c main_v15) (V c main_v12) (V c main_v37)) (V c main_v38) (V c main_v39) (V c main_v40) (V c main_v41)
          (Ideal.ofBits .f32 0x3727C5AC#32) (Ideal.ofBits .f32 0x00000000#32) :=
  (dat1 (F := Ideal) V c).arrAt_eq_of_cover 8 _ (fun t _ => flushed1 V c t) cover1

/-- What point `t` of region 3 writes back is block `t` of the normalised sum of the arrays the region finds. -/
theorem flushed3 (c : Dev nD) (t : Fin cfg3.N) :
    (dat3 (F := Ideal) V c).flushed 8 t
      = ((cfg3.win 8).blk t).view.read (Elt Ideal) (Cert.Spec.norm (Cert.Spec.sumOutside (V c main_v56) (V c main_v45) (V c main_v12) (V c main_v67)) (V c main_v68) (V c main_v69) (V c main_v70) (V c main_v71)
          (Ideal.ofBits .f32 0x3727C5AC#32) (Ideal.ofBits .f32 0x00000000#32)) := by
  show (cfg3.win 8).cut (grid3.coords t) ((dat3 (F := Ideal) V c).after 8 t) = _
  rw [after3_8]
  unfold out3_8
  rw [View.canon_unit_zero hzPostA]
  simp only [View.ld_unit_zero (S := S2000x128) hzPostA, View.ld_unit_zero (S := S2000x1) hzPostA, View.ld_unit_zero (S := S1x128) hzPostA]
  rw [postPay3_eq]
  exact blkPost3 t _ _ _ _ _ _ _ _ _ _

/-- Region 3's whole output array after its run: the normalised sum of the collected array, the pre-scaled array, the
    factors, the bias, and the mean, variance, gain and shift rows as the region finds them. -/
theorem post3 (c : Dev nD) :
    (dat3 (F := Ideal) V c).arrAt 8 cfg3.N
      = Cert.Spec.norm (Cert.Spec.sumOutside (V c main_v56) (V c main_v45) (V c main_v12) (V c main_v67)) (V c main_v68) (V c main_v69) (V c main_v70) (V c main_v71)
          (Ideal.ofBits .f32 0x3727C5AC#32) (Ideal.ofBits .f32 0x00000000#32) :=
  (dat3 (F := Ideal) V c).arrAt_eq_of_cover 8 _ (fun t _ => flushed3 V c t) cover3

end Cert.KVal

end
-- ==== Proof.KLayer01.lean ====
/-
  Rounds of the kernel program read whole: a round's three stages — its linear region, the host stretch that reads
  rows at the edges' starts and accumulates them at the edges' ends, its normalising region — composed are the
  specification's `roundKer` of the previous round's output, the round's slices of the stacked parameters, the edge
  list's two columns and the per-node factor.
-/
import proofs.«127734_j69286412419642_2_alg».proof.Proof.KBase
import proofs.«127734_j69286412419642_2_alg».proof.Proof.HostIdx
import proofs.«127734_j69286412419642_2_alg».proof.Proof.RegLinA
import proofs.«127734_j69286412419642_2_alg».proof.Proof.RegPostA

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

set_option maxHeartbeats 8000000 in
/-- Round 0 of the kernel program: its linear region, the host stretch that reads rows at the edges' starts and
    accumulates them at the edges' ends, and its normalising region, read as the specification's round with the
    receiving node's factor applied once to the whole sum. -/
theorem layer0 (c : Dev nD) :
    W4 m ρ c (Proc.devRef .tc main_v42) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (m ((c.tc : Thread nD τ).loc main_arg0)) (Cert.Spec.sliceW (m ((c.tc : Thread nD τ).loc main_arg3)) (0 : Fin 8)) (disCol (m ((c.tc : Thread nD τ).loc main_arg1)))
        (Cert.Spec.sliceRow (m ((c.tc : Thread nD τ).loc main_arg4)) (0 : Fin 8)) (Cert.Spec.sliceRow (m ((c.tc : Thread nD τ).loc main_arg7)) (0 : Fin 8)) (Cert.Spec.sliceRow (m ((c.tc : Thread nD τ).loc main_arg8)) (0 : Fin 8))
        (Cert.Spec.sliceRow (m ((c.tc : Thread nD τ).loc main_arg5)) (0 : Fin 8)) (Cert.Spec.sliceRow (m ((c.tc : Thread nD τ).loc main_arg6)) (0 : Fin 8)) := by
  have hW : V1 m ρ c main_v14 = Cert.Spec.sliceW (m ((c.tc : Thread nD τ).loc main_arg3)) (0 : Fin 8) := by
    rw [show V1 m ρ c main_v14 = W1 m ρ c (Proc.devRef .tc main_v14) from rfl, W1_v14 m ρ c]
    exact Cert.HostIdx.slice_W 0 (0 : Fin 8) rfl _ _ _
  have hH : V1 m ρ c main_arg0 = (m ((c.tc : Thread nD τ).loc main_arg0)) := by
    exact W1_arg0 m ρ c
  have hD1 : V1 m ρ c main_v12 = disCol (m ((c.tc : Thread nD τ).loc main_arg1)) :=
    W1_v12 m ρ c
  have hT : W2 m ρ c (Proc.devRef .tc main_v15) = Cert.Spec.linScaled (m ((c.tc : Thread nD τ).loc main_arg0)) (Cert.Spec.sliceW (m ((c.tc : Thread nD τ).loc main_arg3)) (0 : Fin 8)) (disCol (m ((c.tc : Thread nD τ).loc main_arg1))) := by
    refine ((W2_arr m ρ c 3).trans (lin0 (V1 m ρ) c)).trans ?_
    rw [hW, hH, hD1]
  have hT' : V3 m ρ c main_v15 = W2 m ρ c (Proc.devRef .tc main_v15) := by
    show StableHlo.after hostOps1 (W2 m ρ c) (Proc.devRef .tc main_v15) = _
    after_results
  have hAgg : V3 m ρ c main_v26 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W2 m ρ c (Proc.devRef .tc main_v15)) := by
    show StableHlo.after hostOps1 (W2 m ρ c) (Proc.devRef .tc main_v26) = _
    after_results
    rw [to1_2 m ρ c main_v1 (by decide), to1_2 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V3 m ρ c main_v37 = Cert.Spec.sliceRow (m ((c.tc : Thread nD τ).loc main_arg4)) (0 : Fin 8) := by
    show StableHlo.after hostOps1 (W2 m ρ c) (Proc.devRef .tc main_v37) = _
    after_results
    rw [to1_2 m ρ c main_arg4 (by decide), W1_arg4 m ρ c]
    exact Cert.HostIdx.slice_row 0 (0 : Fin 8) rfl _ _ _ _
  have hRm : V3 m ρ c main_v38 = Cert.Spec.sliceRow (m ((c.tc : Thread nD τ).loc main_arg7)) (0 : Fin 8) := by
    show StableHlo.after hostOps1 (W2 m ρ c) (Proc.devRef .tc main_v38) = _
    after_results
    rw [to1_2 m ρ c main_arg7 (by decide), W1_arg7 m ρ c]
    exact Cert.HostIdx.slice_row 0 (0 : Fin 8) rfl _ _ _ _
  have hRv : V3 m ρ c main_v39 = Cert.Spec.sliceRow (m ((c.tc : Thread nD τ).loc main_arg8)) (0 : Fin 8) := by
    show StableHlo.after hostOps1 (W2 m ρ c) (Proc.devRef .tc main_v39) = _
    after_results
    rw [to1_2 m ρ c main_arg8 (by decide), W1_arg8 m ρ c]
    exact Cert.HostIdx.slice_row 0 (0 : Fin 8) rfl _ _ _ _
  have hG : V3 m ρ c main_v40 = Cert.Spec.sliceRow (m ((c.tc : Thread nD τ).loc main_arg5)) (0 : Fin 8) := by
    show StableHlo.after hostOps1 (W2 m ρ c) (Proc.devRef .tc main_v40) = _
    after_results
    rw [to1_2 m ρ c main_arg5 (by decide), W1_arg5 m ρ c]
    exact Cert.HostIdx.slice_row 0 (0 : Fin 8) rfl _ _ _ _
  have hBt : V3 m ρ c main_v41 = Cert.Spec.sliceRow (m ((c.tc : Thread nD τ).loc main_arg6)) (0 : Fin 8) := by
    show StableHlo.after hostOps1 (W2 m ρ c) (Proc.devRef .tc main_v41) = _
    after_results
    rw [to1_2 m ρ c main_arg6 (by decide), W1_arg6 m ρ c]
    exact Cert.HostIdx.slice_row 0 (0 : Fin 8) rfl _ _ _ _
  have hD3 : V3 m ρ c main_v12 = disCol (m ((c.tc : Thread nD τ).loc main_arg1)) :=
    (to1_3 m ρ c main_v12 (by decide)).trans (W1_v12 m ρ c)
  refine ((W4_arr m ρ c 8).trans (post1 (V3 m ρ) c)).trans ?_
  rw [hAgg, hT', hD3, hB, hRm, hRv, hG, hBt, hT]
  rfl

set_option maxHeartbeats 8000000 in
/-- Round 1 of the kernel program: its linear region, the host stretch that reads rows at the edges' starts and
    accumulates them at the edges' ends, and its normalising region, read as the specification's round with the
    receiving node's factor applied once to the whole sum. -/
theorem layer1 (c : Dev nD) :
    W8 m ρ c (Proc.devRef .tc main_v72) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W4 m ρ c (Proc.devRef .tc main_v42)) (Cert.Spec.sliceW (m ((c.tc : Thread nD τ).loc main_arg3)) (1 : Fin 8)) (disCol (m ((c.tc : Thread nD τ).loc main_arg1)))
        (Cert.Spec.sliceRow (m ((c.tc : Thread nD τ).loc main_arg4)) (1 : Fin 8)) (Cert.Spec.sliceRow (m ((c.tc : Thread nD τ).loc main_arg7)) (1 : Fin 8)) (Cert.Spec.sliceRow (m ((c.tc : Thread nD τ).loc main_arg8)) (1 : Fin 8))
        (Cert.Spec.sliceRow (m ((c.tc : Thread nD τ).loc main_arg5)) (1 : Fin 8)) (Cert.Spec.sliceRow (m ((c.tc : Thread nD τ).loc main_arg6)) (1 : Fin 8)) := by
  have hW : V5 m ρ c main_v44 = Cert.Spec.sliceW (m ((c.tc : Thread nD τ).loc main_arg3)) (1 : Fin 8) := by
    show StableHlo.after hostOps2 (W4 m ρ c) (Proc.devRef .tc main_v44) = _
    after_results
    rw [to1_4 m ρ c main_arg3 (by decide), W1_arg3 m ρ c]
    exact Cert.HostIdx.slice_W 1 (1 : Fin 8) rfl _ _ _
  have hH : V5 m ρ c main_v42 = (W4 m ρ c (Proc.devRef .tc main_v42)) := by
    show StableHlo.after hostOps2 (W4 m ρ c) (Proc.devRef .tc main_v42) = _
    after_results
  have hD1 : V5 m ρ c main_v12 = disCol (m ((c.tc : Thread nD τ).loc main_arg1)) :=
    (to1_5 m ρ c main_v12 (by decide)).trans (W1_v12 m ρ c)
  have hT : W6 m ρ c (Proc.devRef .tc main_v45) = Cert.Spec.linScaled (W4 m ρ c (Proc.devRef .tc main_v42)) (Cert.Spec.sliceW (m ((c.tc : Thread nD τ).loc main_arg3)) (1 : Fin 8)) (disCol (m ((c.tc : Thread nD τ).loc main_arg1))) := by
    refine ((W6_arr m ρ c 3).trans (lin2 (V5 m ρ) c)).trans ?_
    rw [hW, hH, hD1]
  have hT' : V7 m ρ c main_v45 = W6 m ρ c (Proc.devRef .tc main_v45) := by
    show StableHlo.after hostOps3 (W6 m ρ c) (Proc.devRef .tc main_v45) = _
    after_results
  have hAgg : V7 m ρ c main_v56 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W6 m ρ c (Proc.devRef .tc main_v45)) := by
    show StableHlo.after hostOps3 (W6 m ρ c) (Proc.devRef .tc main_v56) = _
    after_results
    rw [to1_6 m ρ c main_v1 (by decide), to1_6 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V7 m ρ c main_v67 = Cert.Spec.sliceRow (m ((c.tc : Thread nD τ).loc main_arg4)) (1 : Fin 8) := by
    show StableHlo.after hostOps3 (W6 m ρ c) (Proc.devRef .tc main_v67) = _
    after_results
    rw [to1_6 m ρ c main_arg4 (by decide), W1_arg4 m ρ c]
    exact Cert.HostIdx.slice_row 1 (1 : Fin 8) rfl _ _ _ _
  have hRm : V7 m ρ c main_v68 = Cert.Spec.sliceRow (m ((c.tc : Thread nD τ).loc main_arg7)) (1 : Fin 8) := by
    show StableHlo.after hostOps3 (W6 m ρ c) (Proc.devRef .tc main_v68) = _
    after_results
    rw [to1_6 m ρ c main_arg7 (by decide), W1_arg7 m ρ c]
    exact Cert.HostIdx.slice_row 1 (1 : Fin 8) rfl _ _ _ _
  have hRv : V7 m ρ c main_v69 = Cert.Spec.sliceRow (m ((c.tc : Thread nD τ).loc main_arg8)) (1 : Fin 8) := by
    show StableHlo.after hostOps3 (W6 m ρ c) (Proc.devRef .tc main_v69) = _
    after_results
    rw [to1_6 m ρ c main_arg8 (by decide), W1_arg8 m ρ c]
    exact Cert.HostIdx.slice_row 1 (1 : Fin 8) rfl _ _ _ _
  have hG : V7 m ρ c main_v70 = Cert.Spec.sliceRow (m ((c.tc : Thread nD τ).loc main_arg5)) (1 : Fin 8) := by
    show StableHlo.after hostOps3 (W6 m ρ c) (Proc.devRef .tc main_v70) = _
    after_results
    rw [to1_6 m ρ c main_arg5 (by decide), W1_arg5 m ρ c]
    exact Cert.HostIdx.slice_row 1 (1 : Fin 8) rfl _ _ _ _
  have hBt : V7 m ρ c main_v71 = Cert.Spec.sliceRow (m ((c.tc : Thread nD τ).loc main_arg6)) (1 : Fin 8) := by
    show StableHlo.after hostOps3 (W6 m ρ c) (Proc.devRef .tc main_v71) = _
    after_results
    rw [to1_6 m ρ c main_arg6 (by decide), W1_arg6 m ρ c]
    exact Cert.HostIdx.slice_row 1 (1 : Fin 8) rfl _ _ _ _
  have hD3 : V7 m ρ c main_v12 = disCol (m ((c.tc : Thread nD τ).loc main_arg1)) :=
    (to1_7 m ρ c main_v12 (by decide)).trans (W1_v12 m ρ c)
  refine ((W8_arr m ρ c 8).trans (post3 (V7 m ρ) c)).trans ?_
  rw [hAgg, hT', hD3, hB, hRm, hRv, hG, hBt, hT]
  rfl

end Cert.KVal

end
-- ==== Proof.RegPostB.lean ====
/-
  The post regions 5, 7, value side: each region's output array after its run is the specification's `norm` of
  `sumOutside` of the arrays the region is entered with (collected sum, pre-scaled rows, per-node factors, bias; mean,
  variance, gain, shift). Each region runs over 25 points, each writing one block of 2000 rows; a block's payload is that
  function of the blocks it loads, the blocks restrict the arrays (the five row vectors whole), and the 25 output blocks
  tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzPostB : (![0, 0] : Fin 2 → Nat) = fun _ => 0 := funext fun a => by fin_cases a <;> rfl

/-- On the 25-point grid the row-block index of an index map `![arg0, 0]` at the `t`-th point is `t` (decided over the
    25 points; the regions' grids are this grid). -/
theorem gridRowPostB : ∀ t : Fin grid0.N, (BitVec.ofNat 32 ((grid0.coords t) 0).val).toNat = t.val :=
  (by decide +kernel : ∀ t : Fin grid0.N, _)

/-- The inverse root of a vector, read at an index. -/
theorem rsqrtApplyPostB {s : Shape} {φ : FTy} (a : FVec Ideal s φ) (i : s.Idx) : rsqrt a i = Ideal.rsqrt (a i) := rfl

/-- Region 5's block payload: the receiving row's factor times the sum of the collected block and the node's own
    pre-scaled block, plus the bias; then centred, scaled by the inverse root of the shifted variance and by the gain,
    shifted, and clamped below. The payload's fifth and sixth arguments are the variance row and the mean row. -/
theorem postPay5_eq (x0 : FVec Ideal S2000x128 .f32) (x1 : FVec Ideal S2000x128 .bf16) (x2 : FVec Ideal S2000x1 .f32)
    (x3 xv xm x6 x7 : FVec Ideal S1x128 .f32) :
    k5_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k5_pay1
  simp only [maximumf_apply, addf_apply, mulf_apply, subf_apply, extf_apply, rsqrtApplyPostB, broadcast_apply, shapeCast_self,
    broadcastTo_1b_ab_apply, MatmulRead.broadcastTo_a1_ab_apply]
  rfl

/-- Region 5's index maps at any point: the collected block, the pre-scaled block and the factor block move with the
    output block down the rows; the five row vectors' blocks and every column index are zero (each map is `![arg0, 0]`
    or `![0, 0]`). -/
theorem idx5 (t : Fin cfg5.N) :
    win5_0.index t (0 : Fin 2) = win5_8.index t (0 : Fin 2) ∧ win5_0.index t (1 : Fin 2) = 0
    ∧ win5_1.index t (0 : Fin 2) = win5_8.index t (0 : Fin 2) ∧ win5_1.index t (1 : Fin 2) = 0
    ∧ win5_2.index t (0 : Fin 2) = win5_8.index t (0 : Fin 2) ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (1 : Fin 2) = 0 :=
  ⟨rfl, rfl, rfl, rfl, rfl, rfl, rfl, rfl, rfl, rfl, rfl, rfl, rfl, rfl, rfl, rfl, rfl⟩

/-- The row-block index of region 5's output at the `t`-th point is `t`. -/
theorem rowPt5 (t : Fin cfg5.N) : win5_8.index t (0 : Fin 2) = t.val := gridRowPostB t

/-- An index of region 5's output array is in point `t`'s block iff each coordinate is in the block's range. -/
theorem mem5 (t : Fin cfg5.N) (i : S50000x128.Idx) :
    i ∈ ((cfg5.win 8).blk t).view.set ↔ ∀ a : Fin 2, win5_8.index t a * S2000x128.size a ≤ (i a).val ∧ (i a).val < win5_8.index t a * S2000x128.size a + S2000x128.size a := by
  show i ∈ ((View.whole main_v102).slice (win5_8.rect t)).set ↔ _
  rw [View.set_slice_whole, Rect.mem_set_unit]
  exact Iff.rfl

/-- Region 5's output blocks tile its array: row `v` is in the block of point `v / 2000`. -/
theorem cover5 (i : S50000x128.Idx) : ∃ t : Fin cfg5.N, (cfg5.win 8).flush t = true ∧ i ∈ ((cfg5.win 8).blk t).view.set := by
  have hi0 : (i 0).val < 50000 := (i 0).isLt
  have hi1 : (i 1).val < 128 := (i 1).isLt
  have hN : (i 0).val / 2000 < cfg5.N := lt_of_lt_of_eq (by omega : (i 0).val / 2000 < 25) N_5.symm
  obtain ⟨t, ht⟩ : ∃ t : Fin cfg5.N, t.val = (i 0).val / 2000 := ⟨⟨_, hN⟩, rfl⟩
  have q0 : win5_8.index t (0 : Fin 2) = (i 0).val / 2000 := (rowPt5 t).trans ht
  have q1 : win5_8.index t (1 : Fin 2) = 0 := (idx5 t).2.2.2.2.2.2.2.2.2.2.2.2.2.2.2.2
  refine ⟨t, flush5_8 t, ?_⟩
  rw [mem5]
  intro a
  match a with
  | ⟨0, _⟩ => show win5_8.index t (0 : Fin 2) * 2000 ≤ (i 0).val ∧ (i 0).val < win5_8.index t (0 : Fin 2) * 2000 + 2000; omega
  | ⟨1, _⟩ => show win5_8.index t (1 : Fin 2) * 128 ≤ (i 1).val ∧ (i 1).val < win5_8.index t (1 : Fin 2) * 128 + 128; omega
set_option maxHeartbeats 1000000 in
/-- Block `t` of the normalised sum of the arrays is the normalised sum of the blocks at `t`: the block's rows of the
    collected array, of the pre-scaled array and of the factors, and the five whole row vectors. -/
theorem blkPost5 (t : Fin cfg5.N) (A0 A1 : S50000x128.Idx → EReal) (A2 : S50000x1.Idx → EReal)
    (A3 A4 A5 A6 A7 : S1x128.Idx → EReal) (eps zr : EReal) :
    (cfg5.win 8).cut (grid5.coords t) (Cert.Spec.norm (Cert.Spec.sumOutside
          (((cfg5.win 0).blk t).view.read (Elt Ideal) A0) (((cfg5.win 1).blk t).view.read (Elt Ideal) A1)
          (((cfg5.win 2).blk t).view.read (Elt Ideal) A2) (((cfg5.win 3).blk t).view.read (Elt Ideal) A3))
        (((cfg5.win 4).blk t).view.read (Elt Ideal) A4) (((cfg5.win 5).blk t).view.read (Elt Ideal) A5)
        (((cfg5.win 6).blk t).view.read (Elt Ideal) A6) (((cfg5.win 7).blk t).view.read (Elt Ideal) A7) eps zr)
      = ((cfg5.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx5 t
  funext y
  show max (((((A2 (((cfg5.win 2).blk t).view.emb (ix2 (y 0) (0 : Fin 1))) * (A0 (((cfg5.win 0).blk t).view.emb y) + A1 (((cfg5.win 1).blk t).view.emb y)) + A3 (((cfg5.win 3).blk t).view.emb (ix2 (0 : Fin 1) (y 1))))
          - A4 (((cfg5.win 4).blk t).view.emb (ix2 (0 : Fin 1) (y 1)))) * Ideal.rsqrt (A5 (((cfg5.win 5).blk t).view.emb (ix2 (0 : Fin 1) (y 1))) + eps)) * A6 (((cfg5.win 6).blk t).view.emb (ix2 (0 : Fin 1) (y 1)))) + A7 (((cfg5.win 7).blk t).view.emb (ix2 (0 : Fin 1) (y 1)))) zr
      = max (((((A2 (ix2 ((((cfg5.win 8).blk t).view.emb y) 0) (0 : Fin 1)) * (A0 (((cfg5.win 8).blk t).view.emb y) + A1 (((cfg5.win 8).blk t).view.emb y)) + A3 (ix2 (0 : Fin 1) ((((cfg5.win 8).blk t).view.emb y) 1)))
          - A4 (ix2 (0 : Fin 1) ((((cfg5.win 8).blk t).view.emb y) 1))) * Ideal.rsqrt (A5 (ix2 (0 : Fin 1) ((((cfg5.win 8).blk t).view.emb y) 1)) + eps)) * A6 (ix2 (0 : Fin 1) ((((cfg5.win 8).blk t).view.emb y) 1))) + A7 (ix2 (0 : Fin 1) ((((cfg5.win 8).blk t).view.emb y) 1))) zr
  have hy0 : (y 0).val < 2000 := (y 0).isLt
  have hy1 : (y 1).val < 128 := (y 1).isLt
  have h0 : ((cfg5.win 0).blk t).view.emb y = (((cfg5.win 8).blk t).view.emb y) := by
    funext a; apply Fin.ext
    match a with
    | ⟨0, _⟩ => show win5_0.index t (0 : Fin 2) * 2000 + 1 * (y 0).val = win5_8.index t (0 : Fin 2) * 2000 + 1 * (y 0).val; omega
    | ⟨1, _⟩ => show win5_0.index t (1 : Fin 2) * 128 + 1 * (y 1).val = win5_8.index t (1 : Fin 2) * 128 + 1 * (y 1).val; omega
  have h1 : ((cfg5.win 1).blk t).view.emb y = (((cfg5.win 8).blk t).view.emb y) := by
    funext a; apply Fin.ext
    match a with
    | ⟨0, _⟩ => show win5_1.index t (0 : Fin 2) * 2000 + 1 * (y 0).val = win5_8.index t (0 : Fin 2) * 2000 + 1 * (y 0).val; omega
    | ⟨1, _⟩ => show win5_1.index t (1 : Fin 2) * 128 + 1 * (y 1).val = win5_8.index t (1 : Fin 2) * 128 + 1 * (y 1).val; omega
  have h2 : ((cfg5.win 2).blk t).view.emb (ix2 (y 0) (0 : Fin 1)) = ix2 ((((cfg5.win 8).blk t).view.emb y) 0) (0 : Fin 1) := by
    funext a; apply Fin.ext
    match a with
    | ⟨0, _⟩ => show win5_2.index t (0 : Fin 2) * 2000 + 1 * (y 0).val = win5_8.index t (0 : Fin 2) * 2000 + 1 * (y 0).val; omega
    | ⟨1, _⟩ => show win5_2.index t (1 : Fin 2) * 1 + 1 * 0 = 0; omega
  have h3 : ((cfg5.win 3).blk t).view.emb (ix2 (0 : Fin 1) (y 1)) = ix2 (0 : Fin 1) ((((cfg5.win 8).blk t).view.emb y) 1) := by
    funext a; apply Fin.ext
    match a with
    | ⟨0, _⟩ => show win5_3.index t (0 : Fin 2) * 1 + 1 * 0 = 0; omega
    | ⟨1, _⟩ => show win5_3.index t (1 : Fin 2) * 128 + 1 * (y 1).val = win5_8.index t (1 : Fin 2) * 128 + 1 * (y 1).val; omega
  have h4 : ((cfg5.win 4).blk t).view.emb (ix2 (0 : Fin 1) (y 1)) = ix2 (0 : Fin 1) ((((cfg5.win 8).blk t).view.emb y) 1) := by
    funext a; apply Fin.ext
    match a with
    | ⟨0, _⟩ => show win5_4.index t (0 : Fin 2) * 1 + 1 * 0 = 0; omega
    | ⟨1, _⟩ => show win5_4.index t (1 : Fin 2) * 128 + 1 * (y 1).val = win5_8.index t (1 : Fin 2) * 128 + 1 * (y 1).val; omega
  have h5 : ((cfg5.win 5).blk t).view.emb (ix2 (0 : Fin 1) (y 1)) = ix2 (0 : Fin 1) ((((cfg5.win 8).blk t).view.emb y) 1) := by
    funext a; apply Fin.ext
    match a with
    | ⟨0, _⟩ => show win5_5.index t (0 : Fin 2) * 1 + 1 * 0 = 0; omega
    | ⟨1, _⟩ => show win5_5.index t (1 : Fin 2) * 128 + 1 * (y 1).val = win5_8.index t (1 : Fin 2) * 128 + 1 * (y 1).val; omega
  have h6 : ((cfg5.win 6).blk t).view.emb (ix2 (0 : Fin 1) (y 1)) = ix2 (0 : Fin 1) ((((cfg5.win 8).blk t).view.emb y) 1) := by
    funext a; apply Fin.ext
    match a with
    | ⟨0, _⟩ => show win5_6.index t (0 : Fin 2) * 1 + 1 * 0 = 0; omega
    | ⟨1, _⟩ => show win5_6.index t (1 : Fin 2) * 128 + 1 * (y 1).val = win5_8.index t (1 : Fin 2) * 128 + 1 * (y 1).val; omega
  have h7 : ((cfg5.win 7).blk t).view.emb (ix2 (0 : Fin 1) (y 1)) = ix2 (0 : Fin 1) ((((cfg5.win 8).blk t).view.emb y) 1) := by
    funext a; apply Fin.ext
    match a with
    | ⟨0, _⟩ => show win5_7.index t (0 : Fin 2) * 1 + 1 * 0 = 0; omega
    | ⟨1, _⟩ => show win5_7.index t (1 : Fin 2) * 128 + 1 * (y 1).val = win5_8.index t (1 : Fin 2) * 128 + 1 * (y 1).val; omega
  rw [h0, h1, h2, h3, h4, h5, h6, h7]
  rfl

/-- Region 7's block payload: the receiving row's factor times the sum of the collected block and the node's own
    pre-scaled block, plus the bias; then centred, scaled by the inverse root of the shifted variance and by the gain,
    shifted, and clamped below. The payload's fifth and sixth arguments are the variance row and the mean row. -/
theorem postPay7_eq (x0 : FVec Ideal S2000x128 .f32) (x1 : FVec Ideal S2000x128 .bf16) (x2 : FVec Ideal S2000x1 .f32)
    (x3 xv xm x6 x7 : FVec Ideal S1x128 .f32) :
    k7_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k7_pay1
  simp only [maximumf_apply, addf_apply, mulf_apply, subf_apply, extf_apply, rsqrtApplyPostB, broadcast_apply, shapeCast_self,
    broadcastTo_1b_ab_apply, MatmulRead.broadcastTo_a1_ab_apply]
  rfl

/-- Region 7's index maps at any point: the collected block, the pre-scaled block and the factor block move with the
    output block down the rows; the five row vectors' blocks and every column index are zero (each map is `![arg0, 0]`
    or `![0, 0]`). -/
theorem idx7 (t : Fin cfg7.N) :
    win7_0.index t (0 : Fin 2) = win7_8.index t (0 : Fin 2) ∧ win7_0.index t (1 : Fin 2) = 0
    ∧ win7_1.index t (0 : Fin 2) = win7_8.index t (0 : Fin 2) ∧ win7_1.index t (1 : Fin 2) = 0
    ∧ win7_2.index t (0 : Fin 2) = win7_8.index t (0 : Fin 2) ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (1 : Fin 2) = 0 :=
  ⟨rfl, rfl, rfl, rfl, rfl, rfl, rfl, rfl, rfl, rfl, rfl, rfl, rfl, rfl, rfl, rfl, rfl⟩

/-- The row-block index of region 7's output at the `t`-th point is `t`. -/
theorem rowPt7 (t : Fin cfg7.N) : win7_8.index t (0 : Fin 2) = t.val := gridRowPostB t

/-- An index of region 7's output array is in point `t`'s block iff each coordinate is in the block's range. -/
theorem mem7 (t : Fin cfg7.N) (i : S50000x128.Idx) :
    i ∈ ((cfg7.win 8).blk t).view.set ↔ ∀ a : Fin 2, win7_8.index t a * S2000x128.size a ≤ (i a).val ∧ (i a).val < win7_8.index t a * S2000x128.size a + S2000x128.size a := by
  show i ∈ ((View.whole main_v132).slice (win7_8.rect t)).set ↔ _
  rw [View.set_slice_whole, Rect.mem_set_unit]
  exact Iff.rfl

/-- Region 7's output blocks tile its array: row `v` is in the block of point `v / 2000`. -/
theorem cover7 (i : S50000x128.Idx) : ∃ t : Fin cfg7.N, (cfg7.win 8).flush t = true ∧ i ∈ ((cfg7.win 8).blk t).view.set := by
  have hi0 : (i 0).val < 50000 := (i 0).isLt
  have hi1 : (i 1).val < 128 := (i 1).isLt
  have hN : (i 0).val / 2000 < cfg7.N := lt_of_lt_of_eq (by omega : (i 0).val / 2000 < 25) N_7.symm
  obtain ⟨t, ht⟩ : ∃ t : Fin cfg7.N, t.val = (i 0).val / 2000 := ⟨⟨_, hN⟩, rfl⟩
  have q0 : win7_8.index t (0 : Fin 2) = (i 0).val / 2000 := (rowPt7 t).trans ht
  have q1 : win7_8.index t (1 : Fin 2) = 0 := (idx7 t).2.2.2.2.2.2.2.2.2.2.2.2.2.2.2.2
  refine ⟨t, flush7_8 t, ?_⟩
  rw [mem7]
  intro a
  match a with
  | ⟨0, _⟩ => show win7_8.index t (0 : Fin 2) * 2000 ≤ (i 0).val ∧ (i 0).val < win7_8.index t (0 : Fin 2) * 2000 + 2000; omega
  | ⟨1, _⟩ => show win7_8.index t (1 : Fin 2) * 128 ≤ (i 1).val ∧ (i 1).val < win7_8.index t (1 : Fin 2) * 128 + 128; omega
set_option maxHeartbeats 1000000 in
/-- Block `t` of the normalised sum of the arrays is the normalised sum of the blocks at `t`: the block's rows of the
    collected array, of the pre-scaled array and of the factors, and the five whole row vectors. -/
theorem blkPost7 (t : Fin cfg7.N) (A0 A1 : S50000x128.Idx → EReal) (A2 : S50000x1.Idx → EReal)
    (A3 A4 A5 A6 A7 : S1x128.Idx → EReal) (eps zr : EReal) :
    (cfg7.win 8).cut (grid7.coords t) (Cert.Spec.norm (Cert.Spec.sumOutside
          (((cfg7.win 0).blk t).view.read (Elt Ideal) A0) (((cfg7.win 1).blk t).view.read (Elt Ideal) A1)
          (((cfg7.win 2).blk t).view.read (Elt Ideal) A2) (((cfg7.win 3).blk t).view.read (Elt Ideal) A3))
        (((cfg7.win 4).blk t).view.read (Elt Ideal) A4) (((cfg7.win 5).blk t).view.read (Elt Ideal) A5)
        (((cfg7.win 6).blk t).view.read (Elt Ideal) A6) (((cfg7.win 7).blk t).view.read (Elt Ideal) A7) eps zr)
      = ((cfg7.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx7 t
  funext y
  show max (((((A2 (((cfg7.win 2).blk t).view.emb (ix2 (y 0) (0 : Fin 1))) * (A0 (((cfg7.win 0).blk t).view.emb y) + A1 (((cfg7.win 1).blk t).view.emb y)) + A3 (((cfg7.win 3).blk t).view.emb (ix2 (0 : Fin 1) (y 1))))
          - A4 (((cfg7.win 4).blk t).view.emb (ix2 (0 : Fin 1) (y 1)))) * Ideal.rsqrt (A5 (((cfg7.win 5).blk t).view.emb (ix2 (0 : Fin 1) (y 1))) + eps)) * A6 (((cfg7.win 6).blk t).view.emb (ix2 (0 : Fin 1) (y 1)))) + A7 (((cfg7.win 7).blk t).view.emb (ix2 (0 : Fin 1) (y 1)))) zr
      = max (((((A2 (ix2 ((((cfg7.win 8).blk t).view.emb y) 0) (0 : Fin 1)) * (A0 (((cfg7.win 8).blk t).view.emb y) + A1 (((cfg7.win 8).blk t).view.emb y)) + A3 (ix2 (0 : Fin 1) ((((cfg7.win 8).blk t).view.emb y) 1)))
          - A4 (ix2 (0 : Fin 1) ((((cfg7.win 8).blk t).view.emb y) 1))) * Ideal.rsqrt (A5 (ix2 (0 : Fin 1) ((((cfg7.win 8).blk t).view.emb y) 1)) + eps)) * A6 (ix2 (0 : Fin 1) ((((cfg7.win 8).blk t).view.emb y) 1))) + A7 (ix2 (0 : Fin 1) ((((cfg7.win 8).blk t).view.emb y) 1))) zr
  have hy0 : (y 0).val < 2000 := (y 0).isLt
  have hy1 : (y 1).val < 128 := (y 1).isLt
  have h0 : ((cfg7.win 0).blk t).view.emb y = (((cfg7.win 8).blk t).view.emb y) := by
    funext a; apply Fin.ext
    match a with
    | ⟨0, _⟩ => show win7_0.index t (0 : Fin 2) * 2000 + 1 * (y 0).val = win7_8.index t (0 : Fin 2) * 2000 + 1 * (y 0).val; omega
    | ⟨1, _⟩ => show win7_0.index t (1 : Fin 2) * 128 + 1 * (y 1).val = win7_8.index t (1 : Fin 2) * 128 + 1 * (y 1).val; omega
  have h1 : ((cfg7.win 1).blk t).view.emb y = (((cfg7.win 8).blk t).view.emb y) := by
    funext a; apply Fin.ext
    match a with
    | ⟨0, _⟩ => show win7_1.index t (0 : Fin 2) * 2000 + 1 * (y 0).val = win7_8.index t (0 : Fin 2) * 2000 + 1 * (y 0).val; omega
    | ⟨1, _⟩ => show win7_1.index t (1 : Fin 2) * 128 + 1 * (y 1).val = win7_8.index t (1 : Fin 2) * 128 + 1 * (y 1).val; omega
  have h2 : ((cfg7.win 2).blk t).view.emb (ix2 (y 0) (0 : Fin 1)) = ix2 ((((cfg7.win 8).blk t).view.emb y) 0) (0 : Fin 1) := by
    funext a; apply Fin.ext
    match a with
    | ⟨0, _⟩ => show win7_2.index t (0 : Fin 2) * 2000 + 1 * (y 0).val = win7_8.index t (0 : Fin 2) * 2000 + 1 * (y 0).val; omega
    | ⟨1, _⟩ => show win7_2.index t (1 : Fin 2) * 1 + 1 * 0 = 0; omega
  have h3 : ((cfg7.win 3).blk t).view.emb (ix2 (0 : Fin 1) (y 1)) = ix2 (0 : Fin 1) ((((cfg7.win 8).blk t).view.emb y) 1) := by
    funext a; apply Fin.ext
    match a with
    | ⟨0, _⟩ => show win7_3.index t (0 : Fin 2) * 1 + 1 * 0 = 0; omega
    | ⟨1, _⟩ => show win7_3.index t (1 : Fin 2) * 128 + 1 * (y 1).val = win7_8.index t (1 : Fin 2) * 128 + 1 * (y 1).val; omega
  have h4 : ((cfg7.win 4).blk t).view.emb (ix2 (0 : Fin 1) (y 1)) = ix2 (0 : Fin 1) ((((cfg7.win 8).blk t).view.emb y) 1) := by
    funext a; apply Fin.ext
    match a with
    | ⟨0, _⟩ => show win7_4.index t (0 : Fin 2) * 1 + 1 * 0 = 0; omega
    | ⟨1, _⟩ => show win7_4.index t (1 : Fin 2) * 128 + 1 * (y 1).val = win7_8.index t (1 : Fin 2) * 128 + 1 * (y 1).val; omega
  have h5 : ((cfg7.win 5).blk t).view.emb (ix2 (0 : Fin 1) (y 1)) = ix2 (0 : Fin 1) ((((cfg7.win 8).blk t).view.emb y) 1) := by
    funext a; apply Fin.ext
    match a with
    | ⟨0, _⟩ => show win7_5.index t (0 : Fin 2) * 1 + 1 * 0 = 0; omega
    | ⟨1, _⟩ => show win7_5.index t (1 : Fin 2) * 128 + 1 * (y 1).val = win7_8.index t (1 : Fin 2) * 128 + 1 * (y 1).val; omega
  have h6 : ((cfg7.win 6).blk t).view.emb (ix2 (0 : Fin 1) (y 1)) = ix2 (0 : Fin 1) ((((cfg7.win 8).blk t).view.emb y) 1) := by
    funext a; apply Fin.ext
    match a with
    | ⟨0, _⟩ => show win7_6.index t (0 : Fin 2) * 1 + 1 * 0 = 0; omega
    | ⟨1, _⟩ => show win7_6.index t (1 : Fin 2) * 128 + 1 * (y 1).val = win7_8.index t (1 : Fin 2) * 128 + 1 * (y 1).val; omega
  have h7 : ((cfg7.win 7).blk t).view.emb (ix2 (0 : Fin 1) (y 1)) = ix2 (0 : Fin 1) ((((cfg7.win 8).blk t).view.emb y) 1) := by
    funext a; apply Fin.ext
    match a with
    | ⟨0, _⟩ => show win7_7.index t (0 : Fin 2) * 1 + 1 * 0 = 0; omega
    | ⟨1, _⟩ => show win7_7.index t (1 : Fin 2) * 128 + 1 * (y 1).val = win7_8.index t (1 : Fin 2) * 128 + 1 * (y 1).val; omega
  rw [h0, h1, h2, h3, h4, h5, h6, h7]
  rfl

-- The buffer contents a region is entered with: every statement below holds for any such contents.
variable (V : (c : Dev nD) → (b : Ref sig .tc) → Buf (Elt Ideal) ((c : Thread nD τ).loc b))

/-- What point `t` of region 5 writes back is block `t` of the normalised sum of the arrays the region finds. -/
theorem flushed5 (c : Dev nD) (t : Fin cfg5.N) :
    (dat5 (F := Ideal) V c).flushed 8 t
      = ((cfg5.win 8).blk t).view.read (Elt Ideal) (Cert.Spec.norm (Cert.Spec.sumOutside (V c main_v86) (V c main_v75) (V c main_v12) (V c main_v97)) (V c main_v98) (V c main_v99) (V c main_v100) (V c main_v101)
          (Ideal.ofBits .f32 0x3727C5AC#32) (Ideal.ofBits .f32 0x00000000#32)) := by
  show (cfg5.win 8).cut (grid5.coords t) ((dat5 (F := Ideal) V c).after 8 t) = _
  rw [after5_8]
  unfold out5_8
  rw [View.canon_unit_zero hzPostB]
  simp only [View.ld_unit_zero (S := S2000x128) hzPostB, View.ld_unit_zero (S := S2000x1) hzPostB, View.ld_unit_zero (S := S1x128) hzPostB]
  rw [postPay5_eq]
  exact blkPost5 t _ _ _ _ _ _ _ _ _ _

/-- Region 5's whole output array after its run: the normalised sum of the collected array, the pre-scaled array, the
    factors, the bias, and the mean, variance, gain and shift rows as the region finds them. -/
theorem post5 (c : Dev nD) :
    (dat5 (F := Ideal) V c).arrAt 8 cfg5.N
      = Cert.Spec.norm (Cert.Spec.sumOutside (V c main_v86) (V c main_v75) (V c main_v12) (V c main_v97)) (V c main_v98) (V c main_v99) (V c main_v100) (V c main_v101)
          (Ideal.ofBits .f32 0x3727C5AC#32) (Ideal.ofBits .f32 0x00000000#32) :=
  (dat5 (F := Ideal) V c).arrAt_eq_of_cover 8 _ (fun t _ => flushed5 V c t) cover5

/-- What point `t` of region 7 writes back is block `t` of the normalised sum of the arrays the region finds. -/
theorem flushed7 (c : Dev nD) (t : Fin cfg7.N) :
    (dat7 (F := Ideal) V c).flushed 8 t
      = ((cfg7.win 8).blk t).view.read (Elt Ideal) (Cert.Spec.norm (Cert.Spec.sumOutside (V c main_v116) (V c main_v105) (V c main_v12) (V c main_v127)) (V c main_v128) (V c main_v129) (V c main_v130) (V c main_v131)
          (Ideal.ofBits .f32 0x3727C5AC#32) (Ideal.ofBits .f32 0x00000000#32)) := by
  show (cfg7.win 8).cut (grid7.coords t) ((dat7 (F := Ideal) V c).after 8 t) = _
  rw [after7_8]
  unfold out7_8
  rw [View.canon_unit_zero hzPostB]
  simp only [View.ld_unit_zero (S := S2000x128) hzPostB, View.ld_unit_zero (S := S2000x1) hzPostB, View.ld_unit_zero (S := S1x128) hzPostB]
  rw [postPay7_eq]
  exact blkPost7 t _ _ _ _ _ _ _ _ _ _

/-- Region 7's whole output array after its run: the normalised sum of the collected array, the pre-scaled array, the
    factors, the bias, and the mean, variance, gain and shift rows as the region finds them. -/
theorem post7 (c : Dev nD) :
    (dat7 (F := Ideal) V c).arrAt 8 cfg7.N
      = Cert.Spec.norm (Cert.Spec.sumOutside (V c main_v116) (V c main_v105) (V c main_v12) (V c main_v127)) (V c main_v128) (V c main_v129) (V c main_v130) (V c main_v131)
          (Ideal.ofBits .f32 0x3727C5AC#32) (Ideal.ofBits .f32 0x00000000#32) :=
  (dat7 (F := Ideal) V c).arrAt_eq_of_cover 8 _ (fun t _ => flushed7 V c t) cover7

end Cert.KVal

end
-- ==== Proof.KLayer23.lean ====
/-
  Rounds of the kernel program read whole: a round's three stages — its linear region, the host stretch that reads
  rows at the edges' starts and accumulates them at the edges' ends, its normalising region — composed are the
  specification's `roundKer` of the previous round's output, the round's slices of the stacked parameters, the edge
  list's two columns and the per-node factor.
-/
import proofs.«127734_j69286412419642_2_alg».proof.Proof.KBase
import proofs.«127734_j69286412419642_2_alg».proof.Proof.HostIdx
import proofs.«127734_j69286412419642_2_alg».proof.Proof.RegLinA
import proofs.«127734_j69286412419642_2_alg».proof.Proof.RegPostB

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

set_option maxHeartbeats 8000000 in
/-- Round 2 of the kernel program: its linear region, the host stretch that reads rows at the edges' starts and
    accumulates them at the edges' ends, and its normalising region, read as the specification's round with the
    receiving node's factor applied once to the whole sum. -/
theorem layer2 (c : Dev nD) :
    W12 m ρ c (Proc.devRef .tc main_v102) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W8 m ρ c (Proc.devRef .tc main_v72)) (Cert.Spec.sliceW (m ((c.tc : Thread nD τ).loc main_arg3)) (2 : Fin 8)) (disCol (m ((c.tc : Thread nD τ).loc main_arg1)))
        (Cert.Spec.sliceRow (m ((c.tc : Thread nD τ).loc main_arg4)) (2 : Fin 8)) (Cert.Spec.sliceRow (m ((c.tc : Thread nD τ).loc main_arg7)) (2 : Fin 8)) (Cert.Spec.sliceRow (m ((c.tc : Thread nD τ).loc main_arg8)) (2 : Fin 8))
        (Cert.Spec.sliceRow (m ((c.tc : Thread nD τ).loc main_arg5)) (2 : Fin 8)) (Cert.Spec.sliceRow (m ((c.tc : Thread nD τ).loc main_arg6)) (2 : Fin 8)) := by
  have hW : V9 m ρ c main_v74 = Cert.Spec.sliceW (m ((c.tc : Thread nD τ).loc main_arg3)) (2 : Fin 8) := by
    show StableHlo.after hostOps4 (W8 m ρ c) (Proc.devRef .tc main_v74) = _
    after_results
    rw [to1_8 m ρ c main_arg3 (by decide), W1_arg3 m ρ c]
    exact Cert.HostIdx.slice_W 2 (2 : Fin 8) rfl _ _ _
  have hH : V9 m ρ c main_v72 = (W8 m ρ c (Proc.devRef .tc main_v72)) := by
    show StableHlo.after hostOps4 (W8 m ρ c) (Proc.devRef .tc main_v72) = _
    after_results
  have hD1 : V9 m ρ c main_v12 = disCol (m ((c.tc : Thread nD τ).loc main_arg1)) :=
    (to1_9 m ρ c main_v12 (by decide)).trans (W1_v12 m ρ c)
  have hT : W10 m ρ c (Proc.devRef .tc main_v75) = Cert.Spec.linScaled (W8 m ρ c (Proc.devRef .tc main_v72)) (Cert.Spec.sliceW (m ((c.tc : Thread nD τ).loc main_arg3)) (2 : Fin 8)) (disCol (m ((c.tc : Thread nD τ).loc main_arg1))) := by
    refine ((W10_arr m ρ c 3).trans (lin4 (V9 m ρ) c)).trans ?_
    rw [hW, hH, hD1]
  have hT' : V11 m ρ c main_v75 = W10 m ρ c (Proc.devRef .tc main_v75) := by
    show StableHlo.after hostOps5 (W10 m ρ c) (Proc.devRef .tc main_v75) = _
    after_results
  have hAgg : V11 m ρ c main_v86 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W10 m ρ c (Proc.devRef .tc main_v75)) := by
    show StableHlo.after hostOps5 (W10 m ρ c) (Proc.devRef .tc main_v86) = _
    after_results
    rw [to1_10 m ρ c main_v1 (by decide), to1_10 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V11 m ρ c main_v97 = Cert.Spec.sliceRow (m ((c.tc : Thread nD τ).loc main_arg4)) (2 : Fin 8) := by
    show StableHlo.after hostOps5 (W10 m ρ c) (Proc.devRef .tc main_v97) = _
    after_results
    rw [to1_10 m ρ c main_arg4 (by decide), W1_arg4 m ρ c]
    exact Cert.HostIdx.slice_row 2 (2 : Fin 8) rfl _ _ _ _
  have hRm : V11 m ρ c main_v98 = Cert.Spec.sliceRow (m ((c.tc : Thread nD τ).loc main_arg7)) (2 : Fin 8) := by
    show StableHlo.after hostOps5 (W10 m ρ c) (Proc.devRef .tc main_v98) = _
    after_results
    rw [to1_10 m ρ c main_arg7 (by decide), W1_arg7 m ρ c]
    exact Cert.HostIdx.slice_row 2 (2 : Fin 8) rfl _ _ _ _
  have hRv : V11 m ρ c main_v99 = Cert.Spec.sliceRow (m ((c.tc : Thread nD τ).loc main_arg8)) (2 : Fin 8) := by
    show StableHlo.after hostOps5 (W10 m ρ c) (Proc.devRef .tc main_v99) = _
    after_results
    rw [to1_10 m ρ c main_arg8 (by decide), W1_arg8 m ρ c]
    exact Cert.HostIdx.slice_row 2 (2 : Fin 8) rfl _ _ _ _
  have hG : V11 m ρ c main_v100 = Cert.Spec.sliceRow (m ((c.tc : Thread nD τ).loc main_arg5)) (2 : Fin 8) := by
    show StableHlo.after hostOps5 (W10 m ρ c) (Proc.devRef .tc main_v100) = _
    after_results
    rw [to1_10 m ρ c main_arg5 (by decide), W1_arg5 m ρ c]
    exact Cert.HostIdx.slice_row 2 (2 : Fin 8) rfl _ _ _ _
  have hBt : V11 m ρ c main_v101 = Cert.Spec.sliceRow (m ((c.tc : Thread nD τ).loc main_arg6)) (2 : Fin 8) := by
    show StableHlo.after hostOps5 (W10 m ρ c) (Proc.devRef .tc main_v101) = _
    after_results
    rw [to1_10 m ρ c main_arg6 (by decide), W1_arg6 m ρ c]
    exact Cert.HostIdx.slice_row 2 (2 : Fin 8) rfl _ _ _ _
  have hD3 : V11 m ρ c main_v12 = disCol (m ((c.tc : Thread nD τ).loc main_arg1)) :=
    (to1_11 m ρ c main_v12 (by decide)).trans (W1_v12 m ρ c)
  refine ((W12_arr m ρ c 8).trans (post5 (V11 m ρ) c)).trans ?_
  rw [hAgg, hT', hD3, hB, hRm, hRv, hG, hBt, hT]
  rfl

set_option maxHeartbeats 8000000 in
/-- Round 3 of the kernel program: its linear region, the host stretch that reads rows at the edges' starts and
    accumulates them at the edges' ends, and its normalising region, read as the specification's round with the
    receiving node's factor applied once to the whole sum. -/
theorem layer3 (c : Dev nD) :
    W16 m ρ c (Proc.devRef .tc main_v132) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W12 m ρ c (Proc.devRef .tc main_v102)) (Cert.Spec.sliceW (m ((c.tc : Thread nD τ).loc main_arg3)) (3 : Fin 8)) (disCol (m ((c.tc : Thread nD τ).loc main_arg1)))
        (Cert.Spec.sliceRow (m ((c.tc : Thread nD τ).loc main_arg4)) (3 : Fin 8)) (Cert.Spec.sliceRow (m ((c.tc : Thread nD τ).loc main_arg7)) (3 : Fin 8)) (Cert.Spec.sliceRow (m ((c.tc : Thread nD τ).loc main_arg8)) (3 : Fin 8))
        (Cert.Spec.sliceRow (m ((c.tc : Thread nD τ).loc main_arg5)) (3 : Fin 8)) (Cert.Spec.sliceRow (m ((c.tc : Thread nD τ).loc main_arg6)) (3 : Fin 8)) := by
  have hW : V13 m ρ c main_v104 = Cert.Spec.sliceW (m ((c.tc : Thread nD τ).loc main_arg3)) (3 : Fin 8) := by
    show StableHlo.after hostOps6 (W12 m ρ c) (Proc.devRef .tc main_v104) = _
    after_results
    rw [to1_12 m ρ c main_arg3 (by decide), W1_arg3 m ρ c]
    exact Cert.HostIdx.slice_W 3 (3 : Fin 8) rfl _ _ _
  have hH : V13 m ρ c main_v102 = (W12 m ρ c (Proc.devRef .tc main_v102)) := by
    show StableHlo.after hostOps6 (W12 m ρ c) (Proc.devRef .tc main_v102) = _
    after_results
  have hD1 : V13 m ρ c main_v12 = disCol (m ((c.tc : Thread nD τ).loc main_arg1)) :=
    (to1_13 m ρ c main_v12 (by decide)).trans (W1_v12 m ρ c)
  have hT : W14 m ρ c (Proc.devRef .tc main_v105) = Cert.Spec.linScaled (W12 m ρ c (Proc.devRef .tc main_v102)) (Cert.Spec.sliceW (m ((c.tc : Thread nD τ).loc main_arg3)) (3 : Fin 8)) (disCol (m ((c.tc : Thread nD τ).loc main_arg1))) := by
    refine ((W14_arr m ρ c 3).trans (lin6 (V13 m ρ) c)).trans ?_
    rw [hW, hH, hD1]
  have hT' : V15 m ρ c main_v105 = W14 m ρ c (Proc.devRef .tc main_v105) := by
    show StableHlo.after hostOps7 (W14 m ρ c) (Proc.devRef .tc main_v105) = _
    after_results
  have hAgg : V15 m ρ c main_v116 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W14 m ρ c (Proc.devRef .tc main_v105)) := by
    show StableHlo.after hostOps7 (W14 m ρ c) (Proc.devRef .tc main_v116) = _
    after_results
    rw [to1_14 m ρ c main_v1 (by decide), to1_14 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V15 m ρ c main_v127 = Cert.Spec.sliceRow (m ((c.tc : Thread nD τ).loc main_arg4)) (3 : Fin 8) := by
    show StableHlo.after hostOps7 (W14 m ρ c) (Proc.devRef .tc main_v127) = _
    after_results
    rw [to1_14 m ρ c main_arg4 (by decide), W1_arg4 m ρ c]
    exact Cert.HostIdx.slice_row 3 (3 : Fin 8) rfl _ _ _ _
  have hRm : V15 m ρ c main_v128 = Cert.Spec.sliceRow (m ((c.tc : Thread nD τ).loc main_arg7)) (3 : Fin 8) := by
    show StableHlo.after hostOps7 (W14 m ρ c) (Proc.devRef .tc main_v128) = _
    after_results
    rw [to1_14 m ρ c main_arg7 (by decide), W1_arg7 m ρ c]
    exact Cert.HostIdx.slice_row 3 (3 : Fin 8) rfl _ _ _ _
  have hRv : V15 m ρ c main_v129 = Cert.Spec.sliceRow (m ((c.tc : Thread nD τ).loc main_arg8)) (3 : Fin 8) := by
    show StableHlo.after hostOps7 (W14 m ρ c) (Proc.devRef .tc main_v129) = _
    after_results
    rw [to1_14 m ρ c main_arg8 (by decide), W1_arg8 m ρ c]
    exact Cert.HostIdx.slice_row 3 (3 : Fin 8) rfl _ _ _ _
  have hG : V15 m ρ c main_v130 = Cert.Spec.sliceRow (m ((c.tc : Thread nD τ).loc main_arg5)) (3 : Fin 8) := by
    show StableHlo.after hostOps7 (W14 m ρ c) (Proc.devRef .tc main_v130) = _
    after_results
    rw [to1_14 m ρ c main_arg5 (by decide), W1_arg5 m ρ c]
    exact Cert.HostIdx.slice_row 3 (3 : Fin 8) rfl _ _ _ _
  have hBt : V15 m ρ c main_v131 = Cert.Spec.sliceRow (m ((c.tc : Thread nD τ).loc main_arg6)) (3 : Fin 8) := by
    show StableHlo.after hostOps7 (W14 m ρ c) (Proc.devRef .tc main_v131) = _
    after_results
    rw [to1_14 m ρ c main_arg6 (by decide), W1_arg6 m ρ c]
    exact Cert.HostIdx.slice_row 3 (3 : Fin 8) rfl _ _ _ _
  have hD3 : V15 m ρ c main_v12 = disCol (m ((c.tc : Thread nD τ).loc main_arg1)) :=
    (to1_15 m ρ c main_v12 (by decide)).trans (W1_v12 m ρ c)
  refine ((W16_arr m ρ c 8).trans (post7 (V15 m ρ) c)).trans ?_
  rw [hAgg, hT', hD3, hB, hRm, hRv, hG, hBt, hT]
  rfl

end Cert.KVal

end
-- ==== Proof.RegLinB.lean ====
/-
  The linear regions 8, 10, 12, 14, value side: each region's output array after its run is the specification's
  `linScaled` of the three arrays the region is entered with (features, weight, per-node factors). Each region runs over
  25 points, each writing one block of 2000 rows; a block's payload is the scaled product of the blocks it loads, the
  blocks restrict the arrays (the weight whole), and the 25 output blocks tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzLinB : (![0, 0] : Fin 2 → Nat) = fun _ => 0 := funext fun a => by fin_cases a <;> rfl

/-- On the 25-point grid the row-block index of an index map `![arg0, 0]` at the `t`-th point is `t` (decided over the
    25 points; the regions' grids are this grid). -/
theorem gridRowLinB : ∀ t : Fin grid0.N, (BitVec.ofNat 32 ((grid0.coords t) 0).val).toNat = t.val :=
  (by decide +kernel : ∀ t : Fin grid0.N, _)

/-- Region 8's block payload is the scaled product of its three blocks: entry `(p, q)` is row `p` of the feature block
    against column `q` of the weight, times the row's factor (narrowing and widening are the identity on the extended reals). -/
theorem linPay8_eq (x0 : FVec Ideal S2000x128 .f32) (x1 : FVec Ideal S128x128 .f32) (x2 : FVec Ideal S2000x1 .f32) :
    k8_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k8_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 8's index maps at any point: the feature block and the factor block move with the output block down the
    rows; the weight's block and every column index are zero (each map is `![arg0, 0]` or `![0, 0]`). -/
theorem idx8 (t : Fin cfg8.N) :
    win8_0.index t (0 : Fin 2) = win8_3.index t (0 : Fin 2) ∧ win8_0.index t (1 : Fin 2) = 0
    ∧ win8_1.index t (0 : Fin 2) = 0 ∧ win8_1.index t (1 : Fin 2) = 0
    ∧ win8_2.index t (0 : Fin 2) = win8_3.index t (0 : Fin 2) ∧ win8_2.index t (1 : Fin 2) = 0
    ∧ win8_3.index t (1 : Fin 2) = 0 :=
  ⟨rfl, rfl, rfl, rfl, rfl, rfl, rfl⟩

/-- The row-block index of region 8's output at the `t`-th point is `t`. -/
theorem rowPt8 (t : Fin cfg8.N) : win8_3.index t (0 : Fin 2) = t.val := gridRowLinB t

/-- An index of region 8's output array is in point `t`'s block iff each coordinate is in the block's range. -/
theorem mem8 (t : Fin cfg8.N) (i : S50000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v135).slice (win8_3.rect t)).set ↔ _
  rw [View.set_slice_whole, Rect.mem_set_unit]
  exact Iff.rfl

/-- Region 8's output blocks tile its array: row `v` is in the block of point `v / 2000`. -/
theorem cover8 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : (i 0).val / 2000 < cfg8.N := lt_of_lt_of_eq (by omega : (i 0).val / 2000 < 25) N_8.symm
  obtain ⟨t, ht⟩ : ∃ t : Fin cfg8.N, t.val = (i 0).val / 2000 := ⟨⟨_, hN⟩, rfl⟩
  have q0 : win8_3.index t (0 : Fin 2) = (i 0).val / 2000 := (rowPt8 t).trans ht
  have q1 : win8_3.index t (1 : Fin 2) = 0 := (idx8 t).2.2.2.2.2.2
  refine ⟨t, flush8_3 t, ?_⟩
  rw [mem8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 128 ≤ (i 1).val ∧ (i 1).val < win8_3.index t (1 : Fin 2) * 128 + 128; omega
/-- Block `t` of the scaled product of the arrays is the scaled product of the blocks at `t`: the block's rows of the
    features and of the factors, the whole weight. -/
theorem blkLin8 (t : Fin cfg8.N) (A0 : S50000x128.Idx → EReal) (A1 : S128x128.Idx → EReal) (A2 : S50000x1.Idx → EReal) :
    (cfg8.win 3).cut (grid8.coords t) (Cert.Spec.linScaled (((cfg8.win 0).blk t).view.read (Elt Ideal) A0)
        (((cfg8.win 1).blk t).view.read (Elt Ideal) A1) (((cfg8.win 2).blk t).view.read (Elt Ideal) A2))
      = ((cfg8.win 3).blk t).view.read (Elt Ideal) (Cert.Spec.linScaled A0 A1 A2) := by
  obtain ⟨e0, e1, e2, e3, e4, e5, e6⟩ := idx8 t
  funext y
  show (∑ k : Fin 128, A0 (((cfg8.win 0).blk t).view.emb (ix2 (y 0) k)) * A1 (((cfg8.win 1).blk t).view.emb (ix2 k (y 1))))
        * A2 (((cfg8.win 2).blk t).view.emb (ix2 (y 0) (0 : Fin 1)))
      = (∑ k : Fin 128, A0 (ix2 ((((cfg8.win 3).blk t).view.emb y) 0) k) * A1 (ix2 k ((((cfg8.win 3).blk t).view.emb y) 1)))
        * A2 (ix2 ((((cfg8.win 3).blk t).view.emb y) 0) (0 : Fin 1))
  have hy0 : (y 0).val < 2000 := (y 0).isLt
  have hy1 : (y 1).val < 128 := (y 1).isLt
  have h0 : ∀ k : Fin 128, ((cfg8.win 0).blk t).view.emb (ix2 (y 0) k) = ix2 ((((cfg8.win 3).blk t).view.emb y) 0) k := by
    intro k; funext a; apply Fin.ext
    match a with
    | ⟨0, _⟩ => show win8_0.index t (0 : Fin 2) * 2000 + 1 * (y 0).val = win8_3.index t (0 : Fin 2) * 2000 + 1 * (y 0).val; omega
    | ⟨1, _⟩ => show win8_0.index t (1 : Fin 2) * 128 + 1 * k.val = k.val; omega
  have h1 : ∀ k : Fin 128, ((cfg8.win 1).blk t).view.emb (ix2 k (y 1)) = ix2 k ((((cfg8.win 3).blk t).view.emb y) 1) := by
    intro k; funext a; apply Fin.ext
    match a with
    | ⟨0, _⟩ => show win8_1.index t (0 : Fin 2) * 128 + 1 * k.val = k.val; omega
    | ⟨1, _⟩ => show win8_1.index t (1 : Fin 2) * 128 + 1 * (y 1).val = win8_3.index t (1 : Fin 2) * 128 + 1 * (y 1).val; omega
  have h2 : ((cfg8.win 2).blk t).view.emb (ix2 (y 0) (0 : Fin 1)) = ix2 ((((cfg8.win 3).blk t).view.emb y) 0) (0 : Fin 1) := by
    funext a; apply Fin.ext
    match a with
    | ⟨0, _⟩ => show win8_2.index t (0 : Fin 2) * 2000 + 1 * (y 0).val = win8_3.index t (0 : Fin 2) * 2000 + 1 * (y 0).val; omega
    | ⟨1, _⟩ => show win8_2.index t (1 : Fin 2) * 1 + 1 * 0 = 0; omega
  simp only [h0, h1, h2]
  rfl

/-- Region 10's block payload is the scaled product of its three blocks: entry `(p, q)` is row `p` of the feature block
    against column `q` of the weight, times the row's factor (narrowing and widening are the identity on the extended reals). -/
theorem linPay10_eq (x0 : FVec Ideal S2000x128 .f32) (x1 : FVec Ideal S128x128 .f32) (x2 : FVec Ideal S2000x1 .f32) :
    k10_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k10_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 10's index maps at any point: the feature block and the factor block move with the output block down the
    rows; the weight's block and every column index are zero (each map is `![arg0, 0]` or `![0, 0]`). -/
theorem idx10 (t : Fin cfg10.N) :
    win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 2) = win10_3.index t (0 : Fin 2) ∧ win10_2.index t (1 : Fin 2) = 0
    ∧ win10_3.index t (1 : Fin 2) = 0 :=
  ⟨rfl, rfl, rfl, rfl, rfl, rfl, rfl⟩

/-- The row-block index of region 10's output at the `t`-th point is `t`. -/
theorem rowPt10 (t : Fin cfg10.N) : win10_3.index t (0 : Fin 2) = t.val := gridRowLinB t

/-- An index of region 10's output array is in point `t`'s block iff each coordinate is in the block's range. -/
theorem mem10 (t : Fin cfg10.N) (i : S50000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v165).slice (win10_3.rect t)).set ↔ _
  rw [View.set_slice_whole, Rect.mem_set_unit]
  exact Iff.rfl

/-- Region 10's output blocks tile its array: row `v` is in the block of point `v / 2000`. -/
theorem cover10 (i : S50000x128.Idx) : ∃ t : Fin cfg10.N, (cfg10.win 3).flush t = true ∧ i ∈ ((cfg10.win 3).blk t).view.set := by
  have hi0 : (i 0).val < 50000 := (i 0).isLt
  have hi1 : (i 1).val < 128 := (i 1).isLt
  have hN : (i 0).val / 2000 < cfg10.N := lt_of_lt_of_eq (by omega : (i 0).val / 2000 < 25) N_10.symm
  obtain ⟨t, ht⟩ : ∃ t : Fin cfg10.N, t.val = (i 0).val / 2000 := ⟨⟨_, hN⟩, rfl⟩
  have q0 : win10_3.index t (0 : Fin 2) = (i 0).val / 2000 := (rowPt10 t).trans ht
  have q1 : win10_3.index t (1 : Fin 2) = 0 := (idx10 t).2.2.2.2.2.2
  refine ⟨t, flush10_3 t, ?_⟩
  rw [mem10]
  intro a
  match a with
  | ⟨0, _⟩ => show win10_3.index t (0 : Fin 2) * 2000 ≤ (i 0).val ∧ (i 0).val < win10_3.index t (0 : Fin 2) * 2000 + 2000; omega
  | ⟨1, _⟩ => show win10_3.index t (1 : Fin 2) * 128 ≤ (i 1).val ∧ (i 1).val < win10_3.index t (1 : Fin 2) * 128 + 128; omega
/-- Block `t` of the scaled product of the arrays is the scaled product of the blocks at `t`: the block's rows of the
    features and of the factors, the whole weight. -/
theorem blkLin10 (t : Fin cfg10.N) (A0 : S50000x128.Idx → EReal) (A1 : S128x128.Idx → EReal) (A2 : S50000x1.Idx → EReal) :
    (cfg10.win 3).cut (grid10.coords t) (Cert.Spec.linScaled (((cfg10.win 0).blk t).view.read (Elt Ideal) A0)
        (((cfg10.win 1).blk t).view.read (Elt Ideal) A1) (((cfg10.win 2).blk t).view.read (Elt Ideal) A2))
      = ((cfg10.win 3).blk t).view.read (Elt Ideal) (Cert.Spec.linScaled A0 A1 A2) := by
  obtain ⟨e0, e1, e2, e3, e4, e5, e6⟩ := idx10 t
  funext y
  show (∑ k : Fin 128, A0 (((cfg10.win 0).blk t).view.emb (ix2 (y 0) k)) * A1 (((cfg10.win 1).blk t).view.emb (ix2 k (y 1))))
        * A2 (((cfg10.win 2).blk t).view.emb (ix2 (y 0) (0 : Fin 1)))
      = (∑ k : Fin 128, A0 (ix2 ((((cfg10.win 3).blk t).view.emb y) 0) k) * A1 (ix2 k ((((cfg10.win 3).blk t).view.emb y) 1)))
        * A2 (ix2 ((((cfg10.win 3).blk t).view.emb y) 0) (0 : Fin 1))
  have hy0 : (y 0).val < 2000 := (y 0).isLt
  have hy1 : (y 1).val < 128 := (y 1).isLt
  have h0 : ∀ k : Fin 128, ((cfg10.win 0).blk t).view.emb (ix2 (y 0) k) = ix2 ((((cfg10.win 3).blk t).view.emb y) 0) k := by
    intro k; funext a; apply Fin.ext
    match a with
    | ⟨0, _⟩ => show win10_0.index t (0 : Fin 2) * 2000 + 1 * (y 0).val = win10_3.index t (0 : Fin 2) * 2000 + 1 * (y 0).val; omega
    | ⟨1, _⟩ => show win10_0.index t (1 : Fin 2) * 128 + 1 * k.val = k.val; omega
  have h1 : ∀ k : Fin 128, ((cfg10.win 1).blk t).view.emb (ix2 k (y 1)) = ix2 k ((((cfg10.win 3).blk t).view.emb y) 1) := by
    intro k; funext a; apply Fin.ext
    match a with
    | ⟨0, _⟩ => show win10_1.index t (0 : Fin 2) * 128 + 1 * k.val = k.val; omega
    | ⟨1, _⟩ => show win10_1.index t (1 : Fin 2) * 128 + 1 * (y 1).val = win10_3.index t (1 : Fin 2) * 128 + 1 * (y 1).val; omega
  have h2 : ((cfg10.win 2).blk t).view.emb (ix2 (y 0) (0 : Fin 1)) = ix2 ((((cfg10.win 3).blk t).view.emb y) 0) (0 : Fin 1) := by
    funext a; apply Fin.ext
    match a with
    | ⟨0, _⟩ => show win10_2.index t (0 : Fin 2) * 2000 + 1 * (y 0).val = win10_3.index t (0 : Fin 2) * 2000 + 1 * (y 0).val; omega
    | ⟨1, _⟩ => show win10_2.index t (1 : Fin 2) * 1 + 1 * 0 = 0; omega
  simp only [h0, h1, h2]
  rfl

/-- Region 12's block payload is the scaled product of its three blocks: entry `(p, q)` is row `p` of the feature block
    against column `q` of the weight, times the row's factor (narrowing and widening are the identity on the extended reals). -/
theorem linPay12_eq (x0 : FVec Ideal S2000x128 .f32) (x1 : FVec Ideal S128x128 .f32) (x2 : FVec Ideal S2000x1 .f32) :
    k12_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k12_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 12's index maps at any point: the feature block and the factor block move with the output block down the
    rows; the weight's block and every column index are zero (each map is `![arg0, 0]` or `![0, 0]`). -/
theorem idx12 (t : Fin cfg12.N) :
    win12_0.index t (0 : Fin 2) = win12_3.index t (0 : Fin 2) ∧ win12_0.index t (1 : Fin 2) = 0
    ∧ win12_1.index t (0 : Fin 2) = 0 ∧ win12_1.index t (1 : Fin 2) = 0
    ∧ win12_2.index t (0 : Fin 2) = win12_3.index t (0 : Fin 2) ∧ win12_2.index t (1 : Fin 2) = 0
    ∧ win12_3.index t (1 : Fin 2) = 0 :=
  ⟨rfl, rfl, rfl, rfl, rfl, rfl, rfl⟩

/-- The row-block index of region 12's output at the `t`-th point is `t`. -/
theorem rowPt12 (t : Fin cfg12.N) : win12_3.index t (0 : Fin 2) = t.val := gridRowLinB t

/-- An index of region 12's output array is in point `t`'s block iff each coordinate is in the block's range. -/
theorem mem12 (t : Fin cfg12.N) (i : S50000x128.Idx) :
    i ∈ ((cfg12.win 3).blk t).view.set ↔ ∀ a : Fin 2, win12_3.index t a * S2000x128.size a ≤ (i a).val ∧ (i a).val < win12_3.index t a * S2000x128.size a + S2000x128.size a := by
  show i ∈ ((View.whole main_v195).slice (win12_3.rect t)).set ↔ _
  rw [View.set_slice_whole, Rect.mem_set_unit]
  exact Iff.rfl

/-- Region 12's output blocks tile its array: row `v` is in the block of point `v / 2000`. -/
theorem cover12 (i : S50000x128.Idx) : ∃ t : Fin cfg12.N, (cfg12.win 3).flush t = true ∧ i ∈ ((cfg12.win 3).blk t).view.set := by
  have hi0 : (i 0).val < 50000 := (i 0).isLt
  have hi1 : (i 1).val < 128 := (i 1).isLt
  have hN : (i 0).val / 2000 < cfg12.N := lt_of_lt_of_eq (by omega : (i 0).val / 2000 < 25) N_12.symm
  obtain ⟨t, ht⟩ : ∃ t : Fin cfg12.N, t.val = (i 0).val / 2000 := ⟨⟨_, hN⟩, rfl⟩
  have q0 : win12_3.index t (0 : Fin 2) = (i 0).val / 2000 := (rowPt12 t).trans ht
  have q1 : win12_3.index t (1 : Fin 2) = 0 := (idx12 t).2.2.2.2.2.2
  refine ⟨t, flush12_3 t, ?_⟩
  rw [mem12]
  intro a
  match a with
  | ⟨0, _⟩ => show win12_3.index t (0 : Fin 2) * 2000 ≤ (i 0).val ∧ (i 0).val < win12_3.index t (0 : Fin 2) * 2000 + 2000; omega
  | ⟨1, _⟩ => show win12_3.index t (1 : Fin 2) * 128 ≤ (i 1).val ∧ (i 1).val < win12_3.index t (1 : Fin 2) * 128 + 128; omega
/-- Block `t` of the scaled product of the arrays is the scaled product of the blocks at `t`: the block's rows of the
    features and of the factors, the whole weight. -/
theorem blkLin12 (t : Fin cfg12.N) (A0 : S50000x128.Idx → EReal) (A1 : S128x128.Idx → EReal) (A2 : S50000x1.Idx → EReal) :
    (cfg12.win 3).cut (grid12.coords t) (Cert.Spec.linScaled (((cfg12.win 0).blk t).view.read (Elt Ideal) A0)
        (((cfg12.win 1).blk t).view.read (Elt Ideal) A1) (((cfg12.win 2).blk t).view.read (Elt Ideal) A2))
      = ((cfg12.win 3).blk t).view.read (Elt Ideal) (Cert.Spec.linScaled A0 A1 A2) := by
  obtain ⟨e0, e1, e2, e3, e4, e5, e6⟩ := idx12 t
  funext y
  show (∑ k : Fin 128, A0 (((cfg12.win 0).blk t).view.emb (ix2 (y 0) k)) * A1 (((cfg12.win 1).blk t).view.emb (ix2 k (y 1))))
        * A2 (((cfg12.win 2).blk t).view.emb (ix2 (y 0) (0 : Fin 1)))
      = (∑ k : Fin 128, A0 (ix2 ((((cfg12.win 3).blk t).view.emb y) 0) k) * A1 (ix2 k ((((cfg12.win 3).blk t).view.emb y) 1)))
        * A2 (ix2 ((((cfg12.win 3).blk t).view.emb y) 0) (0 : Fin 1))
  have hy0 : (y 0).val < 2000 := (y 0).isLt
  have hy1 : (y 1).val < 128 := (y 1).isLt
  have h0 : ∀ k : Fin 128, ((cfg12.win 0).blk t).view.emb (ix2 (y 0) k) = ix2 ((((cfg12.win 3).blk t).view.emb y) 0) k := by
    intro k; funext a; apply Fin.ext
    match a with
    | ⟨0, _⟩ => show win12_0.index t (0 : Fin 2) * 2000 + 1 * (y 0).val = win12_3.index t (0 : Fin 2) * 2000 + 1 * (y 0).val; omega
    | ⟨1, _⟩ => show win12_0.index t (1 : Fin 2) * 128 + 1 * k.val = k.val; omega
  have h1 : ∀ k : Fin 128, ((cfg12.win 1).blk t).view.emb (ix2 k (y 1)) = ix2 k ((((cfg12.win 3).blk t).view.emb y) 1) := by
    intro k; funext a; apply Fin.ext
    match a with
    | ⟨0, _⟩ => show win12_1.index t (0 : Fin 2) * 128 + 1 * k.val = k.val; omega
    | ⟨1, _⟩ => show win12_1.index t (1 : Fin 2) * 128 + 1 * (y 1).val = win12_3.index t (1 : Fin 2) * 128 + 1 * (y 1).val; omega
  have h2 : ((cfg12.win 2).blk t).view.emb (ix2 (y 0) (0 : Fin 1)) = ix2 ((((cfg12.win 3).blk t).view.emb y) 0) (0 : Fin 1) := by
    funext a; apply Fin.ext
    match a with
    | ⟨0, _⟩ => show win12_2.index t (0 : Fin 2) * 2000 + 1 * (y 0).val = win12_3.index t (0 : Fin 2) * 2000 + 1 * (y 0).val; omega
    | ⟨1, _⟩ => show win12_2.index t (1 : Fin 2) * 1 + 1 * 0 = 0; omega
  simp only [h0, h1, h2]
  rfl

/-- Region 14's block payload is the scaled product of its three blocks: entry `(p, q)` is row `p` of the feature block
    against column `q` of the weight, times the row's factor (narrowing and widening are the identity on the extended reals). -/
theorem linPay14_eq (x0 : FVec Ideal S2000x128 .f32) (x1 : FVec Ideal S128x128 .f32) (x2 : FVec Ideal S2000x1 .f32) :
    k14_pay1 (F := Ideal) x0 x1 x2 = Cert.Spec.linScaled x0 x1 x2 := by
  funext j
  obtain ⟨p, q, rfl⟩ : ∃ (p : Fin 2000) (q : Fin 128), j = ix2 p q := ⟨j 0, j 1, eq_ix2 j⟩
  show _ = (∑ k : Fin 128, x0 (ix2 p k) * x1 (ix2 k q)) * x2 (ix2 p (0 : Fin 1))
  unfold k14_pay1
  rw [truncf_apply, mulf_apply]
  congr 1
  · refine (MatmulRead.matmul_zero_apply [1] [0] [0] [1] [] [] rfl rfl rfl rfl rfl rfl
      dot_S2000x128_S128x128_S2000x128_1_0_0_1_n_n_wf none _ _ (ix2 p q)).trans ?_
    simp only [truncf_apply, shapeCast_self]
  · rw [shapeCast_self]
    exact MatmulRead.broadcastTo_a1_ab_apply x2 _ p q

/-- Region 14's index maps at any point: the feature block and the factor block move with the output block down the
    rows; the weight's block and every column index are zero (each map is `![arg0, 0]` or `![0, 0]`). -/
theorem idx14 (t : Fin cfg14.N) :
    win14_0.index t (0 : Fin 2) = win14_3.index t (0 : Fin 2) ∧ win14_0.index t (1 : Fin 2) = 0
    ∧ win14_1.index t (0 : Fin 2) = 0 ∧ win14_1.index t (1 : Fin 2) = 0
    ∧ win14_2.index t (0 : Fin 2) = win14_3.index t (0 : Fin 2) ∧ win14_2.index t (1 : Fin 2) = 0
    ∧ win14_3.index t (1 : Fin 2) = 0 :=
  ⟨rfl, rfl, rfl, rfl, rfl, rfl, rfl⟩

/-- The row-block index of region 14's output at the `t`-th point is `t`. -/
theorem rowPt14 (t : Fin cfg14.N) : win14_3.index t (0 : Fin 2) = t.val := gridRowLinB t

/-- An index of region 14's output array is in point `t`'s block iff each coordinate is in the block's range. -/
theorem mem14 (t : Fin cfg14.N) (i : S50000x128.Idx) :
    i ∈ ((cfg14.win 3).blk t).view.set ↔ ∀ a : Fin 2, win14_3.index t a * S2000x128.size a ≤ (i a).val ∧ (i a).val < win14_3.index t a * S2000x128.size a + S2000x128.size a := by
  show i ∈ ((View.whole main_v225).slice (win14_3.rect t)).set ↔ _
  rw [View.set_slice_whole, Rect.mem_set_unit]
  exact Iff.rfl

/-- Region 14's output blocks tile its array: row `v` is in the block of point `v / 2000`. -/
theorem cover14 (i : S50000x128.Idx) : ∃ t : Fin cfg14.N, (cfg14.win 3).flush t = true ∧ i ∈ ((cfg14.win 3).blk t).view.set := by
  have hi0 : (i 0).val < 50000 := (i 0).isLt
  have hi1 : (i 1).val < 128 := (i 1).isLt
  have hN : (i 0).val / 2000 < cfg14.N := lt_of_lt_of_eq (by omega : (i 0).val / 2000 < 25) N_14.symm
  obtain ⟨t, ht⟩ : ∃ t : Fin cfg14.N, t.val = (i 0).val / 2000 := ⟨⟨_, hN⟩, rfl⟩
  have q0 : win14_3.index t (0 : Fin 2) = (i 0).val / 2000 := (rowPt14 t).trans ht
  have q1 : win14_3.index t (1 : Fin 2) = 0 := (idx14 t).2.2.2.2.2.2
  refine ⟨t, flush14_3 t, ?_⟩
  rw [mem14]
  intro a
  match a with
  | ⟨0, _⟩ => show win14_3.index t (0 : Fin 2) * 2000 ≤ (i 0).val ∧ (i 0).val < win14_3.index t (0 : Fin 2) * 2000 + 2000; omega
  | ⟨1, _⟩ => show win14_3.index t (1 : Fin 2) * 128 ≤ (i 1).val ∧ (i 1).val < win14_3.index t (1 : Fin 2) * 128 + 128; omega
/-- Block `t` of the scaled product of the arrays is the scaled product of the blocks at `t`: the block's rows of the
    features and of the factors, the whole weight. -/
theorem blkLin14 (t : Fin cfg14.N) (A0 : S50000x128.Idx → EReal) (A1 : S128x128.Idx → EReal) (A2 : S50000x1.Idx → EReal) :
    (cfg14.win 3).cut (grid14.coords t) (Cert.Spec.linScaled (((cfg14.win 0).blk t).view.read (Elt Ideal) A0)
        (((cfg14.win 1).blk t).view.read (Elt Ideal) A1) (((cfg14.win 2).blk t).view.read (Elt Ideal) A2))
      = ((cfg14.win 3).blk t).view.read (Elt Ideal) (Cert.Spec.linScaled A0 A1 A2) := by
  obtain ⟨e0, e1, e2, e3, e4, e5, e6⟩ := idx14 t
  funext y
  show (∑ k : Fin 128, A0 (((cfg14.win 0).blk t).view.emb (ix2 (y 0) k)) * A1 (((cfg14.win 1).blk t).view.emb (ix2 k (y 1))))
        * A2 (((cfg14.win 2).blk t).view.emb (ix2 (y 0) (0 : Fin 1)))
      = (∑ k : Fin 128, A0 (ix2 ((((cfg14.win 3).blk t).view.emb y) 0) k) * A1 (ix2 k ((((cfg14.win 3).blk t).view.emb y) 1)))
        * A2 (ix2 ((((cfg14.win 3).blk t).view.emb y) 0) (0 : Fin 1))
  have hy0 : (y 0).val < 2000 := (y 0).isLt
  have hy1 : (y 1).val < 128 := (y 1).isLt
  have h0 : ∀ k : Fin 128, ((cfg14.win 0).blk t).view.emb (ix2 (y 0) k) = ix2 ((((cfg14.win 3).blk t).view.emb y) 0) k := by
    intro k; funext a; apply Fin.ext
    match a with
    | ⟨0, _⟩ => show win14_0.index t (0 : Fin 2) * 2000 + 1 * (y 0).val = win14_3.index t (0 : Fin 2) * 2000 + 1 * (y 0).val; omega
    | ⟨1, _⟩ => show win14_0.index t (1 : Fin 2) * 128 + 1 * k.val = k.val; omega
  have h1 : ∀ k : Fin 128, ((cfg14.win 1).blk t).view.emb (ix2 k (y 1)) = ix2 k ((((cfg14.win 3).blk t).view.emb y) 1) := by
    intro k; funext a; apply Fin.ext
    match a with
    | ⟨0, _⟩ => show win14_1.index t (0 : Fin 2) * 128 + 1 * k.val = k.val; omega
    | ⟨1, _⟩ => show win14_1.index t (1 : Fin 2) * 128 + 1 * (y 1).val = win14_3.index t (1 : Fin 2) * 128 + 1 * (y 1).val; omega
  have h2 : ((cfg14.win 2).blk t).view.emb (ix2 (y 0) (0 : Fin 1)) = ix2 ((((cfg14.win 3).blk t).view.emb y) 0) (0 : Fin 1) := by
    funext a; apply Fin.ext
    match a with
    | ⟨0, _⟩ => show win14_2.index t (0 : Fin 2) * 2000 + 1 * (y 0).val = win14_3.index t (0 : Fin 2) * 2000 + 1 * (y 0).val; omega
    | ⟨1, _⟩ => show win14_2.index t (1 : Fin 2) * 1 + 1 * 0 = 0; omega
  simp only [h0, h1, h2]
  rfl

-- The buffer contents a region is entered with: every statement below holds for any such contents.
variable (V : (c : Dev nD) → (b : Ref sig .tc) → Buf (Elt Ideal) ((c : Thread nD τ).loc b))

/-- What point `t` of region 8 writes back is block `t` of the scaled product of the arrays the region finds. -/
theorem flushed8 (c : Dev nD) (t : Fin cfg8.N) :
    (dat8 (F := Ideal) V c).flushed 3 t
      = ((cfg8.win 3).blk t).view.read (Elt Ideal) (Cert.Spec.linScaled (V c main_v132) (V c main_v134) (V c main_v12)) := by
  show (cfg8.win 3).cut (grid8.coords t) ((dat8 (F := Ideal) V c).after 3 t) = _
  rw [after8_3]
  unfold out8_3
  rw [View.canon_unit_zero hzLinB]
  simp only [View.ld_unit_zero (S := S2000x128) hzLinB, View.ld_unit_zero (S := S128x128) hzLinB, View.ld_unit_zero (S := S2000x1) hzLinB]
  rw [linPay8_eq]
  exact blkLin8 t _ _ _

/-- Region 8's whole output array after its run: the scaled product of the features, the weight and the factors as the
    region finds them. -/
theorem lin8 (c : Dev nD) :
    (dat8 (F := Ideal) V c).arrAt 3 cfg8.N = Cert.Spec.linScaled (V c main_v132) (V c main_v134) (V c main_v12) :=
  (dat8 (F := Ideal) V c).arrAt_eq_of_cover 3 _ (fun t _ => flushed8 V c t) cover8

/-- What point `t` of region 10 writes back is block `t` of the scaled product of the arrays the region finds. -/
theorem flushed10 (c : Dev nD) (t : Fin cfg10.N) :
    (dat10 (F := Ideal) V c).flushed 3 t
      = ((cfg10.win 3).blk t).view.read (Elt Ideal) (Cert.Spec.linScaled (V c main_v162) (V c main_v164) (V c main_v12)) := by
  show (cfg10.win 3).cut (grid10.coords t) ((dat10 (F := Ideal) V c).after 3 t) = _
  rw [after10_3]
  unfold out10_3
  rw [View.canon_unit_zero hzLinB]
  simp only [View.ld_unit_zero (S := S2000x128) hzLinB, View.ld_unit_zero (S := S128x128) hzLinB, View.ld_unit_zero (S := S2000x1) hzLinB]
  rw [linPay10_eq]
  exact blkLin10 t _ _ _

/-- Region 10's whole output array after its run: the scaled product of the features, the weight and the factors as the
    region finds them. -/
theorem lin10 (c : Dev nD) :
    (dat10 (F := Ideal) V c).arrAt 3 cfg10.N = Cert.Spec.linScaled (V c main_v162) (V c main_v164) (V c main_v12) :=
  (dat10 (F := Ideal) V c).arrAt_eq_of_cover 3 _ (fun t _ => flushed10 V c t) cover10

/-- What point `t` of region 12 writes back is block `t` of the scaled product of the arrays the region finds. -/
theorem flushed12 (c : Dev nD) (t : Fin cfg12.N) :
    (dat12 (F := Ideal) V c).flushed 3 t
      = ((cfg12.win 3).blk t).view.read (Elt Ideal) (Cert.Spec.linScaled (V c main_v192) (V c main_v194) (V c main_v12)) := by
  show (cfg12.win 3).cut (grid12.coords t) ((dat12 (F := Ideal) V c).after 3 t) = _
  rw [after12_3]
  unfold out12_3
  rw [View.canon_unit_zero hzLinB]
  simp only [View.ld_unit_zero (S := S2000x128) hzLinB, View.ld_unit_zero (S := S128x128) hzLinB, View.ld_unit_zero (S := S2000x1) hzLinB]
  rw [linPay12_eq]
  exact blkLin12 t _ _ _

/-- Region 12's whole output array after its run: the scaled product of the features, the weight and the factors as the
    region finds them. -/
theorem lin12 (c : Dev nD) :
    (dat12 (F := Ideal) V c).arrAt 3 cfg12.N = Cert.Spec.linScaled (V c main_v192) (V c main_v194) (V c main_v12) :=
  (dat12 (F := Ideal) V c).arrAt_eq_of_cover 3 _ (fun t _ => flushed12 V c t) cover12

/-- What point `t` of region 14 writes back is block `t` of the scaled product of the arrays the region finds. -/
theorem flushed14 (c : Dev nD) (t : Fin cfg14.N) :
    (dat14 (F := Ideal) V c).flushed 3 t
      = ((cfg14.win 3).blk t).view.read (Elt Ideal) (Cert.Spec.linScaled (V c main_v222) (V c main_v224) (V c main_v12)) := by
  show (cfg14.win 3).cut (grid14.coords t) ((dat14 (F := Ideal) V c).after 3 t) = _
  rw [after14_3]
  unfold out14_3
  rw [View.canon_unit_zero hzLinB]
  simp only [View.ld_unit_zero (S := S2000x128) hzLinB, View.ld_unit_zero (S := S128x128) hzLinB, View.ld_unit_zero (S := S2000x1) hzLinB]
  rw [linPay14_eq]
  exact blkLin14 t _ _ _

/-- Region 14's whole output array after its run: the scaled product of the features, the weight and the factors as the
    region finds them. -/
theorem lin14 (c : Dev nD) :
    (dat14 (F := Ideal) V c).arrAt 3 cfg14.N = Cert.Spec.linScaled (V c main_v222) (V c main_v224) (V c main_v12) :=
  (dat14 (F := Ideal) V c).arrAt_eq_of_cover 3 _ (fun t _ => flushed14 V c t) cover14

end Cert.KVal

end
-- ==== Proof.RegPostC.lean ====
/-
  The post regions 9, 11, value side: each region's output array after its run is the specification's `norm` of
  `sumOutside` of the arrays the region is entered with (collected sum, pre-scaled rows, per-node factors, bias; mean,
  variance, gain, shift). Each region runs over 25 points, each writing one block of 2000 rows; a block's payload is that
  function of the blocks it loads, the blocks restrict the arrays (the five row vectors whole), and the 25 output blocks
  tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzPostC : (![0, 0] : Fin 2 → Nat) = fun _ => 0 := funext fun a => by fin_cases a <;> rfl

/-- On the 25-point grid the row-block index of an index map `![arg0, 0]` at the `t`-th point is `t` (decided over the
    25 points; the regions' grids are this grid). -/
theorem gridRowPostC : ∀ t : Fin grid0.N, (BitVec.ofNat 32 ((grid0.coords t) 0).val).toNat = t.val :=
  (by decide +kernel : ∀ t : Fin grid0.N, _)

/-- The inverse root of a vector, read at an index. -/
theorem rsqrtApplyPostC {s : Shape} {φ : FTy} (a : FVec Ideal s φ) (i : s.Idx) : rsqrt a i = Ideal.rsqrt (a i) := rfl

/-- Region 9's block payload: the receiving row's factor times the sum of the collected block and the node's own
    pre-scaled block, plus the bias; then centred, scaled by the inverse root of the shifted variance and by the gain,
    shifted, and clamped below. The payload's fifth and sixth arguments are the variance row and the mean row. -/
theorem postPay9_eq (x0 : FVec Ideal S2000x128 .f32) (x1 : FVec Ideal S2000x128 .bf16) (x2 : FVec Ideal S2000x1 .f32)
    (x3 xv xm x6 x7 : FVec Ideal S1x128 .f32) :
    k9_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k9_pay1
  simp only [maximumf_apply, addf_apply, mulf_apply, subf_apply, extf_apply, rsqrtApplyPostC, broadcast_apply, shapeCast_self,
    broadcastTo_1b_ab_apply, MatmulRead.broadcastTo_a1_ab_apply]
  rfl

/-- Region 9's index maps at any point: the collected block, the pre-scaled block and the factor block move with the
    output block down the rows; the five row vectors' blocks and every column index are zero (each map is `![arg0, 0]`
    or `![0, 0]`). -/
theorem idx9 (t : Fin cfg9.N) :
    win9_0.index t (0 : Fin 2) = win9_8.index t (0 : Fin 2) ∧ win9_0.index t (1 : Fin 2) = 0
    ∧ win9_1.index t (0 : Fin 2) = win9_8.index t (0 : Fin 2) ∧ win9_1.index t (1 : Fin 2) = 0
    ∧ win9_2.index t (0 : Fin 2) = win9_8.index t (0 : Fin 2) ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (1 : Fin 2) = 0 :=
  ⟨rfl, rfl, rfl, rfl, rfl, rfl, rfl, rfl, rfl, rfl, rfl, rfl, rfl, rfl, rfl, rfl, rfl⟩

/-- The row-block index of region 9's output at the `t`-th point is `t`. -/
theorem rowPt9 (t : Fin cfg9.N) : win9_8.index t (0 : Fin 2) = t.val := gridRowPostC t

/-- An index of region 9's output array is in point `t`'s block iff each coordinate is in the block's range. -/
theorem mem9 (t : Fin cfg9.N) (i : S50000x128.Idx) :
    i ∈ ((cfg9.win 8).blk t).view.set ↔ ∀ a : Fin 2, win9_8.index t a * S2000x128.size a ≤ (i a).val ∧ (i a).val < win9_8.index t a * S2000x128.size a + S2000x128.size a := by
  show i ∈ ((View.whole main_v162).slice (win9_8.rect t)).set ↔ _
  rw [View.set_slice_whole, Rect.mem_set_unit]
  exact Iff.rfl

/-- Region 9's output blocks tile its array: row `v` is in the block of point `v / 2000`. -/
theorem cover9 (i : S50000x128.Idx) : ∃ t : Fin cfg9.N, (cfg9.win 8).flush t = true ∧ i ∈ ((cfg9.win 8).blk t).view.set := by
  have hi0 : (i 0).val < 50000 := (i 0).isLt
  have hi1 : (i 1).val < 128 := (i 1).isLt
  have hN : (i 0).val / 2000 < cfg9.N := lt_of_lt_of_eq (by omega : (i 0).val / 2000 < 25) N_9.symm
  obtain ⟨t, ht⟩ : ∃ t : Fin cfg9.N, t.val = (i 0).val / 2000 := ⟨⟨_, hN⟩, rfl⟩
  have q0 : win9_8.index t (0 : Fin 2) = (i 0).val / 2000 := (rowPt9 t).trans ht
  have q1 : win9_8.index t (1 : Fin 2) = 0 := (idx9 t).2.2.2.2.2.2.2.2.2.2.2.2.2.2.2.2
  refine ⟨t, flush9_8 t, ?_⟩
  rw [mem9]
  intro a
  match a with
  | ⟨0, _⟩ => show win9_8.index t (0 : Fin 2) * 2000 ≤ (i 0).val ∧ (i 0).val < win9_8.index t (0 : Fin 2) * 2000 + 2000; omega
  | ⟨1, _⟩ => show win9_8.index t (1 : Fin 2) * 128 ≤ (i 1).val ∧ (i 1).val < win9_8.index t (1 : Fin 2) * 128 + 128; omega
set_option maxHeartbeats 1000000 in
/-- Block `t` of the normalised sum of the arrays is the normalised sum of the blocks at `t`: the block's rows of the
    collected array, of the pre-scaled array and of the factors, and the five whole row vectors. -/
theorem blkPost9 (t : Fin cfg9.N) (A0 A1 : S50000x128.Idx → EReal) (A2 : S50000x1.Idx → EReal)
    (A3 A4 A5 A6 A7 : S1x128.Idx → EReal) (eps zr : EReal) :
    (cfg9.win 8).cut (grid9.coords t) (Cert.Spec.norm (Cert.Spec.sumOutside
          (((cfg9.win 0).blk t).view.read (Elt Ideal) A0) (((cfg9.win 1).blk t).view.read (Elt Ideal) A1)
          (((cfg9.win 2).blk t).view.read (Elt Ideal) A2) (((cfg9.win 3).blk t).view.read (Elt Ideal) A3))
        (((cfg9.win 4).blk t).view.read (Elt Ideal) A4) (((cfg9.win 5).blk t).view.read (Elt Ideal) A5)
        (((cfg9.win 6).blk t).view.read (Elt Ideal) A6) (((cfg9.win 7).blk t).view.read (Elt Ideal) A7) eps zr)
      = ((cfg9.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx9 t
  funext y
  show max (((((A2 (((cfg9.win 2).blk t).view.emb (ix2 (y 0) (0 : Fin 1))) * (A0 (((cfg9.win 0).blk t).view.emb y) + A1 (((cfg9.win 1).blk t).view.emb y)) + A3 (((cfg9.win 3).blk t).view.emb (ix2 (0 : Fin 1) (y 1))))
          - A4 (((cfg9.win 4).blk t).view.emb (ix2 (0 : Fin 1) (y 1)))) * Ideal.rsqrt (A5 (((cfg9.win 5).blk t).view.emb (ix2 (0 : Fin 1) (y 1))) + eps)) * A6 (((cfg9.win 6).blk t).view.emb (ix2 (0 : Fin 1) (y 1)))) + A7 (((cfg9.win 7).blk t).view.emb (ix2 (0 : Fin 1) (y 1)))) zr
      = max (((((A2 (ix2 ((((cfg9.win 8).blk t).view.emb y) 0) (0 : Fin 1)) * (A0 (((cfg9.win 8).blk t).view.emb y) + A1 (((cfg9.win 8).blk t).view.emb y)) + A3 (ix2 (0 : Fin 1) ((((cfg9.win 8).blk t).view.emb y) 1)))
          - A4 (ix2 (0 : Fin 1) ((((cfg9.win 8).blk t).view.emb y) 1))) * Ideal.rsqrt (A5 (ix2 (0 : Fin 1) ((((cfg9.win 8).blk t).view.emb y) 1)) + eps)) * A6 (ix2 (0 : Fin 1) ((((cfg9.win 8).blk t).view.emb y) 1))) + A7 (ix2 (0 : Fin 1) ((((cfg9.win 8).blk t).view.emb y) 1))) zr
  have hy0 : (y 0).val < 2000 := (y 0).isLt
  have hy1 : (y 1).val < 128 := (y 1).isLt
  have h0 : ((cfg9.win 0).blk t).view.emb y = (((cfg9.win 8).blk t).view.emb y) := by
    funext a; apply Fin.ext
    match a with
    | ⟨0, _⟩ => show win9_0.index t (0 : Fin 2) * 2000 + 1 * (y 0).val = win9_8.index t (0 : Fin 2) * 2000 + 1 * (y 0).val; omega
    | ⟨1, _⟩ => show win9_0.index t (1 : Fin 2) * 128 + 1 * (y 1).val = win9_8.index t (1 : Fin 2) * 128 + 1 * (y 1).val; omega
  have h1 : ((cfg9.win 1).blk t).view.emb y = (((cfg9.win 8).blk t).view.emb y) := by
    funext a; apply Fin.ext
    match a with
    | ⟨0, _⟩ => show win9_1.index t (0 : Fin 2) * 2000 + 1 * (y 0).val = win9_8.index t (0 : Fin 2) * 2000 + 1 * (y 0).val; omega
    | ⟨1, _⟩ => show win9_1.index t (1 : Fin 2) * 128 + 1 * (y 1).val = win9_8.index t (1 : Fin 2) * 128 + 1 * (y 1).val; omega
  have h2 : ((cfg9.win 2).blk t).view.emb (ix2 (y 0) (0 : Fin 1)) = ix2 ((((cfg9.win 8).blk t).view.emb y) 0) (0 : Fin 1) := by
    funext a; apply Fin.ext
    match a with
    | ⟨0, _⟩ => show win9_2.index t (0 : Fin 2) * 2000 + 1 * (y 0).val = win9_8.index t (0 : Fin 2) * 2000 + 1 * (y 0).val; omega
    | ⟨1, _⟩ => show win9_2.index t (1 : Fin 2) * 1 + 1 * 0 = 0; omega
  have h3 : ((cfg9.win 3).blk t).view.emb (ix2 (0 : Fin 1) (y 1)) = ix2 (0 : Fin 1) ((((cfg9.win 8).blk t).view.emb y) 1) := by
    funext a; apply Fin.ext
    match a with
    | ⟨0, _⟩ => show win9_3.index t (0 : Fin 2) * 1 + 1 * 0 = 0; omega
    | ⟨1, _⟩ => show win9_3.index t (1 : Fin 2) * 128 + 1 * (y 1).val = win9_8.index t (1 : Fin 2) * 128 + 1 * (y 1).val; omega
  have h4 : ((cfg9.win 4).blk t).view.emb (ix2 (0 : Fin 1) (y 1)) = ix2 (0 : Fin 1) ((((cfg9.win 8).blk t).view.emb y) 1) := by
    funext a; apply Fin.ext
    match a with
    | ⟨0, _⟩ => show win9_4.index t (0 : Fin 2) * 1 + 1 * 0 = 0; omega
    | ⟨1, _⟩ => show win9_4.index t (1 : Fin 2) * 128 + 1 * (y 1).val = win9_8.index t (1 : Fin 2) * 128 + 1 * (y 1).val; omega
  have h5 : ((cfg9.win 5).blk t).view.emb (ix2 (0 : Fin 1) (y 1)) = ix2 (0 : Fin 1) ((((cfg9.win 8).blk t).view.emb y) 1) := by
    funext a; apply Fin.ext
    match a with
    | ⟨0, _⟩ => show win9_5.index t (0 : Fin 2) * 1 + 1 * 0 = 0; omega
    | ⟨1, _⟩ => show win9_5.index t (1 : Fin 2) * 128 + 1 * (y 1).val = win9_8.index t (1 : Fin 2) * 128 + 1 * (y 1).val; omega
  have h6 : ((cfg9.win 6).blk t).view.emb (ix2 (0 : Fin 1) (y 1)) = ix2 (0 : Fin 1) ((((cfg9.win 8).blk t).view.emb y) 1) := by
    funext a; apply Fin.ext
    match a with
    | ⟨0, _⟩ => show win9_6.index t (0 : Fin 2) * 1 + 1 * 0 = 0; omega
    | ⟨1, _⟩ => show win9_6.index t (1 : Fin 2) * 128 + 1 * (y 1).val = win9_8.index t (1 : Fin 2) * 128 + 1 * (y 1).val; omega
  have h7 : ((cfg9.win 7).blk t).view.emb (ix2 (0 : Fin 1) (y 1)) = ix2 (0 : Fin 1) ((((cfg9.win 8).blk t).view.emb y) 1) := by
    funext a; apply Fin.ext
    match a with
    | ⟨0, _⟩ => show win9_7.index t (0 : Fin 2) * 1 + 1 * 0 = 0; omega
    | ⟨1, _⟩ => show win9_7.index t (1 : Fin 2) * 128 + 1 * (y 1).val = win9_8.index t (1 : Fin 2) * 128 + 1 * (y 1).val; omega
  rw [h0, h1, h2, h3, h4, h5, h6, h7]
  rfl

/-- Region 11's block payload: the receiving row's factor times the sum of the collected block and the node's own
    pre-scaled block, plus the bias; then centred, scaled by the inverse root of the shifted variance and by the gain,
    shifted, and clamped below. The payload's fifth and sixth arguments are the variance row and the mean row. -/
theorem postPay11_eq (x0 : FVec Ideal S2000x128 .f32) (x1 : FVec Ideal S2000x128 .bf16) (x2 : FVec Ideal S2000x1 .f32)
    (x3 xv xm x6 x7 : FVec Ideal S1x128 .f32) :
    k11_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k11_pay1
  simp only [maximumf_apply, addf_apply, mulf_apply, subf_apply, extf_apply, rsqrtApplyPostC, broadcast_apply, shapeCast_self,
    broadcastTo_1b_ab_apply, MatmulRead.broadcastTo_a1_ab_apply]
  rfl

/-- Region 11's index maps at any point: the collected block, the pre-scaled block and the factor block move with the
    output block down the rows; the five row vectors' blocks and every column index are zero (each map is `![arg0, 0]`
    or `![0, 0]`). -/
theorem idx11 (t : Fin cfg11.N) :
    win11_0.index t (0 : Fin 2) = win11_8.index t (0 : Fin 2) ∧ win11_0.index t (1 : Fin 2) = 0
    ∧ win11_1.index t (0 : Fin 2) = win11_8.index t (0 : Fin 2) ∧ win11_1.index t (1 : Fin 2) = 0
    ∧ win11_2.index t (0 : Fin 2) = win11_8.index t (0 : Fin 2) ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = 0 ∧ win11_7.index t (1 : Fin 2) = 0
    ∧ win11_8.index t (1 : Fin 2) = 0 :=
  ⟨rfl, rfl, rfl, rfl, rfl, rfl, rfl, rfl, rfl, rfl, rfl, rfl, rfl, rfl, rfl, rfl, rfl⟩

/-- The row-block index of region 11's output at the `t`-th point is `t`. -/
theorem rowPt11 (t : Fin cfg11.N) : win11_8.index t (0 : Fin 2) = t.val := gridRowPostC t

/-- An index of region 11's output array is in point `t`'s block iff each coordinate is in the block's range. -/
theorem mem11 (t : Fin cfg11.N) (i : S50000x128.Idx) :
    i ∈ ((cfg11.win 8).blk t).view.set ↔ ∀ a : Fin 2, win11_8.index t a * S2000x128.size a ≤ (i a).val ∧ (i a).val < win11_8.index t a * S2000x128.size a + S2000x128.size a := by
  show i ∈ ((View.whole main_v192).slice (win11_8.rect t)).set ↔ _
  rw [View.set_slice_whole, Rect.mem_set_unit]
  exact Iff.rfl

/-- Region 11's output blocks tile its array: row `v` is in the block of point `v / 2000`. -/
theorem cover11 (i : S50000x128.Idx) : ∃ t : Fin cfg11.N, (cfg11.win 8).flush t = true ∧ i ∈ ((cfg11.win 8).blk t).view.set := by
  have hi0 : (i 0).val < 50000 := (i 0).isLt
  have hi1 : (i 1).val < 128 := (i 1).isLt
  have hN : (i 0).val / 2000 < cfg11.N := lt_of_lt_of_eq (by omega : (i 0).val / 2000 < 25) N_11.symm
  obtain ⟨t, ht⟩ : ∃ t : Fin cfg11.N, t.val = (i 0).val / 2000 := ⟨⟨_, hN⟩, rfl⟩
  have q0 : win11_8.index t (0 : Fin 2) = (i 0).val / 2000 := (rowPt11 t).trans ht
  have q1 : win11_8.index t (1 : Fin 2) = 0 := (idx11 t).2.2.2.2.2.2.2.2.2.2.2.2.2.2.2.2
  refine ⟨t, flush11_8 t, ?_⟩
  rw [mem11]
  intro a
  match a with
  | ⟨0, _⟩ => show win11_8.index t (0 : Fin 2) * 2000 ≤ (i 0).val ∧ (i 0).val < win11_8.index t (0 : Fin 2) * 2000 + 2000; omega
  | ⟨1, _⟩ => show win11_8.index t (1 : Fin 2) * 128 ≤ (i 1).val ∧ (i 1).val < win11_8.index t (1 : Fin 2) * 128 + 128; omega
set_option maxHeartbeats 1000000 in
/-- Block `t` of the normalised sum of the arrays is the normalised sum of the blocks at `t`: the block's rows of the
    collected array, of the pre-scaled array and of the factors, and the five whole row vectors. -/
theorem blkPost11 (t : Fin cfg11.N) (A0 A1 : S50000x128.Idx → EReal) (A2 : S50000x1.Idx → EReal)
    (A3 A4 A5 A6 A7 : S1x128.Idx → EReal) (eps zr : EReal) :
    (cfg11.win 8).cut (grid11.coords t) (Cert.Spec.norm (Cert.Spec.sumOutside
          (((cfg11.win 0).blk t).view.read (Elt Ideal) A0) (((cfg11.win 1).blk t).view.read (Elt Ideal) A1)
          (((cfg11.win 2).blk t).view.read (Elt Ideal) A2) (((cfg11.win 3).blk t).view.read (Elt Ideal) A3))
        (((cfg11.win 4).blk t).view.read (Elt Ideal) A4) (((cfg11.win 5).blk t).view.read (Elt Ideal) A5)
        (((cfg11.win 6).blk t).view.read (Elt Ideal) A6) (((cfg11.win 7).blk t).view.read (Elt Ideal) A7) eps zr)
      = ((cfg11.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx11 t
  funext y
  show max (((((A2 (((cfg11.win 2).blk t).view.emb (ix2 (y 0) (0 : Fin 1))) * (A0 (((cfg11.win 0).blk t).view.emb y) + A1 (((cfg11.win 1).blk t).view.emb y)) + A3 (((cfg11.win 3).blk t).view.emb (ix2 (0 : Fin 1) (y 1))))
          - A4 (((cfg11.win 4).blk t).view.emb (ix2 (0 : Fin 1) (y 1)))) * Ideal.rsqrt (A5 (((cfg11.win 5).blk t).view.emb (ix2 (0 : Fin 1) (y 1))) + eps)) * A6 (((cfg11.win 6).blk t).view.emb (ix2 (0 : Fin 1) (y 1)))) + A7 (((cfg11.win 7).blk t).view.emb (ix2 (0 : Fin 1) (y 1)))) zr
      = max (((((A2 (ix2 ((((cfg11.win 8).blk t).view.emb y) 0) (0 : Fin 1)) * (A0 (((cfg11.win 8).blk t).view.emb y) + A1 (((cfg11.win 8).blk t).view.emb y)) + A3 (ix2 (0 : Fin 1) ((((cfg11.win 8).blk t).view.emb y) 1)))
          - A4 (ix2 (0 : Fin 1) ((((cfg11.win 8).blk t).view.emb y) 1))) * Ideal.rsqrt (A5 (ix2 (0 : Fin 1) ((((cfg11.win 8).blk t).view.emb y) 1)) + eps)) * A6 (ix2 (0 : Fin 1) ((((cfg11.win 8).blk t).view.emb y) 1))) + A7 (ix2 (0 : Fin 1) ((((cfg11.win 8).blk t).view.emb y) 1))) zr
  have hy0 : (y 0).val < 2000 := (y 0).isLt
  have hy1 : (y 1).val < 128 := (y 1).isLt
  have h0 : ((cfg11.win 0).blk t).view.emb y = (((cfg11.win 8).blk t).view.emb y) := by
    funext a; apply Fin.ext
    match a with
    | ⟨0, _⟩ => show win11_0.index t (0 : Fin 2) * 2000 + 1 * (y 0).val = win11_8.index t (0 : Fin 2) * 2000 + 1 * (y 0).val; omega
    | ⟨1, _⟩ => show win11_0.index t (1 : Fin 2) * 128 + 1 * (y 1).val = win11_8.index t (1 : Fin 2) * 128 + 1 * (y 1).val; omega
  have h1 : ((cfg11.win 1).blk t).view.emb y = (((cfg11.win 8).blk t).view.emb y) := by
    funext a; apply Fin.ext
    match a with
    | ⟨0, _⟩ => show win11_1.index t (0 : Fin 2) * 2000 + 1 * (y 0).val = win11_8.index t (0 : Fin 2) * 2000 + 1 * (y 0).val; omega
    | ⟨1, _⟩ => show win11_1.index t (1 : Fin 2) * 128 + 1 * (y 1).val = win11_8.index t (1 : Fin 2) * 128 + 1 * (y 1).val; omega
  have h2 : ((cfg11.win 2).blk t).view.emb (ix2 (y 0) (0 : Fin 1)) = ix2 ((((cfg11.win 8).blk t).view.emb y) 0) (0 : Fin 1) := by
    funext a; apply Fin.ext
    match a with
    | ⟨0, _⟩ => show win11_2.index t (0 : Fin 2) * 2000 + 1 * (y 0).val = win11_8.index t (0 : Fin 2) * 2000 + 1 * (y 0).val; omega
    | ⟨1, _⟩ => show win11_2.index t (1 : Fin 2) * 1 + 1 * 0 = 0; omega
  have h3 : ((cfg11.win 3).blk t).view.emb (ix2 (0 : Fin 1) (y 1)) = ix2 (0 : Fin 1) ((((cfg11.win 8).blk t).view.emb y) 1) := by
    funext a; apply Fin.ext
    match a with
    | ⟨0, _⟩ => show win11_3.index t (0 : Fin 2) * 1 + 1 * 0 = 0; omega
    | ⟨1, _⟩ => show win11_3.index t (1 : Fin 2) * 128 + 1 * (y 1).val = win11_8.index t (1 : Fin 2) * 128 + 1 * (y 1).val; omega
  have h4 : ((cfg11.win 4).blk t).view.emb (ix2 (0 : Fin 1) (y 1)) = ix2 (0 : Fin 1) ((((cfg11.win 8).blk t).view.emb y) 1) := by
    funext a; apply Fin.ext
    match a with
    | ⟨0, _⟩ => show win11_4.index t (0 : Fin 2) * 1 + 1 * 0 = 0; omega
    | ⟨1, _⟩ => show win11_4.index t (1 : Fin 2) * 128 + 1 * (y 1).val = win11_8.index t (1 : Fin 2) * 128 + 1 * (y 1).val; omega
  have h5 : ((cfg11.win 5).blk t).view.emb (ix2 (0 : Fin 1) (y 1)) = ix2 (0 : Fin 1) ((((cfg11.win 8).blk t).view.emb y) 1) := by
    funext a; apply Fin.ext
    match a with
    | ⟨0, _⟩ => show win11_5.index t (0 : Fin 2) * 1 + 1 * 0 = 0; omega
    | ⟨1, _⟩ => show win11_5.index t (1 : Fin 2) * 128 + 1 * (y 1).val = win11_8.index t (1 : Fin 2) * 128 + 1 * (y 1).val; omega
  have h6 : ((cfg11.win 6).blk t).view.emb (ix2 (0 : Fin 1) (y 1)) = ix2 (0 : Fin 1) ((((cfg11.win 8).blk t).view.emb y) 1) := by
    funext a; apply Fin.ext
    match a with
    | ⟨0, _⟩ => show win11_6.index t (0 : Fin 2) * 1 + 1 * 0 = 0; omega
    | ⟨1, _⟩ => show win11_6.index t (1 : Fin 2) * 128 + 1 * (y 1).val = win11_8.index t (1 : Fin 2) * 128 + 1 * (y 1).val; omega
  have h7 : ((cfg11.win 7).blk t).view.emb (ix2 (0 : Fin 1) (y 1)) = ix2 (0 : Fin 1) ((((cfg11.win 8).blk t).view.emb y) 1) := by
    funext a; apply Fin.ext
    match a with
    | ⟨0, _⟩ => show win11_7.index t (0 : Fin 2) * 1 + 1 * 0 = 0; omega
    | ⟨1, _⟩ => show win11_7.index t (1 : Fin 2) * 128 + 1 * (y 1).val = win11_8.index t (1 : Fin 2) * 128 + 1 * (y 1).val; omega
  rw [h0, h1, h2, h3, h4, h5, h6, h7]
  rfl

-- The buffer contents a region is entered with: every statement below holds for any such contents.
variable (V : (c : Dev nD) → (b : Ref sig .tc) → Buf (Elt Ideal) ((c : Thread nD τ).loc b))

/-- What point `t` of region 9 writes back is block `t` of the normalised sum of the arrays the region finds. -/
theorem flushed9 (c : Dev nD) (t : Fin cfg9.N) :
    (dat9 (F := Ideal) V c).flushed 8 t
      = ((cfg9.win 8).blk t).view.read (Elt Ideal) (Cert.Spec.norm (Cert.Spec.sumOutside (V c main_v146) (V c main_v135) (V c main_v12) (V c main_v157)) (V c main_v158) (V c main_v159) (V c main_v160) (V c main_v161)
          (Ideal.ofBits .f32 0x3727C5AC#32) (Ideal.ofBits .f32 0x00000000#32)) := by
  show (cfg9.win 8).cut (grid9.coords t) ((dat9 (F := Ideal) V c).after 8 t) = _
  rw [after9_8]
  unfold out9_8
  rw [View.canon_unit_zero hzPostC]
  simp only [View.ld_unit_zero (S := S2000x128) hzPostC, View.ld_unit_zero (S := S2000x1) hzPostC, View.ld_unit_zero (S := S1x128) hzPostC]
  rw [postPay9_eq]
  exact blkPost9 t _ _ _ _ _ _ _ _ _ _

/-- Region 9's whole output array after its run: the normalised sum of the collected array, the pre-scaled array, the
    factors, the bias, and the mean, variance, gain and shift rows as the region finds them. -/
theorem post9 (c : Dev nD) :
    (dat9 (F := Ideal) V c).arrAt 8 cfg9.N
      = Cert.Spec.norm (Cert.Spec.sumOutside (V c main_v146) (V c main_v135) (V c main_v12) (V c main_v157)) (V c main_v158) (V c main_v159) (V c main_v160) (V c main_v161)
          (Ideal.ofBits .f32 0x3727C5AC#32) (Ideal.ofBits .f32 0x00000000#32) :=
  (dat9 (F := Ideal) V c).arrAt_eq_of_cover 8 _ (fun t _ => flushed9 V c t) cover9

/-- What point `t` of region 11 writes back is block `t` of the normalised sum of the arrays the region finds. -/
theorem flushed11 (c : Dev nD) (t : Fin cfg11.N) :
    (dat11 (F := Ideal) V c).flushed 8 t
      = ((cfg11.win 8).blk t).view.read (Elt Ideal) (Cert.Spec.norm (Cert.Spec.sumOutside (V c main_v176) (V c main_v165) (V c main_v12) (V c main_v187)) (V c main_v188) (V c main_v189) (V c main_v190) (V c main_v191)
          (Ideal.ofBits .f32 0x3727C5AC#32) (Ideal.ofBits .f32 0x00000000#32)) := by
  show (cfg11.win 8).cut (grid11.coords t) ((dat11 (F := Ideal) V c).after 8 t) = _
  rw [after11_8]
  unfold out11_8
  rw [View.canon_unit_zero hzPostC]
  simp only [View.ld_unit_zero (S := S2000x128) hzPostC, View.ld_unit_zero (S := S2000x1) hzPostC, View.ld_unit_zero (S := S1x128) hzPostC]
  rw [postPay11_eq]
  exact blkPost11 t _ _ _ _ _ _ _ _ _ _

/-- Region 11's whole output array after its run: the normalised sum of the collected array, the pre-scaled array, the
    factors, the bias, and the mean, variance, gain and shift rows as the region finds them. -/
theorem post11 (c : Dev nD) :
    (dat11 (F := Ideal) V c).arrAt 8 cfg11.N
      = Cert.Spec.norm (Cert.Spec.sumOutside (V c main_v176) (V c main_v165) (V c main_v12) (V c main_v187)) (V c main_v188) (V c main_v189) (V c main_v190) (V c main_v191)
          (Ideal.ofBits .f32 0x3727C5AC#32) (Ideal.ofBits .f32 0x00000000#32) :=
  (dat11 (F := Ideal) V c).arrAt_eq_of_cover 8 _ (fun t _ => flushed11 V c t) cover11

end Cert.KVal

end
-- ==== Proof.KLayer45.lean ====
/-
  Rounds of the kernel program read whole: a round's three stages — its linear region, the host stretch that reads
  rows at the edges' starts and accumulates them at the edges' ends, its normalising region — composed are the
  specification's `roundKer` of the previous round's output, the round's slices of the stacked parameters, the edge
  list's two columns and the per-node factor.
-/
import proofs.«127734_j69286412419642_2_alg».proof.Proof.KBase
import proofs.«127734_j69286412419642_2_alg».proof.Proof.HostIdx
import proofs.«127734_j69286412419642_2_alg».proof.Proof.RegLinB
import proofs.«127734_j69286412419642_2_alg».proof.Proof.RegPostC

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

set_option maxHeartbeats 8000000 in
/-- Round 4 of the kernel program: its linear region, the host stretch that reads rows at the edges' starts and
    accumulates them at the edges' ends, and its normalising region, read as the specification's round with the
    receiving node's factor applied once to the whole sum. -/
theorem layer4 (c : Dev nD) :
    W20 m ρ c (Proc.devRef .tc main_v162) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W16 m ρ c (Proc.devRef .tc main_v132)) (Cert.Spec.sliceW (m ((c.tc : Thread nD τ).loc main_arg3)) (4 : Fin 8)) (disCol (m ((c.tc : Thread nD τ).loc main_arg1)))
        (Cert.Spec.sliceRow (m ((c.tc : Thread nD τ).loc main_arg4)) (4 : Fin 8)) (Cert.Spec.sliceRow (m ((c.tc : Thread nD τ).loc main_arg7)) (4 : Fin 8)) (Cert.Spec.sliceRow (m ((c.tc : Thread nD τ).loc main_arg8)) (4 : Fin 8))
        (Cert.Spec.sliceRow (m ((c.tc : Thread nD τ).loc main_arg5)) (4 : Fin 8)) (Cert.Spec.sliceRow (m ((c.tc : Thread nD τ).loc main_arg6)) (4 : Fin 8)) := by
  have hW : V17 m ρ c main_v134 = Cert.Spec.sliceW (m ((c.tc : Thread nD τ).loc main_arg3)) (4 : Fin 8) := by
    show StableHlo.after hostOps8 (W16 m ρ c) (Proc.devRef .tc main_v134) = _
    after_results
    rw [to1_16 m ρ c main_arg3 (by decide), W1_arg3 m ρ c]
    exact Cert.HostIdx.slice_W 4 (4 : Fin 8) rfl _ _ _
  have hH : V17 m ρ c main_v132 = (W16 m ρ c (Proc.devRef .tc main_v132)) := by
    show StableHlo.after hostOps8 (W16 m ρ c) (Proc.devRef .tc main_v132) = _
    after_results
  have hD1 : V17 m ρ c main_v12 = disCol (m ((c.tc : Thread nD τ).loc main_arg1)) :=
    (to1_17 m ρ c main_v12 (by decide)).trans (W1_v12 m ρ c)
  have hT : W18 m ρ c (Proc.devRef .tc main_v135) = Cert.Spec.linScaled (W16 m ρ c (Proc.devRef .tc main_v132)) (Cert.Spec.sliceW (m ((c.tc : Thread nD τ).loc main_arg3)) (4 : Fin 8)) (disCol (m ((c.tc : Thread nD τ).loc main_arg1))) := by
    refine ((W18_arr m ρ c 3).trans (lin8 (V17 m ρ) c)).trans ?_
    rw [hW, hH, hD1]
  have hT' : V19 m ρ c main_v135 = W18 m ρ c (Proc.devRef .tc main_v135) := by
    show StableHlo.after hostOps9 (W18 m ρ c) (Proc.devRef .tc main_v135) = _
    after_results
  have hAgg : V19 m ρ c main_v146 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W18 m ρ c (Proc.devRef .tc main_v135)) := by
    show StableHlo.after hostOps9 (W18 m ρ c) (Proc.devRef .tc main_v146) = _
    after_results
    rw [to1_18 m ρ c main_v1 (by decide), to1_18 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V19 m ρ c main_v157 = Cert.Spec.sliceRow (m ((c.tc : Thread nD τ).loc main_arg4)) (4 : Fin 8) := by
    show StableHlo.after hostOps9 (W18 m ρ c) (Proc.devRef .tc main_v157) = _
    after_results
    rw [to1_18 m ρ c main_arg4 (by decide), W1_arg4 m ρ c]
    exact Cert.HostIdx.slice_row 4 (4 : Fin 8) rfl _ _ _ _
  have hRm : V19 m ρ c main_v158 = Cert.Spec.sliceRow (m ((c.tc : Thread nD τ).loc main_arg7)) (4 : Fin 8) := by
    show StableHlo.after hostOps9 (W18 m ρ c) (Proc.devRef .tc main_v158) = _
    after_results
    rw [to1_18 m ρ c main_arg7 (by decide), W1_arg7 m ρ c]
    exact Cert.HostIdx.slice_row 4 (4 : Fin 8) rfl _ _ _ _
  have hRv : V19 m ρ c main_v159 = Cert.Spec.sliceRow (m ((c.tc : Thread nD τ).loc main_arg8)) (4 : Fin 8) := by
    show StableHlo.after hostOps9 (W18 m ρ c) (Proc.devRef .tc main_v159) = _
    after_results
    rw [to1_18 m ρ c main_arg8 (by decide), W1_arg8 m ρ c]
    exact Cert.HostIdx.slice_row 4 (4 : Fin 8) rfl _ _ _ _
  have hG : V19 m ρ c main_v160 = Cert.Spec.sliceRow (m ((c.tc : Thread nD τ).loc main_arg5)) (4 : Fin 8) := by
    show StableHlo.after hostOps9 (W18 m ρ c) (Proc.devRef .tc main_v160) = _
    after_results
    rw [to1_18 m ρ c main_arg5 (by decide), W1_arg5 m ρ c]
    exact Cert.HostIdx.slice_row 4 (4 : Fin 8) rfl _ _ _ _
  have hBt : V19 m ρ c main_v161 = Cert.Spec.sliceRow (m ((c.tc : Thread nD τ).loc main_arg6)) (4 : Fin 8) := by
    show StableHlo.after hostOps9 (W18 m ρ c) (Proc.devRef .tc main_v161) = _
    after_results
    rw [to1_18 m ρ c main_arg6 (by decide), W1_arg6 m ρ c]
    exact Cert.HostIdx.slice_row 4 (4 : Fin 8) rfl _ _ _ _
  have hD3 : V19 m ρ c main_v12 = disCol (m ((c.tc : Thread nD τ).loc main_arg1)) :=
    (to1_19 m ρ c main_v12 (by decide)).trans (W1_v12 m ρ c)
  refine ((W20_arr m ρ c 8).trans (post9 (V19 m ρ) c)).trans ?_
  rw [hAgg, hT', hD3, hB, hRm, hRv, hG, hBt, hT]
  rfl

set_option maxHeartbeats 8000000 in
/-- Round 5 of the kernel program: its linear region, the host stretch that reads rows at the edges' starts and
    accumulates them at the edges' ends, and its normalising region, read as the specification's round with the
    receiving node's factor applied once to the whole sum. -/
theorem layer5 (c : Dev nD) :
    W24 m ρ c (Proc.devRef .tc main_v192) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W20 m ρ c (Proc.devRef .tc main_v162)) (Cert.Spec.sliceW (m ((c.tc : Thread nD τ).loc main_arg3)) (5 : Fin 8)) (disCol (m ((c.tc : Thread nD τ).loc main_arg1)))
        (Cert.Spec.sliceRow (m ((c.tc : Thread nD τ).loc main_arg4)) (5 : Fin 8)) (Cert.Spec.sliceRow (m ((c.tc : Thread nD τ).loc main_arg7)) (5 : Fin 8)) (Cert.Spec.sliceRow (m ((c.tc : Thread nD τ).loc main_arg8)) (5 : Fin 8))
        (Cert.Spec.sliceRow (m ((c.tc : Thread nD τ).loc main_arg5)) (5 : Fin 8)) (Cert.Spec.sliceRow (m ((c.tc : Thread nD τ).loc main_arg6)) (5 : Fin 8)) := by
  have hW : V21 m ρ c main_v164 = Cert.Spec.sliceW (m ((c.tc : Thread nD τ).loc main_arg3)) (5 : Fin 8) := by
    show StableHlo.after hostOps10 (W20 m ρ c) (Proc.devRef .tc main_v164) = _
    after_results
    rw [to1_20 m ρ c main_arg3 (by decide), W1_arg3 m ρ c]
    exact Cert.HostIdx.slice_W 5 (5 : Fin 8) rfl _ _ _
  have hH : V21 m ρ c main_v162 = (W20 m ρ c (Proc.devRef .tc main_v162)) := by
    show StableHlo.after hostOps10 (W20 m ρ c) (Proc.devRef .tc main_v162) = _
    after_results
  have hD1 : V21 m ρ c main_v12 = disCol (m ((c.tc : Thread nD τ).loc main_arg1)) :=
    (to1_21 m ρ c main_v12 (by decide)).trans (W1_v12 m ρ c)
  have hT : W22 m ρ c (Proc.devRef .tc main_v165) = Cert.Spec.linScaled (W20 m ρ c (Proc.devRef .tc main_v162)) (Cert.Spec.sliceW (m ((c.tc : Thread nD τ).loc main_arg3)) (5 : Fin 8)) (disCol (m ((c.tc : Thread nD τ).loc main_arg1))) := by
    refine ((W22_arr m ρ c 3).trans (lin10 (V21 m ρ) c)).trans ?_
    rw [hW, hH, hD1]
  have hT' : V23 m ρ c main_v165 = W22 m ρ c (Proc.devRef .tc main_v165) := by
    show StableHlo.after hostOps11 (W22 m ρ c) (Proc.devRef .tc main_v165) = _
    after_results
  have hAgg : V23 m ρ c main_v176 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W22 m ρ c (Proc.devRef .tc main_v165)) := by
    show StableHlo.after hostOps11 (W22 m ρ c) (Proc.devRef .tc main_v176) = _
    after_results
    rw [to1_22 m ρ c main_v1 (by decide), to1_22 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V23 m ρ c main_v187 = Cert.Spec.sliceRow (m ((c.tc : Thread nD τ).loc main_arg4)) (5 : Fin 8) := by
    show StableHlo.after hostOps11 (W22 m ρ c) (Proc.devRef .tc main_v187) = _
    after_results
    rw [to1_22 m ρ c main_arg4 (by decide), W1_arg4 m ρ c]
    exact Cert.HostIdx.slice_row 5 (5 : Fin 8) rfl _ _ _ _
  have hRm : V23 m ρ c main_v188 = Cert.Spec.sliceRow (m ((c.tc : Thread nD τ).loc main_arg7)) (5 : Fin 8) := by
    show StableHlo.after hostOps11 (W22 m ρ c) (Proc.devRef .tc main_v188) = _
    after_results
    rw [to1_22 m ρ c main_arg7 (by decide), W1_arg7 m ρ c]
    exact Cert.HostIdx.slice_row 5 (5 : Fin 8) rfl _ _ _ _
  have hRv : V23 m ρ c main_v189 = Cert.Spec.sliceRow (m ((c.tc : Thread nD τ).loc main_arg8)) (5 : Fin 8) := by
    show StableHlo.after hostOps11 (W22 m ρ c) (Proc.devRef .tc main_v189) = _
    after_results
    rw [to1_22 m ρ c main_arg8 (by decide), W1_arg8 m ρ c]
    exact Cert.HostIdx.slice_row 5 (5 : Fin 8) rfl _ _ _ _
  have hG : V23 m ρ c main_v190 = Cert.Spec.sliceRow (m ((c.tc : Thread nD τ).loc main_arg5)) (5 : Fin 8) := by
    show StableHlo.after hostOps11 (W22 m ρ c) (Proc.devRef .tc main_v190) = _
    after_results
    rw [to1_22 m ρ c main_arg5 (by decide), W1_arg5 m ρ c]
    exact Cert.HostIdx.slice_row 5 (5 : Fin 8) rfl _ _ _ _
  have hBt : V23 m ρ c main_v191 = Cert.Spec.sliceRow (m ((c.tc : Thread nD τ).loc main_arg6)) (5 : Fin 8) := by
    show StableHlo.after hostOps11 (W22 m ρ c) (Proc.devRef .tc main_v191) = _
    after_results
    rw [to1_22 m ρ c main_arg6 (by decide), W1_arg6 m ρ c]
    exact Cert.HostIdx.slice_row 5 (5 : Fin 8) rfl _ _ _ _
  have hD3 : V23 m ρ c main_v12 = disCol (m ((c.tc : Thread nD τ).loc main_arg1)) :=
    (to1_23 m ρ c main_v12 (by decide)).trans (W1_v12 m ρ c)
  refine ((W24_arr m ρ c 8).trans (post11 (V23 m ρ) c)).trans ?_
  rw [hAgg, hT', hD3, hB, hRm, hRv, hG, hBt, hT]
  rfl

end Cert.KVal

end
-- ==== Proof.RegPostD.lean ====
/-
  The post regions 13, 15, value side: each region's output array after its run is the specification's `norm` of
  `sumOutside` of the arrays the region is entered with (collected sum, pre-scaled rows, per-node factors, bias; mean,
  variance, gain, shift). Each region runs over 25 points, each writing one block of 2000 rows; a block's payload is that
  function of the blocks it loads, the blocks restrict the arrays (the five row vectors whole), and the 25 output blocks
  tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzPostD : (![0, 0] : Fin 2 → Nat) = fun _ => 0 := funext fun a => by fin_cases a <;> rfl

/-- On the 25-point grid the row-block index of an index map `![arg0, 0]` at the `t`-th point is `t` (decided over the
    25 points; the regions' grids are this grid). -/
theorem gridRowPostD : ∀ t : Fin grid0.N, (BitVec.ofNat 32 ((grid0.coords t) 0).val).toNat = t.val :=
  (by decide +kernel : ∀ t : Fin grid0.N, _)

/-- The inverse root of a vector, read at an index. -/
theorem rsqrtApplyPostD {s : Shape} {φ : FTy} (a : FVec Ideal s φ) (i : s.Idx) : rsqrt a i = Ideal.rsqrt (a i) := rfl

/-- Region 13's block payload: the receiving row's factor times the sum of the collected block and the node's own
    pre-scaled block, plus the bias; then centred, scaled by the inverse root of the shifted variance and by the gain,
    shifted, and clamped below. The payload's fifth and sixth arguments are the variance row and the mean row. -/
theorem postPay13_eq (x0 : FVec Ideal S2000x128 .f32) (x1 : FVec Ideal S2000x128 .bf16) (x2 : FVec Ideal S2000x1 .f32)
    (x3 xv xm x6 x7 : FVec Ideal S1x128 .f32) :
    k13_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k13_pay1
  simp only [maximumf_apply, addf_apply, mulf_apply, subf_apply, extf_apply, rsqrtApplyPostD, broadcast_apply, shapeCast_self,
    broadcastTo_1b_ab_apply, MatmulRead.broadcastTo_a1_ab_apply]
  rfl

/-- Region 13's index maps at any point: the collected block, the pre-scaled block and the factor block move with the
    output block down the rows; the five row vectors' blocks and every column index are zero (each map is `![arg0, 0]`
    or `![0, 0]`). -/
theorem idx13 (t : Fin cfg13.N) :
    win13_0.index t (0 : Fin 2) = win13_8.index t (0 : Fin 2) ∧ win13_0.index t (1 : Fin 2) = 0
    ∧ win13_1.index t (0 : Fin 2) = win13_8.index t (0 : Fin 2) ∧ win13_1.index t (1 : Fin 2) = 0
    ∧ win13_2.index t (0 : Fin 2) = win13_8.index t (0 : Fin 2) ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = 0 ∧ win13_7.index t (1 : Fin 2) = 0
    ∧ win13_8.index t (1 : Fin 2) = 0 :=
  ⟨rfl, rfl, rfl, rfl, rfl, rfl, rfl, rfl, rfl, rfl, rfl, rfl, rfl, rfl, rfl, rfl, rfl⟩

/-- The row-block index of region 13's output at the `t`-th point is `t`. -/
theorem rowPt13 (t : Fin cfg13.N) : win13_8.index t (0 : Fin 2) = t.val := gridRowPostD t

/-- An index of region 13's output array is in point `t`'s block iff each coordinate is in the block's range. -/
theorem mem13 (t : Fin cfg13.N) (i : S50000x128.Idx) :
    i ∈ ((cfg13.win 8).blk t).view.set ↔ ∀ a : Fin 2, win13_8.index t a * S2000x128.size a ≤ (i a).val ∧ (i a).val < win13_8.index t a * S2000x128.size a + S2000x128.size a := by
  show i ∈ ((View.whole main_v222).slice (win13_8.rect t)).set ↔ _
  rw [View.set_slice_whole, Rect.mem_set_unit]
  exact Iff.rfl

/-- Region 13's output blocks tile its array: row `v` is in the block of point `v / 2000`. -/
theorem cover13 (i : S50000x128.Idx) : ∃ t : Fin cfg13.N, (cfg13.win 8).flush t = true ∧ i ∈ ((cfg13.win 8).blk t).view.set := by
  have hi0 : (i 0).val < 50000 := (i 0).isLt
  have hi1 : (i 1).val < 128 := (i 1).isLt
  have hN : (i 0).val / 2000 < cfg13.N := lt_of_lt_of_eq (by omega : (i 0).val / 2000 < 25) N_13.symm
  obtain ⟨t, ht⟩ : ∃ t : Fin cfg13.N, t.val = (i 0).val / 2000 := ⟨⟨_, hN⟩, rfl⟩
  have q0 : win13_8.index t (0 : Fin 2) = (i 0).val / 2000 := (rowPt13 t).trans ht
  have q1 : win13_8.index t (1 : Fin 2) = 0 := (idx13 t).2.2.2.2.2.2.2.2.2.2.2.2.2.2.2.2
  refine ⟨t, flush13_8 t, ?_⟩
  rw [mem13]
  intro a
  match a with
  | ⟨0, _⟩ => show win13_8.index t (0 : Fin 2) * 2000 ≤ (i 0).val ∧ (i 0).val < win13_8.index t (0 : Fin 2) * 2000 + 2000; omega
  | ⟨1, _⟩ => show win13_8.index t (1 : Fin 2) * 128 ≤ (i 1).val ∧ (i 1).val < win13_8.index t (1 : Fin 2) * 128 + 128; omega
set_option maxHeartbeats 1000000 in
/-- Block `t` of the normalised sum of the arrays is the normalised sum of the blocks at `t`: the block's rows of the
    collected array, of the pre-scaled array and of the factors, and the five whole row vectors. -/
theorem blkPost13 (t : Fin cfg13.N) (A0 A1 : S50000x128.Idx → EReal) (A2 : S50000x1.Idx → EReal)
    (A3 A4 A5 A6 A7 : S1x128.Idx → EReal) (eps zr : EReal) :
    (cfg13.win 8).cut (grid13.coords t) (Cert.Spec.norm (Cert.Spec.sumOutside
          (((cfg13.win 0).blk t).view.read (Elt Ideal) A0) (((cfg13.win 1).blk t).view.read (Elt Ideal) A1)
          (((cfg13.win 2).blk t).view.read (Elt Ideal) A2) (((cfg13.win 3).blk t).view.read (Elt Ideal) A3))
        (((cfg13.win 4).blk t).view.read (Elt Ideal) A4) (((cfg13.win 5).blk t).view.read (Elt Ideal) A5)
        (((cfg13.win 6).blk t).view.read (Elt Ideal) A6) (((cfg13.win 7).blk t).view.read (Elt Ideal) A7) eps zr)
      = ((cfg13.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx13 t
  funext y
  show max (((((A2 (((cfg13.win 2).blk t).view.emb (ix2 (y 0) (0 : Fin 1))) * (A0 (((cfg13.win 0).blk t).view.emb y) + A1 (((cfg13.win 1).blk t).view.emb y)) + A3 (((cfg13.win 3).blk t).view.emb (ix2 (0 : Fin 1) (y 1))))
          - A4 (((cfg13.win 4).blk t).view.emb (ix2 (0 : Fin 1) (y 1)))) * Ideal.rsqrt (A5 (((cfg13.win 5).blk t).view.emb (ix2 (0 : Fin 1) (y 1))) + eps)) * A6 (((cfg13.win 6).blk t).view.emb (ix2 (0 : Fin 1) (y 1)))) + A7 (((cfg13.win 7).blk t).view.emb (ix2 (0 : Fin 1) (y 1)))) zr
      = max (((((A2 (ix2 ((((cfg13.win 8).blk t).view.emb y) 0) (0 : Fin 1)) * (A0 (((cfg13.win 8).blk t).view.emb y) + A1 (((cfg13.win 8).blk t).view.emb y)) + A3 (ix2 (0 : Fin 1) ((((cfg13.win 8).blk t).view.emb y) 1)))
          - A4 (ix2 (0 : Fin 1) ((((cfg13.win 8).blk t).view.emb y) 1))) * Ideal.rsqrt (A5 (ix2 (0 : Fin 1) ((((cfg13.win 8).blk t).view.emb y) 1)) + eps)) * A6 (ix2 (0 : Fin 1) ((((cfg13.win 8).blk t).view.emb y) 1))) + A7 (ix2 (0 : Fin 1) ((((cfg13.win 8).blk t).view.emb y) 1))) zr
  have hy0 : (y 0).val < 2000 := (y 0).isLt
  have hy1 : (y 1).val < 128 := (y 1).isLt
  have h0 : ((cfg13.win 0).blk t).view.emb y = (((cfg13.win 8).blk t).view.emb y) := by
    funext a; apply Fin.ext
    match a with
    | ⟨0, _⟩ => show win13_0.index t (0 : Fin 2) * 2000 + 1 * (y 0).val = win13_8.index t (0 : Fin 2) * 2000 + 1 * (y 0).val; omega
    | ⟨1, _⟩ => show win13_0.index t (1 : Fin 2) * 128 + 1 * (y 1).val = win13_8.index t (1 : Fin 2) * 128 + 1 * (y 1).val; omega
  have h1 : ((cfg13.win 1).blk t).view.emb y = (((cfg13.win 8).blk t).view.emb y) := by
    funext a; apply Fin.ext
    match a with
    | ⟨0, _⟩ => show win13_1.index t (0 : Fin 2) * 2000 + 1 * (y 0).val = win13_8.index t (0 : Fin 2) * 2000 + 1 * (y 0).val; omega
    | ⟨1, _⟩ => show win13_1.index t (1 : Fin 2) * 128 + 1 * (y 1).val = win13_8.index t (1 : Fin 2) * 128 + 1 * (y 1).val; omega
  have h2 : ((cfg13.win 2).blk t).view.emb (ix2 (y 0) (0 : Fin 1)) = ix2 ((((cfg13.win 8).blk t).view.emb y) 0) (0 : Fin 1) := by
    funext a; apply Fin.ext
    match a with
    | ⟨0, _⟩ => show win13_2.index t (0 : Fin 2) * 2000 + 1 * (y 0).val = win13_8.index t (0 : Fin 2) * 2000 + 1 * (y 0).val; omega
    | ⟨1, _⟩ => show win13_2.index t (1 : Fin 2) * 1 + 1 * 0 = 0; omega
  have h3 : ((cfg13.win 3).blk t).view.emb (ix2 (0 : Fin 1) (y 1)) = ix2 (0 : Fin 1) ((((cfg13.win 8).blk t).view.emb y) 1) := by
    funext a; apply Fin.ext
    match a with
    | ⟨0, _⟩ => show win13_3.index t (0 : Fin 2) * 1 + 1 * 0 = 0; omega
    | ⟨1, _⟩ => show win13_3.index t (1 : Fin 2) * 128 + 1 * (y 1).val = win13_8.index t (1 : Fin 2) * 128 + 1 * (y 1).val; omega
  have h4 : ((cfg13.win 4).blk t).view.emb (ix2 (0 : Fin 1) (y 1)) = ix2 (0 : Fin 1) ((((cfg13.win 8).blk t).view.emb y) 1) := by
    funext a; apply Fin.ext
    match a with
    | ⟨0, _⟩ => show win13_4.index t (0 : Fin 2) * 1 + 1 * 0 = 0; omega
    | ⟨1, _⟩ => show win13_4.index t (1 : Fin 2) * 128 + 1 * (y 1).val = win13_8.index t (1 : Fin 2) * 128 + 1 * (y 1).val; omega
  have h5 : ((cfg13.win 5).blk t).view.emb (ix2 (0 : Fin 1) (y 1)) = ix2 (0 : Fin 1) ((((cfg13.win 8).blk t).view.emb y) 1) := by
    funext a; apply Fin.ext
    match a with
    | ⟨0, _⟩ => show win13_5.index t (0 : Fin 2) * 1 + 1 * 0 = 0; omega
    | ⟨1, _⟩ => show win13_5.index t (1 : Fin 2) * 128 + 1 * (y 1).val = win13_8.index t (1 : Fin 2) * 128 + 1 * (y 1).val; omega
  have h6 : ((cfg13.win 6).blk t).view.emb (ix2 (0 : Fin 1) (y 1)) = ix2 (0 : Fin 1) ((((cfg13.win 8).blk t).view.emb y) 1) := by
    funext a; apply Fin.ext
    match a with
    | ⟨0, _⟩ => show win13_6.index t (0 : Fin 2) * 1 + 1 * 0 = 0; omega
    | ⟨1, _⟩ => show win13_6.index t (1 : Fin 2) * 128 + 1 * (y 1).val = win13_8.index t (1 : Fin 2) * 128 + 1 * (y 1).val; omega
  have h7 : ((cfg13.win 7).blk t).view.emb (ix2 (0 : Fin 1) (y 1)) = ix2 (0 : Fin 1) ((((cfg13.win 8).blk t).view.emb y) 1) := by
    funext a; apply Fin.ext
    match a with
    | ⟨0, _⟩ => show win13_7.index t (0 : Fin 2) * 1 + 1 * 0 = 0; omega
    | ⟨1, _⟩ => show win13_7.index t (1 : Fin 2) * 128 + 1 * (y 1).val = win13_8.index t (1 : Fin 2) * 128 + 1 * (y 1).val; omega
  rw [h0, h1, h2, h3, h4, h5, h6, h7]
  rfl

/-- Region 15's block payload: the receiving row's factor times the sum of the collected block and the node's own
    pre-scaled block, plus the bias; then centred, scaled by the inverse root of the shifted variance and by the gain,
    shifted, and clamped below. The payload's fifth and sixth arguments are the variance row and the mean row. -/
theorem postPay15_eq (x0 : FVec Ideal S2000x128 .f32) (x1 : FVec Ideal S2000x128 .bf16) (x2 : FVec Ideal S2000x1 .f32)
    (x3 xv xm x6 x7 : FVec Ideal S1x128 .f32) :
    k15_pay1 (F := Ideal) x0 x1 x2 x3 xv xm x6 x7
      = Cert.Spec.norm (Cert.Spec.sumOutside x0 x1 x2 x3) xm xv x6 x7
          (Ideal.ofBits .f32 0x3727C5AC#32) (Ideal.ofBits .f32 0x00000000#32) := by
  funext j
  obtain ⟨p, q, rfl⟩ : ∃ (p : Fin 2000) (q : Fin 128), j = ix2 p q := ⟨j 0, j 1, eq_ix2 j⟩
  show _ = max (((((x2 (ix2 p (0 : Fin 1)) * (x0 (ix2 p q) + x1 (ix2 p q)) + x3 (ix2 (0 : Fin 1) q)) - xm (ix2 (0 : Fin 1) q))
      * Ideal.rsqrt (xv (ix2 (0 : Fin 1) q) + Ideal.ofBits .f32 0x3727C5AC#32)) * x6 (ix2 (0 : Fin 1) q)) + x7 (ix2 (0 : Fin 1) q))
      (Ideal.ofBits .f32 0x00000000#32)
  unfold k15_pay1
  simp only [maximumf_apply, addf_apply, mulf_apply, subf_apply, extf_apply, rsqrtApplyPostD, broadcast_apply, shapeCast_self,
    broadcastTo_1b_ab_apply, MatmulRead.broadcastTo_a1_ab_apply]
  rfl

/-- Region 15's index maps at any point: the collected block, the pre-scaled block and the factor block move with the
    output block down the rows; the five row vectors' blocks and every column index are zero (each map is `![arg0, 0]`
    or `![0, 0]`). -/
theorem idx15 (t : Fin cfg15.N) :
    win15_0.index t (0 : Fin 2) = win15_8.index t (0 : Fin 2) ∧ win15_0.index t (1 : Fin 2) = 0
    ∧ win15_1.index t (0 : Fin 2) = win15_8.index t (0 : Fin 2) ∧ win15_1.index t (1 : Fin 2) = 0
    ∧ win15_2.index t (0 : Fin 2) = win15_8.index t (0 : Fin 2) ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = 0 ∧ win15_7.index t (1 : Fin 2) = 0
    ∧ win15_8.index t (1 : Fin 2) = 0 :=
  ⟨rfl, rfl, rfl, rfl, rfl, rfl, rfl, rfl, rfl, rfl, rfl, rfl, rfl, rfl, rfl, rfl, rfl⟩

/-- The row-block index of region 15's output at the `t`-th point is `t`. -/
theorem rowPt15 (t : Fin cfg15.N) : win15_8.index t (0 : Fin 2) = t.val := gridRowPostD t

/-- An index of region 15's output array is in point `t`'s block iff each coordinate is in the block's range. -/
theorem mem15 (t : Fin cfg15.N) (i : S50000x128.Idx) :
    i ∈ ((cfg15.win 8).blk t).view.set ↔ ∀ a : Fin 2, win15_8.index t a * S2000x128.size a ≤ (i a).val ∧ (i a).val < win15_8.index t a * S2000x128.size a + S2000x128.size a := by
  show i ∈ ((View.whole main_v252).slice (win15_8.rect t)).set ↔ _
  rw [View.set_slice_whole, Rect.mem_set_unit]
  exact Iff.rfl

/-- Region 15's output blocks tile its array: row `v` is in the block of point `v / 2000`. -/
theorem cover15 (i : S50000x128.Idx) : ∃ t : Fin cfg15.N, (cfg15.win 8).flush t = true ∧ i ∈ ((cfg15.win 8).blk t).view.set := by
  have hi0 : (i 0).val < 50000 := (i 0).isLt
  have hi1 : (i 1).val < 128 := (i 1).isLt
  have hN : (i 0).val / 2000 < cfg15.N := lt_of_lt_of_eq (by omega : (i 0).val / 2000 < 25) N_15.symm
  obtain ⟨t, ht⟩ : ∃ t : Fin cfg15.N, t.val = (i 0).val / 2000 := ⟨⟨_, hN⟩, rfl⟩
  have q0 : win15_8.index t (0 : Fin 2) = (i 0).val / 2000 := (rowPt15 t).trans ht
  have q1 : win15_8.index t (1 : Fin 2) = 0 := (idx15 t).2.2.2.2.2.2.2.2.2.2.2.2.2.2.2.2
  refine ⟨t, flush15_8 t, ?_⟩
  rw [mem15]
  intro a
  match a with
  | ⟨0, _⟩ => show win15_8.index t (0 : Fin 2) * 2000 ≤ (i 0).val ∧ (i 0).val < win15_8.index t (0 : Fin 2) * 2000 + 2000; omega
  | ⟨1, _⟩ => show win15_8.index t (1 : Fin 2) * 128 ≤ (i 1).val ∧ (i 1).val < win15_8.index t (1 : Fin 2) * 128 + 128; omega
set_option maxHeartbeats 1000000 in
/-- Block `t` of the normalised sum of the arrays is the normalised sum of the blocks at `t`: the block's rows of the
    collected array, of the pre-scaled array and of the factors, and the five whole row vectors. -/
theorem blkPost15 (t : Fin cfg15.N) (A0 A1 : S50000x128.Idx → EReal) (A2 : S50000x1.Idx → EReal)
    (A3 A4 A5 A6 A7 : S1x128.Idx → EReal) (eps zr : EReal) :
    (cfg15.win 8).cut (grid15.coords t) (Cert.Spec.norm (Cert.Spec.sumOutside
          (((cfg15.win 0).blk t).view.read (Elt Ideal) A0) (((cfg15.win 1).blk t).view.read (Elt Ideal) A1)
          (((cfg15.win 2).blk t).view.read (Elt Ideal) A2) (((cfg15.win 3).blk t).view.read (Elt Ideal) A3))
        (((cfg15.win 4).blk t).view.read (Elt Ideal) A4) (((cfg15.win 5).blk t).view.read (Elt Ideal) A5)
        (((cfg15.win 6).blk t).view.read (Elt Ideal) A6) (((cfg15.win 7).blk t).view.read (Elt Ideal) A7) eps zr)
      = ((cfg15.win 8).blk t).view.read (Elt Ideal)
          (Cert.Spec.norm (Cert.Spec.sumOutside A0 A1 A2 A3) A4 A5 A6 A7 eps zr) := by
  obtain ⟨e00, e01, e10, e11, e20, e21, e30, e31, e40, e41, e50, e51, e60, e61, e70, e71, e81⟩ := idx15 t
  funext y
  show max (((((A2 (((cfg15.win 2).blk t).view.emb (ix2 (y 0) (0 : Fin 1))) * (A0 (((cfg15.win 0).blk t).view.emb y) + A1 (((cfg15.win 1).blk t).view.emb y)) + A3 (((cfg15.win 3).blk t).view.emb (ix2 (0 : Fin 1) (y 1))))
          - A4 (((cfg15.win 4).blk t).view.emb (ix2 (0 : Fin 1) (y 1)))) * Ideal.rsqrt (A5 (((cfg15.win 5).blk t).view.emb (ix2 (0 : Fin 1) (y 1))) + eps)) * A6 (((cfg15.win 6).blk t).view.emb (ix2 (0 : Fin 1) (y 1)))) + A7 (((cfg15.win 7).blk t).view.emb (ix2 (0 : Fin 1) (y 1)))) zr
      = max (((((A2 (ix2 ((((cfg15.win 8).blk t).view.emb y) 0) (0 : Fin 1)) * (A0 (((cfg15.win 8).blk t).view.emb y) + A1 (((cfg15.win 8).blk t).view.emb y)) + A3 (ix2 (0 : Fin 1) ((((cfg15.win 8).blk t).view.emb y) 1)))
          - A4 (ix2 (0 : Fin 1) ((((cfg15.win 8).blk t).view.emb y) 1))) * Ideal.rsqrt (A5 (ix2 (0 : Fin 1) ((((cfg15.win 8).blk t).view.emb y) 1)) + eps)) * A6 (ix2 (0 : Fin 1) ((((cfg15.win 8).blk t).view.emb y) 1))) + A7 (ix2 (0 : Fin 1) ((((cfg15.win 8).blk t).view.emb y) 1))) zr
  have hy0 : (y 0).val < 2000 := (y 0).isLt
  have hy1 : (y 1).val < 128 := (y 1).isLt
  have h0 : ((cfg15.win 0).blk t).view.emb y = (((cfg15.win 8).blk t).view.emb y) := by
    funext a; apply Fin.ext
    match a with
    | ⟨0, _⟩ => show win15_0.index t (0 : Fin 2) * 2000 + 1 * (y 0).val = win15_8.index t (0 : Fin 2) * 2000 + 1 * (y 0).val; omega
    | ⟨1, _⟩ => show win15_0.index t (1 : Fin 2) * 128 + 1 * (y 1).val = win15_8.index t (1 : Fin 2) * 128 + 1 * (y 1).val; omega
  have h1 : ((cfg15.win 1).blk t).view.emb y = (((cfg15.win 8).blk t).view.emb y) := by
    funext a; apply Fin.ext
    match a with
    | ⟨0, _⟩ => show win15_1.index t (0 : Fin 2) * 2000 + 1 * (y 0).val = win15_8.index t (0 : Fin 2) * 2000 + 1 * (y 0).val; omega
    | ⟨1, _⟩ => show win15_1.index t (1 : Fin 2) * 128 + 1 * (y 1).val = win15_8.index t (1 : Fin 2) * 128 + 1 * (y 1).val; omega
  have h2 : ((cfg15.win 2).blk t).view.emb (ix2 (y 0) (0 : Fin 1)) = ix2 ((((cfg15.win 8).blk t).view.emb y) 0) (0 : Fin 1) := by
    funext a; apply Fin.ext
    match a with
    | ⟨0, _⟩ => show win15_2.index t (0 : Fin 2) * 2000 + 1 * (y 0).val = win15_8.index t (0 : Fin 2) * 2000 + 1 * (y 0).val; omega
    | ⟨1, _⟩ => show win15_2.index t (1 : Fin 2) * 1 + 1 * 0 = 0; omega
  have h3 : ((cfg15.win 3).blk t).view.emb (ix2 (0 : Fin 1) (y 1)) = ix2 (0 : Fin 1) ((((cfg15.win 8).blk t).view.emb y) 1) := by
    funext a; apply Fin.ext
    match a with
    | ⟨0, _⟩ => show win15_3.index t (0 : Fin 2) * 1 + 1 * 0 = 0; omega
    | ⟨1, _⟩ => show win15_3.index t (1 : Fin 2) * 128 + 1 * (y 1).val = win15_8.index t (1 : Fin 2) * 128 + 1 * (y 1).val; omega
  have h4 : ((cfg15.win 4).blk t).view.emb (ix2 (0 : Fin 1) (y 1)) = ix2 (0 : Fin 1) ((((cfg15.win 8).blk t).view.emb y) 1) := by
    funext a; apply Fin.ext
    match a with
    | ⟨0, _⟩ => show win15_4.index t (0 : Fin 2) * 1 + 1 * 0 = 0; omega
    | ⟨1, _⟩ => show win15_4.index t (1 : Fin 2) * 128 + 1 * (y 1).val = win15_8.index t (1 : Fin 2) * 128 + 1 * (y 1).val; omega
  have h5 : ((cfg15.win 5).blk t).view.emb (ix2 (0 : Fin 1) (y 1)) = ix2 (0 : Fin 1) ((((cfg15.win 8).blk t).view.emb y) 1) := by
    funext a; apply Fin.ext
    match a with
    | ⟨0, _⟩ => show win15_5.index t (0 : Fin 2) * 1 + 1 * 0 = 0; omega
    | ⟨1, _⟩ => show win15_5.index t (1 : Fin 2) * 128 + 1 * (y 1).val = win15_8.index t (1 : Fin 2) * 128 + 1 * (y 1).val; omega
  have h6 : ((cfg15.win 6).blk t).view.emb (ix2 (0 : Fin 1) (y 1)) = ix2 (0 : Fin 1) ((((cfg15.win 8).blk t).view.emb y) 1) := by
    funext a; apply Fin.ext
    match a with
    | ⟨0, _⟩ => show win15_6.index t (0 : Fin 2) * 1 + 1 * 0 = 0; omega
    | ⟨1, _⟩ => show win15_6.index t (1 : Fin 2) * 128 + 1 * (y 1).val = win15_8.index t (1 : Fin 2) * 128 + 1 * (y 1).val; omega
  have h7 : ((cfg15.win 7).blk t).view.emb (ix2 (0 : Fin 1) (y 1)) = ix2 (0 : Fin 1) ((((cfg15.win 8).blk t).view.emb y) 1) := by
    funext a; apply Fin.ext
    match a with
    | ⟨0, _⟩ => show win15_7.index t (0 : Fin 2) * 1 + 1 * 0 = 0; omega
    | ⟨1, _⟩ => show win15_7.index t (1 : Fin 2) * 128 + 1 * (y 1).val = win15_8.index t (1 : Fin 2) * 128 + 1 * (y 1).val; omega
  rw [h0, h1, h2, h3, h4, h5, h6, h7]
  rfl

-- The buffer contents a region is entered with: every statement below holds for any such contents.
variable (V : (c : Dev nD) → (b : Ref sig .tc) → Buf (Elt Ideal) ((c : Thread nD τ).loc b))

/-- What point `t` of region 13 writes back is block `t` of the normalised sum of the arrays the region finds. -/
theorem flushed13 (c : Dev nD) (t : Fin cfg13.N) :
    (dat13 (F := Ideal) V c).flushed 8 t
      = ((cfg13.win 8).blk t).view.read (Elt Ideal) (Cert.Spec.norm (Cert.Spec.sumOutside (V c main_v206) (V c main_v195) (V c main_v12) (V c main_v217)) (V c main_v218) (V c main_v219) (V c main_v220) (V c main_v221)
          (Ideal.ofBits .f32 0x3727C5AC#32) (Ideal.ofBits .f32 0x00000000#32)) := by
  show (cfg13.win 8).cut (grid13.coords t) ((dat13 (F := Ideal) V c).after 8 t) = _
  rw [after13_8]
  unfold out13_8
  rw [View.canon_unit_zero hzPostD]
  simp only [View.ld_unit_zero (S := S2000x128) hzPostD, View.ld_unit_zero (S := S2000x1) hzPostD, View.ld_unit_zero (S := S1x128) hzPostD]
  rw [postPay13_eq]
  exact blkPost13 t _ _ _ _ _ _ _ _ _ _

/-- Region 13's whole output array after its run: the normalised sum of the collected array, the pre-scaled array, the
    factors, the bias, and the mean, variance, gain and shift rows as the region finds them. -/
theorem post13 (c : Dev nD) :
    (dat13 (F := Ideal) V c).arrAt 8 cfg13.N
      = Cert.Spec.norm (Cert.Spec.sumOutside (V c main_v206) (V c main_v195) (V c main_v12) (V c main_v217)) (V c main_v218) (V c main_v219) (V c main_v220) (V c main_v221)
          (Ideal.ofBits .f32 0x3727C5AC#32) (Ideal.ofBits .f32 0x00000000#32) :=
  (dat13 (F := Ideal) V c).arrAt_eq_of_cover 8 _ (fun t _ => flushed13 V c t) cover13

/-- What point `t` of region 15 writes back is block `t` of the normalised sum of the arrays the region finds. -/
theorem flushed15 (c : Dev nD) (t : Fin cfg15.N) :
    (dat15 (F := Ideal) V c).flushed 8 t
      = ((cfg15.win 8).blk t).view.read (Elt Ideal) (Cert.Spec.norm (Cert.Spec.sumOutside (V c main_v236) (V c main_v225) (V c main_v12) (V c main_v247)) (V c main_v248) (V c main_v249) (V c main_v250) (V c main_v251)
          (Ideal.ofBits .f32 0x3727C5AC#32) (Ideal.ofBits .f32 0x00000000#32)) := by
  show (cfg15.win 8).cut (grid15.coords t) ((dat15 (F := Ideal) V c).after 8 t) = _
  rw [after15_8]
  unfold out15_8
  rw [View.canon_unit_zero hzPostD]
  simp only [View.ld_unit_zero (S := S2000x128) hzPostD, View.ld_unit_zero (S := S2000x1) hzPostD, View.ld_unit_zero (S := S1x128) hzPostD]
  rw [postPay15_eq]
  exact blkPost15 t _ _ _ _ _ _ _ _ _ _

/-- Region 15's whole output array after its run: the normalised sum of the collected array, the pre-scaled array, the
    factors, the bias, and the mean, variance, gain and shift rows as the region finds them. -/
theorem post15 (c : Dev nD) :
    (dat15 (F := Ideal) V c).arrAt 8 cfg15.N
      = Cert.Spec.norm (Cert.Spec.sumOutside (V c main_v236) (V c main_v225) (V c main_v12) (V c main_v247)) (V c main_v248) (V c main_v249) (V c main_v250) (V c main_v251)
          (Ideal.ofBits .f32 0x3727C5AC#32) (Ideal.ofBits .f32 0x00000000#32) :=
  (dat15 (F := Ideal) V c).arrAt_eq_of_cover 8 _ (fun t _ => flushed15 V c t) cover15

end Cert.KVal

end
-- ==== Proof.KLayer67.lean ====
/-
  Rounds of the kernel program read whole: a round's three stages — its linear region, the host stretch that reads
  rows at the edges' starts and accumulates them at the edges' ends, its normalising region — composed are the
  specification's `roundKer` of the previous round's output, the round's slices of the stacked parameters, the edge
  list's two columns and the per-node factor.
-/
import proofs.«127734_j69286412419642_2_alg».proof.Proof.KBase
import proofs.«127734_j69286412419642_2_alg».proof.Proof.HostIdx
import proofs.«127734_j69286412419642_2_alg».proof.Proof.RegLinB
import proofs.«127734_j69286412419642_2_alg».proof.Proof.RegPostD

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

set_option maxHeartbeats 8000000 in
/-- Round 6 of the kernel program: its linear region, the host stretch that reads rows at the edges' starts and
    accumulates them at the edges' ends, and its normalising region, read as the specification's round with the
    receiving node's factor applied once to the whole sum. -/
theorem layer6 (c : Dev nD) :
    W28 m ρ c (Proc.devRef .tc main_v222) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W24 m ρ c (Proc.devRef .tc main_v192)) (Cert.Spec.sliceW (m ((c.tc : Thread nD τ).loc main_arg3)) (6 : Fin 8)) (disCol (m ((c.tc : Thread nD τ).loc main_arg1)))
        (Cert.Spec.sliceRow (m ((c.tc : Thread nD τ).loc main_arg4)) (6 : Fin 8)) (Cert.Spec.sliceRow (m ((c.tc : Thread nD τ).loc main_arg7)) (6 : Fin 8)) (Cert.Spec.sliceRow (m ((c.tc : Thread nD τ).loc main_arg8)) (6 : Fin 8))
        (Cert.Spec.sliceRow (m ((c.tc : Thread nD τ).loc main_arg5)) (6 : Fin 8)) (Cert.Spec.sliceRow (m ((c.tc : Thread nD τ).loc main_arg6)) (6 : Fin 8)) := by
  have hW : V25 m ρ c main_v194 = Cert.Spec.sliceW (m ((c.tc : Thread nD τ).loc main_arg3)) (6 : Fin 8) := by
    show StableHlo.after hostOps12 (W24 m ρ c) (Proc.devRef .tc main_v194) = _
    after_results
    rw [to1_24 m ρ c main_arg3 (by decide), W1_arg3 m ρ c]
    exact Cert.HostIdx.slice_W 6 (6 : Fin 8) rfl _ _ _
  have hH : V25 m ρ c main_v192 = (W24 m ρ c (Proc.devRef .tc main_v192)) := by
    show StableHlo.after hostOps12 (W24 m ρ c) (Proc.devRef .tc main_v192) = _
    after_results
  have hD1 : V25 m ρ c main_v12 = disCol (m ((c.tc : Thread nD τ).loc main_arg1)) :=
    (to1_25 m ρ c main_v12 (by decide)).trans (W1_v12 m ρ c)
  have hT : W26 m ρ c (Proc.devRef .tc main_v195) = Cert.Spec.linScaled (W24 m ρ c (Proc.devRef .tc main_v192)) (Cert.Spec.sliceW (m ((c.tc : Thread nD τ).loc main_arg3)) (6 : Fin 8)) (disCol (m ((c.tc : Thread nD τ).loc main_arg1))) := by
    refine ((W26_arr m ρ c 3).trans (lin12 (V25 m ρ) c)).trans ?_
    rw [hW, hH, hD1]
  have hT' : V27 m ρ c main_v195 = W26 m ρ c (Proc.devRef .tc main_v195) := by
    show StableHlo.after hostOps13 (W26 m ρ c) (Proc.devRef .tc main_v195) = _
    after_results
  have hAgg : V27 m ρ c main_v206 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W26 m ρ c (Proc.devRef .tc main_v195)) := by
    show StableHlo.after hostOps13 (W26 m ρ c) (Proc.devRef .tc main_v206) = _
    after_results
    rw [to1_26 m ρ c main_v1 (by decide), to1_26 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V27 m ρ c main_v217 = Cert.Spec.sliceRow (m ((c.tc : Thread nD τ).loc main_arg4)) (6 : Fin 8) := by
    show StableHlo.after hostOps13 (W26 m ρ c) (Proc.devRef .tc main_v217) = _
    after_results
    rw [to1_26 m ρ c main_arg4 (by decide), W1_arg4 m ρ c]
    exact Cert.HostIdx.slice_row 6 (6 : Fin 8) rfl _ _ _ _
  have hRm : V27 m ρ c main_v218 = Cert.Spec.sliceRow (m ((c.tc : Thread nD τ).loc main_arg7)) (6 : Fin 8) := by
    show StableHlo.after hostOps13 (W26 m ρ c) (Proc.devRef .tc main_v218) = _
    after_results
    rw [to1_26 m ρ c main_arg7 (by decide), W1_arg7 m ρ c]
    exact Cert.HostIdx.slice_row 6 (6 : Fin 8) rfl _ _ _ _
  have hRv : V27 m ρ c main_v219 = Cert.Spec.sliceRow (m ((c.tc : Thread nD τ).loc main_arg8)) (6 : Fin 8) := by
    show StableHlo.after hostOps13 (W26 m ρ c) (Proc.devRef .tc main_v219) = _
    after_results
    rw [to1_26 m ρ c main_arg8 (by decide), W1_arg8 m ρ c]
    exact Cert.HostIdx.slice_row 6 (6 : Fin 8) rfl _ _ _ _
  have hG : V27 m ρ c main_v220 = Cert.Spec.sliceRow (m ((c.tc : Thread nD τ).loc main_arg5)) (6 : Fin 8) := by
    show StableHlo.after hostOps13 (W26 m ρ c) (Proc.devRef .tc main_v220) = _
    after_results
    rw [to1_26 m ρ c main_arg5 (by decide), W1_arg5 m ρ c]
    exact Cert.HostIdx.slice_row 6 (6 : Fin 8) rfl _ _ _ _
  have hBt : V27 m ρ c main_v221 = Cert.Spec.sliceRow (m ((c.tc : Thread nD τ).loc main_arg6)) (6 : Fin 8) := by
    show StableHlo.after hostOps13 (W26 m ρ c) (Proc.devRef .tc main_v221) = _
    after_results
    rw [to1_26 m ρ c main_arg6 (by decide), W1_arg6 m ρ c]
    exact Cert.HostIdx.slice_row 6 (6 : Fin 8) rfl _ _ _ _
  have hD3 : V27 m ρ c main_v12 = disCol (m ((c.tc : Thread nD τ).loc main_arg1)) :=
    (to1_27 m ρ c main_v12 (by decide)).trans (W1_v12 m ρ c)
  refine ((W28_arr m ρ c 8).trans (post13 (V27 m ρ) c)).trans ?_
  rw [hAgg, hT', hD3, hB, hRm, hRv, hG, hBt, hT]
  rfl

set_option maxHeartbeats 8000000 in
/-- Round 7 of the kernel program: its linear region, the host stretch that reads rows at the edges' starts and
    accumulates them at the edges' ends, and its normalising region, read as the specification's round with the
    receiving node's factor applied once to the whole sum. -/
theorem layer7 (c : Dev nD) :
    W32 m ρ c (Proc.devRef .tc main_v252) =
      Cert.Spec.roundKer (N := 50000) (E := 640000) (D := 128) (by decide) (Ideal.ofBits .f32 0x00000000#32) (Ideal.ofBits .f32 0x3727C5AC#32) (Ideal.ofBits .f32 0x00000000#32)
        (wrapCol (srcCol (m ((c.tc : Thread nD τ).loc main_arg1)))) (rawCol (dstCol (m ((c.tc : Thread nD τ).loc main_arg1)))) (W28 m ρ c (Proc.devRef .tc main_v222)) (Cert.Spec.sliceW (m ((c.tc : Thread nD τ).loc main_arg3)) (7 : Fin 8)) (disCol (m ((c.tc : Thread nD τ).loc main_arg1)))
        (Cert.Spec.sliceRow (m ((c.tc : Thread nD τ).loc main_arg4)) (7 : Fin 8)) (Cert.Spec.sliceRow (m ((c.tc : Thread nD τ).loc main_arg7)) (7 : Fin 8)) (Cert.Spec.sliceRow (m ((c.tc : Thread nD τ).loc main_arg8)) (7 : Fin 8))
        (Cert.Spec.sliceRow (m ((c.tc : Thread nD τ).loc main_arg5)) (7 : Fin 8)) (Cert.Spec.sliceRow (m ((c.tc : Thread nD τ).loc main_arg6)) (7 : Fin 8)) := by
  have hW : V29 m ρ c main_v224 = Cert.Spec.sliceW (m ((c.tc : Thread nD τ).loc main_arg3)) (7 : Fin 8) := by
    show StableHlo.after hostOps14 (W28 m ρ c) (Proc.devRef .tc main_v224) = _
    after_results
    rw [to1_28 m ρ c main_arg3 (by decide), W1_arg3 m ρ c]
    exact Cert.HostIdx.slice_W 7 (7 : Fin 8) rfl _ _ _
  have hH : V29 m ρ c main_v222 = (W28 m ρ c (Proc.devRef .tc main_v222)) := by
    show StableHlo.after hostOps14 (W28 m ρ c) (Proc.devRef .tc main_v222) = _
    after_results
  have hD1 : V29 m ρ c main_v12 = disCol (m ((c.tc : Thread nD τ).loc main_arg1)) :=
    (to1_29 m ρ c main_v12 (by decide)).trans (W1_v12 m ρ c)
  have hT : W30 m ρ c (Proc.devRef .tc main_v225) = Cert.Spec.linScaled (W28 m ρ c (Proc.devRef .tc main_v222)) (Cert.Spec.sliceW (m ((c.tc : Thread nD τ).loc main_arg3)) (7 : Fin 8)) (disCol (m ((c.tc : Thread nD τ).loc main_arg1))) := by
    refine ((W30_arr m ρ c 3).trans (lin14 (V29 m ρ) c)).trans ?_
    rw [hW, hH, hD1]
  have hT' : V31 m ρ c main_v225 = W30 m ρ c (Proc.devRef .tc main_v225) := by
    show StableHlo.after hostOps15 (W30 m ρ c) (Proc.devRef .tc main_v225) = _
    after_results
  have hAgg : V31 m ρ c main_v236 = Cert.Spec.collect (N := 50000) (E := 640000) (D := 128) (by decide) (Ideal.ofBits .f32 0x00000000#32)
      (wrapCol (srcCol (m ((c.tc : Thread nD τ).loc main_arg1)))) (rawCol (dstCol (m ((c.tc : Thread nD τ).loc main_arg1)))) (W30 m ρ c (Proc.devRef .tc main_v225)) := by
    show StableHlo.after hostOps15 (W30 m ρ c) (Proc.devRef .tc main_v236) = _
    after_results
    rw [to1_30 m ρ c main_v1 (by decide), to1_30 m ρ c main_v3 (by decide), W1_v1 m ρ c, W1_v3 m ρ c]
    exact Cert.HostIdx.collect_read (N := 50000) (E := 640000) (D := 128) (by decide)
      gather_S50000x128_S640000x1_S640000x128_1_0_n_n_0_1_1128.wf scatter_S50000x128_S640000x1_S640000x128_1_0_0_1.wf
      bcast_S_S50000x128 0x00000000#32 bitsLt_bf16_f32 _ _ _
  have hB : V31 m ρ c main_v247 = Cert.Spec.sliceRow (m ((c.tc : Thread nD τ).loc main_arg4)) (7 : Fin 8) := by
    show StableHlo.after hostOps15 (W30 m ρ c) (Proc.devRef .tc main_v247) = _
    after_results
    rw [to1_30 m ρ c main_arg4 (by decide), W1_arg4 m ρ c]
    exact Cert.HostIdx.slice_row 7 (7 : Fin 8) rfl _ _ _ _
  have hRm : V31 m ρ c main_v248 = Cert.Spec.sliceRow (m ((c.tc : Thread nD τ).loc main_arg7)) (7 : Fin 8) := by
    show StableHlo.after hostOps15 (W30 m ρ c) (Proc.devRef .tc main_v248) = _
    after_results
    rw [to1_30 m ρ c main_arg7 (by decide), W1_arg7 m ρ c]
    exact Cert.HostIdx.slice_row 7 (7 : Fin 8) rfl _ _ _ _
  have hRv : V31 m ρ c main_v249 = Cert.Spec.sliceRow (m ((c.tc : Thread nD τ).loc main_arg8)) (7 : Fin 8) := by
    show StableHlo.after hostOps15 (W30 m ρ c) (Proc.devRef .tc main_v249) = _
    after_results
    rw [to1_30 m ρ c main_arg8 (by decide), W1_arg8 m ρ c]
    exact Cert.HostIdx.slice_row 7 (7 : Fin 8) rfl _ _ _ _
  have hG : V31 m ρ c main_v250 = Cert.Spec.sliceRow (m ((c.tc : Thread nD τ).loc main_arg5)) (7 : Fin 8) := by
    show StableHlo.after hostOps15 (W30 m ρ c) (Proc.devRef .tc main_v250) = _
    after_results
    rw [to1_30 m ρ c main_arg5 (by decide), W1_arg5 m ρ c]
    exact Cert.HostIdx.slice_row 7 (7 : Fin 8) rfl _ _ _ _
  have hBt : V31 m ρ c main_v251 = Cert.Spec.sliceRow (m ((c.tc : Thread nD τ).loc main_arg6)) (7 : Fin 8) := by
    show StableHlo.after hostOps15 (W30 m ρ c) (Proc.devRef .tc main_v251) = _
    after_results
    rw [to1_30 m ρ c main_arg6 (by decide), W1_arg6 m ρ c]
    exact Cert.HostIdx.slice_row 7 (7 : Fin 8) rfl _ _ _ _
  have hD3 : V31 m ρ c main_v12 = disCol (m ((c.tc : Thread nD τ).loc main_arg1)) :=
    (to1_31 m ρ c main_v12 (by decide)).trans (W1_v12 m ρ c)
  refine ((W32_arr m ρ c 8).trans (post15 (V31 m ρ) c)).trans ?_
  rw [hAgg, hT', hD3, hB, hRm, hRv, hG, hBt, hT]
  rfl

end Cert.KVal

end
-- ==== Proof.RegHead.lean ====
/-
  The last region (the final affine map), value side: its output array after the run is the specification's `head` of
  the three arrays the region is entered with. The region runs over four points, each writing one block of 512 rows;
  a block's payload is the affine map of the blocks it loads, the blocks restrict the arrays, and the four output
  blocks tile the output array.
-/
import proofs.«127734_j69286412419642_2_alg».proof.Proof.Gen.KernelIdeal.Frame
import proofs.«127734_j69286412419642_2_alg».proof.Proof.Spec
import proofs.«127734_j69286412419642_2_alg».proof.Proof.LibMatmul
import Idealize.ShloMosaic.Lib.ValueLayout

noncomputable section

namespace Cert.KVal

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The zero offsets of a whole-block rectangle, as the constant function. -/
theorem hzHead : (![0, 0] : Fin 2 → Nat) = fun _ => 0 := funext fun a => by fin_cases a <;> rfl

/-- The head's block payload is the affine map of its three blocks: entry `(p, q)` is row `p` of the pooled block against
    column `q` of the weight, plus the bias entry of that column (narrowing is the identity on the extended reals). -/
theorem headPay16_eq (x0 : FVec Ideal S512x128 .f32) (x1 : FVec Ideal S128x5 .f32) (x2 : FVec Ideal S1x5 .f32) :
    k16_pay1 (F := Ideal) x0 x1 x2 = Cert.Spec.head x0 x1 x2 := by
  funext j
  obtain ⟨p, q, rfl⟩ : ∃ (p : Fin 512) (q : Fin 5), j = ix2 p q := ⟨j 0, j 1, eq_ix2 j⟩
  show _ = (∑ k : Fin 128, x0 (ix2 p k) * x1 (ix2 k q)) + x2 (ix2 (0 : Fin 1) q)
  unfold k16_pay1
  rw [addf_apply]
  congr 1
  · refine (MatmulRead.matmul_zero_apply [1] [0] [0] [1] [] [] rfl rfl rfl rfl rfl rfl
      dot_S512x128_S128x5_S512x5_1_0_0_1_n_n_wf none _ _ (ix2 p q)).trans ?_
    simp only [truncf_apply, shapeCast_self]
  · rw [shapeCast_self]
    exact broadcastTo_1b_ab_apply x2 _ p q

/-- The head's index maps, decided over its four points: the pooled block moves with the output block down the rows,
    every other block index is zero. -/
theorem idx16 : ∀ t : Fin cfg16.N,
    win16_0.index t (0 : Fin 2) = win16_3.index t (0 : Fin 2) ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (1 : Fin 2) = 0 ∧ win16_3.index t (0 : Fin 2) ≤ 3 :=
  (by decide +kernel : ∀ t : Fin grid16.N, _)

/-- Every row block of the output is some point's. -/
theorem onto16 : ∀ q0 : Fin 4, ∃ t : Fin cfg16.N, win16_3.index t = ![q0.val, 0] :=
  (by decide +kernel : ∀ q0 : Fin 4, ∃ t : Fin grid16.N, win16_3.index t = ![q0.val, 0])

/-- An index of the output array is in point `t`'s block iff each coordinate is in the block's range on its axis. -/
theorem mem16 (t : Fin cfg16.N) (i : S2048x5.Idx) :
    i ∈ ((cfg16.win 3).blk t).view.set ↔ ∀ a : Fin 2, win16_3.index t a * S512x5.size a ≤ (i a).val ∧ (i a).val < win16_3.index t a * S512x5.size a + S512x5.size a := by
  show i ∈ ((View.whole main_v266).slice (win16_3.rect t)).set ↔ _
  rw [View.set_slice_whole, Rect.mem_set_unit]
  exact Iff.rfl

/-- The output's blocks tile its array: row `r` is in the block of the point whose block index is `r / 512`. -/
theorem cover16 (i : S2048x5.Idx) : ∃ t : Fin cfg16.N, (cfg16.win 3).flush t = true ∧ i ∈ ((cfg16.win 3).blk t).view.set := by
  have hi0 : (i 0).val < 2048 := (i 0).isLt
  have hi1 : (i 1).val < 5 := (i 1).isLt
  obtain ⟨t, ht⟩ := onto16 ⟨(i 0).val / 512, by omega⟩
  have q0 : win16_3.index t (0 : Fin 2) = (i 0).val / 512 := congrFun ht 0
  have q1 : win16_3.index t (1 : Fin 2) = 0 := congrFun ht 1
  refine ⟨t, flush16_3 t, ?_⟩
  rw [mem16]
  intro a
  match a with
  | ⟨0, _⟩ => show win16_3.index t (0 : Fin 2) * 512 ≤ (i 0).val ∧ (i 0).val < win16_3.index t (0 : Fin 2) * 512 + 512; omega
  | ⟨1, _⟩ => show win16_3.index t (1 : Fin 2) * 5 ≤ (i 1).val ∧ (i 1).val < win16_3.index t (1 : Fin 2) * 5 + 5; omega

/-- Block `t` of the specification's array is the specification of the blocks at `t`: the pooled rows of the block,
    the whole weight, the whole bias. -/
theorem blkHead16 (t : Fin cfg16.N) (A0 : S2048x128.Idx → EReal) (A1 : S128x5.Idx → EReal) (A2 : S1x5.Idx → EReal) :
    (cfg16.win 3).cut (grid16.coords t) (Cert.Spec.head (((cfg16.win 0).blk t).view.read (Elt Ideal) A0)
        (((cfg16.win 1).blk t).view.read (Elt Ideal) A1) (((cfg16.win 2).blk t).view.read (Elt Ideal) A2))
      = ((cfg16.win 3).blk t).view.read (Elt Ideal) (Cert.Spec.head A0 A1 A2) := by
  obtain ⟨e0, e1, e2, e3, e4, e5, e6, e7⟩ := idx16 t
  funext y
  show (∑ k : Fin 128, A0 (((cfg16.win 0).blk t).view.emb (ix2 (y 0) k)) * A1 (((cfg16.win 1).blk t).view.emb (ix2 k (y 1))))
        + A2 (((cfg16.win 2).blk t).view.emb (ix2 (0 : Fin 1) (y 1)))
      = (∑ k : Fin 128, A0 (ix2 ((((cfg16.win 3).blk t).view.emb y) 0) k) * A1 (ix2 k ((((cfg16.win 3).blk t).view.emb y) 1)))
        + A2 (ix2 (0 : Fin 1) ((((cfg16.win 3).blk t).view.emb y) 1))
  have hy0 : (y 0).val < 512 := (y 0).isLt
  have hy1 : (y 1).val < 5 := (y 1).isLt
  have h0 : ∀ k : Fin 128, ((cfg16.win 0).blk t).view.emb (ix2 (y 0) k) = ix2 ((((cfg16.win 3).blk t).view.emb y) 0) k := by
    intro k; funext a; apply Fin.ext
    match a with
    | ⟨0, _⟩ => show win16_0.index t (0 : Fin 2) * 512 + 1 * (y 0).val = win16_3.index t (0 : Fin 2) * 512 + 1 * (y 0).val; omega
    | ⟨1, _⟩ => show win16_0.index t (1 : Fin 2) * 128 + 1 * k.val = k.val; omega
  have h1 : ∀ k : Fin 128, ((cfg16.win 1).blk t).view.emb (ix2 k (y 1)) = ix2 k ((((cfg16.win 3).blk t).view.emb y) 1) := by
    intro k; funext a; apply Fin.ext
    match a with
    | ⟨0, _⟩ => show win16_1.index t (0 : Fin 2) * 128 + 1 * k.val = k.val; omega
    | ⟨1, _⟩ => show win16_1.index t (1 : Fin 2) * 5 + 1 * (y 1).val = win16_3.index t (1 : Fin 2) * 5 + 1 * (y 1).val; omega
  have h2 : ((cfg16.win 2).blk t).view.emb (ix2 (0 : Fin 1) (y 1)) = ix2 (0 : Fin 1) ((((cfg16.win 3).blk t).view.emb y) 1) := by
    funext a; apply Fin.ext
    match a with
    | ⟨0, _⟩ => show win16_2.index t (0 : Fin 2) * 1 + 1 * 0 = 0; omega
    | ⟨1, _⟩ => show win16_2.index t (1 : Fin 2) * 5 + 1 * (y 1).val = win16_3.index t (1 : Fin 2) * 5 + 1 * (y 1).val; omega
  simp only [h0, h1, h2]
  rfl

-- The buffer contents a region is entered with: every statement below holds for any such contents.
variable (V : (c : Dev nD) → (b : Ref sig .tc) → Buf (Elt Ideal) ((c : Thread nD τ).loc b))

/-- What point `t` of the head region writes back is block `t` of the affine map of the arrays the region finds. -/
theorem flushed16 (c : Dev nD) (t : Fin cfg16.N) :
    (dat16 (F := Ideal) V c).flushed 3 t
      = ((cfg16.win 3).blk t).view.read (Elt Ideal) (Cert.Spec.head (V c main_v264) (V c main_arg9) (V c main_v265)) := by
  show (cfg16.win 3).cut (grid16.coords t) ((dat16 (F := Ideal) V c).after 3 t) = _
  rw [after16_3]
  unfold out16_3
  rw [View.canon_unit_zero hzHead]
  simp only [View.ld_unit_zero (S := S512x128) hzHead, View.ld_unit_zero (S := S128x5) hzHead, View.ld_unit_zero (S := S1x5) hzHead]
  rw [headPay16_eq]
  exact blkHead16 t _ _ _

/-- The head region's whole output array after its run: the affine map of the pooled array, the weight and the bias as
    the region finds them. -/
theorem head16 (c : Dev nD) :
    (dat16 (F := Ideal) V c).arrAt 3 cfg16.N = Cert.Spec.head (V c main_v264) (V c main_arg9) (V c main_v265) :=
  (dat16 (F := Ideal) V c).arrAt_eq_of_cover 3 _ (fun t _ => flushed16 V c t) cover16

end Cert.KVal

end
-- ==== Proof.LibHostDot.lean ====
/-
  The host's general dot product of an M×K array by a K×N array, read at an index of the result at the exact
  (extended-real) instance: entry (r, c) is the sum over the contracted coordinate k of left (r, k) times
  right (k, c), whatever the summation schedule.  Stated for any dimension numbers that contract the left
  operand's second axis with the right operand's first and have no batch axes.  At the exact instance the host's
  product and a matrix product accumulated into zeros are the same sum, which is how it is proved.
  Also: a length-n vector laid out as a 1×n row and repeated down m rows reads, at (r, c), the vector's entry c.
-/
import proofs.«127734_j69286412419642_2_alg».proof.Proof.LibMatmul

noncomputable section

namespace Idealize.ShloMosaic.HostDotRead

open Idealize.ShloMosaic Idealize.ShloMosaic.ValueIdx
open scoped BigOperators

/-- At the exact instance the host's product is the matrix product accumulated into zeros: both are the
    contraction sum with nothing added. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

/-- Entry (r, c) of the host's product of an M×K array by a K×N array is `∑ k, left (r, k) * right (k, c)`. -/
theorem dotGeneral_apply2 {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (⟨lc, rc, ln, rn, lb, rb, wf⟩ : DotDims ⟨2, ![M, K]⟩ ⟨2, ![K, N]⟩ ⟨2, ![M, N]⟩) prec sched lhs rhs j
      = ∑ k : Fin K, lhs (ix2 (j 0) k) * rhs (ix2 k (j 1)) :=
  (congrFun (dotGeneral_eq_matmul_zero _ prec sched lhs rhs) j).trans
    (MatmulRead.matmul_zero_apply lc rc ln rn lb rb h1 h2 h3 h4 h5 h6 wf prec lhs rhs j)

/-- A length-n vector as a 1×n row repeated down m rows reads, at (r, c), the vector's entry c. -/
theorem rows_apply {α : Type} {m n : Nat} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (c : Fin n) :
    broadcastInDim ⟨2, ![m, n]⟩ ![0, 1] h2 (broadcastInDim ⟨2, ![1, n]⟩ ![1] h1 v) (ix2 r c) = v (ix1 c) := by
  refine (broadcastInDim_apply ![0, 1] h2 _ (ix2 r c) (ix2 (0 : Fin 1) c) fun a => ?_).trans
    (broadcastInDim_apply ![1] h1 v (ix2 (0 : Fin 1) c) (ix1 c) fun a => ?_)
  · match a with
    | ⟨0, _⟩ => rfl
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

end Idealize.ShloMosaic.HostDotRead

end
-- ==== Proof.RefRound.lean ====
/-
  The reference program read round by round: each of its eight rounds is the round of the specification with the
  receiving node's factor inside the sum, applied to the previous round's output (the input features for the first),
  with layer k of the weight stack and row k of each per-feature parameter stack; and its last four operations are the
  final affine map of the pooled features.

  A round is proved entry by entry. The linear map is the contraction sum of the features with the layer. The
  collected sum is read off the accumulating row write: zero plus, over the edges whose end word is the node, the row
  read at the edge's start word (signed and clamped) times the edge's factor, which is the product of the per-node
  factors at the edge's two ends. The node's own row carries the square of its factor. The per-feature parameters are
  rows of their stacks repeated down the nodes. Every round repeats the computation of the wrapped start column, the
  end column and the two repeated factors; each copy is the first one, by unfolding.
-/
import proofs.«127734_j69286412419642_2_alg».proof.Proof.Spec
import proofs.«127734_j69286412419642_2_alg».proof.Proof.LibHostRead
import proofs.«127734_j69286412419642_2_alg».proof.Proof.LibHostDot
import proofs.«127734_j69286412419642_2_alg».proof.Proof.ReadP

noncomputable section

open scoped BigOperators

namespace Cert.RVal

open Cert.ReferenceIdeal Cert.ReferenceIdeal.Gen Cert.ReferenceIdeal.Read Idealize.ShloMosaic Idealize.ShloMosaic.ValueIdx

/-! ## The indexed reads and the accumulating write of this program's shapes -/

/-- A read of the flat per-node array at a column of row numbers: the entry at the signed, clamped word. -/
theorem gatherD_apply (x : (⟨1, ![50000]⟩ : Shape).Idx → EReal) (idx : IVec ⟨2, ![640000, 1]⟩ 32)
    (y : (⟨1, ![640000]⟩ : Shape).Idx) :
    Host.gather gather_S50000_S640000x1_S640000_n_0_n_n_0_1_1 x idx y
      = x (ix1 (Cert.Spec.row (N := 50000) (E := 640000) (by decide) idx (y 0))) :=
  HostRead.gather_rows1_apply (by decide) Gen.gather_S50000_S640000x1_S640000_n_0_n_n_0_1_1_wf x idx y

/-- A read of whole rows of a node array at a column of row numbers: entry (e, c) is the array at the signed,
    clamped word of position e, column c. -/
theorem gatherT_apply (x : (⟨2, ![50000, 128]⟩ : Shape).Idx → EReal) (idx : IVec ⟨2, ![640000, 1]⟩ 32)
    (e : Fin 640000) (c : Fin 128) :
    Host.gather gather_S50000x128_S640000x1_S640000x128_1_0_n_n_0_1_1128 x idx (ix2 e c)
      = x (ix2 (Cert.Spec.row (N := 50000) (E := 640000) (by decide) idx e) c) :=
  HostRead.gather_rows2_ix2 (by decide) Gen.gather_S50000x128_S640000x1_S640000x128_1_0_n_n_0_1_1128_wf x idx e c

/-- An accumulation of rows into a node array at a column of row numbers: entry (n, d) is the array's own entry
    plus the sum of the rows whose unclamped signed word is n, at column d. -/
theorem scatterT_apply (x : FVec Ideal ⟨2, ![50000, 128]⟩ .f32) (idx : IVec ⟨2, ![640000, 1]⟩ 32)
    (upd : FVec Ideal ⟨2, ![640000, 128]⟩ .f32) (n : Fin 50000) (d : Fin 128) :
    Host.scatterAdd (F := Ideal) scatter_S50000x128_S640000x1_S640000x128_1_0_0_1 x idx upd (ix2 n d)
      = x (ix2 n d) + ∑ e ∈ Cert.Spec.lands idx n.val, upd (ix2 e d) :=
  HostRead.scatterAdd_rows2_ix2 Gen.scatter_S50000x128_S640000x1_S640000x128_1_0_0_1_wf x idx upd n d

variable (x0 : (⟨S50000x128, .f32⟩ : BufTy).Contents (Elt Ideal)) (x1 : (⟨S2x640000, .i32⟩ : BufTy).Contents (Elt Ideal))
  (x2 : (⟨S50000, .i32⟩ : BufTy).Contents (Elt Ideal)) (x3 : (⟨S8x128x128, .f32⟩ : BufTy).Contents (Elt Ideal))
  (x4 x5 x6 x7 x8 : (⟨S8x128, .f32⟩ : BufTy).Contents (Elt Ideal)) (x9 : (⟨S128x5, .f32⟩ : BufTy).Contents (Elt Ideal))
  (x10 : (⟨S5, .f32⟩ : BufTy).Contents (Elt Ideal))

/-! ## The per-edge and per-node factors -/

/-- The factor of edge e: the product of the per-node factors of its two ends, each end's row the signed, clamped
    word of the wrapped start column, respectively the wrapped end column. -/
def EN : (⟨2, ![640000, 1]⟩ : Shape).Idx → EReal :=
  fun i => val_main_v11 (F := Ideal) x1 (ix1 (Cert.Spec.row (N := 50000) (E := 640000) (by decide) (val_main_v17 (F := Ideal) x1) (i 0)))
    * val_main_v11 (F := Ideal) x1 (ix1 (Cert.Spec.row (N := 50000) (E := 640000) (by decide) (val_main_v24 (F := Ideal) x1) (i 0)))

/-- The factor of node v with itself: the square of its per-node factor. -/
def SN : (⟨2, ![50000, 1]⟩ : Shape).Idx → EReal :=
  fun i => val_main_v11 (F := Ideal) x1 (ix1 (i 0)) * val_main_v11 (F := Ideal) x1 (ix1 (i 0))

/-- The per-edge factor repeated along the features, at (e, c): the factor of edge e. -/
theorem edgeFactor_ix2 (e : Fin 640000) (c : Fin 128) :
    val_main_v40 (F := Ideal) x1 (ix2 e c) = EN x1 (ix2 e (0 : Fin 1)) := by
  rw [val_main_v40_apply, val_main_v27_apply, val_main_v26_apply]
  unfold val_main_v18 val_main_v25
  rw [gatherD_apply, gatherD_apply]
  rfl

/-- The per-node square repeated along the features, at (p, c): the square of node p's factor. -/
theorem nodeFactor_ix2 (p : Fin 50000) (c : Fin 128) :
    val_main_v45 (F := Ideal) x1 (ix2 p c) = SN x1 (ix2 p (0 : Fin 1)) := by
  rw [val_main_v45_apply, val_main_v29_apply, val_main_v28_apply]
  have h : idx_main_v29 (idx_main_v45 (ix2 p c)) = ix1 p :=
    funext fun a => Fin.ext (by match a with | ⟨0, _⟩ => rfl)
  rw [h]
  rfl

/-! ## Round 0 -/

/-- The round's linear map: the features times layer 0 of the weight stack, entry by entry. -/
theorem lin0 : val_main_v32 (F := Ideal) x0 x3 = Cert.Spec.mm (M := 50000) (K := 128) (N := 128) x0 (Cert.Spec.sliceW x3 (0 : Fin 8)) := by
  funext i
  rw [val_main_v32_apply]
  unfold Cert.Spec.mm
  refine Finset.sum_congr rfl fun j _ => ?_
  rw [val_main_v31_apply, val_main_v30_apply]
  unfold Cert.Spec.sliceW
  have hj : j.val < 128 := j.isLt
  have hi : (i 1).val < 128 := (i 1).isLt
  have hl : lidx_main_v32 i j = ix2 (i 0) j :=
    funext fun a => Fin.ext (by match a with | ⟨0, _⟩ => rfl | ⟨1, _⟩ => rfl)
  have hr : idx_main_v30 (idx_main_v31 (ridx_main_v32 i j)) = ix3 (0 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src0 : val_main_v38 (F := Ideal) x1 = val_main_v17 (F := Ideal) x1 := rfl

/-- The round's copy of the end column is the first one. -/
theorem dst0 : val_main_v43 (F := Ideal) x1 = val_main_v6 (F := Ideal) x1 := rfl

/-- The collected sum of round 0: node p, feature q holds zero plus, over the edges whose end word is p, the
    linear map's row at the edge's start, feature q, times the edge's factor. -/
theorem agg0 (p : Fin 50000) (q : Fin 128) :
    val_main_v44 (F := Ideal) x0 x1 x3 (ix2 p q)
      = Cert.Spec.collectScaled (N := 50000) (E := 640000) (D := 128) (by decide) (Ideal.ofBits .f32 0x00000000#32)
          (val_main_v17 (F := Ideal) x1) (val_main_v6 (F := Ideal) x1) (val_main_v32 (F := Ideal) x0 x3) (EN x1) (ix2 p q) := by
  unfold val_main_v44
  rw [scatterT_apply, val_main_v42_apply, val_main_cst_8_apply, dst0, Ideal.ofBits_def]
  unfold Cert.Spec.collectScaled
  refine congrArg (fun s => Ideal.ofBits .f32 0x00000000#32 + s) (Finset.sum_congr rfl fun e _ => ?_)
  rw [val_main_v41_apply]
  unfold val_main_v39
  rw [gatherT_apply, src0, edgeFactor_ix2]
  rfl

/-- The bias of round 0 repeated down the nodes: row 0 of the bias stack. -/
theorem bias0 (p : Fin 50000) (q : Fin 128) :
    val_main_v51 (F := Ideal) x4 (ix2 p q) = Cert.Spec.sliceRow x4 (0 : Fin 8) (ix2 (0 : Fin 1) q) := by
  rw [val_main_v51_apply, val_main_v50_apply, val_main_v49_apply, val_main_v48_apply]
  unfold Cert.Spec.sliceRow
  refine congrArg x4 (funext fun a => Fin.ext ?_)
  match a with
  | ⟨0, _⟩ => rfl
  | ⟨1, _⟩ => exact Nat.mod_eq_of_lt q.isLt

/-- The centre of round 0 repeated down the nodes: row 0 of its stack. -/
theorem mean0 (p : Fin 50000) (q : Fin 128) :
    val_main_v56 (F := Ideal) x7 (ix2 p q) = Cert.Spec.sliceRow x7 (0 : Fin 8) (ix2 (0 : Fin 1) q) := by
  rw [val_main_v56_apply, val_main_v55_apply, val_main_v54_apply, val_main_v53_apply]
  unfold Cert.Spec.sliceRow
  refine congrArg x7 (funext fun a => Fin.ext ?_)
  match a with
  | ⟨0, _⟩ => rfl
  | ⟨1, _⟩ => exact Nat.mod_eq_of_lt q.isLt

/-- The inverse root of round 0 repeated down the nodes: of row 0 of the variance stack plus the shift. -/
theorem invstd0 (p : Fin 50000) (q : Fin 128) :
    val_main_v64 (F := Ideal) x8 (ix2 p q)
      = Ideal.rsqrt (Cert.Spec.sliceRow x8 (0 : Fin 8) (ix2 (0 : Fin 1) q) + Ideal.ofBits .f32 0x3727C5AC#32) := by
  rw [val_main_v64_apply, val_main_v63_apply, val_main_v62_apply, val_main_v61_apply, val_main_v60_apply, val_main_cst_9_apply,
    val_main_v59_apply, val_main_v58_apply]
  have h : idx_main_v58 (idx_main_v59 (idx_main_v63 (idx_main_v64 (ix2 p q)))) = ix2 (0 : Fin 8) q :=
    funext fun a => Fin.ext (by
      match a with
      | ⟨0, _⟩ => rfl
      | ⟨1, _⟩ => exact Nat.mod_eq_of_lt q.isLt)
  rw [h]
  rfl

/-- The gain of round 0 repeated down the nodes: row 0 of its stack. -/
theorem gain0 (p : Fin 50000) (q : Fin 128) :
    val_main_v69 (F := Ideal) x5 (ix2 p q) = Cert.Spec.sliceRow x5 (0 : Fin 8) (ix2 (0 : Fin 1) q) := by
  rw [val_main_v69_apply, val_main_v68_apply, val_main_v67_apply, val_main_v66_apply]
  unfold Cert.Spec.sliceRow
  refine congrArg x5 (funext fun a => Fin.ext ?_)
  match a with
  | ⟨0, _⟩ => rfl
  | ⟨1, _⟩ => exact Nat.mod_eq_of_lt q.isLt

/-- The shift of round 0 repeated down the nodes: row 0 of its stack. -/
theorem shift0 (p : Fin 50000) (q : Fin 128) :
    val_main_v74 (F := Ideal) x6 (ix2 p q) = Cert.Spec.sliceRow x6 (0 : Fin 8) (ix2 (0 : Fin 1) q) := by
  rw [val_main_v74_apply, val_main_v73_apply, val_main_v72_apply, val_main_v71_apply]
  unfold Cert.Spec.sliceRow
  refine congrArg x6 (funext fun a => Fin.ext ?_)
  match a with
  | ⟨0, _⟩ => rfl
  | ⟨1, _⟩ => exact Nat.mod_eq_of_lt q.isLt

/-- The clamp's constant of round 0: the zero word at every entry. -/
theorem floor0 (i : S50000x128.Idx) : val_main_call0_v0 (F := Ideal) i = Ideal.ofBits .f32 0x00000000#32 := by
  rw [val_main_call0_v0_apply, val_main_call0_cst_apply]
  rfl

/-- ROUND 0 of the reference is the round with the receiving node's factor inside the sum, on the input features and
    layer 0 of every parameter stack. -/
theorem round0 :
    val_main_v76 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) x0 (Cert.Spec.sliceW x3 (0 : Fin 8)) (EN x1) (SN x1)
          (Cert.Spec.sliceRow x4 (0 : Fin 8)) (Cert.Spec.sliceRow x7 (0 : Fin 8)) (Cert.Spec.sliceRow x8 (0 : Fin 8)) (Cert.Spec.sliceRow x5 (0 : Fin 8)) (Cert.Spec.sliceRow x6 (0 : Fin 8)) := by
  funext i
  obtain ⟨p, q, rfl⟩ : ∃ (p : Fin 50000) (q : Fin 128), i = ix2 p q := ⟨i 0, i 1, eq_ix2 i⟩
  rw [val_main_v76_apply, val_main_v75_apply, val_main_v70_apply, val_main_v65_apply, val_main_v57_apply, val_main_v52_apply,
    val_main_v47_apply, val_main_v46_apply, floor0, shift0, gain0, invstd0, mean0, bias0, nodeFactor_ix2,
    agg0, lin0]
  simp only [Ideal.maximumf_def, Ideal.addf_def, Ideal.mulf_def, Ideal.subf_def]
  rfl

/-! ## Round 1 -/

/-- The round's linear map: the features times layer 1 of the weight stack, entry by entry. -/
theorem lin1 : val_main_v79 (F := Ideal) x0 x1 x3 x4 x5 x6 x7 x8 = Cert.Spec.mm (M := 50000) (K := 128) (N := 128) (val_main_v76 (F := Ideal) x0 x1 x3 x4 x5 x6 x7 x8) (Cert.Spec.sliceW x3 (1 : Fin 8)) := by
  funext i
  rw [val_main_v79_apply]
  unfold Cert.Spec.mm
  refine Finset.sum_congr rfl fun j _ => ?_
  rw [val_main_v78_apply, val_main_v77_apply]
  unfold Cert.Spec.sliceW
  have hj : j.val < 128 := j.isLt
  have hi : (i 1).val < 128 := (i 1).isLt
  have hl : lidx_main_v79 i j = ix2 (i 0) j :=
    funext fun a => Fin.ext (by match a with | ⟨0, _⟩ => rfl | ⟨1, _⟩ => rfl)
  have hr : idx_main_v77 (idx_main_v78 (ridx_main_v79 i j)) = ix3 (1 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src1 : val_main_v85 (F := Ideal) x1 = val_main_v17 (F := Ideal) x1 := rfl

/-- The round's copy of the end column is the first one. -/
theorem dst1 : val_main_v90 (F := Ideal) x1 = val_main_v6 (F := Ideal) x1 := rfl

/-- The round's copy of the repeated per-edge factor is the first one. -/
theorem edgeRep1 : val_main_v87 (F := Ideal) x1 = val_main_v40 (F := Ideal) x1 := rfl

/-- The round's copy of the repeated per-node square is the first one. -/
theorem nodeRep1 : val_main_v92 (F := Ideal) x1 = val_main_v45 (F := Ideal) x1 := rfl

/-- The collected sum of round 1: node p, feature q holds zero plus, over the edges whose end word is p, the
    linear map's row at the edge's start, feature q, times the edge's factor. -/
theorem agg1 (p : Fin 50000) (q : Fin 128) :
    val_main_v91 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v79 (F := Ideal) x0 x1 x3 x4 x5 x6 x7 x8) (EN x1) (ix2 p q) := by
  unfold val_main_v91
  rw [scatterT_apply, val_main_v89_apply, val_main_cst_12_apply, dst1, Ideal.ofBits_def]
  unfold Cert.Spec.collectScaled
  refine congrArg (fun s => Ideal.ofBits .f32 0x00000000#32 + s) (Finset.sum_congr rfl fun e _ => ?_)
  rw [val_main_v88_apply]
  unfold val_main_v86
  rw [gatherT_apply, src1, edgeRep1, edgeFactor_ix2]
  rfl

/-- The bias of round 1 repeated down the nodes: row 1 of the bias stack. -/
theorem bias1 (p : Fin 50000) (q : Fin 128) :
    val_main_v98 (F := Ideal) x4 (ix2 p q) = Cert.Spec.sliceRow x4 (1 : Fin 8) (ix2 (0 : Fin 1) q) := by
  rw [val_main_v98_apply, val_main_v97_apply, val_main_v96_apply, val_main_v95_apply]
  unfold Cert.Spec.sliceRow
  refine congrArg x4 (funext fun a => Fin.ext ?_)
  match a with
  | ⟨0, _⟩ => rfl
  | ⟨1, _⟩ => exact Nat.mod_eq_of_lt q.isLt

/-- The centre of round 1 repeated down the nodes: row 1 of its stack. -/
theorem mean1 (p : Fin 50000) (q : Fin 128) :
    val_main_v103 (F := Ideal) x7 (ix2 p q) = Cert.Spec.sliceRow x7 (1 : Fin 8) (ix2 (0 : Fin 1) q) := by
  rw [val_main_v103_apply, val_main_v102_apply, val_main_v101_apply, val_main_v100_apply]
  unfold Cert.Spec.sliceRow
  refine congrArg x7 (funext fun a => Fin.ext ?_)
  match a with
  | ⟨0, _⟩ => rfl
  | ⟨1, _⟩ => exact Nat.mod_eq_of_lt q.isLt

/-- The inverse root of round 1 repeated down the nodes: of row 1 of the variance stack plus the shift. -/
theorem invstd1 (p : Fin 50000) (q : Fin 128) :
    val_main_v111 (F := Ideal) x8 (ix2 p q)
      = Ideal.rsqrt (Cert.Spec.sliceRow x8 (1 : Fin 8) (ix2 (0 : Fin 1) q) + Ideal.ofBits .f32 0x3727C5AC#32) := by
  rw [val_main_v111_apply, val_main_v110_apply, val_main_v109_apply, val_main_v108_apply, val_main_v107_apply, val_main_cst_13_apply,
    val_main_v106_apply, val_main_v105_apply]
  have h : idx_main_v105 (idx_main_v106 (idx_main_v110 (idx_main_v111 (ix2 p q)))) = ix2 (1 : Fin 8) q :=
    funext fun a => Fin.ext (by
      match a with
      | ⟨0, _⟩ => rfl
      | ⟨1, _⟩ => exact Nat.mod_eq_of_lt q.isLt)
  rw [h]
  rfl

/-- The gain of round 1 repeated down the nodes: row 1 of its stack. -/
theorem gain1 (p : Fin 50000) (q : Fin 128) :
    val_main_v116 (F := Ideal) x5 (ix2 p q) = Cert.Spec.sliceRow x5 (1 : Fin 8) (ix2 (0 : Fin 1) q) := by
  rw [val_main_v116_apply, val_main_v115_apply, val_main_v114_apply, val_main_v113_apply]
  unfold Cert.Spec.sliceRow
  refine congrArg x5 (funext fun a => Fin.ext ?_)
  match a with
  | ⟨0, _⟩ => rfl
  | ⟨1, _⟩ => exact Nat.mod_eq_of_lt q.isLt

/-- The shift of round 1 repeated down the nodes: row 1 of its stack. -/
theorem shift1 (p : Fin 50000) (q : Fin 128) :
    val_main_v121 (F := Ideal) x6 (ix2 p q) = Cert.Spec.sliceRow x6 (1 : Fin 8) (ix2 (0 : Fin 1) q) := by
  rw [val_main_v121_apply, val_main_v120_apply, val_main_v119_apply, val_main_v118_apply]
  unfold Cert.Spec.sliceRow
  refine congrArg x6 (funext fun a => Fin.ext ?_)
  match a with
  | ⟨0, _⟩ => rfl
  | ⟨1, _⟩ => exact Nat.mod_eq_of_lt q.isLt

/-- The clamp's constant of round 1: the zero word at every entry. -/
theorem floor1 (i : S50000x128.Idx) : val_main_call1_v0 (F := Ideal) i = Ideal.ofBits .f32 0x00000000#32 := by
  rw [val_main_call1_v0_apply, val_main_call1_cst_apply]
  rfl

/-- ROUND 1 of the reference is the round with the receiving node's factor inside the sum, on the previous round's output and
    layer 1 of every parameter stack. -/
theorem round1 :
    val_main_v123 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v76 (F := Ideal) x0 x1 x3 x4 x5 x6 x7 x8) (Cert.Spec.sliceW x3 (1 : Fin 8)) (EN x1) (SN x1)
          (Cert.Spec.sliceRow x4 (1 : Fin 8)) (Cert.Spec.sliceRow x7 (1 : Fin 8)) (Cert.Spec.sliceRow x8 (1 : Fin 8)) (Cert.Spec.sliceRow x5 (1 : Fin 8)) (Cert.Spec.sliceRow x6 (1 : Fin 8)) := by
  funext i
  obtain ⟨p, q, rfl⟩ : ∃ (p : Fin 50000) (q : Fin 128), i = ix2 p q := ⟨i 0, i 1, eq_ix2 i⟩
  rw [val_main_v123_apply, val_main_v122_apply, val_main_v117_apply, val_main_v112_apply, val_main_v104_apply, val_main_v99_apply,
    val_main_v94_apply, val_main_v93_apply, floor1, shift1, gain1, invstd1, mean1, bias1, nodeRep1, nodeFactor_ix2,
    agg1, lin1]
  simp only [Ideal.maximumf_def, Ideal.addf_def, Ideal.mulf_def, Ideal.subf_def]
  rfl

/-! ## Round 2 -/

/-- The round's linear map: the features times layer 2 of the weight stack, entry by entry. -/
theorem lin2 : val_main_v126 (F := Ideal) x0 x1 x3 x4 x5 x6 x7 x8 = Cert.Spec.mm (M := 50000) (K := 128) (N := 128) (val_main_v123 (F := Ideal) x0 x1 x3 x4 x5 x6 x7 x8) (Cert.Spec.sliceW x3 (2 : Fin 8)) := by
  funext i
  rw [val_main_v126_apply]
  unfold Cert.Spec.mm
  refine Finset.sum_congr rfl fun j _ => ?_
  rw [val_main_v125_apply, val_main_v124_apply]
  unfold Cert.Spec.sliceW
  have hj : j.val < 128 := j.isLt
  have hi : (i 1).val < 128 := (i 1).isLt
  have hl : lidx_main_v126 i j = ix2 (i 0) j :=
    funext fun a => Fin.ext (by match a with | ⟨0, _⟩ => rfl | ⟨1, _⟩ => rfl)
  have hr : idx_main_v124 (idx_main_v125 (ridx_main_v126 i j)) = ix3 (2 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src2 : val_main_v132 (F := Ideal) x1 = val_main_v17 (F := Ideal) x1 := rfl

/-- The round's copy of the end column is the first one. -/
theorem dst2 : val_main_v137 (F := Ideal) x1 = val_main_v6 (F := Ideal) x1 := rfl

/-- The round's copy of the repeated per-edge factor is the first one. -/
theorem edgeRep2 : val_main_v134 (F := Ideal) x1 = val_main_v40 (F := Ideal) x1 := rfl

/-- The round's copy of the repeated per-node square is the first one. -/
theorem nodeRep2 : val_main_v139 (F := Ideal) x1 = val_main_v45 (F := Ideal) x1 := rfl

/-- The collected sum of round 2: node p, feature q holds zero plus, over the edges whose end word is p, the
    linear map's row at the edge's start, feature q, times the edge's factor. -/
theorem agg2 (p : Fin 50000) (q : Fin 128) :
    val_main_v138 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v126 (F := Ideal) x0 x1 x3 x4 x5 x6 x7 x8) (EN x1) (ix2 p q) := by
  unfold val_main_v138
  rw [scatterT_apply, val_main_v136_apply, val_main_cst_16_apply, dst2, Ideal.ofBits_def]
  unfold Cert.Spec.collectScaled
  refine congrArg (fun s => Ideal.ofBits .f32 0x00000000#32 + s) (Finset.sum_congr rfl fun e _ => ?_)
  rw [val_main_v135_apply]
  unfold val_main_v133
  rw [gatherT_apply, src2, edgeRep2, edgeFactor_ix2]
  rfl

/-- The bias of round 2 repeated down the nodes: row 2 of the bias stack. -/
theorem bias2 (p : Fin 50000) (q : Fin 128) :
    val_main_v145 (F := Ideal) x4 (ix2 p q) = Cert.Spec.sliceRow x4 (2 : Fin 8) (ix2 (0 : Fin 1) q) := by
  rw [val_main_v145_apply, val_main_v144_apply, val_main_v143_apply, val_main_v142_apply]
  unfold Cert.Spec.sliceRow
  refine congrArg x4 (funext fun a => Fin.ext ?_)
  match a with
  | ⟨0, _⟩ => rfl
  | ⟨1, _⟩ => exact Nat.mod_eq_of_lt q.isLt

/-- The centre of round 2 repeated down the nodes: row 2 of its stack. -/
theorem mean2 (p : Fin 50000) (q : Fin 128) :
    val_main_v150 (F := Ideal) x7 (ix2 p q) = Cert.Spec.sliceRow x7 (2 : Fin 8) (ix2 (0 : Fin 1) q) := by
  rw [val_main_v150_apply, val_main_v149_apply, val_main_v148_apply, val_main_v147_apply]
  unfold Cert.Spec.sliceRow
  refine congrArg x7 (funext fun a => Fin.ext ?_)
  match a with
  | ⟨0, _⟩ => rfl
  | ⟨1, _⟩ => exact Nat.mod_eq_of_lt q.isLt

/-- The inverse root of round 2 repeated down the nodes: of row 2 of the variance stack plus the shift. -/
theorem invstd2 (p : Fin 50000) (q : Fin 128) :
    val_main_v158 (F := Ideal) x8 (ix2 p q)
      = Ideal.rsqrt (Cert.Spec.sliceRow x8 (2 : Fin 8) (ix2 (0 : Fin 1) q) + Ideal.ofBits .f32 0x3727C5AC#32) := by
  rw [val_main_v158_apply, val_main_v157_apply, val_main_v156_apply, val_main_v155_apply, val_main_v154_apply, val_main_cst_17_apply,
    val_main_v153_apply, val_main_v152_apply]
  have h : idx_main_v152 (idx_main_v153 (idx_main_v157 (idx_main_v158 (ix2 p q)))) = ix2 (2 : Fin 8) q :=
    funext fun a => Fin.ext (by
      match a with
      | ⟨0, _⟩ => rfl
      | ⟨1, _⟩ => exact Nat.mod_eq_of_lt q.isLt)
  rw [h]
  rfl

/-- The gain of round 2 repeated down the nodes: row 2 of its stack. -/
theorem gain2 (p : Fin 50000) (q : Fin 128) :
    val_main_v163 (F := Ideal) x5 (ix2 p q) = Cert.Spec.sliceRow x5 (2 : Fin 8) (ix2 (0 : Fin 1) q) := by
  rw [val_main_v163_apply, val_main_v162_apply, val_main_v161_apply, val_main_v160_apply]
  unfold Cert.Spec.sliceRow
  refine congrArg x5 (funext fun a => Fin.ext ?_)
  match a with
  | ⟨0, _⟩ => rfl
  | ⟨1, _⟩ => exact Nat.mod_eq_of_lt q.isLt

/-- The shift of round 2 repeated down the nodes: row 2 of its stack. -/
theorem shift2 (p : Fin 50000) (q : Fin 128) :
    val_main_v168 (F := Ideal) x6 (ix2 p q) = Cert.Spec.sliceRow x6 (2 : Fin 8) (ix2 (0 : Fin 1) q) := by
  rw [val_main_v168_apply, val_main_v167_apply, val_main_v166_apply, val_main_v165_apply]
  unfold Cert.Spec.sliceRow
  refine congrArg x6 (funext fun a => Fin.ext ?_)
  match a with
  | ⟨0, _⟩ => rfl
  | ⟨1, _⟩ => exact Nat.mod_eq_of_lt q.isLt

/-- The clamp's constant of round 2: the zero word at every entry. -/
theorem floor2 (i : S50000x128.Idx) : val_main_call2_v0 (F := Ideal) i = Ideal.ofBits .f32 0x00000000#32 := by
  rw [val_main_call2_v0_apply, val_main_call2_cst_apply]
  rfl

/-- ROUND 2 of the reference is the round with the receiving node's factor inside the sum, on the previous round's output and
    layer 2 of every parameter stack. -/
theorem round2 :
    val_main_v170 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v123 (F := Ideal) x0 x1 x3 x4 x5 x6 x7 x8) (Cert.Spec.sliceW x3 (2 : Fin 8)) (EN x1) (SN x1)
          (Cert.Spec.sliceRow x4 (2 : Fin 8)) (Cert.Spec.sliceRow x7 (2 : Fin 8)) (Cert.Spec.sliceRow x8 (2 : Fin 8)) (Cert.Spec.sliceRow x5 (2 : Fin 8)) (Cert.Spec.sliceRow x6 (2 : Fin 8)) := by
  funext i
  obtain ⟨p, q, rfl⟩ : ∃ (p : Fin 50000) (q : Fin 128), i = ix2 p q := ⟨i 0, i 1, eq_ix2 i⟩
  rw [val_main_v170_apply, val_main_v169_apply, val_main_v164_apply, val_main_v159_apply, val_main_v151_apply, val_main_v146_apply,
    val_main_v141_apply, val_main_v140_apply, floor2, shift2, gain2, invstd2, mean2, bias2, nodeRep2, nodeFactor_ix2,
    agg2, lin2]
  simp only [Ideal.maximumf_def, Ideal.addf_def, Ideal.mulf_def, Ideal.subf_def]
  rfl

/-! ## Round 3 -/

/-- The round's linear map: the features times layer 3 of the weight stack, entry by entry. -/
theorem lin3 : val_main_v173 (F := Ideal) x0 x1 x3 x4 x5 x6 x7 x8 = Cert.Spec.mm (M := 50000) (K := 128) (N := 128) (val_main_v170 (F := Ideal) x0 x1 x3 x4 x5 x6 x7 x8) (Cert.Spec.sliceW x3 (3 : Fin 8)) := by
  funext i
  rw [val_main_v173_apply]
  unfold Cert.Spec.mm
  refine Finset.sum_congr rfl fun j _ => ?_
  rw [val_main_v172_apply, val_main_v171_apply]
  unfold Cert.Spec.sliceW
  have hj : j.val < 128 := j.isLt
  have hi : (i 1).val < 128 := (i 1).isLt
  have hl : lidx_main_v173 i j = ix2 (i 0) j :=
    funext fun a => Fin.ext (by match a with | ⟨0, _⟩ => rfl | ⟨1, _⟩ => rfl)
  have hr : idx_main_v171 (idx_main_v172 (ridx_main_v173 i j)) = ix3 (3 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src3 : val_main_v179 (F := Ideal) x1 = val_main_v17 (F := Ideal) x1 := rfl

/-- The round's copy of the end column is the first one. -/
theorem dst3 : val_main_v184 (F := Ideal) x1 = val_main_v6 (F := Ideal) x1 := rfl

/-- The round's copy of the repeated per-edge factor is the first one. -/
theorem edgeRep3 : val_main_v181 (F := Ideal) x1 = val_main_v40 (F := Ideal) x1 := rfl

/-- The round's copy of the repeated per-node square is the first one. -/
theorem nodeRep3 : val_main_v186 (F := Ideal) x1 = val_main_v45 (F := Ideal) x1 := rfl

/-- The collected sum of round 3: node p, feature q holds zero plus, over the edges whose end word is p, the
    linear map's row at the edge's start, feature q, times the edge's factor. -/
theorem agg3 (p : Fin 50000) (q : Fin 128) :
    val_main_v185 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v173 (F := Ideal) x0 x1 x3 x4 x5 x6 x7 x8) (EN x1) (ix2 p q) := by
  unfold val_main_v185
  rw [scatterT_apply, val_main_v183_apply, val_main_cst_20_apply, dst3, Ideal.ofBits_def]
  unfold Cert.Spec.collectScaled
  refine congrArg (fun s => Ideal.ofBits .f32 0x00000000#32 + s) (Finset.sum_congr rfl fun e _ => ?_)
  rw [val_main_v182_apply]
  unfold val_main_v180
  rw [gatherT_apply, src3, edgeRep3, edgeFactor_ix2]
  rfl

/-- The bias of round 3 repeated down the nodes: row 3 of the bias stack. -/
theorem bias3 (p : Fin 50000) (q : Fin 128) :
    val_main_v192 (F := Ideal) x4 (ix2 p q) = Cert.Spec.sliceRow x4 (3 : Fin 8) (ix2 (0 : Fin 1) q) := by
  rw [val_main_v192_apply, val_main_v191_apply, val_main_v190_apply, val_main_v189_apply]
  unfold Cert.Spec.sliceRow
  refine congrArg x4 (funext fun a => Fin.ext ?_)
  match a with
  | ⟨0, _⟩ => rfl
  | ⟨1, _⟩ => exact Nat.mod_eq_of_lt q.isLt

/-- The centre of round 3 repeated down the nodes: row 3 of its stack. -/
theorem mean3 (p : Fin 50000) (q : Fin 128) :
    val_main_v197 (F := Ideal) x7 (ix2 p q) = Cert.Spec.sliceRow x7 (3 : Fin 8) (ix2 (0 : Fin 1) q) := by
  rw [val_main_v197_apply, val_main_v196_apply, val_main_v195_apply, val_main_v194_apply]
  unfold Cert.Spec.sliceRow
  refine congrArg x7 (funext fun a => Fin.ext ?_)
  match a with
  | ⟨0, _⟩ => rfl
  | ⟨1, _⟩ => exact Nat.mod_eq_of_lt q.isLt

/-- The inverse root of round 3 repeated down the nodes: of row 3 of the variance stack plus the shift. -/
theorem invstd3 (p : Fin 50000) (q : Fin 128) :
    val_main_v205 (F := Ideal) x8 (ix2 p q)
      = Ideal.rsqrt (Cert.Spec.sliceRow x8 (3 : Fin 8) (ix2 (0 : Fin 1) q) + Ideal.ofBits .f32 0x3727C5AC#32) := by
  rw [val_main_v205_apply, val_main_v204_apply, val_main_v203_apply, val_main_v202_apply, val_main_v201_apply, val_main_cst_21_apply,
    val_main_v200_apply, val_main_v199_apply]
  have h : idx_main_v199 (idx_main_v200 (idx_main_v204 (idx_main_v205 (ix2 p q)))) = ix2 (3 : Fin 8) q :=
    funext fun a => Fin.ext (by
      match a with
      | ⟨0, _⟩ => rfl
      | ⟨1, _⟩ => exact Nat.mod_eq_of_lt q.isLt)
  rw [h]
  rfl

/-- The gain of round 3 repeated down the nodes: row 3 of its stack. -/
theorem gain3 (p : Fin 50000) (q : Fin 128) :
    val_main_v210 (F := Ideal) x5 (ix2 p q) = Cert.Spec.sliceRow x5 (3 : Fin 8) (ix2 (0 : Fin 1) q) := by
  rw [val_main_v210_apply, val_main_v209_apply, val_main_v208_apply, val_main_v207_apply]
  unfold Cert.Spec.sliceRow
  refine congrArg x5 (funext fun a => Fin.ext ?_)
  match a with
  | ⟨0, _⟩ => rfl
  | ⟨1, _⟩ => exact Nat.mod_eq_of_lt q.isLt

/-- The shift of round 3 repeated down the nodes: row 3 of its stack. -/
theorem shift3 (p : Fin 50000) (q : Fin 128) :
    val_main_v215 (F := Ideal) x6 (ix2 p q) = Cert.Spec.sliceRow x6 (3 : Fin 8) (ix2 (0 : Fin 1) q) := by
  rw [val_main_v215_apply, val_main_v214_apply, val_main_v213_apply, val_main_v212_apply]
  unfold Cert.Spec.sliceRow
  refine congrArg x6 (funext fun a => Fin.ext ?_)
  match a with
  | ⟨0, _⟩ => rfl
  | ⟨1, _⟩ => exact Nat.mod_eq_of_lt q.isLt

/-- The clamp's constant of round 3: the zero word at every entry. -/
theorem floor3 (i : S50000x128.Idx) : val_main_call3_v0 (F := Ideal) i = Ideal.ofBits .f32 0x00000000#32 := by
  rw [val_main_call3_v0_apply, val_main_call3_cst_apply]
  rfl

/-- ROUND 3 of the reference is the round with the receiving node's factor inside the sum, on the previous round's output and
    layer 3 of every parameter stack. -/
theorem round3 :
    val_main_v217 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v170 (F := Ideal) x0 x1 x3 x4 x5 x6 x7 x8) (Cert.Spec.sliceW x3 (3 : Fin 8)) (EN x1) (SN x1)
          (Cert.Spec.sliceRow x4 (3 : Fin 8)) (Cert.Spec.sliceRow x7 (3 : Fin 8)) (Cert.Spec.sliceRow x8 (3 : Fin 8)) (Cert.Spec.sliceRow x5 (3 : Fin 8)) (Cert.Spec.sliceRow x6 (3 : Fin 8)) := by
  funext i
  obtain ⟨p, q, rfl⟩ : ∃ (p : Fin 50000) (q : Fin 128), i = ix2 p q := ⟨i 0, i 1, eq_ix2 i⟩
  rw [val_main_v217_apply, val_main_v216_apply, val_main_v211_apply, val_main_v206_apply, val_main_v198_apply, val_main_v193_apply,
    val_main_v188_apply, val_main_v187_apply, floor3, shift3, gain3, invstd3, mean3, bias3, nodeRep3, nodeFactor_ix2,
    agg3, lin3]
  simp only [Ideal.maximumf_def, Ideal.addf_def, Ideal.mulf_def, Ideal.subf_def]
  rfl

/-! ## Round 4 -/

/-- The round's linear map: the features times layer 4 of the weight stack, entry by entry. -/
theorem lin4 : val_main_v220 (F := Ideal) x0 x1 x3 x4 x5 x6 x7 x8 = Cert.Spec.mm (M := 50000) (K := 128) (N := 128) (val_main_v217 (F := Ideal) x0 x1 x3 x4 x5 x6 x7 x8) (Cert.Spec.sliceW x3 (4 : Fin 8)) := by
  funext i
  rw [val_main_v220_apply]
  unfold Cert.Spec.mm
  refine Finset.sum_congr rfl fun j _ => ?_
  rw [val_main_v219_apply, val_main_v218_apply]
  unfold Cert.Spec.sliceW
  have hj : j.val < 128 := j.isLt
  have hi : (i 1).val < 128 := (i 1).isLt
  have hl : lidx_main_v220 i j = ix2 (i 0) j :=
    funext fun a => Fin.ext (by match a with | ⟨0, _⟩ => rfl | ⟨1, _⟩ => rfl)
  have hr : idx_main_v218 (idx_main_v219 (ridx_main_v220 i j)) = ix3 (4 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src4 : val_main_v226 (F := Ideal) x1 = val_main_v17 (F := Ideal) x1 := rfl

/-- The round's copy of the end column is the first one. -/
theorem dst4 : val_main_v231 (F := Ideal) x1 = val_main_v6 (F := Ideal) x1 := rfl

/-- The round's copy of the repeated per-edge factor is the first one. -/
theorem edgeRep4 : val_main_v228 (F := Ideal) x1 = val_main_v40 (F := Ideal) x1 := rfl

/-- The round's copy of the repeated per-node square is the first one. -/
theorem nodeRep4 : val_main_v233 (F := Ideal) x1 = val_main_v45 (F := Ideal) x1 := rfl

/-- The collected sum of round 4: node p, feature q holds zero plus, over the edges whose end word is p, the
    linear map's row at the edge's start, feature q, times the edge's factor. -/
theorem agg4 (p : Fin 50000) (q : Fin 128) :
    val_main_v232 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v220 (F := Ideal) x0 x1 x3 x4 x5 x6 x7 x8) (EN x1) (ix2 p q) := by
  unfold val_main_v232
  rw [scatterT_apply, val_main_v230_apply, val_main_cst_24_apply, dst4, Ideal.ofBits_def]
  unfold Cert.Spec.collectScaled
  refine congrArg (fun s => Ideal.ofBits .f32 0x00000000#32 + s) (Finset.sum_congr rfl fun e _ => ?_)
  rw [val_main_v229_apply]
  unfold val_main_v227
  rw [gatherT_apply, src4, edgeRep4, edgeFactor_ix2]
  rfl

/-- The bias of round 4 repeated down the nodes: row 4 of the bias stack. -/
theorem bias4 (p : Fin 50000) (q : Fin 128) :
    val_main_v239 (F := Ideal) x4 (ix2 p q) = Cert.Spec.sliceRow x4 (4 : Fin 8) (ix2 (0 : Fin 1) q) := by
  rw [val_main_v239_apply, val_main_v238_apply, val_main_v237_apply, val_main_v236_apply]
  unfold Cert.Spec.sliceRow
  refine congrArg x4 (funext fun a => Fin.ext ?_)
  match a with
  | ⟨0, _⟩ => rfl
  | ⟨1, _⟩ => exact Nat.mod_eq_of_lt q.isLt

/-- The centre of round 4 repeated down the nodes: row 4 of its stack. -/
theorem mean4 (p : Fin 50000) (q : Fin 128) :
    val_main_v244 (F := Ideal) x7 (ix2 p q) = Cert.Spec.sliceRow x7 (4 : Fin 8) (ix2 (0 : Fin 1) q) := by
  rw [val_main_v244_apply, val_main_v243_apply, val_main_v242_apply, val_main_v241_apply]
  unfold Cert.Spec.sliceRow
  refine congrArg x7 (funext fun a => Fin.ext ?_)
  match a with
  | ⟨0, _⟩ => rfl
  | ⟨1, _⟩ => exact Nat.mod_eq_of_lt q.isLt

/-- The inverse root of round 4 repeated down the nodes: of row 4 of the variance stack plus the shift. -/
theorem invstd4 (p : Fin 50000) (q : Fin 128) :
    val_main_v252 (F := Ideal) x8 (ix2 p q)
      = Ideal.rsqrt (Cert.Spec.sliceRow x8 (4 : Fin 8) (ix2 (0 : Fin 1) q) + Ideal.ofBits .f32 0x3727C5AC#32) := by
  rw [val_main_v252_apply, val_main_v251_apply, val_main_v250_apply, val_main_v249_apply, val_main_v248_apply, val_main_cst_25_apply,
    val_main_v247_apply, val_main_v246_apply]
  have h : idx_main_v246 (idx_main_v247 (idx_main_v251 (idx_main_v252 (ix2 p q)))) = ix2 (4 : Fin 8) q :=
    funext fun a => Fin.ext (by
      match a with
      | ⟨0, _⟩ => rfl
      | ⟨1, _⟩ => exact Nat.mod_eq_of_lt q.isLt)
  rw [h]
  rfl

/-- The gain of round 4 repeated down the nodes: row 4 of its stack. -/
theorem gain4 (p : Fin 50000) (q : Fin 128) :
    val_main_v257 (F := Ideal) x5 (ix2 p q) = Cert.Spec.sliceRow x5 (4 : Fin 8) (ix2 (0 : Fin 1) q) := by
  rw [val_main_v257_apply, val_main_v256_apply, val_main_v255_apply, val_main_v254_apply]
  unfold Cert.Spec.sliceRow
  refine congrArg x5 (funext fun a => Fin.ext ?_)
  match a with
  | ⟨0, _⟩ => rfl
  | ⟨1, _⟩ => exact Nat.mod_eq_of_lt q.isLt

/-- The shift of round 4 repeated down the nodes: row 4 of its stack. -/
theorem shift4 (p : Fin 50000) (q : Fin 128) :
    val_main_v262 (F := Ideal) x6 (ix2 p q) = Cert.Spec.sliceRow x6 (4 : Fin 8) (ix2 (0 : Fin 1) q) := by
  rw [val_main_v262_apply, val_main_v261_apply, val_main_v260_apply, val_main_v259_apply]
  unfold Cert.Spec.sliceRow
  refine congrArg x6 (funext fun a => Fin.ext ?_)
  match a with
  | ⟨0, _⟩ => rfl
  | ⟨1, _⟩ => exact Nat.mod_eq_of_lt q.isLt

/-- The clamp's constant of round 4: the zero word at every entry. -/
theorem floor4 (i : S50000x128.Idx) : val_main_call4_v0 (F := Ideal) i = Ideal.ofBits .f32 0x00000000#32 := by
  rw [val_main_call4_v0_apply, val_main_call4_cst_apply]
  rfl

/-- ROUND 4 of the reference is the round with the receiving node's factor inside the sum, on the previous round's output and
    layer 4 of every parameter stack. -/
theorem round4 :
    val_main_v264 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v217 (F := Ideal) x0 x1 x3 x4 x5 x6 x7 x8) (Cert.Spec.sliceW x3 (4 : Fin 8)) (EN x1) (SN x1)
          (Cert.Spec.sliceRow x4 (4 : Fin 8)) (Cert.Spec.sliceRow x7 (4 : Fin 8)) (Cert.Spec.sliceRow x8 (4 : Fin 8)) (Cert.Spec.sliceRow x5 (4 : Fin 8)) (Cert.Spec.sliceRow x6 (4 : Fin 8)) := by
  funext i
  obtain ⟨p, q, rfl⟩ : ∃ (p : Fin 50000) (q : Fin 128), i = ix2 p q := ⟨i 0, i 1, eq_ix2 i⟩
  rw [val_main_v264_apply, val_main_v263_apply, val_main_v258_apply, val_main_v253_apply, val_main_v245_apply, val_main_v240_apply,
    val_main_v235_apply, val_main_v234_apply, floor4, shift4, gain4, invstd4, mean4, bias4, nodeRep4, nodeFactor_ix2,
    agg4, lin4]
  simp only [Ideal.maximumf_def, Ideal.addf_def, Ideal.mulf_def, Ideal.subf_def]
  rfl

/-! ## Round 5 -/

/-- The round's linear map: the features times layer 5 of the weight stack, entry by entry. -/
theorem lin5 : val_main_v267 (F := Ideal) x0 x1 x3 x4 x5 x6 x7 x8 = Cert.Spec.mm (M := 50000) (K := 128) (N := 128) (val_main_v264 (F := Ideal) x0 x1 x3 x4 x5 x6 x7 x8) (Cert.Spec.sliceW x3 (5 : Fin 8)) := by
  funext i
  rw [val_main_v267_apply]
  unfold Cert.Spec.mm
  refine Finset.sum_congr rfl fun j _ => ?_
  rw [val_main_v266_apply, val_main_v265_apply]
  unfold Cert.Spec.sliceW
  have hj : j.val < 128 := j.isLt
  have hi : (i 1).val < 128 := (i 1).isLt
  have hl : lidx_main_v267 i j = ix2 (i 0) j :=
    funext fun a => Fin.ext (by match a with | ⟨0, _⟩ => rfl | ⟨1, _⟩ => rfl)
  have hr : idx_main_v265 (idx_main_v266 (ridx_main_v267 i j)) = ix3 (5 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src5 : val_main_v273 (F := Ideal) x1 = val_main_v17 (F := Ideal) x1 := rfl

/-- The round's copy of the end column is the first one. -/
theorem dst5 : val_main_v278 (F := Ideal) x1 = val_main_v6 (F := Ideal) x1 := rfl

/-- The round's copy of the repeated per-edge factor is the first one. -/
theorem edgeRep5 : val_main_v275 (F := Ideal) x1 = val_main_v40 (F := Ideal) x1 := rfl

/-- The round's copy of the repeated per-node square is the first one. -/
theorem nodeRep5 : val_main_v280 (F := Ideal) x1 = val_main_v45 (F := Ideal) x1 := rfl

/-- The collected sum of round 5: node p, feature q holds zero plus, over the edges whose end word is p, the
    linear map's row at the edge's start, feature q, times the edge's factor. -/
theorem agg5 (p : Fin 50000) (q : Fin 128) :
    val_main_v279 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v267 (F := Ideal) x0 x1 x3 x4 x5 x6 x7 x8) (EN x1) (ix2 p q) := by
  unfold val_main_v279
  rw [scatterT_apply, val_main_v277_apply, val_main_cst_28_apply, dst5, Ideal.ofBits_def]
  unfold Cert.Spec.collectScaled
  refine congrArg (fun s => Ideal.ofBits .f32 0x00000000#32 + s) (Finset.sum_congr rfl fun e _ => ?_)
  rw [val_main_v276_apply]
  unfold val_main_v274
  rw [gatherT_apply, src5, edgeRep5, edgeFactor_ix2]
  rfl

/-- The bias of round 5 repeated down the nodes: row 5 of the bias stack. -/
theorem bias5 (p : Fin 50000) (q : Fin 128) :
    val_main_v286 (F := Ideal) x4 (ix2 p q) = Cert.Spec.sliceRow x4 (5 : Fin 8) (ix2 (0 : Fin 1) q) := by
  rw [val_main_v286_apply, val_main_v285_apply, val_main_v284_apply, val_main_v283_apply]
  unfold Cert.Spec.sliceRow
  refine congrArg x4 (funext fun a => Fin.ext ?_)
  match a with
  | ⟨0, _⟩ => rfl
  | ⟨1, _⟩ => exact Nat.mod_eq_of_lt q.isLt

/-- The centre of round 5 repeated down the nodes: row 5 of its stack. -/
theorem mean5 (p : Fin 50000) (q : Fin 128) :
    val_main_v291 (F := Ideal) x7 (ix2 p q) = Cert.Spec.sliceRow x7 (5 : Fin 8) (ix2 (0 : Fin 1) q) := by
  rw [val_main_v291_apply, val_main_v290_apply, val_main_v289_apply, val_main_v288_apply]
  unfold Cert.Spec.sliceRow
  refine congrArg x7 (funext fun a => Fin.ext ?_)
  match a with
  | ⟨0, _⟩ => rfl
  | ⟨1, _⟩ => exact Nat.mod_eq_of_lt q.isLt

/-- The inverse root of round 5 repeated down the nodes: of row 5 of the variance stack plus the shift. -/
theorem invstd5 (p : Fin 50000) (q : Fin 128) :
    val_main_v299 (F := Ideal) x8 (ix2 p q)
      = Ideal.rsqrt (Cert.Spec.sliceRow x8 (5 : Fin 8) (ix2 (0 : Fin 1) q) + Ideal.ofBits .f32 0x3727C5AC#32) := by
  rw [val_main_v299_apply, val_main_v298_apply, val_main_v297_apply, val_main_v296_apply, val_main_v295_apply, val_main_cst_29_apply,
    val_main_v294_apply, val_main_v293_apply]
  have h : idx_main_v293 (idx_main_v294 (idx_main_v298 (idx_main_v299 (ix2 p q)))) = ix2 (5 : Fin 8) q :=
    funext fun a => Fin.ext (by
      match a with
      | ⟨0, _⟩ => rfl
      | ⟨1, _⟩ => exact Nat.mod_eq_of_lt q.isLt)
  rw [h]
  rfl

/-- The gain of round 5 repeated down the nodes: row 5 of its stack. -/
theorem gain5 (p : Fin 50000) (q : Fin 128) :
    val_main_v304 (F := Ideal) x5 (ix2 p q) = Cert.Spec.sliceRow x5 (5 : Fin 8) (ix2 (0 : Fin 1) q) := by
  rw [val_main_v304_apply, val_main_v303_apply, val_main_v302_apply, val_main_v301_apply]
  unfold Cert.Spec.sliceRow
  refine congrArg x5 (funext fun a => Fin.ext ?_)
  match a with
  | ⟨0, _⟩ => rfl
  | ⟨1, _⟩ => exact Nat.mod_eq_of_lt q.isLt

/-- The shift of round 5 repeated down the nodes: row 5 of its stack. -/
theorem shift5 (p : Fin 50000) (q : Fin 128) :
    val_main_v309 (F := Ideal) x6 (ix2 p q) = Cert.Spec.sliceRow x6 (5 : Fin 8) (ix2 (0 : Fin 1) q) := by
  rw [val_main_v309_apply, val_main_v308_apply, val_main_v307_apply, val_main_v306_apply]
  unfold Cert.Spec.sliceRow
  refine congrArg x6 (funext fun a => Fin.ext ?_)
  match a with
  | ⟨0, _⟩ => rfl
  | ⟨1, _⟩ => exact Nat.mod_eq_of_lt q.isLt

/-- The clamp's constant of round 5: the zero word at every entry. -/
theorem floor5 (i : S50000x128.Idx) : val_main_call5_v0 (F := Ideal) i = Ideal.ofBits .f32 0x00000000#32 := by
  rw [val_main_call5_v0_apply, val_main_call5_cst_apply]
  rfl

/-- ROUND 5 of the reference is the round with the receiving node's factor inside the sum, on the previous round's output and
    layer 5 of every parameter stack. -/
theorem round5 :
    val_main_v311 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v264 (F := Ideal) x0 x1 x3 x4 x5 x6 x7 x8) (Cert.Spec.sliceW x3 (5 : Fin 8)) (EN x1) (SN x1)
          (Cert.Spec.sliceRow x4 (5 : Fin 8)) (Cert.Spec.sliceRow x7 (5 : Fin 8)) (Cert.Spec.sliceRow x8 (5 : Fin 8)) (Cert.Spec.sliceRow x5 (5 : Fin 8)) (Cert.Spec.sliceRow x6 (5 : Fin 8)) := by
  funext i
  obtain ⟨p, q, rfl⟩ : ∃ (p : Fin 50000) (q : Fin 128), i = ix2 p q := ⟨i 0, i 1, eq_ix2 i⟩
  rw [val_main_v311_apply, val_main_v310_apply, val_main_v305_apply, val_main_v300_apply, val_main_v292_apply, val_main_v287_apply,
    val_main_v282_apply, val_main_v281_apply, floor5, shift5, gain5, invstd5, mean5, bias5, nodeRep5, nodeFactor_ix2,
    agg5, lin5]
  simp only [Ideal.maximumf_def, Ideal.addf_def, Ideal.mulf_def, Ideal.subf_def]
  rfl

/-! ## Round 6 -/

/-- The round's linear map: the features times layer 6 of the weight stack, entry by entry. -/
theorem lin6 : val_main_v314 (F := Ideal) x0 x1 x3 x4 x5 x6 x7 x8 = Cert.Spec.mm (M := 50000) (K := 128) (N := 128) (val_main_v311 (F := Ideal) x0 x1 x3 x4 x5 x6 x7 x8) (Cert.Spec.sliceW x3 (6 : Fin 8)) := by
  funext i
  rw [val_main_v314_apply]
  unfold Cert.Spec.mm
  refine Finset.sum_congr rfl fun j _ => ?_
  rw [val_main_v313_apply, val_main_v312_apply]
  unfold Cert.Spec.sliceW
  have hj : j.val < 128 := j.isLt
  have hi : (i 1).val < 128 := (i 1).isLt
  have hl : lidx_main_v314 i j = ix2 (i 0) j :=
    funext fun a => Fin.ext (by match a with | ⟨0, _⟩ => rfl | ⟨1, _⟩ => rfl)
  have hr : idx_main_v312 (idx_main_v313 (ridx_main_v314 i j)) = ix3 (6 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src6 : val_main_v320 (F := Ideal) x1 = val_main_v17 (F := Ideal) x1 := rfl

/-- The round's copy of the end column is the first one. -/
theorem dst6 : val_main_v325 (F := Ideal) x1 = val_main_v6 (F := Ideal) x1 := rfl

/-- The round's copy of the repeated per-edge factor is the first one. -/
theorem edgeRep6 : val_main_v322 (F := Ideal) x1 = val_main_v40 (F := Ideal) x1 := rfl

/-- The round's copy of the repeated per-node square is the first one. -/
theorem nodeRep6 : val_main_v327 (F := Ideal) x1 = val_main_v45 (F := Ideal) x1 := rfl

/-- The collected sum of round 6: node p, feature q holds zero plus, over the edges whose end word is p, the
    linear map's row at the edge's start, feature q, times the edge's factor. -/
theorem agg6 (p : Fin 50000) (q : Fin 128) :
    val_main_v326 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v314 (F := Ideal) x0 x1 x3 x4 x5 x6 x7 x8) (EN x1) (ix2 p q) := by
  unfold val_main_v326
  rw [scatterT_apply, val_main_v324_apply, val_main_cst_32_apply, dst6, Ideal.ofBits_def]
  unfold Cert.Spec.collectScaled
  refine congrArg (fun s => Ideal.ofBits .f32 0x00000000#32 + s) (Finset.sum_congr rfl fun e _ => ?_)
  rw [val_main_v323_apply]
  unfold val_main_v321
  rw [gatherT_apply, src6, edgeRep6, edgeFactor_ix2]
  rfl

/-- The bias of round 6 repeated down the nodes: row 6 of the bias stack. -/
theorem bias6 (p : Fin 50000) (q : Fin 128) :
    val_main_v333 (F := Ideal) x4 (ix2 p q) = Cert.Spec.sliceRow x4 (6 : Fin 8) (ix2 (0 : Fin 1) q) := by
  rw [val_main_v333_apply, val_main_v332_apply, val_main_v331_apply, val_main_v330_apply]
  unfold Cert.Spec.sliceRow
  refine congrArg x4 (funext fun a => Fin.ext ?_)
  match a with
  | ⟨0, _⟩ => rfl
  | ⟨1, _⟩ => exact Nat.mod_eq_of_lt q.isLt

/-- The centre of round 6 repeated down the nodes: row 6 of its stack. -/
theorem mean6 (p : Fin 50000) (q : Fin 128) :
    val_main_v338 (F := Ideal) x7 (ix2 p q) = Cert.Spec.sliceRow x7 (6 : Fin 8) (ix2 (0 : Fin 1) q) := by
  rw [val_main_v338_apply, val_main_v337_apply, val_main_v336_apply, val_main_v335_apply]
  unfold Cert.Spec.sliceRow
  refine congrArg x7 (funext fun a => Fin.ext ?_)
  match a with
  | ⟨0, _⟩ => rfl
  | ⟨1, _⟩ => exact Nat.mod_eq_of_lt q.isLt

/-- The inverse root of round 6 repeated down the nodes: of row 6 of the variance stack plus the shift. -/
theorem invstd6 (p : Fin 50000) (q : Fin 128) :
    val_main_v346 (F := Ideal) x8 (ix2 p q)
      = Ideal.rsqrt (Cert.Spec.sliceRow x8 (6 : Fin 8) (ix2 (0 : Fin 1) q) + Ideal.ofBits .f32 0x3727C5AC#32) := by
  rw [val_main_v346_apply, val_main_v345_apply, val_main_v344_apply, val_main_v343_apply, val_main_v342_apply, val_main_cst_33_apply,
    val_main_v341_apply, val_main_v340_apply]
  have h : idx_main_v340 (idx_main_v341 (idx_main_v345 (idx_main_v346 (ix2 p q)))) = ix2 (6 : Fin 8) q :=
    funext fun a => Fin.ext (by
      match a with
      | ⟨0, _⟩ => rfl
      | ⟨1, _⟩ => exact Nat.mod_eq_of_lt q.isLt)
  rw [h]
  rfl

/-- The gain of round 6 repeated down the nodes: row 6 of its stack. -/
theorem gain6 (p : Fin 50000) (q : Fin 128) :
    val_main_v351 (F := Ideal) x5 (ix2 p q) = Cert.Spec.sliceRow x5 (6 : Fin 8) (ix2 (0 : Fin 1) q) := by
  rw [val_main_v351_apply, val_main_v350_apply, val_main_v349_apply, val_main_v348_apply]
  unfold Cert.Spec.sliceRow
  refine congrArg x5 (funext fun a => Fin.ext ?_)
  match a with
  | ⟨0, _⟩ => rfl
  | ⟨1, _⟩ => exact Nat.mod_eq_of_lt q.isLt

/-- The shift of round 6 repeated down the nodes: row 6 of its stack. -/
theorem shift6 (p : Fin 50000) (q : Fin 128) :
    val_main_v356 (F := Ideal) x6 (ix2 p q) = Cert.Spec.sliceRow x6 (6 : Fin 8) (ix2 (0 : Fin 1) q) := by
  rw [val_main_v356_apply, val_main_v355_apply, val_main_v354_apply, val_main_v353_apply]
  unfold Cert.Spec.sliceRow
  refine congrArg x6 (funext fun a => Fin.ext ?_)
  match a with
  | ⟨0, _⟩ => rfl
  | ⟨1, _⟩ => exact Nat.mod_eq_of_lt q.isLt

/-- The clamp's constant of round 6: the zero word at every entry. -/
theorem floor6 (i : S50000x128.Idx) : val_main_call6_v0 (F := Ideal) i = Ideal.ofBits .f32 0x00000000#32 := by
  rw [val_main_call6_v0_apply, val_main_call6_cst_apply]
  rfl

/-- ROUND 6 of the reference is the round with the receiving node's factor inside the sum, on the previous round's output and
    layer 6 of every parameter stack. -/
theorem round6 :
    val_main_v358 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v311 (F := Ideal) x0 x1 x3 x4 x5 x6 x7 x8) (Cert.Spec.sliceW x3 (6 : Fin 8)) (EN x1) (SN x1)
          (Cert.Spec.sliceRow x4 (6 : Fin 8)) (Cert.Spec.sliceRow x7 (6 : Fin 8)) (Cert.Spec.sliceRow x8 (6 : Fin 8)) (Cert.Spec.sliceRow x5 (6 : Fin 8)) (Cert.Spec.sliceRow x6 (6 : Fin 8)) := by
  funext i
  obtain ⟨p, q, rfl⟩ : ∃ (p : Fin 50000) (q : Fin 128), i = ix2 p q := ⟨i 0, i 1, eq_ix2 i⟩
  rw [val_main_v358_apply, val_main_v357_apply, val_main_v352_apply, val_main_v347_apply, val_main_v339_apply, val_main_v334_apply,
    val_main_v329_apply, val_main_v328_apply, floor6, shift6, gain6, invstd6, mean6, bias6, nodeRep6, nodeFactor_ix2,
    agg6, lin6]
  simp only [Ideal.maximumf_def, Ideal.addf_def, Ideal.mulf_def, Ideal.subf_def]
  rfl

/-! ## Round 7 -/

/-- The round's linear map: the features times layer 7 of the weight stack, entry by entry. -/
theorem lin7 : val_main_v361 (F := Ideal) x0 x1 x3 x4 x5 x6 x7 x8 = Cert.Spec.mm (M := 50000) (K := 128) (N := 128) (val_main_v358 (F := Ideal) x0 x1 x3 x4 x5 x6 x7 x8) (Cert.Spec.sliceW x3 (7 : Fin 8)) := by
  funext i
  rw [val_main_v361_apply]
  unfold Cert.Spec.mm
  refine Finset.sum_congr rfl fun j _ => ?_
  rw [val_main_v360_apply, val_main_v359_apply]
  unfold Cert.Spec.sliceW
  have hj : j.val < 128 := j.isLt
  have hi : (i 1).val < 128 := (i 1).isLt
  have hl : lidx_main_v361 i j = ix2 (i 0) j :=
    funext fun a => Fin.ext (by match a with | ⟨0, _⟩ => rfl | ⟨1, _⟩ => rfl)
  have hr : idx_main_v359 (idx_main_v360 (ridx_main_v361 i j)) = ix3 (7 : Fin 8) j (i 1) :=
    funext fun a => Fin.ext (by
      match a with
      | ⟨0, _⟩ => rfl
      | ⟨1, _⟩ => show (j.val * 128 + (i 1).val) / 128 % 128 = j.val; omega
      | ⟨2, _⟩ => show (j.val * 128 + (i 1).val) % 128 = (i 1).val; omega)
  rw [hl, hr]
  rfl

/-- The round's copy of the wrapped start column is the first one: the same operations on the same words. -/
theorem src7 : val_main_v367 (F := Ideal) x1 = val_main_v17 (F := Ideal) x1 := rfl

/-- The round's copy of the end column is the first one. -/
theorem dst7 : val_main_v372 (F := Ideal) x1 = val_main_v6 (F := Ideal) x1 := rfl

/-- The round's copy of the repeated per-edge factor is the first one. -/
theorem edgeRep7 : val_main_v369 (F := Ideal) x1 = val_main_v40 (F := Ideal) x1 := rfl

/-- The round's copy of the repeated per-node square is the first one. -/
theorem nodeRep7 : val_main_v374 (F := Ideal) x1 = val_main_v45 (F := Ideal) x1 := rfl

/-- The collected sum of round 7: node p, feature q holds zero plus, over the edges whose end word is p, the
    linear map's row at the edge's start, feature q, times the edge's factor. -/
theorem agg7 (p : Fin 50000) (q : Fin 128) :
    val_main_v373 (F := Ideal) x0 x1 x3 x4 x5 x6 x7 x8 (ix2 p q)
      = Cert.Spec.collectScaled (N := 50000) (E := 640000) (D := 128) (by decide) (Ideal.ofBits .f32 0x00000000#32)
          (val_main_v17 (F := Ideal) x1) (val_main_v6 (F := Ideal) x1) (val_main_v361 (F := Ideal) x0 x1 x3 x4 x5 x6 x7 x8) (EN x1) (ix2 p q) := by
  unfold val_main_v373
  rw [scatterT_apply, val_main_v371_apply, val_main_cst_36_apply, dst7, Ideal.ofBits_def]
  unfold Cert.Spec.collectScaled
  refine congrArg (fun s => Ideal.ofBits .f32 0x00000000#32 + s) (Finset.sum_congr rfl fun e _ => ?_)
  rw [val_main_v370_apply]
  unfold val_main_v368
  rw [gatherT_apply, src7, edgeRep7, edgeFactor_ix2]
  rfl

/-- The bias of round 7 repeated down the nodes: row 7 of the bias stack. -/
theorem bias7 (p : Fin 50000) (q : Fin 128) :
    val_main_v380 (F := Ideal) x4 (ix2 p q) = Cert.Spec.sliceRow x4 (7 : Fin 8) (ix2 (0 : Fin 1) q) := by
  rw [val_main_v380_apply, val_main_v379_apply, val_main_v378_apply, val_main_v377_apply]
  unfold Cert.Spec.sliceRow
  refine congrArg x4 (funext fun a => Fin.ext ?_)
  match a with
  | ⟨0, _⟩ => rfl
  | ⟨1, _⟩ => exact Nat.mod_eq_of_lt q.isLt

/-- The centre of round 7 repeated down the nodes: row 7 of its stack. -/
theorem mean7 (p : Fin 50000) (q : Fin 128) :
    val_main_v385 (F := Ideal) x7 (ix2 p q) = Cert.Spec.sliceRow x7 (7 : Fin 8) (ix2 (0 : Fin 1) q) := by
  rw [val_main_v385_apply, val_main_v384_apply, val_main_v383_apply, val_main_v382_apply]
  unfold Cert.Spec.sliceRow
  refine congrArg x7 (funext fun a => Fin.ext ?_)
  match a with
  | ⟨0, _⟩ => rfl
  | ⟨1, _⟩ => exact Nat.mod_eq_of_lt q.isLt

/-- The inverse root of round 7 repeated down the nodes: of row 7 of the variance stack plus the shift. -/
theorem invstd7 (p : Fin 50000) (q : Fin 128) :
    val_main_v393 (F := Ideal) x8 (ix2 p q)
      = Ideal.rsqrt (Cert.Spec.sliceRow x8 (7 : Fin 8) (ix2 (0 : Fin 1) q) + Ideal.ofBits .f32 0x3727C5AC#32) := by
  rw [val_main_v393_apply, val_main_v392_apply, val_main_v391_apply, val_main_v390_apply, val_main_v389_apply, val_main_cst_37_apply,
    val_main_v388_apply, val_main_v387_apply]
  have h : idx_main_v387 (idx_main_v388 (idx_main_v392 (idx_main_v393 (ix2 p q)))) = ix2 (7 : Fin 8) q :=
    funext fun a => Fin.ext (by
      match a with
      | ⟨0, _⟩ => rfl
      | ⟨1, _⟩ => exact Nat.mod_eq_of_lt q.isLt)
  rw [h]
  rfl

/-- The gain of round 7 repeated down the nodes: row 7 of its stack. -/
theorem gain7 (p : Fin 50000) (q : Fin 128) :
    val_main_v398 (F := Ideal) x5 (ix2 p q) = Cert.Spec.sliceRow x5 (7 : Fin 8) (ix2 (0 : Fin 1) q) := by
  rw [val_main_v398_apply, val_main_v397_apply, val_main_v396_apply, val_main_v395_apply]
  unfold Cert.Spec.sliceRow
  refine congrArg x5 (funext fun a => Fin.ext ?_)
  match a with
  | ⟨0, _⟩ => rfl
  | ⟨1, _⟩ => exact Nat.mod_eq_of_lt q.isLt

/-- The shift of round 7 repeated down the nodes: row 7 of its stack. -/
theorem shift7 (p : Fin 50000) (q : Fin 128) :
    val_main_v403 (F := Ideal) x6 (ix2 p q) = Cert.Spec.sliceRow x6 (7 : Fin 8) (ix2 (0 : Fin 1) q) := by
  rw [val_main_v403_apply, val_main_v402_apply, val_main_v401_apply, val_main_v400_apply]
  unfold Cert.Spec.sliceRow
  refine congrArg x6 (funext fun a => Fin.ext ?_)
  match a with
  | ⟨0, _⟩ => rfl
  | ⟨1, _⟩ => exact Nat.mod_eq_of_lt q.isLt

/-- The clamp's constant of round 7: the zero word at every entry. -/
theorem floor7 (i : S50000x128.Idx) : val_main_call7_v0 (F := Ideal) i = Ideal.ofBits .f32 0x00000000#32 := by
  rw [val_main_call7_v0_apply, val_main_call7_cst_apply]
  rfl

/-- ROUND 7 of the reference is the round with the receiving node's factor inside the sum, on the previous round's output and
    layer 7 of every parameter stack. -/
theorem round7 :
    val_main_v405 (F := Ideal) x0 x1 x3 x4 x5 x6 x7 x8
      = Cert.Spec.roundRef (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v358 (F := Ideal) x0 x1 x3 x4 x5 x6 x7 x8) (Cert.Spec.sliceW x3 (7 : Fin 8)) (EN x1) (SN x1)
          (Cert.Spec.sliceRow x4 (7 : Fin 8)) (Cert.Spec.sliceRow x7 (7 : Fin 8)) (Cert.Spec.sliceRow x8 (7 : Fin 8)) (Cert.Spec.sliceRow x5 (7 : Fin 8)) (Cert.Spec.sliceRow x6 (7 : Fin 8)) := by
  funext i
  obtain ⟨p, q, rfl⟩ : ∃ (p : Fin 50000) (q : Fin 128), i = ix2 p q := ⟨i 0, i 1, eq_ix2 i⟩
  rw [val_main_v405_apply, val_main_v404_apply, val_main_v399_apply, val_main_v394_apply, val_main_v386_apply, val_main_v381_apply,
    val_main_v376_apply, val_main_v375_apply, floor7, shift7, gain7, invstd7, mean7, bias7, nodeRep7, nodeFactor_ix2,
    agg7, lin7]
  simp only [Ideal.maximumf_def, Ideal.addf_def, Ideal.mulf_def, Ideal.subf_def]
  rfl

/-! ## The final affine map -/

/-- THE LAST FOUR OPERATIONS are the final affine map of the pooled features: the contraction with the output weights
    plus the output bias repeated down the groups. -/
theorem head :
    val_main_v421 (F := Ideal) x0 x1 x2 x3 x4 x5 x6 x7 x8 x9 x10
      = Cert.Spec.head (G := 2048) (D := 128) (O := 5) (val_main_v417 (F := Ideal) x0 x1 x2 x3 x4 x5 x6 x7 x8) x9
          (fun i => x10 (ix1 (i 1))) := by
  funext i
  obtain ⟨p, q, rfl⟩ : ∃ (p : Fin 2048) (q : Fin 5), i = ix2 p q := ⟨i 0, i 1, eq_ix2 i⟩
  rw [val_main_v421_apply, val_main_v420_apply, val_main_v419_apply, val_main_v418_apply]
  have hb : idx_main_v419 (idx_main_v420 (ix2 p q)) = ix1 q :=
    funext fun a => Fin.ext (by match a with | ⟨0, _⟩ => rfl)
  have hl : ∀ j : Fin 128, lidx_main_v418 (ix2 p q) j = ix2 p j := fun j =>
    funext fun a => Fin.ext (by match a with | ⟨0, _⟩ => rfl | ⟨1, _⟩ => rfl)
  have hr : ∀ j : Fin 128, ridx_main_v418 (ix2 p q) j = ix2 j q := fun j =>
    funext fun a => Fin.ext (by match a with | ⟨0, _⟩ => rfl | ⟨1, _⟩ => rfl)
  simp only [hb, hl, hr]
  rfl

end Cert.RVal

end
-- ==== Proof.RefKer.lean ====
/-
  The reference's eight rounds restated in the kernel's arrangement: the receiving node's factor applied once to
  the whole collected sum instead of once per edge.

  The per-node factor of the reference is the host's degree factor over the raw receiving column: ones accumulated
  at that column onto zeros, plus one, to the power −1/2; it is a non-negative real at every node. The receiving end
  of an edge is named by the wrapped column (the raw word, plus the node count where it is negative); where the raw
  word is the number of a node — the only positions the accumulation lands on — the wrapped word is that same node.
  With these two facts the law of one round applies to each of the eight rounds.
-/
import proofs.«127734_j69286412419642_2_alg».proof.Proof.Spec
import proofs.«127734_j69286412419642_2_alg».proof.Proof.Algebra
import proofs.«127734_j69286412419642_2_alg».proof.Proof.HostIdx
import proofs.«127734_j69286412419642_2_alg».proof.Proof.RefRound

noncomputable section

open scoped BigOperators

namespace Cert.RVal

open Cert.ReferenceIdeal Cert.ReferenceIdeal.Gen Cert.ReferenceIdeal.Read Idealize.ShloMosaic Idealize.ShloMosaic.ValueIdx
  Idealize.ShloMosaic.HostRead Cert.Spec

/-! ## The law of one round over the host's columns and factors -/
theorem ref_eq_ker {N E D : Nat} (hN : 0 < N)
    (hc : (⟨1, ![N]⟩ : Shape).ShapeCasts ⟨2, ![N, 1]⟩)
    (wf : ScatterDims.WF ⟨1, ![N]⟩ ⟨2, ![E, 1]⟩ ⟨1, ![E]⟩ [] [0] [0] 1)
    (hb0 : (⟨0, ![]⟩ : Shape).BroadcastsInDim ⟨1, ![N]⟩ ![])
    (hb1 : (⟨0, ![]⟩ : Shape).BroadcastsInDim ⟨1, ![E]⟩ ![])
    (h : (⟨1, ![E]⟩ : Shape).BroadcastsInDim ⟨2, ![E, 1]⟩ ![0])
    (c : BitVec 32) (W1 : IVec ⟨1, ![E]⟩ 32) (nsrc : IVec ⟨2, ![E, 1]⟩ 32)
    (z eps zr : EReal) (hz : z = 0)
    (H : (⟨2, ![N, D]⟩ : Shape).Idx → EReal) (W : (⟨2, ![D, D]⟩ : Shape).Idx → EReal)
    (b rm rv g bt : (⟨2, ![1, D]⟩ : Shape).Idx → EReal) :
    roundRef hN z eps zr nsrc (broadcastInDim ⟨2, ![E, 1]⟩ ![0] h W1) H W
        (fun i => HostIdx.factor N E wf hb0 hb1 (broadcastInDim ⟨2, ![E, 1]⟩ ![0] h W1) (ix1 (row hN nsrc (i 0)))
          * HostIdx.factor N E wf hb0 hb1 (broadcastInDim ⟨2, ![E, 1]⟩ ![0] h W1)
              (ix1 (row hN (broadcastInDim ⟨2, ![E, 1]⟩ ![0] h
                (select (cmpi .slt W1 (broadcastInDim ⟨1, ![E]⟩ ![] hb1 (constantI ⟨0, ![]⟩ 32 0#32)))
                  (addi W1 (broadcastInDim ⟨1, ![E]⟩ ![] hb1 (constantI ⟨0, ![]⟩ 32 c))) W1)) (i 0))))
        (fun i => HostIdx.factor N E wf hb0 hb1 (broadcastInDim ⟨2, ![E, 1]⟩ ![0] h W1) (ix1 (i 0))
          * HostIdx.factor N E wf hb0 hb1 (broadcastInDim ⟨2, ![E, 1]⟩ ![0] h W1) (ix1 (i 0)))
        b rm rv g bt
      = roundKer hN z eps zr nsrc (broadcastInDim ⟨2, ![E, 1]⟩ ![0] h W1) H W
          (shapeCast ⟨2, ![N, 1]⟩ (HostIdx.factor N E wf hb0 hb1 (broadcastInDim ⟨2, ![E, 1]⟩ ![0] h W1)) hc)
          b rm rv g bt := by
  apply round_eq (ndst := (broadcastInDim ⟨2, ![E, 1]⟩ ![0] h
      (select (cmpi .slt W1 (broadcastInDim ⟨1, ![E]⟩ ![] hb1 (constantI ⟨0, ![]⟩ 32 0#32)))
        (addi W1 (broadcastInDim ⟨1, ![E]⟩ ![] hb1 (constantI ⟨0, ![]⟩ 32 c))) W1))) (hz := hz)
  case hdis =>
    intro v
    rw [HostIdx.col_apply]
    exact HostIdx.dis_read wf hb0 hb1 _ v
  case hen =>
    intro e
    rw [HostIdx.col_apply, HostIdx.col_apply]
    rfl
  case hsn =>
    intro v
    rw [HostIdx.col_apply]
    rfl
  case hland =>
    exact fun e v hv => HostIdx.wrap_lands hN c h hb1 W1 e v hv

/-! ## The reference's columns and factor are the host terms of the law -/

variable (x0 : (⟨S50000x128, .f32⟩ : BufTy).Contents (Elt Ideal)) (x1 : (⟨S2x640000, .i32⟩ : BufTy).Contents (Elt Ideal))
  (x3 : (⟨S8x128x128, .f32⟩ : BufTy).Contents (Elt Ideal)) (x4 x5 x6 x7 x8 : (⟨S8x128, .f32⟩ : BufTy).Contents (Elt Ideal))

/-- The accumulation column of the reference is the raw receiving column, broadcast to a column array. -/
theorem dcol_eq : val_main_v6 (F := Ideal) x1
    = broadcastInDim ⟨2, ![640000, 1]⟩ ![0] Gen.bcast_S640000_S640000x1_0 (val_main_v3 (F := Ideal) x1) := rfl

/-- The column naming the receiving ends is the raw receiving column wrapped: the node count added where negative. -/
theorem ndst_eq : val_main_v24 (F := Ideal) x1
    = broadcastInDim ⟨2, ![640000, 1]⟩ ![0] Gen.bcast_S640000_S640000x1_0
        (select (cmpi .slt (val_main_v3 (F := Ideal) x1)
            (broadcastInDim ⟨1, ![640000]⟩ ![] Gen.bcast_S_S640000 (constantI ⟨0, ![]⟩ 32 0#32)))
          (addi (val_main_v3 (F := Ideal) x1)
            (broadcastInDim ⟨1, ![640000]⟩ ![] Gen.bcast_S_S640000 (constantI ⟨0, ![]⟩ 32 50000#32)))
          (val_main_v3 (F := Ideal) x1)) := rfl

/-- The per-node factor of the reference is the host's degree factor over the accumulation column. -/
theorem factor_eq : val_main_v11 (F := Ideal) x1
    = HostIdx.factor 50000 640000 Gen.scatter_S50000_S640000x1_S640000_n_0_0_1_wf Gen.bcast_S_S50000
        Gen.bcast_S_S640000
        (broadcastInDim ⟨2, ![640000, 1]⟩ ![0] Gen.bcast_S640000_S640000x1_0 (val_main_v3 (F := Ideal) x1)) := rfl

/-- One round of the reference, whatever its features, layer and per-feature rows, in the kernel's arrangement. -/
theorem ref_round_ker (hc : S50000.ShapeCasts S50000x1)
    (H : (⟨2, ![50000, 128]⟩ : Shape).Idx → EReal) (W : (⟨2, ![128, 128]⟩ : Shape).Idx → EReal)
    (b rm rv g bt : (⟨2, ![1, 128]⟩ : Shape).Idx → EReal) :
    Cert.Spec.roundRef (N := 50000) (E := 640000) (D := 128) (by decide)
        (Ideal.ofBits .f32 0x00000000#32) (Ideal.ofBits .f32 0x3727C5AC#32) (Ideal.ofBits .f32 0x00000000#32)
        (val_main_v17 (F := Ideal) x1) (val_main_v6 (F := Ideal) x1) H W (EN x1) (SN x1) b rm rv g bt
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) H W
          (shapeCast ⟨2, ![50000, 1]⟩ (val_main_v11 (F := Ideal) x1) hc) b rm rv g bt := by
  unfold EN SN
  rw [ndst_eq, factor_eq, dcol_eq]
  exact ref_eq_ker (N := 50000) (E := 640000) (D := 128) (by decide) hc
    Gen.scatter_S50000_S640000x1_S640000_n_0_0_1_wf Gen.bcast_S_S50000 Gen.bcast_S_S640000
    Gen.bcast_S640000_S640000x1_0 50000#32 (val_main_v3 (F := Ideal) x1) (val_main_v17 (F := Ideal) x1)
    _ _ _ Ideal.ofBits_zero_f32 H W b rm rv g bt

/-! ## The eight rounds -/

/-- Round 0 of the reference in the kernel's arrangement. -/
theorem ker_round0 (hc : S50000.ShapeCasts S50000x1) :
    val_main_v76 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) x0 (Cert.Spec.sliceW x3 (0 : Fin 8))
          (shapeCast ⟨2, ![50000, 1]⟩ (val_main_v11 (F := Ideal) x1) hc)
          (Cert.Spec.sliceRow x4 (0 : Fin 8)) (Cert.Spec.sliceRow x7 (0 : Fin 8)) (Cert.Spec.sliceRow x8 (0 : Fin 8)) (Cert.Spec.sliceRow x5 (0 : Fin 8)) (Cert.Spec.sliceRow x6 (0 : Fin 8)) := by
  rw [round0]
  exact ref_round_ker x1 hc _ _ _ _ _ _ _

/-- Round 1 of the reference in the kernel's arrangement. -/
theorem ker_round1 (hc : S50000.ShapeCasts S50000x1) :
    val_main_v123 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v76 (F := Ideal) x0 x1 x3 x4 x5 x6 x7 x8) (Cert.Spec.sliceW x3 (1 : Fin 8))
          (shapeCast ⟨2, ![50000, 1]⟩ (val_main_v11 (F := Ideal) x1) hc)
          (Cert.Spec.sliceRow x4 (1 : Fin 8)) (Cert.Spec.sliceRow x7 (1 : Fin 8)) (Cert.Spec.sliceRow x8 (1 : Fin 8)) (Cert.Spec.sliceRow x5 (1 : Fin 8)) (Cert.Spec.sliceRow x6 (1 : Fin 8)) := by
  rw [round1]
  exact ref_round_ker x1 hc _ _ _ _ _ _ _

/-- Round 2 of the reference in the kernel's arrangement. -/
theorem ker_round2 (hc : S50000.ShapeCasts S50000x1) :
    val_main_v170 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v123 (F := Ideal) x0 x1 x3 x4 x5 x6 x7 x8) (Cert.Spec.sliceW x3 (2 : Fin 8))
          (shapeCast ⟨2, ![50000, 1]⟩ (val_main_v11 (F := Ideal) x1) hc)
          (Cert.Spec.sliceRow x4 (2 : Fin 8)) (Cert.Spec.sliceRow x7 (2 : Fin 8)) (Cert.Spec.sliceRow x8 (2 : Fin 8)) (Cert.Spec.sliceRow x5 (2 : Fin 8)) (Cert.Spec.sliceRow x6 (2 : Fin 8)) := by
  rw [round2]
  exact ref_round_ker x1 hc _ _ _ _ _ _ _

/-- Round 3 of the reference in the kernel's arrangement. -/
theorem ker_round3 (hc : S50000.ShapeCasts S50000x1) :
    val_main_v217 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v170 (F := Ideal) x0 x1 x3 x4 x5 x6 x7 x8) (Cert.Spec.sliceW x3 (3 : Fin 8))
          (shapeCast ⟨2, ![50000, 1]⟩ (val_main_v11 (F := Ideal) x1) hc)
          (Cert.Spec.sliceRow x4 (3 : Fin 8)) (Cert.Spec.sliceRow x7 (3 : Fin 8)) (Cert.Spec.sliceRow x8 (3 : Fin 8)) (Cert.Spec.sliceRow x5 (3 : Fin 8)) (Cert.Spec.sliceRow x6 (3 : Fin 8)) := by
  rw [round3]
  exact ref_round_ker x1 hc _ _ _ _ _ _ _

/-- Round 4 of the reference in the kernel's arrangement. -/
theorem ker_round4 (hc : S50000.ShapeCasts S50000x1) :
    val_main_v264 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v217 (F := Ideal) x0 x1 x3 x4 x5 x6 x7 x8) (Cert.Spec.sliceW x3 (4 : Fin 8))
          (shapeCast ⟨2, ![50000, 1]⟩ (val_main_v11 (F := Ideal) x1) hc)
          (Cert.Spec.sliceRow x4 (4 : Fin 8)) (Cert.Spec.sliceRow x7 (4 : Fin 8)) (Cert.Spec.sliceRow x8 (4 : Fin 8)) (Cert.Spec.sliceRow x5 (4 : Fin 8)) (Cert.Spec.sliceRow x6 (4 : Fin 8)) := by
  rw [round4]
  exact ref_round_ker x1 hc _ _ _ _ _ _ _

/-- Round 5 of the reference in the kernel's arrangement. -/
theorem ker_round5 (hc : S50000.ShapeCasts S50000x1) :
    val_main_v311 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v264 (F := Ideal) x0 x1 x3 x4 x5 x6 x7 x8) (Cert.Spec.sliceW x3 (5 : Fin 8))
          (shapeCast ⟨2, ![50000, 1]⟩ (val_main_v11 (F := Ideal) x1) hc)
          (Cert.Spec.sliceRow x4 (5 : Fin 8)) (Cert.Spec.sliceRow x7 (5 : Fin 8)) (Cert.Spec.sliceRow x8 (5 : Fin 8)) (Cert.Spec.sliceRow x5 (5 : Fin 8)) (Cert.Spec.sliceRow x6 (5 : Fin 8)) := by
  rw [round5]
  exact ref_round_ker x1 hc _ _ _ _ _ _ _

/-- Round 6 of the reference in the kernel's arrangement. -/
theorem ker_round6 (hc : S50000.ShapeCasts S50000x1) :
    val_main_v358 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v311 (F := Ideal) x0 x1 x3 x4 x5 x6 x7 x8) (Cert.Spec.sliceW x3 (6 : Fin 8))
          (shapeCast ⟨2, ![50000, 1]⟩ (val_main_v11 (F := Ideal) x1) hc)
          (Cert.Spec.sliceRow x4 (6 : Fin 8)) (Cert.Spec.sliceRow x7 (6 : Fin 8)) (Cert.Spec.sliceRow x8 (6 : Fin 8)) (Cert.Spec.sliceRow x5 (6 : Fin 8)) (Cert.Spec.sliceRow x6 (6 : Fin 8)) := by
  rw [round6]
  exact ref_round_ker x1 hc _ _ _ _ _ _ _

/-- Round 7 of the reference in the kernel's arrangement. -/
theorem ker_round7 (hc : S50000.ShapeCasts S50000x1) :
    val_main_v405 (F := Ideal) x0 x1 x3 x4 x5 x6 x7 x8
      = Cert.Spec.roundKer (N := 50000) (E := 640000) (D := 128) (by decide)
          (Ideal.ofBits .f32 0x00000000#32) (Ideal.ofBits .f32 0x3727C5AC#32) (Ideal.ofBits .f32 0x00000000#32)
          (val_main_v17 (F := Ideal) x1) (val_main_v6 (F := Ideal) x1) (val_main_v358 (F := Ideal) x0 x1 x3 x4 x5 x6 x7 x8) (Cert.Spec.sliceW x3 (7 : Fin 8))
          (shapeCast ⟨2, ![50000, 1]⟩ (val_main_v11 (F := Ideal) x1) hc)
          (Cert.Spec.sliceRow x4 (7 : Fin 8)) (Cert.Spec.sliceRow x7 (7 : Fin 8)) (Cert.Spec.sliceRow x8 (7 : Fin 8)) (Cert.Spec.sliceRow x5 (7 : Fin 8)) (Cert.Spec.sliceRow x6 (7 : Fin 8)) := by
  rw [round7]
  exact ref_round_ker x1 hc _ _ _ _ _ _ _

end Cert.RVal

end
-- ==== Proof.KTail.lean ====
/-
  The end of the kernel program read whole: the mean over node groups, computed by host operations from the last
  round's output, and the final affine map's region; and the two programs' results joined round by round.
-/
import proofs.«127734_j69286412419642_2_alg».proof.Proof.KLayer01
import proofs.«127734_j69286412419642_2_alg».proof.Proof.KLayer23
import proofs.«127734_j69286412419642_2_alg».proof.Proof.KLayer45
import proofs.«127734_j69286412419642_2_alg».proof.Proof.KLayer67
import proofs.«127734_j69286412419642_2_alg».proof.Proof.RegHead
import proofs.«127734_j69286412419642_2_alg».proof.Proof.RefKer
import proofs.«127734_j69286412419642_2_alg».proof.Proof.ReadP
import Idealize.ShloMosaic.Lib.ValueLayout

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The mean over node groups: the rows accumulated at their group's index, divided by the group's size or by one. -/
def pooled (h : (⟨S50000x128, .f32⟩ : BufTy).Contents (Elt Ideal)) (x2 : (⟨S50000, .i32⟩ : BufTy).Contents (Elt Ideal)) :
    (⟨S2048x128, .f32⟩ : BufTy).Contents (Elt Ideal) :=
  Host.divf (F := Ideal)
    (Host.scatterAdd (F := Ideal) scatter_S2048x128_S50000x1_S50000x128_1_0_0_1
      (broadcastInDim S2048x128 ![] bcast_S_S2048x128 (constant (F := Ideal) S_ .f32 0x00000000#32))
      (broadcastInDim S50000x1 ![0] bcast_S50000_S50000x1_0 x2) h)
    (broadcastInDim S2048x128 ![0, 1] bcast_S2048x1_S2048x128_0_1
      (broadcastInDim S2048x1 ![0] bcast_S2048_S2048x1_0
        (maximumf (F := Ideal)
          (Host.scatterAdd (F := Ideal) scatter_S2048_S50000x1_S50000_n_0_0_1
            (broadcastInDim S2048 ![] bcast_S_S2048 (constant (F := Ideal) S_ .f32 0x00000000#32))
            (broadcastInDim S50000x1 ![0] bcast_S50000_S50000x1_0 x2)
            (broadcastInDim S50000 ![] bcast_S_S50000 (constant (F := Ideal) S_ .f32 0x3F800000#32)))
          (broadcastInDim S2048 ![] bcast_S_S2048 (constant (F := Ideal) S_ .f32 0x3F800000#32)))))

theorem V33_pooled (c : Dev nD) :
    V33 m ρ c main_v264 = pooled (W32 m ρ c (Proc.devRef .tc main_v252)) (m ((c.tc : Thread nD τ).loc main_arg2)) := by
  show StableHlo.after hostOps16 (W32 m ρ c) (Proc.devRef .tc main_v264) = _
  after_results
  rw [to1_32 m ρ c main_arg2 (by decide), W1_arg2 m ρ c]
  rfl

theorem V33_bias (c : Dev nD) :
    V33 m ρ c main_v265 = fun i => m ((c.tc : Thread nD τ).loc main_arg10) (ix1 (i 1)) := by
  show StableHlo.after hostOps16 (W32 m ρ c) (Proc.devRef .tc main_v265) = _
  after_results
  rw [to1_32 m ρ c main_arg10 (by decide), W1_arg10 m ρ c]
  funext i
  obtain ⟨u, j, rfl⟩ : ∃ (u : Fin 1) (j : Fin 5), i = ix2 u j := ⟨i 0, i 1, eq_ix2 i⟩
  exact shapeCast_a_1a_apply _ _ u j

theorem V33_arg9 (c : Dev nD) : V33 m ρ c main_arg9 = m ((c.tc : Thread nD τ).loc main_arg9) :=
  (to1_33 m ρ c main_arg9 (by decide)).trans (W1_arg9 m ρ c)

end Cert.KVal

end
-- ==== Proof.Final.lean ====
/-
  The two programs joined: round by round the kernel program's array is the reference program's, because each
  round of the kernel is the specification's round with the receiving node's factor outside the sum, each round of
  the reference that round with the factor inside, and the two rounds agree; the two tails are then the same
  operations of equal arrays.
-/
import proofs.«127734_j69286412419642_2_alg».proof.Proof.KTail

set_option maxRecDepth 16384

noncomputable section

namespace Cert.KVal

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v6 val_main_v11 val_main_v17 val_main_v76 val_main_v123 val_main_v170 val_main_v217 val_main_v264 val_main_v311 val_main_v358 val_main_v405 val_main_v417 val_main_v421)

variable (m : (ℓ : Loc nD τ sig) → Buf (Elt Ideal) ℓ) (ρ : Dev nD → PrngReg)

/-- The two programs cut the edge list's columns and form the per-node factor by the same operations. -/
theorem srcCol_eq (x1 : (⟨S2x640000, .i32⟩ : BufTy).Contents (Elt Ideal)) :
    wrapCol (srcCol x1) = Cert.ReferenceIdeal.Read.val_main_v17 (F := Ideal) x1 := rfl
theorem dstCol_eq (x1 : (⟨S2x640000, .i32⟩ : BufTy).Contents (Elt Ideal)) :
    rawCol (dstCol x1) = Cert.ReferenceIdeal.Read.val_main_v6 (F := Ideal) x1 := rfl
theorem disCol_eq (x1 : (⟨S2x640000, .i32⟩ : BufTy).Contents (Elt Ideal)) :
    disCol x1 = shapeCast ⟨2, ![50000, 1]⟩ (Cert.ReferenceIdeal.Read.val_main_v11 (F := Ideal) x1) shapeCasts_S50000_S50000x1 := rfl

/-- After round 0 the two programs hold the same array. -/
theorem K1 (c : Dev nD) : W4 m ρ c (Proc.devRef .tc main_v42) = Cert.ReferenceIdeal.Read.val_main_v76 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer0 m ρ c, Cert.RVal.ker_round0 _ _ _ _ _ _ _ _ shapeCasts_S50000_S50000x1, srcCol_eq, dstCol_eq, disCol_eq]

/-- After round 1 the two programs hold the same array. -/
theorem K2 (c : Dev nD) : W8 m ρ c (Proc.devRef .tc main_v72) = Cert.ReferenceIdeal.Read.val_main_v123 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer1 m ρ c, K1 m ρ c, Cert.RVal.ker_round1 _ _ _ _ _ _ _ _ shapeCasts_S50000_S50000x1, srcCol_eq, dstCol_eq, disCol_eq]

/-- After round 2 the two programs hold the same array. -/
theorem K3 (c : Dev nD) : W12 m ρ c (Proc.devRef .tc main_v102) = Cert.ReferenceIdeal.Read.val_main_v170 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer2 m ρ c, K2 m ρ c, Cert.RVal.ker_round2 _ _ _ _ _ _ _ _ shapeCasts_S50000_S50000x1, srcCol_eq, dstCol_eq, disCol_eq]

/-- After round 3 the two programs hold the same array. -/
theorem K4 (c : Dev nD) : W16 m ρ c (Proc.devRef .tc main_v132) = Cert.ReferenceIdeal.Read.val_main_v217 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer3 m ρ c, K3 m ρ c, Cert.RVal.ker_round3 _ _ _ _ _ _ _ _ shapeCasts_S50000_S50000x1, srcCol_eq, dstCol_eq, disCol_eq]

/-- After round 4 the two programs hold the same array. -/
theorem K5 (c : Dev nD) : W20 m ρ c (Proc.devRef .tc main_v162) = Cert.ReferenceIdeal.Read.val_main_v264 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer4 m ρ c, K4 m ρ c, Cert.RVal.ker_round4 _ _ _ _ _ _ _ _ shapeCasts_S50000_S50000x1, srcCol_eq, dstCol_eq, disCol_eq]

/-- After round 5 the two programs hold the same array. -/
theorem K6 (c : Dev nD) : W24 m ρ c (Proc.devRef .tc main_v192) = Cert.ReferenceIdeal.Read.val_main_v311 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer5 m ρ c, K5 m ρ c, Cert.RVal.ker_round5 _ _ _ _ _ _ _ _ shapeCasts_S50000_S50000x1, srcCol_eq, dstCol_eq, disCol_eq]

/-- After round 6 the two programs hold the same array. -/
theorem K7 (c : Dev nD) : W28 m ρ c (Proc.devRef .tc main_v222) = Cert.ReferenceIdeal.Read.val_main_v358 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer6 m ρ c, K6 m ρ c, Cert.RVal.ker_round6 _ _ _ _ _ _ _ _ shapeCasts_S50000_S50000x1, srcCol_eq, dstCol_eq, disCol_eq]

/-- After round 7 the two programs hold the same array. -/
theorem K8 (c : Dev nD) : W32 m ρ c (Proc.devRef .tc main_v252) = Cert.ReferenceIdeal.Read.val_main_v405 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [layer7 m ρ c, K7 m ρ c, Cert.RVal.ker_round7 _ _ _ _ _ _ _ _ shapeCasts_S50000_S50000x1, srcCol_eq, dstCol_eq, disCol_eq]

/-- The mean over node groups is the same operations in both programs. -/
theorem pooled_eq (c : Dev nD) :
    Cert.ReferenceIdeal.Read.val_main_v417 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      = pooled (Cert.ReferenceIdeal.Read.val_main_v405 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2)) := rfl

/-- THE RESULTS AGREE: the kernel program's result array, at the last boundary of its fold, is the reference
    program's composed term of the same arguments. -/
theorem final_eq (c : Dev nD) :
    W34 m ρ c (Proc.devRef .tc main_v266) = Cert.ReferenceIdeal.Read.val_main_v421 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.RVal.head, pooled_eq m c]
  refine ((W34_arr m ρ c 3).trans (head16 (V33 m ρ) c)).trans ?_
  rw [V33_pooled m ρ c, V33_arg9 m ρ c, V33_bias m ρ c, K8 m ρ c]
  rfl

end Cert.KVal

end
-- ==== Proof.RefSegs.lean ====
/-
  The reference program's operations cut into ten consecutive segments — the set-up of the edge columns and the
  per-node and per-edge factors, the eight rounds, and the pooling tail — and the buffer contents at the nine
  boundaries between them. Running the whole list is running the segments one after another, each from the
  contents the previous one leaves, so that a round's output is stated once and read, not re-composed, by the next.
-/
import proofs.«127734_j69286412419642_2_alg».proof.Proof.ReadP
import Idealize.ShloMosaic.Lib.StableHlo.Run

noncomputable section

namespace Cert.RVal

open Cert.ReferenceIdeal Cert.ReferenceIdeal.Gen Idealize.ShloMosaic Idealize.ShloMosaic.TcCoe Idealize.SL.Sem Idealize.ShloMosaic.StableHlo

variable {F : FTy → Type} [FloatOps F]

/-- The operations up to the per-edge and per-node factors (edge columns, degree factor, factor products). -/
abbrev seg0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_cst (constant S_ .f32 0x3F800000#32),
    unary main_cst main_v4 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S640000x1 ![0] bcast_S640000_S640000x1_0 : (⟨S640000, .i32⟩ : BufTy).Contents (Elt F) → (⟨S640000x1, .i32⟩ : BufTy).Contents (Elt F)),
    ternary main_v5 main_v6 main_v4 main_v7 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v10 (broadcastInDim S50000 ![] bcast_S_S50000 : (⟨S_, .f32⟩ : BufTy).Contents (Elt F) → (⟨S50000, .f32⟩ : BufTy).Contents (Elt F)),
    binary main_v9 main_v10 main_v11 (Host.powf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v12 (broadcastInDim S640000 ![] bcast_S_S640000 : (⟨S_, .i32⟩ : BufTy).Contents (Elt F) → (⟨S640000, .i32⟩ : BufTy).Contents (Elt F)),
    binary main_v1 main_v12 main_v13 (cmpi .slt : (⟨S640000, .i32⟩ : BufTy).Contents (Elt F) → (⟨S640000, .i32⟩ : BufTy).Contents (Elt F) → (⟨S640000, .i1⟩ : BufTy).Contents (Elt F)),
    nullary main_c_3 (constantI S_ 32 50000#32),
    unary main_c_3 main_v14 (broadcastInDim S640000 ![] bcast_S_S640000 : (⟨S_, .i32⟩ : BufTy).Contents (Elt F) → (⟨S640000, .i32⟩ : BufTy).Contents (Elt F)),
    binary main_v1 main_v14 main_v15 (addi : (⟨S640000, .i32⟩ : BufTy).Contents (Elt F) → (⟨S640000, .i32⟩ : BufTy).Contents (Elt F) → (⟨S640000, .i32⟩ : BufTy).Contents (Elt F)),
    ternary main_v13 main_v15 main_v1 main_v16 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v16 main_v17 (broadcastInDim S640000x1 ![0] bcast_S640000_S640000x1_0 : (⟨S640000, .i32⟩ : BufTy).Contents (Elt F) → (⟨S640000x1, .i32⟩ : BufTy).Contents (Elt F)),
    binary main_v11 main_v17 main_v18 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    nullary main_c_4 (constantI S_ 32 0#32),
    unary main_c_4 main_v19 (broadcastInDim S640000 ![] bcast_S_S640000 : (⟨S_, .i32⟩ : BufTy).Contents (Elt F) → (⟨S640000, .i32⟩ : BufTy).Contents (Elt F)),
    binary main_v3 main_v19 main_v20 (cmpi .slt : (⟨S640000, .i32⟩ : BufTy).Contents (Elt F) → (⟨S640000, .i32⟩ : BufTy).Contents (Elt F) → (⟨S640000, .i1⟩ : BufTy).Contents (Elt F)),
    nullary main_c_5 (constantI S_ 32 50000#32),
    unary main_c_5 main_v21 (broadcastInDim S640000 ![] bcast_S_S640000 : (⟨S_, .i32⟩ : BufTy).Contents (Elt F) → (⟨S640000, .i32⟩ : BufTy).Contents (Elt F)),
    binary main_v3 main_v21 main_v22 (addi : (⟨S640000, .i32⟩ : BufTy).Contents (Elt F) → (⟨S640000, .i32⟩ : BufTy).Contents (Elt F) → (⟨S640000, .i32⟩ : BufTy).Contents (Elt F)),
    ternary main_v20 main_v22 main_v3 main_v23 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v23 main_v24 (broadcastInDim S640000x1 ![0] bcast_S640000_S640000x1_0 : (⟨S640000, .i32⟩ : BufTy).Contents (Elt F) → (⟨S640000x1, .i32⟩ : BufTy).Contents (Elt F)),
    binary main_v11 main_v24 main_v25 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    binary main_v18 main_v25 main_v26 (mulf : (⟨S640000, .f32⟩ : BufTy).Contents (Elt F) → (⟨S640000, .f32⟩ : BufTy).Contents (Elt F) → (⟨S640000, .f32⟩ : BufTy).Contents (Elt F)),
    unary main_v26 main_v27 (broadcastInDim S640000x1 ![0] bcast_S640000_S640000x1_0 : (⟨S640000, .f32⟩ : BufTy).Contents (Elt F) → (⟨S640000x1, .f32⟩ : BufTy).Contents (Elt F)),
    binary main_v11 main_v11 main_v28 (mulf : (⟨S50000, .f32⟩ : BufTy).Contents (Elt F) → (⟨S50000, .f32⟩ : BufTy).Contents (Elt F) → (⟨S50000, .f32⟩ : BufTy).Contents (Elt F)),
    unary main_v28 main_v29 (broadcastInDim S50000x1 ![0] bcast_S50000_S50000x1_0 : (⟨S50000, .f32⟩ : BufTy).Contents (Elt F) → (⟨S50000x1, .f32⟩ : BufTy).Contents (Elt F)) ]

/-- Round 0: from the slice of layer 0 to the round's clamped output. -/
abbrev seg1 : List (HloOp τ sig (Elt F)) :=
  [ unary main_arg3 main_v30 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v30 main_v31 rfl shapeCasts_S1x128x128_S128x128,
    binary main_arg0 main_v31 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v33 (broadcastInDim S640000 ![] bcast_S_S640000 : (⟨S_, .i32⟩ : BufTy).Contents (Elt F) → (⟨S640000, .i32⟩ : BufTy).Contents (Elt F)),
    binary main_v1 main_v33 main_v34 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v35 (broadcastInDim S640000 ![] bcast_S_S640000 : (⟨S_, .i32⟩ : BufTy).Contents (Elt F) → (⟨S640000, .i32⟩ : BufTy).Contents (Elt F)),
    binary main_v1 main_v35 main_v36 (addi : (⟨S640000, .i32⟩ : BufTy).Contents (Elt F) → (⟨S640000, .i32⟩ : BufTy).Contents (Elt F) → (⟨S640000, .i32⟩ : BufTy).Contents (Elt F)),
    ternary main_v34 main_v36 main_v1 main_v37 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v37 main_v38 (broadcastInDim S640000x1 ![0] bcast_S640000_S640000x1_0 : (⟨S640000, .i32⟩ : BufTy).Contents (Elt F) → (⟨S640000x1, .i32⟩ : BufTy).Contents (Elt F)),
    binary main_v32 main_v38 main_v39 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v40 (broadcastInDim S640000x128 ![0, 1] bcast_S640000x1_S640000x128_0_1 : (⟨S640000x1, .f32⟩ : BufTy).Contents (Elt F) → (⟨S640000x128, .f32⟩ : BufTy).Contents (Elt F)),
    binary main_v39 main_v40 main_v41 (mulf : (⟨S640000x128, .f32⟩ : BufTy).Contents (Elt F) → (⟨S640000x128, .f32⟩ : BufTy).Contents (Elt F) → (⟨S640000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v3 main_v43 (broadcastInDim S640000x1 ![0] bcast_S640000_S640000x1_0 : (⟨S640000, .i32⟩ : BufTy).Contents (Elt F) → (⟨S640000x1, .i32⟩ : BufTy).Contents (Elt F)),
    ternary main_v42 main_v43 main_v41 main_v44 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v45 (broadcastInDim S50000x128 ![0, 1] bcast_S50000x1_S50000x128_0_1 : (⟨S50000x1, .f32⟩ : BufTy).Contents (Elt F) → (⟨S50000x128, .f32⟩ : BufTy).Contents (Elt F)),
    binary main_v32 main_v45 main_v46 (mulf : (⟨S50000x128, .f32⟩ : BufTy).Contents (Elt F) → (⟨S50000x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg4 main_v48 ((extractStridedSlice S1x128 ![0, 0] · slices_S8x128_S1x128_0_0) : (⟨S8x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v47 main_v51 main_v52 (addf : (⟨S50000x128, .f32⟩ : BufTy).Contents (Elt F) → (⟨S50000x128, .f32⟩ : BufTy).Contents (Elt F) → (⟨S50000x128, .f32⟩ : BufTy).Contents (Elt F)),
    unary main_arg7 main_v53 ((extractStridedSlice S1x128 ![0, 0] · slices_S8x128_S1x128_0_0) : (⟨S8x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v52 main_v56 main_v57 (subf : (⟨S50000x128, .f32⟩ : BufTy).Contents (Elt F) → (⟨S50000x128, .f32⟩ : BufTy).Contents (Elt F) → (⟨S50000x128, .f32⟩ : BufTy).Contents (Elt F)),
    unary main_arg8 main_v58 ((extractStridedSlice S1x128 ![0, 0] · slices_S8x128_S1x128_0_0) : (⟨S8x128, .f32⟩ : BufTy).Contents (Elt F) → (⟨S1x128, .f32⟩ : BufTy).Contents (Elt F)),
    reshape main_v58 main_v59 rfl shapeCasts_S1x128_S128,
    nullary main_cst_9 (constant S_ .f32 0x3727C5AC#32),
    unary main_cst_9 main_v60 (broadcastInDim S128 ![] bcast_S_S128 : (⟨S_, .f32⟩ : BufTy).Contents (Elt F) → (⟨S128, .f32⟩ : BufTy).Contents (Elt F)),
    binary main_v59 main_v60 main_v61 (addf : (⟨S128, .f32⟩ : BufTy).Contents (Elt F) → (⟨S128, .f32⟩ : BufTy).Contents (Elt F) → (⟨S128, .f32⟩ : BufTy).Contents (Elt F)),
    unary main_v61 main_v62 (Host.rsqrt : (⟨S128, .f32⟩ : BufTy).Contents (Elt F) → (⟨S128, .f32⟩ : BufTy).Contents (Elt F)),
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v57 main_v64 main_v65 (mulf : (⟨S50000x128, .f32⟩ : BufTy).Contents (Elt F) → (⟨S50000x128, .f32⟩ : BufTy).Contents (Elt F) → (⟨S50000x128, .f32⟩ : BufTy).Contents (Elt F)),
    unary main_arg5 main_v66 ((extractStridedSlice S1x128 ![0, 0] · slices_S8x128_S1x128_0_0) : (⟨S8x128, .f32⟩ : BufTy).Contents (Elt F) → (⟨S1x128, .f32⟩ : BufTy).Contents (Elt F)),
    reshape main_v66 main_v67 rfl shapeCasts_S1x128_S128,
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v65 main_v69 main_v70 (mulf : (⟨S50000x128, .f32⟩ : BufTy).Contents (Elt F) → (⟨S50000x128, .f32⟩ : BufTy).Contents (Elt F) → (⟨S50000x128, .f32⟩ : BufTy).Contents (Elt F)),
    unary main_arg6 main_v71 ((extractStridedSlice S1x128 ![0, 0] · slices_S8x128_S1x128_0_0) : (⟨S8x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v70 main_v74 main_v75 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v75) (TRef.of (T := ⟨S50000x128, .f32⟩) main_call0_v0) (TRef.of (T := ⟨S50000x128, .f32⟩) main_v76) maximumf ]

/-- Round 1: from the slice of layer 1 to the round's clamped output. -/
abbrev seg2 : List (HloOp τ sig (Elt F)) :=
  [ unary main_arg3 main_v77 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v77 main_v78 rfl shapeCasts_S1x128x128_S128x128,
    binary main_v76 main_v78 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v80 (broadcastInDim S640000 ![] bcast_S_S640000 : (⟨S_, .i32⟩ : BufTy).Contents (Elt F) → (⟨S640000, .i32⟩ : BufTy).Contents (Elt F)),
    binary main_v1 main_v80 main_v81 (cmpi .slt : (⟨S640000, .i32⟩ : BufTy).Contents (Elt F) → (⟨S640000, .i32⟩ : BufTy).Contents (Elt F) → (⟨S640000, .i1⟩ : BufTy).Contents (Elt F)),
    nullary main_c_11 (constantI S_ 32 50000#32),
    unary main_c_11 main_v82 (broadcastInDim S640000 ![] bcast_S_S640000 : (⟨S_, .i32⟩ : BufTy).Contents (Elt F) → (⟨S640000, .i32⟩ : BufTy).Contents (Elt F)),
    binary main_v1 main_v82 main_v83 (addi : (⟨S640000, .i32⟩ : BufTy).Contents (Elt F) → (⟨S640000, .i32⟩ : BufTy).Contents (Elt F) → (⟨S640000, .i32⟩ : BufTy).Contents (Elt F)),
    ternary main_v81 main_v83 main_v1 main_v84 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v84 main_v85 (broadcastInDim S640000x1 ![0] bcast_S640000_S640000x1_0 : (⟨S640000, .i32⟩ : BufTy).Contents (Elt F) → (⟨S640000x1, .i32⟩ : BufTy).Contents (Elt F)),
    binary main_v79 main_v85 main_v86 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v87 (broadcastInDim S640000x128 ![0, 1] bcast_S640000x1_S640000x128_0_1 : (⟨S640000x1, .f32⟩ : BufTy).Contents (Elt F) → (⟨S640000x128, .f32⟩ : BufTy).Contents (Elt F)),
    binary main_v86 main_v87 main_v88 (mulf : (⟨S640000x128, .f32⟩ : BufTy).Contents (Elt F) → (⟨S640000x128, .f32⟩ : BufTy).Contents (Elt F) → (⟨S640000x128, .f32⟩ : BufTy).Contents (Elt F)),
    nullary main_cst_12 (constant S_ .f32 0x00000000#32),
    unary main_cst_12 main_v89 (broadcastInDim S50000x128 ![] bcast_S_S50000x128 : (⟨S_, .f32⟩ : BufTy).Contents (Elt F) → (⟨S50000x128, .f32⟩ : BufTy).Contents (Elt F)),
    unary main_v3 main_v90 (broadcastInDim S640000x1 ![0] bcast_S640000_S640000x1_0 : (⟨S640000, .i32⟩ : BufTy).Contents (Elt F) → (⟨S640000x1, .i32⟩ : BufTy).Contents (Elt F)),
    ternary main_v89 main_v90 main_v88 main_v91 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v92 (broadcastInDim S50000x128 ![0, 1] bcast_S50000x1_S50000x128_0_1 : (⟨S50000x1, .f32⟩ : BufTy).Contents (Elt F) → (⟨S50000x128, .f32⟩ : BufTy).Contents (Elt F)),
    binary main_v79 main_v92 main_v93 (mulf : (⟨S50000x128, .f32⟩ : BufTy).Contents (Elt F) → (⟨S50000x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    unary main_arg4 main_v95 ((extractStridedSlice S1x128 ![1, 0] · slices_S8x128_S1x128_1_0) : (⟨S8x128, .f32⟩ : BufTy).Contents (Elt F) → (⟨S1x128, .f32⟩ : BufTy).Contents (Elt F)),
    reshape main_v95 main_v96 rfl shapeCasts_S1x128_S128,
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v94 main_v98 main_v99 (addf : (⟨S50000x128, .f32⟩ : BufTy).Contents (Elt F) → (⟨S50000x128, .f32⟩ : BufTy).Contents (Elt F) → (⟨S50000x128, .f32⟩ : BufTy).Contents (Elt F)),
    unary main_arg7 main_v100 ((extractStridedSlice S1x128 ![1, 0] · slices_S8x128_S1x128_1_0) : (⟨S8x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v99 main_v103 main_v104 (subf : (⟨S50000x128, .f32⟩ : BufTy).Contents (Elt F) → (⟨S50000x128, .f32⟩ : BufTy).Contents (Elt F) → (⟨S50000x128, .f32⟩ : BufTy).Contents (Elt F)),
    unary main_arg8 main_v105 ((extractStridedSlice S1x128 ![1, 0] · slices_S8x128_S1x128_1_0) : (⟨S8x128, .f32⟩ : BufTy).Contents (Elt F) → (⟨S1x128, .f32⟩ : BufTy).Contents (Elt F)),
    reshape main_v105 main_v106 rfl shapeCasts_S1x128_S128,
    nullary main_cst_13 (constant S_ .f32 0x3727C5AC#32),
    unary main_cst_13 main_v107 (broadcastInDim S128 ![] bcast_S_S128 : (⟨S_, .f32⟩ : BufTy).Contents (Elt F) → (⟨S128, .f32⟩ : BufTy).Contents (Elt F)),
    binary main_v106 main_v107 main_v108 (addf : (⟨S128, .f32⟩ : BufTy).Contents (Elt F) → (⟨S128, .f32⟩ : BufTy).Contents (Elt F) → (⟨S128, .f32⟩ : BufTy).Contents (Elt F)),
    unary main_v108 main_v109 (Host.rsqrt : (⟨S128, .f32⟩ : BufTy).Contents (Elt F) → (⟨S128, .f32⟩ : BufTy).Contents (Elt F)),
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v104 main_v111 main_v112 (mulf : (⟨S50000x128, .f32⟩ : BufTy).Contents (Elt F) → (⟨S50000x128, .f32⟩ : BufTy).Contents (Elt F) → (⟨S50000x128, .f32⟩ : BufTy).Contents (Elt F)),
    unary main_arg5 main_v113 ((extractStridedSlice S1x128 ![1, 0] · slices_S8x128_S1x128_1_0) : (⟨S8x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v112 main_v116 main_v117 (mulf : (⟨S50000x128, .f32⟩ : BufTy).Contents (Elt F) → (⟨S50000x128, .f32⟩ : BufTy).Contents (Elt F) → (⟨S50000x128, .f32⟩ : BufTy).Contents (Elt F)),
    unary main_arg6 main_v118 ((extractStridedSlice S1x128 ![1, 0] · slices_S8x128_S1x128_1_0) : (⟨S8x128, .f32⟩ : BufTy).Contents (Elt F) → (⟨S1x128, .f32⟩ : BufTy).Contents (Elt F)),
    reshape main_v118 main_v119 rfl shapeCasts_S1x128_S128,
    unary main_v119 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v117 main_v121 main_v122 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v122) (TRef.of (T := ⟨S50000x128, .f32⟩) main_call1_v0) (TRef.of (T := ⟨S50000x128, .f32⟩) main_v123) maximumf ]

/-- Round 2: from the slice of layer 2 to the round's clamped output. -/
abbrev seg3 : List (HloOp τ sig (Elt F)) :=
  [ unary main_arg3 main_v124 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v124 main_v125 rfl shapeCasts_S1x128x128_S128x128,
    binary main_v123 main_v125 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v127 (broadcastInDim S640000 ![] bcast_S_S640000 : (⟨S_, .i32⟩ : BufTy).Contents (Elt F) → (⟨S640000, .i32⟩ : BufTy).Contents (Elt F)),
    binary main_v1 main_v127 main_v128 (cmpi .slt : (⟨S640000, .i32⟩ : BufTy).Contents (Elt F) → (⟨S640000, .i32⟩ : BufTy).Contents (Elt F) → (⟨S640000, .i1⟩ : BufTy).Contents (Elt F)),
    nullary main_c_15 (constantI S_ 32 50000#32),
    unary main_c_15 main_v129 (broadcastInDim S640000 ![] bcast_S_S640000 : (⟨S_, .i32⟩ : BufTy).Contents (Elt F) → (⟨S640000, .i32⟩ : BufTy).Contents (Elt F)),
    binary main_v1 main_v129 main_v130 (addi : (⟨S640000, .i32⟩ : BufTy).Contents (Elt F) → (⟨S640000, .i32⟩ : BufTy).Contents (Elt F) → (⟨S640000, .i32⟩ : BufTy).Contents (Elt F)),
    ternary main_v128 main_v130 main_v1 main_v131 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v131 main_v132 (broadcastInDim S640000x1 ![0] bcast_S640000_S640000x1_0 : (⟨S640000, .i32⟩ : BufTy).Contents (Elt F) → (⟨S640000x1, .i32⟩ : BufTy).Contents (Elt F)),
    binary main_v126 main_v132 main_v133 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v134 (broadcastInDim S640000x128 ![0, 1] bcast_S640000x1_S640000x128_0_1 : (⟨S640000x1, .f32⟩ : BufTy).Contents (Elt F) → (⟨S640000x128, .f32⟩ : BufTy).Contents (Elt F)),
    binary main_v133 main_v134 main_v135 (mulf : (⟨S640000x128, .f32⟩ : BufTy).Contents (Elt F) → (⟨S640000x128, .f32⟩ : BufTy).Contents (Elt F) → (⟨S640000x128, .f32⟩ : BufTy).Contents (Elt F)),
    nullary main_cst_16 (constant S_ .f32 0x00000000#32),
    unary main_cst_16 main_v136 (broadcastInDim S50000x128 ![] bcast_S_S50000x128 : (⟨S_, .f32⟩ : BufTy).Contents (Elt F) → (⟨S50000x128, .f32⟩ : BufTy).Contents (Elt F)),
    unary main_v3 main_v137 (broadcastInDim S640000x1 ![0] bcast_S640000_S640000x1_0 : (⟨S640000, .i32⟩ : BufTy).Contents (Elt F) → (⟨S640000x1, .i32⟩ : BufTy).Contents (Elt F)),
    ternary main_v136 main_v137 main_v135 main_v138 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v139 (broadcastInDim S50000x128 ![0, 1] bcast_S50000x1_S50000x128_0_1 : (⟨S50000x1, .f32⟩ : BufTy).Contents (Elt F) → (⟨S50000x128, .f32⟩ : BufTy).Contents (Elt F)),
    binary main_v126 main_v139 main_v140 (mulf : (⟨S50000x128, .f32⟩ : BufTy).Contents (Elt F) → (⟨S50000x128, .f32⟩ : BufTy).Contents (Elt F) → (⟨S50000x128, .f32⟩ : BufTy).Contents (Elt F)),
    binary main_v138 main_v140 main_v141 (addf : (⟨S50000x128, .f32⟩ : BufTy).Contents (Elt F) → (⟨S50000x128, .f32⟩ : BufTy).Contents (Elt F) → (⟨S50000x128, .f32⟩ : BufTy).Contents (Elt F)),
    unary main_arg4 main_v142 ((extractStridedSlice S1x128 ![2, 0] · slices_S8x128_S1x128_2_0) : (⟨S8x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v141 main_v145 main_v146 (addf : (⟨S50000x128, .f32⟩ : BufTy).Contents (Elt F) → (⟨S50000x128, .f32⟩ : BufTy).Contents (Elt F) → (⟨S50000x128, .f32⟩ : BufTy).Contents (Elt F)),
    unary main_arg7 main_v147 ((extractStridedSlice S1x128 ![2, 0] · slices_S8x128_S1x128_2_0) : (⟨S8x128, .f32⟩ : BufTy).Contents (Elt F) → (⟨S1x128, .f32⟩ : BufTy).Contents (Elt F)),
    reshape main_v147 main_v148 rfl shapeCasts_S1x128_S128,
    unary main_v148 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v146 main_v150 main_v151 (subf : (⟨S50000x128, .f32⟩ : BufTy).Contents (Elt F) → (⟨S50000x128, .f32⟩ : BufTy).Contents (Elt F) → (⟨S50000x128, .f32⟩ : BufTy).Contents (Elt F)),
    unary main_arg8 main_v152 ((extractStridedSlice S1x128 ![2, 0] · slices_S8x128_S1x128_2_0) : (⟨S8x128, .f32⟩ : BufTy).Contents (Elt F) → (⟨S1x128, .f32⟩ : BufTy).Contents (Elt F)),
    reshape main_v152 main_v153 rfl shapeCasts_S1x128_S128,
    nullary main_cst_17 (constant S_ .f32 0x3727C5AC#32),
    unary main_cst_17 main_v154 (broadcastInDim S128 ![] bcast_S_S128 : (⟨S_, .f32⟩ : BufTy).Contents (Elt F) → (⟨S128, .f32⟩ : BufTy).Contents (Elt F)),
    binary main_v153 main_v154 main_v155 (addf : (⟨S128, .f32⟩ : BufTy).Contents (Elt F) → (⟨S128, .f32⟩ : BufTy).Contents (Elt F) → (⟨S128, .f32⟩ : BufTy).Contents (Elt F)),
    unary main_v155 main_v156 (Host.rsqrt : (⟨S128, .f32⟩ : BufTy).Contents (Elt F) → (⟨S128, .f32⟩ : BufTy).Contents (Elt F)),
    unary main_v156 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v151 main_v158 main_v159 (mulf : (⟨S50000x128, .f32⟩ : BufTy).Contents (Elt F) → (⟨S50000x128, .f32⟩ : BufTy).Contents (Elt F) → (⟨S50000x128, .f32⟩ : BufTy).Contents (Elt F)),
    unary main_arg5 main_v160 ((extractStridedSlice S1x128 ![2, 0] · slices_S8x128_S1x128_2_0) : (⟨S8x128, .f32⟩ : BufTy).Contents (Elt F) → (⟨S1x128, .f32⟩ : BufTy).Contents (Elt F)),
    reshape main_v160 main_v161 rfl shapeCasts_S1x128_S128,
    unary main_v161 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v159 main_v163 main_v164 (mulf : (⟨S50000x128, .f32⟩ : BufTy).Contents (Elt F) → (⟨S50000x128, .f32⟩ : BufTy).Contents (Elt F) → (⟨S50000x128, .f32⟩ : BufTy).Contents (Elt F)),
    unary main_arg6 main_v165 ((extractStridedSlice S1x128 ![2, 0] · slices_S8x128_S1x128_2_0) : (⟨S8x128, .f32⟩ : BufTy).Contents (Elt F) → (⟨S1x128, .f32⟩ : BufTy).Contents (Elt F)),
    reshape main_v165 main_v166 rfl shapeCasts_S1x128_S128,
    unary main_v166 main_v167 (broadcastInDim S1x128 ![1] bcast_S128_S1x128_1 : (⟨S128, .f32⟩ : BufTy).Contents (Elt F) → (⟨S1x128, .f32⟩ : BufTy).Contents (Elt F)),
    unary main_v167 main_v168 (broadcastInDim S50000x128 ![0, 1] bcast_S1x128_S50000x128_0_1 : (⟨S1x128, .f32⟩ : BufTy).Contents (Elt F) → (⟨S50000x128, .f32⟩ : BufTy).Contents (Elt F)),
    binary main_v164 main_v168 main_v169 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v169) (TRef.of (T := ⟨S50000x128, .f32⟩) main_call2_v0) (TRef.of (T := ⟨S50000x128, .f32⟩) main_v170) maximumf ]

/-- Round 3: from the slice of layer 3 to the round's clamped output. -/
abbrev seg4 : List (HloOp τ sig (Elt F)) :=
  [ unary main_arg3 main_v171 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v171 main_v172 rfl shapeCasts_S1x128x128_S128x128,
    binary main_v170 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_18 (constantI S_ 32 0#32),
    unary main_c_18 main_v174 (broadcastInDim S640000 ![] bcast_S_S640000 : (⟨S_, .i32⟩ : BufTy).Contents (Elt F) → (⟨S640000, .i32⟩ : BufTy).Contents (Elt F)),
    binary main_v1 main_v174 main_v175 (cmpi .slt : (⟨S640000, .i32⟩ : BufTy).Contents (Elt F) → (⟨S640000, .i32⟩ : BufTy).Contents (Elt F) → (⟨S640000, .i1⟩ : BufTy).Contents (Elt F)),
    nullary main_c_19 (constantI S_ 32 50000#32),
    unary main_c_19 main_v176 (broadcastInDim S640000 ![] bcast_S_S640000 : (⟨S_, .i32⟩ : BufTy).Contents (Elt F) → (⟨S640000, .i32⟩ : BufTy).Contents (Elt F)),
    binary main_v1 main_v176 main_v177 (addi : (⟨S640000, .i32⟩ : BufTy).Contents (Elt F) → (⟨S640000, .i32⟩ : BufTy).Contents (Elt F) → (⟨S640000, .i32⟩ : BufTy).Contents (Elt F)),
    ternary main_v175 main_v177 main_v1 main_v178 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v178 main_v179 (broadcastInDim S640000x1 ![0] bcast_S640000_S640000x1_0 : (⟨S640000, .i32⟩ : BufTy).Contents (Elt F) → (⟨S640000x1, .i32⟩ : BufTy).Contents (Elt F)),
    binary main_v173 main_v179 main_v180 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v181 (broadcastInDim S640000x128 ![0, 1] bcast_S640000x1_S640000x128_0_1 : (⟨S640000x1, .f32⟩ : BufTy).Contents (Elt F) → (⟨S640000x128, .f32⟩ : BufTy).Contents (Elt F)),
    binary main_v180 main_v181 main_v182 (mulf : (⟨S640000x128, .f32⟩ : BufTy).Contents (Elt F) → (⟨S640000x128, .f32⟩ : BufTy).Contents (Elt F) → (⟨S640000x128, .f32⟩ : BufTy).Contents (Elt F)),
    nullary main_cst_20 (constant S_ .f32 0x00000000#32),
    unary main_cst_20 main_v183 (broadcastInDim S50000x128 ![] bcast_S_S50000x128 : (⟨S_, .f32⟩ : BufTy).Contents (Elt F) → (⟨S50000x128, .f32⟩ : BufTy).Contents (Elt F)),
    unary main_v3 main_v184 (broadcastInDim S640000x1 ![0] bcast_S640000_S640000x1_0 : (⟨S640000, .i32⟩ : BufTy).Contents (Elt F) → (⟨S640000x1, .i32⟩ : BufTy).Contents (Elt F)),
    ternary main_v183 main_v184 main_v182 main_v185 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v186 (broadcastInDim S50000x128 ![0, 1] bcast_S50000x1_S50000x128_0_1 : (⟨S50000x1, .f32⟩ : BufTy).Contents (Elt F) → (⟨S50000x128, .f32⟩ : BufTy).Contents (Elt F)),
    binary main_v173 main_v186 main_v187 (mulf : (⟨S50000x128, .f32⟩ : BufTy).Contents (Elt F) → (⟨S50000x128, .f32⟩ : BufTy).Contents (Elt F) → (⟨S50000x128, .f32⟩ : BufTy).Contents (Elt F)),
    binary main_v185 main_v187 main_v188 (addf : (⟨S50000x128, .f32⟩ : BufTy).Contents (Elt F) → (⟨S50000x128, .f32⟩ : BufTy).Contents (Elt F) → (⟨S50000x128, .f32⟩ : BufTy).Contents (Elt F)),
    unary main_arg4 main_v189 ((extractStridedSlice S1x128 ![3, 0] · slices_S8x128_S1x128_3_0) : (⟨S8x128, .f32⟩ : BufTy).Contents (Elt F) → (⟨S1x128, .f32⟩ : BufTy).Contents (Elt F)),
    reshape main_v189 main_v190 rfl shapeCasts_S1x128_S128,
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S50000x128 ![0, 1] bcast_S1x128_S50000x128_0_1 : (⟨S1x128, .f32⟩ : BufTy).Contents (Elt F) → (⟨S50000x128, .f32⟩ : BufTy).Contents (Elt F)),
    binary main_v188 main_v192 main_v193 (addf : (⟨S50000x128, .f32⟩ : BufTy).Contents (Elt F) → (⟨S50000x128, .f32⟩ : BufTy).Contents (Elt F) → (⟨S50000x128, .f32⟩ : BufTy).Contents (Elt F)),
    unary main_arg7 main_v194 ((extractStridedSlice S1x128 ![3, 0] · slices_S8x128_S1x128_3_0) : (⟨S8x128, .f32⟩ : BufTy).Contents (Elt F) → (⟨S1x128, .f32⟩ : BufTy).Contents (Elt F)),
    reshape main_v194 main_v195 rfl shapeCasts_S1x128_S128,
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S50000x128 ![0, 1] bcast_S1x128_S50000x128_0_1 : (⟨S1x128, .f32⟩ : BufTy).Contents (Elt F) → (⟨S50000x128, .f32⟩ : BufTy).Contents (Elt F)),
    binary main_v193 main_v197 main_v198 (subf : (⟨S50000x128, .f32⟩ : BufTy).Contents (Elt F) → (⟨S50000x128, .f32⟩ : BufTy).Contents (Elt F) → (⟨S50000x128, .f32⟩ : BufTy).Contents (Elt F)),
    unary main_arg8 main_v199 ((extractStridedSlice S1x128 ![3, 0] · slices_S8x128_S1x128_3_0) : (⟨S8x128, .f32⟩ : BufTy).Contents (Elt F) → (⟨S1x128, .f32⟩ : BufTy).Contents (Elt F)),
    reshape main_v199 main_v200 rfl shapeCasts_S1x128_S128,
    nullary main_cst_21 (constant S_ .f32 0x3727C5AC#32),
    unary main_cst_21 main_v201 (broadcastInDim S128 ![] bcast_S_S128 : (⟨S_, .f32⟩ : BufTy).Contents (Elt F) → (⟨S128, .f32⟩ : BufTy).Contents (Elt F)),
    binary main_v200 main_v201 main_v202 (addf : (⟨S128, .f32⟩ : BufTy).Contents (Elt F) → (⟨S128, .f32⟩ : BufTy).Contents (Elt F) → (⟨S128, .f32⟩ : BufTy).Contents (Elt F)),
    unary main_v202 main_v203 (Host.rsqrt : (⟨S128, .f32⟩ : BufTy).Contents (Elt F) → (⟨S128, .f32⟩ : BufTy).Contents (Elt F)),
    unary main_v203 main_v204 (broadcastInDim S1x128 ![1] bcast_S128_S1x128_1 : (⟨S128, .f32⟩ : BufTy).Contents (Elt F) → (⟨S1x128, .f32⟩ : BufTy).Contents (Elt F)),
    unary main_v204 main_v205 (broadcastInDim S50000x128 ![0, 1] bcast_S1x128_S50000x128_0_1 : (⟨S1x128, .f32⟩ : BufTy).Contents (Elt F) → (⟨S50000x128, .f32⟩ : BufTy).Contents (Elt F)),
    binary main_v198 main_v205 main_v206 (mulf : (⟨S50000x128, .f32⟩ : BufTy).Contents (Elt F) → (⟨S50000x128, .f32⟩ : BufTy).Contents (Elt F) → (⟨S50000x128, .f32⟩ : BufTy).Contents (Elt F)),
    unary main_arg5 main_v207 ((extractStridedSlice S1x128 ![3, 0] · slices_S8x128_S1x128_3_0) : (⟨S8x128, .f32⟩ : BufTy).Contents (Elt F) → (⟨S1x128, .f32⟩ : BufTy).Contents (Elt F)),
    reshape main_v207 main_v208 rfl shapeCasts_S1x128_S128,
    unary main_v208 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v206 main_v210 main_v211 (mulf : (⟨S50000x128, .f32⟩ : BufTy).Contents (Elt F) → (⟨S50000x128, .f32⟩ : BufTy).Contents (Elt F) → (⟨S50000x128, .f32⟩ : BufTy).Contents (Elt F)),
    unary main_arg6 main_v212 ((extractStridedSlice S1x128 ![3, 0] · slices_S8x128_S1x128_3_0) : (⟨S8x128, .f32⟩ : BufTy).Contents (Elt F) → (⟨S1x128, .f32⟩ : BufTy).Contents (Elt F)),
    reshape main_v212 main_v213 rfl shapeCasts_S1x128_S128,
    unary main_v213 main_v214 (broadcastInDim S1x128 ![1] bcast_S128_S1x128_1 : (⟨S128, .f32⟩ : BufTy).Contents (Elt F) → (⟨S1x128, .f32⟩ : BufTy).Contents (Elt F)),
    unary main_v214 main_v215 (broadcastInDim S50000x128 ![0, 1] bcast_S1x128_S50000x128_0_1 : (⟨S1x128, .f32⟩ : BufTy).Contents (Elt F) → (⟨S50000x128, .f32⟩ : BufTy).Contents (Elt F)),
    binary main_v211 main_v215 main_v216 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v216) (TRef.of (T := ⟨S50000x128, .f32⟩) main_call3_v0) (TRef.of (T := ⟨S50000x128, .f32⟩) main_v217) maximumf ]

/-- Round 4: from the slice of layer 4 to the round's clamped output. -/
abbrev seg5 : List (HloOp τ sig (Elt F)) :=
  [ unary main_arg3 main_v218 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v218 main_v219 rfl shapeCasts_S1x128x128_S128x128,
    binary main_v217 main_v219 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v221 (broadcastInDim S640000 ![] bcast_S_S640000 : (⟨S_, .i32⟩ : BufTy).Contents (Elt F) → (⟨S640000, .i32⟩ : BufTy).Contents (Elt F)),
    binary main_v1 main_v221 main_v222 (cmpi .slt : (⟨S640000, .i32⟩ : BufTy).Contents (Elt F) → (⟨S640000, .i32⟩ : BufTy).Contents (Elt F) → (⟨S640000, .i1⟩ : BufTy).Contents (Elt F)),
    nullary main_c_23 (constantI S_ 32 50000#32),
    unary main_c_23 main_v223 (broadcastInDim S640000 ![] bcast_S_S640000 : (⟨S_, .i32⟩ : BufTy).Contents (Elt F) → (⟨S640000, .i32⟩ : BufTy).Contents (Elt F)),
    binary main_v1 main_v223 main_v224 (addi : (⟨S640000, .i32⟩ : BufTy).Contents (Elt F) → (⟨S640000, .i32⟩ : BufTy).Contents (Elt F) → (⟨S640000, .i32⟩ : BufTy).Contents (Elt F)),
    ternary main_v222 main_v224 main_v1 main_v225 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v225 main_v226 (broadcastInDim S640000x1 ![0] bcast_S640000_S640000x1_0 : (⟨S640000, .i32⟩ : BufTy).Contents (Elt F) → (⟨S640000x1, .i32⟩ : BufTy).Contents (Elt F)),
    binary main_v220 main_v226 main_v227 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v228 (broadcastInDim S640000x128 ![0, 1] bcast_S640000x1_S640000x128_0_1 : (⟨S640000x1, .f32⟩ : BufTy).Contents (Elt F) → (⟨S640000x128, .f32⟩ : BufTy).Contents (Elt F)),
    binary main_v227 main_v228 main_v229 (mulf : (⟨S640000x128, .f32⟩ : BufTy).Contents (Elt F) → (⟨S640000x128, .f32⟩ : BufTy).Contents (Elt F) → (⟨S640000x128, .f32⟩ : BufTy).Contents (Elt F)),
    nullary main_cst_24 (constant S_ .f32 0x00000000#32),
    unary main_cst_24 main_v230 (broadcastInDim S50000x128 ![] bcast_S_S50000x128 : (⟨S_, .f32⟩ : BufTy).Contents (Elt F) → (⟨S50000x128, .f32⟩ : BufTy).Contents (Elt F)),
    unary main_v3 main_v231 (broadcastInDim S640000x1 ![0] bcast_S640000_S640000x1_0 : (⟨S640000, .i32⟩ : BufTy).Contents (Elt F) → (⟨S640000x1, .i32⟩ : BufTy).Contents (Elt F)),
    ternary main_v230 main_v231 main_v229 main_v232 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v233 (broadcastInDim S50000x128 ![0, 1] bcast_S50000x1_S50000x128_0_1 : (⟨S50000x1, .f32⟩ : BufTy).Contents (Elt F) → (⟨S50000x128, .f32⟩ : BufTy).Contents (Elt F)),
    binary main_v220 main_v233 main_v234 (mulf : (⟨S50000x128, .f32⟩ : BufTy).Contents (Elt F) → (⟨S50000x128, .f32⟩ : BufTy).Contents (Elt F) → (⟨S50000x128, .f32⟩ : BufTy).Contents (Elt F)),
    binary main_v232 main_v234 main_v235 (addf : (⟨S50000x128, .f32⟩ : BufTy).Contents (Elt F) → (⟨S50000x128, .f32⟩ : BufTy).Contents (Elt F) → (⟨S50000x128, .f32⟩ : BufTy).Contents (Elt F)),
    unary main_arg4 main_v236 ((extractStridedSlice S1x128 ![4, 0] · slices_S8x128_S1x128_4_0) : (⟨S8x128, .f32⟩ : BufTy).Contents (Elt F) → (⟨S1x128, .f32⟩ : BufTy).Contents (Elt F)),
    reshape main_v236 main_v237 rfl shapeCasts_S1x128_S128,
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S50000x128 ![0, 1] bcast_S1x128_S50000x128_0_1 : (⟨S1x128, .f32⟩ : BufTy).Contents (Elt F) → (⟨S50000x128, .f32⟩ : BufTy).Contents (Elt F)),
    binary main_v235 main_v239 main_v240 (addf : (⟨S50000x128, .f32⟩ : BufTy).Contents (Elt F) → (⟨S50000x128, .f32⟩ : BufTy).Contents (Elt F) → (⟨S50000x128, .f32⟩ : BufTy).Contents (Elt F)),
    unary main_arg7 main_v241 ((extractStridedSlice S1x128 ![4, 0] · slices_S8x128_S1x128_4_0) : (⟨S8x128, .f32⟩ : BufTy).Contents (Elt F) → (⟨S1x128, .f32⟩ : BufTy).Contents (Elt F)),
    reshape main_v241 main_v242 rfl shapeCasts_S1x128_S128,
    unary main_v242 main_v243 (broadcastInDim S1x128 ![1] bcast_S128_S1x128_1 : (⟨S128, .f32⟩ : BufTy).Contents (Elt F) → (⟨S1x128, .f32⟩ : BufTy).Contents (Elt F)),
    unary main_v243 main_v244 (broadcastInDim S50000x128 ![0, 1] bcast_S1x128_S50000x128_0_1 : (⟨S1x128, .f32⟩ : BufTy).Contents (Elt F) → (⟨S50000x128, .f32⟩ : BufTy).Contents (Elt F)),
    binary main_v240 main_v244 main_v245 (subf : (⟨S50000x128, .f32⟩ : BufTy).Contents (Elt F) → (⟨S50000x128, .f32⟩ : BufTy).Contents (Elt F) → (⟨S50000x128, .f32⟩ : BufTy).Contents (Elt F)),
    unary main_arg8 main_v246 ((extractStridedSlice S1x128 ![4, 0] · slices_S8x128_S1x128_4_0) : (⟨S8x128, .f32⟩ : BufTy).Contents (Elt F) → (⟨S1x128, .f32⟩ : BufTy).Contents (Elt F)),
    reshape main_v246 main_v247 rfl shapeCasts_S1x128_S128,
    nullary main_cst_25 (constant S_ .f32 0x3727C5AC#32),
    unary main_cst_25 main_v248 (broadcastInDim S128 ![] bcast_S_S128 : (⟨S_, .f32⟩ : BufTy).Contents (Elt F) → (⟨S128, .f32⟩ : BufTy).Contents (Elt F)),
    binary main_v247 main_v248 main_v249 (addf : (⟨S128, .f32⟩ : BufTy).Contents (Elt F) → (⟨S128, .f32⟩ : BufTy).Contents (Elt F) → (⟨S128, .f32⟩ : BufTy).Contents (Elt F)),
    unary main_v249 main_v250 (Host.rsqrt : (⟨S128, .f32⟩ : BufTy).Contents (Elt F) → (⟨S128, .f32⟩ : BufTy).Contents (Elt F)),
    unary main_v250 main_v251 (broadcastInDim S1x128 ![1] bcast_S128_S1x128_1 : (⟨S128, .f32⟩ : BufTy).Contents (Elt F) → (⟨S1x128, .f32⟩ : BufTy).Contents (Elt F)),
    unary main_v251 main_v252 (broadcastInDim S50000x128 ![0, 1] bcast_S1x128_S50000x128_0_1 : (⟨S1x128, .f32⟩ : BufTy).Contents (Elt F) → (⟨S50000x128, .f32⟩ : BufTy).Contents (Elt F)),
    binary main_v245 main_v252 main_v253 (mulf : (⟨S50000x128, .f32⟩ : BufTy).Contents (Elt F) → (⟨S50000x128, .f32⟩ : BufTy).Contents (Elt F) → (⟨S50000x128, .f32⟩ : BufTy).Contents (Elt F)),
    unary main_arg5 main_v254 ((extractStridedSlice S1x128 ![4, 0] · slices_S8x128_S1x128_4_0) : (⟨S8x128, .f32⟩ : BufTy).Contents (Elt F) → (⟨S1x128, .f32⟩ : BufTy).Contents (Elt F)),
    reshape main_v254 main_v255 rfl shapeCasts_S1x128_S128,
    unary main_v255 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v253 main_v257 main_v258 (mulf : (⟨S50000x128, .f32⟩ : BufTy).Contents (Elt F) → (⟨S50000x128, .f32⟩ : BufTy).Contents (Elt F) → (⟨S50000x128, .f32⟩ : BufTy).Contents (Elt F)),
    unary main_arg6 main_v259 ((extractStridedSlice S1x128 ![4, 0] · slices_S8x128_S1x128_4_0) : (⟨S8x128, .f32⟩ : BufTy).Contents (Elt F) → (⟨S1x128, .f32⟩ : BufTy).Contents (Elt F)),
    reshape main_v259 main_v260 rfl shapeCasts_S1x128_S128,
    unary main_v260 main_v261 (broadcastInDim S1x128 ![1] bcast_S128_S1x128_1 : (⟨S128, .f32⟩ : BufTy).Contents (Elt F) → (⟨S1x128, .f32⟩ : BufTy).Contents (Elt F)),
    unary main_v261 main_v262 (broadcastInDim S50000x128 ![0, 1] bcast_S1x128_S50000x128_0_1 : (⟨S1x128, .f32⟩ : BufTy).Contents (Elt F) → (⟨S50000x128, .f32⟩ : BufTy).Contents (Elt F)),
    binary main_v258 main_v262 main_v263 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v263) (TRef.of (T := ⟨S50000x128, .f32⟩) main_call4_v0) (TRef.of (T := ⟨S50000x128, .f32⟩) main_v264) maximumf ]

/-- Round 5: from the slice of layer 5 to the round's clamped output. -/
abbrev seg6 : List (HloOp τ sig (Elt F)) :=
  [ unary main_arg3 main_v265 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v265 main_v266 rfl shapeCasts_S1x128x128_S128x128,
    binary main_v264 main_v266 main_v267 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_26 (constantI S_ 32 0#32),
    unary main_c_26 main_v268 (broadcastInDim S640000 ![] bcast_S_S640000 : (⟨S_, .i32⟩ : BufTy).Contents (Elt F) → (⟨S640000, .i32⟩ : BufTy).Contents (Elt F)),
    binary main_v1 main_v268 main_v269 (cmpi .slt : (⟨S640000, .i32⟩ : BufTy).Contents (Elt F) → (⟨S640000, .i32⟩ : BufTy).Contents (Elt F) → (⟨S640000, .i1⟩ : BufTy).Contents (Elt F)),
    nullary main_c_27 (constantI S_ 32 50000#32),
    unary main_c_27 main_v270 (broadcastInDim S640000 ![] bcast_S_S640000 : (⟨S_, .i32⟩ : BufTy).Contents (Elt F) → (⟨S640000, .i32⟩ : BufTy).Contents (Elt F)),
    binary main_v1 main_v270 main_v271 (addi : (⟨S640000, .i32⟩ : BufTy).Contents (Elt F) → (⟨S640000, .i32⟩ : BufTy).Contents (Elt F) → (⟨S640000, .i32⟩ : BufTy).Contents (Elt F)),
    ternary main_v269 main_v271 main_v1 main_v272 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v272 main_v273 (broadcastInDim S640000x1 ![0] bcast_S640000_S640000x1_0 : (⟨S640000, .i32⟩ : BufTy).Contents (Elt F) → (⟨S640000x1, .i32⟩ : BufTy).Contents (Elt F)),
    binary main_v267 main_v273 main_v274 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v275 (broadcastInDim S640000x128 ![0, 1] bcast_S640000x1_S640000x128_0_1 : (⟨S640000x1, .f32⟩ : BufTy).Contents (Elt F) → (⟨S640000x128, .f32⟩ : BufTy).Contents (Elt F)),
    binary main_v274 main_v275 main_v276 (mulf : (⟨S640000x128, .f32⟩ : BufTy).Contents (Elt F) → (⟨S640000x128, .f32⟩ : BufTy).Contents (Elt F) → (⟨S640000x128, .f32⟩ : BufTy).Contents (Elt F)),
    nullary main_cst_28 (constant S_ .f32 0x00000000#32),
    unary main_cst_28 main_v277 (broadcastInDim S50000x128 ![] bcast_S_S50000x128 : (⟨S_, .f32⟩ : BufTy).Contents (Elt F) → (⟨S50000x128, .f32⟩ : BufTy).Contents (Elt F)),
    unary main_v3 main_v278 (broadcastInDim S640000x1 ![0] bcast_S640000_S640000x1_0 : (⟨S640000, .i32⟩ : BufTy).Contents (Elt F) → (⟨S640000x1, .i32⟩ : BufTy).Contents (Elt F)),
    ternary main_v277 main_v278 main_v276 main_v279 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v280 (broadcastInDim S50000x128 ![0, 1] bcast_S50000x1_S50000x128_0_1 : (⟨S50000x1, .f32⟩ : BufTy).Contents (Elt F) → (⟨S50000x128, .f32⟩ : BufTy).Contents (Elt F)),
    binary main_v267 main_v280 main_v281 (mulf : (⟨S50000x128, .f32⟩ : BufTy).Contents (Elt F) → (⟨S50000x128, .f32⟩ : BufTy).Contents (Elt F) → (⟨S50000x128, .f32⟩ : BufTy).Contents (Elt F)),
    binary main_v279 main_v281 main_v282 (addf : (⟨S50000x128, .f32⟩ : BufTy).Contents (Elt F) → (⟨S50000x128, .f32⟩ : BufTy).Contents (Elt F) → (⟨S50000x128, .f32⟩ : BufTy).Contents (Elt F)),
    unary main_arg4 main_v283 ((extractStridedSlice S1x128 ![5, 0] · slices_S8x128_S1x128_5_0) : (⟨S8x128, .f32⟩ : BufTy).Contents (Elt F) → (⟨S1x128, .f32⟩ : BufTy).Contents (Elt F)),
    reshape main_v283 main_v284 rfl shapeCasts_S1x128_S128,
    unary main_v284 main_v285 (broadcastInDim S1x128 ![1] bcast_S128_S1x128_1 : (⟨S128, .f32⟩ : BufTy).Contents (Elt F) → (⟨S1x128, .f32⟩ : BufTy).Contents (Elt F)),
    unary main_v285 main_v286 (broadcastInDim S50000x128 ![0, 1] bcast_S1x128_S50000x128_0_1 : (⟨S1x128, .f32⟩ : BufTy).Contents (Elt F) → (⟨S50000x128, .f32⟩ : BufTy).Contents (Elt F)),
    binary main_v282 main_v286 main_v287 (addf : (⟨S50000x128, .f32⟩ : BufTy).Contents (Elt F) → (⟨S50000x128, .f32⟩ : BufTy).Contents (Elt F) → (⟨S50000x128, .f32⟩ : BufTy).Contents (Elt F)),
    unary main_arg7 main_v288 ((extractStridedSlice S1x128 ![5, 0] · slices_S8x128_S1x128_5_0) : (⟨S8x128, .f32⟩ : BufTy).Contents (Elt F) → (⟨S1x128, .f32⟩ : BufTy).Contents (Elt F)),
    reshape main_v288 main_v289 rfl shapeCasts_S1x128_S128,
    unary main_v289 main_v290 (broadcastInDim S1x128 ![1] bcast_S128_S1x128_1 : (⟨S128, .f32⟩ : BufTy).Contents (Elt F) → (⟨S1x128, .f32⟩ : BufTy).Contents (Elt F)),
    unary main_v290 main_v291 (broadcastInDim S50000x128 ![0, 1] bcast_S1x128_S50000x128_0_1 : (⟨S1x128, .f32⟩ : BufTy).Contents (Elt F) → (⟨S50000x128, .f32⟩ : BufTy).Contents (Elt F)),
    binary main_v287 main_v291 main_v292 (subf : (⟨S50000x128, .f32⟩ : BufTy).Contents (Elt F) → (⟨S50000x128, .f32⟩ : BufTy).Contents (Elt F) → (⟨S50000x128, .f32⟩ : BufTy).Contents (Elt F)),
    unary main_arg8 main_v293 ((extractStridedSlice S1x128 ![5, 0] · slices_S8x128_S1x128_5_0) : (⟨S8x128, .f32⟩ : BufTy).Contents (Elt F) → (⟨S1x128, .f32⟩ : BufTy).Contents (Elt F)),
    reshape main_v293 main_v294 rfl shapeCasts_S1x128_S128,
    nullary main_cst_29 (constant S_ .f32 0x3727C5AC#32),
    unary main_cst_29 main_v295 (broadcastInDim S128 ![] bcast_S_S128 : (⟨S_, .f32⟩ : BufTy).Contents (Elt F) → (⟨S128, .f32⟩ : BufTy).Contents (Elt F)),
    binary main_v294 main_v295 main_v296 (addf : (⟨S128, .f32⟩ : BufTy).Contents (Elt F) → (⟨S128, .f32⟩ : BufTy).Contents (Elt F) → (⟨S128, .f32⟩ : BufTy).Contents (Elt F)),
    unary main_v296 main_v297 (Host.rsqrt : (⟨S128, .f32⟩ : BufTy).Contents (Elt F) → (⟨S128, .f32⟩ : BufTy).Contents (Elt F)),
    unary main_v297 main_v298 (broadcastInDim S1x128 ![1] bcast_S128_S1x128_1 : (⟨S128, .f32⟩ : BufTy).Contents (Elt F) → (⟨S1x128, .f32⟩ : BufTy).Contents (Elt F)),
    unary main_v298 main_v299 (broadcastInDim S50000x128 ![0, 1] bcast_S1x128_S50000x128_0_1 : (⟨S1x128, .f32⟩ : BufTy).Contents (Elt F) → (⟨S50000x128, .f32⟩ : BufTy).Contents (Elt F)),
    binary main_v292 main_v299 main_v300 (mulf : (⟨S50000x128, .f32⟩ : BufTy).Contents (Elt F) → (⟨S50000x128, .f32⟩ : BufTy).Contents (Elt F) → (⟨S50000x128, .f32⟩ : BufTy).Contents (Elt F)),
    unary main_arg5 main_v301 ((extractStridedSlice S1x128 ![5, 0] · slices_S8x128_S1x128_5_0) : (⟨S8x128, .f32⟩ : BufTy).Contents (Elt F) → (⟨S1x128, .f32⟩ : BufTy).Contents (Elt F)),
    reshape main_v301 main_v302 rfl shapeCasts_S1x128_S128,
    unary main_v302 main_v303 (broadcastInDim S1x128 ![1] bcast_S128_S1x128_1 : (⟨S128, .f32⟩ : BufTy).Contents (Elt F) → (⟨S1x128, .f32⟩ : BufTy).Contents (Elt F)),
    unary main_v303 main_v304 (broadcastInDim S50000x128 ![0, 1] bcast_S1x128_S50000x128_0_1 : (⟨S1x128, .f32⟩ : BufTy).Contents (Elt F) → (⟨S50000x128, .f32⟩ : BufTy).Contents (Elt F)),
    binary main_v300 main_v304 main_v305 (mulf : (⟨S50000x128, .f32⟩ : BufTy).Contents (Elt F) → (⟨S50000x128, .f32⟩ : BufTy).Contents (Elt F) → (⟨S50000x128, .f32⟩ : BufTy).Contents (Elt F)),
    unary main_arg6 main_v306 ((extractStridedSlice S1x128 ![5, 0] · slices_S8x128_S1x128_5_0) : (⟨S8x128, .f32⟩ : BufTy).Contents (Elt F) → (⟨S1x128, .f32⟩ : BufTy).Contents (Elt F)),
    reshape main_v306 main_v307 rfl shapeCasts_S1x128_S128,
    unary main_v307 main_v308 (broadcastInDim S1x128 ![1] bcast_S128_S1x128_1 : (⟨S128, .f32⟩ : BufTy).Contents (Elt F) → (⟨S1x128, .f32⟩ : BufTy).Contents (Elt F)),
    unary main_v308 main_v309 (broadcastInDim S50000x128 ![0, 1] bcast_S1x128_S50000x128_0_1 : (⟨S1x128, .f32⟩ : BufTy).Contents (Elt F) → (⟨S50000x128, .f32⟩ : BufTy).Contents (Elt F)),
    binary main_v305 main_v309 main_v310 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v310) (TRef.of (T := ⟨S50000x128, .f32⟩) main_call5_v0) (TRef.of (T := ⟨S50000x128, .f32⟩) main_v311) maximumf ]

/-- Round 6: from the slice of layer 6 to the round's clamped output. -/
abbrev seg7 : List (HloOp τ sig (Elt F)) :=
  [ unary main_arg3 main_v312 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v312 main_v313 rfl shapeCasts_S1x128x128_S128x128,
    binary main_v311 main_v313 main_v314 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_30 (constantI S_ 32 0#32),
    unary main_c_30 main_v315 (broadcastInDim S640000 ![] bcast_S_S640000 : (⟨S_, .i32⟩ : BufTy).Contents (Elt F) → (⟨S640000, .i32⟩ : BufTy).Contents (Elt F)),
    binary main_v1 main_v315 main_v316 (cmpi .slt : (⟨S640000, .i32⟩ : BufTy).Contents (Elt F) → (⟨S640000, .i32⟩ : BufTy).Contents (Elt F) → (⟨S640000, .i1⟩ : BufTy).Contents (Elt F)),
    nullary main_c_31 (constantI S_ 32 50000#32),
    unary main_c_31 main_v317 (broadcastInDim S640000 ![] bcast_S_S640000 : (⟨S_, .i32⟩ : BufTy).Contents (Elt F) → (⟨S640000, .i32⟩ : BufTy).Contents (Elt F)),
    binary main_v1 main_v317 main_v318 (addi : (⟨S640000, .i32⟩ : BufTy).Contents (Elt F) → (⟨S640000, .i32⟩ : BufTy).Contents (Elt F) → (⟨S640000, .i32⟩ : BufTy).Contents (Elt F)),
    ternary main_v316 main_v318 main_v1 main_v319 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v319 main_v320 (broadcastInDim S640000x1 ![0] bcast_S640000_S640000x1_0 : (⟨S640000, .i32⟩ : BufTy).Contents (Elt F) → (⟨S640000x1, .i32⟩ : BufTy).Contents (Elt F)),
    binary main_v314 main_v320 main_v321 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v322 (broadcastInDim S640000x128 ![0, 1] bcast_S640000x1_S640000x128_0_1 : (⟨S640000x1, .f32⟩ : BufTy).Contents (Elt F) → (⟨S640000x128, .f32⟩ : BufTy).Contents (Elt F)),
    binary main_v321 main_v322 main_v323 (mulf : (⟨S640000x128, .f32⟩ : BufTy).Contents (Elt F) → (⟨S640000x128, .f32⟩ : BufTy).Contents (Elt F) → (⟨S640000x128, .f32⟩ : BufTy).Contents (Elt F)),
    nullary main_cst_32 (constant S_ .f32 0x00000000#32),
    unary main_cst_32 main_v324 (broadcastInDim S50000x128 ![] bcast_S_S50000x128 : (⟨S_, .f32⟩ : BufTy).Contents (Elt F) → (⟨S50000x128, .f32⟩ : BufTy).Contents (Elt F)),
    unary main_v3 main_v325 (broadcastInDim S640000x1 ![0] bcast_S640000_S640000x1_0 : (⟨S640000, .i32⟩ : BufTy).Contents (Elt F) → (⟨S640000x1, .i32⟩ : BufTy).Contents (Elt F)),
    ternary main_v324 main_v325 main_v323 main_v326 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v327 (broadcastInDim S50000x128 ![0, 1] bcast_S50000x1_S50000x128_0_1 : (⟨S50000x1, .f32⟩ : BufTy).Contents (Elt F) → (⟨S50000x128, .f32⟩ : BufTy).Contents (Elt F)),
    binary main_v314 main_v327 main_v328 (mulf : (⟨S50000x128, .f32⟩ : BufTy).Contents (Elt F) → (⟨S50000x128, .f32⟩ : BufTy).Contents (Elt F) → (⟨S50000x128, .f32⟩ : BufTy).Contents (Elt F)),
    binary main_v326 main_v328 main_v329 (addf : (⟨S50000x128, .f32⟩ : BufTy).Contents (Elt F) → (⟨S50000x128, .f32⟩ : BufTy).Contents (Elt F) → (⟨S50000x128, .f32⟩ : BufTy).Contents (Elt F)),
    unary main_arg4 main_v330 ((extractStridedSlice S1x128 ![6, 0] · slices_S8x128_S1x128_6_0) : (⟨S8x128, .f32⟩ : BufTy).Contents (Elt F) → (⟨S1x128, .f32⟩ : BufTy).Contents (Elt F)),
    reshape main_v330 main_v331 rfl shapeCasts_S1x128_S128,
    unary main_v331 main_v332 (broadcastInDim S1x128 ![1] bcast_S128_S1x128_1 : (⟨S128, .f32⟩ : BufTy).Contents (Elt F) → (⟨S1x128, .f32⟩ : BufTy).Contents (Elt F)),
    unary main_v332 main_v333 (broadcastInDim S50000x128 ![0, 1] bcast_S1x128_S50000x128_0_1 : (⟨S1x128, .f32⟩ : BufTy).Contents (Elt F) → (⟨S50000x128, .f32⟩ : BufTy).Contents (Elt F)),
    binary main_v329 main_v333 main_v334 (addf : (⟨S50000x128, .f32⟩ : BufTy).Contents (Elt F) → (⟨S50000x128, .f32⟩ : BufTy).Contents (Elt F) → (⟨S50000x128, .f32⟩ : BufTy).Contents (Elt F)),
    unary main_arg7 main_v335 ((extractStridedSlice S1x128 ![6, 0] · slices_S8x128_S1x128_6_0) : (⟨S8x128, .f32⟩ : BufTy).Contents (Elt F) → (⟨S1x128, .f32⟩ : BufTy).Contents (Elt F)),
    reshape main_v335 main_v336 rfl shapeCasts_S1x128_S128,
    unary main_v336 main_v337 (broadcastInDim S1x128 ![1] bcast_S128_S1x128_1 : (⟨S128, .f32⟩ : BufTy).Contents (Elt F) → (⟨S1x128, .f32⟩ : BufTy).Contents (Elt F)),
    unary main_v337 main_v338 (broadcastInDim S50000x128 ![0, 1] bcast_S1x128_S50000x128_0_1 : (⟨S1x128, .f32⟩ : BufTy).Contents (Elt F) → (⟨S50000x128, .f32⟩ : BufTy).Contents (Elt F)),
    binary main_v334 main_v338 main_v339 (subf : (⟨S50000x128, .f32⟩ : BufTy).Contents (Elt F) → (⟨S50000x128, .f32⟩ : BufTy).Contents (Elt F) → (⟨S50000x128, .f32⟩ : BufTy).Contents (Elt F)),
    unary main_arg8 main_v340 ((extractStridedSlice S1x128 ![6, 0] · slices_S8x128_S1x128_6_0) : (⟨S8x128, .f32⟩ : BufTy).Contents (Elt F) → (⟨S1x128, .f32⟩ : BufTy).Contents (Elt F)),
    reshape main_v340 main_v341 rfl shapeCasts_S1x128_S128,
    nullary main_cst_33 (constant S_ .f32 0x3727C5AC#32),
    unary main_cst_33 main_v342 (broadcastInDim S128 ![] bcast_S_S128 : (⟨S_, .f32⟩ : BufTy).Contents (Elt F) → (⟨S128, .f32⟩ : BufTy).Contents (Elt F)),
    binary main_v341 main_v342 main_v343 (addf : (⟨S128, .f32⟩ : BufTy).Contents (Elt F) → (⟨S128, .f32⟩ : BufTy).Contents (Elt F) → (⟨S128, .f32⟩ : BufTy).Contents (Elt F)),
    unary main_v343 main_v344 (Host.rsqrt : (⟨S128, .f32⟩ : BufTy).Contents (Elt F) → (⟨S128, .f32⟩ : BufTy).Contents (Elt F)),
    unary main_v344 main_v345 (broadcastInDim S1x128 ![1] bcast_S128_S1x128_1 : (⟨S128, .f32⟩ : BufTy).Contents (Elt F) → (⟨S1x128, .f32⟩ : BufTy).Contents (Elt F)),
    unary main_v345 main_v346 (broadcastInDim S50000x128 ![0, 1] bcast_S1x128_S50000x128_0_1 : (⟨S1x128, .f32⟩ : BufTy).Contents (Elt F) → (⟨S50000x128, .f32⟩ : BufTy).Contents (Elt F)),
    binary main_v339 main_v346 main_v347 (mulf : (⟨S50000x128, .f32⟩ : BufTy).Contents (Elt F) → (⟨S50000x128, .f32⟩ : BufTy).Contents (Elt F) → (⟨S50000x128, .f32⟩ : BufTy).Contents (Elt F)),
    unary main_arg5 main_v348 ((extractStridedSlice S1x128 ![6, 0] · slices_S8x128_S1x128_6_0) : (⟨S8x128, .f32⟩ : BufTy).Contents (Elt F) → (⟨S1x128, .f32⟩ : BufTy).Contents (Elt F)),
    reshape main_v348 main_v349 rfl shapeCasts_S1x128_S128,
    unary main_v349 main_v350 (broadcastInDim S1x128 ![1] bcast_S128_S1x128_1 : (⟨S128, .f32⟩ : BufTy).Contents (Elt F) → (⟨S1x128, .f32⟩ : BufTy).Contents (Elt F)),
    unary main_v350 main_v351 (broadcastInDim S50000x128 ![0, 1] bcast_S1x128_S50000x128_0_1 : (⟨S1x128, .f32⟩ : BufTy).Contents (Elt F) → (⟨S50000x128, .f32⟩ : BufTy).Contents (Elt F)),
    binary main_v347 main_v351 main_v352 (mulf : (⟨S50000x128, .f32⟩ : BufTy).Contents (Elt F) → (⟨S50000x128, .f32⟩ : BufTy).Contents (Elt F) → (⟨S50000x128, .f32⟩ : BufTy).Contents (Elt F)),
    unary main_arg6 main_v353 ((extractStridedSlice S1x128 ![6, 0] · slices_S8x128_S1x128_6_0) : (⟨S8x128, .f32⟩ : BufTy).Contents (Elt F) → (⟨S1x128, .f32⟩ : BufTy).Contents (Elt F)),
    reshape main_v353 main_v354 rfl shapeCasts_S1x128_S128,
    unary main_v354 main_v355 (broadcastInDim S1x128 ![1] bcast_S128_S1x128_1 : (⟨S128, .f32⟩ : BufTy).Contents (Elt F) → (⟨S1x128, .f32⟩ : BufTy).Contents (Elt F)),
    unary main_v355 main_v356 (broadcastInDim S50000x128 ![0, 1] bcast_S1x128_S50000x128_0_1 : (⟨S1x128, .f32⟩ : BufTy).Contents (Elt F) → (⟨S50000x128, .f32⟩ : BufTy).Contents (Elt F)),
    binary main_v352 main_v356 main_v357 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v357) (TRef.of (T := ⟨S50000x128, .f32⟩) main_call6_v0) (TRef.of (T := ⟨S50000x128, .f32⟩) main_v358) maximumf ]

/-- Round 7: from the slice of layer 7 to the round's clamped output. -/
abbrev seg8 : List (HloOp τ sig (Elt F)) :=
  [ unary main_arg3 main_v359 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v359 main_v360 rfl shapeCasts_S1x128x128_S128x128,
    binary main_v358 main_v360 main_v361 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_34 (constantI S_ 32 0#32),
    unary main_c_34 main_v362 (broadcastInDim S640000 ![] bcast_S_S640000 : (⟨S_, .i32⟩ : BufTy).Contents (Elt F) → (⟨S640000, .i32⟩ : BufTy).Contents (Elt F)),
    binary main_v1 main_v362 main_v363 (cmpi .slt : (⟨S640000, .i32⟩ : BufTy).Contents (Elt F) → (⟨S640000, .i32⟩ : BufTy).Contents (Elt F) → (⟨S640000, .i1⟩ : BufTy).Contents (Elt F)),
    nullary main_c_35 (constantI S_ 32 50000#32),
    unary main_c_35 main_v364 (broadcastInDim S640000 ![] bcast_S_S640000 : (⟨S_, .i32⟩ : BufTy).Contents (Elt F) → (⟨S640000, .i32⟩ : BufTy).Contents (Elt F)),
    binary main_v1 main_v364 main_v365 (addi : (⟨S640000, .i32⟩ : BufTy).Contents (Elt F) → (⟨S640000, .i32⟩ : BufTy).Contents (Elt F) → (⟨S640000, .i32⟩ : BufTy).Contents (Elt F)),
    ternary main_v363 main_v365 main_v1 main_v366 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v366 main_v367 (broadcastInDim S640000x1 ![0] bcast_S640000_S640000x1_0 : (⟨S640000, .i32⟩ : BufTy).Contents (Elt F) → (⟨S640000x1, .i32⟩ : BufTy).Contents (Elt F)),
    binary main_v361 main_v367 main_v368 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v27 main_v369 (broadcastInDim S640000x128 ![0, 1] bcast_S640000x1_S640000x128_0_1 : (⟨S640000x1, .f32⟩ : BufTy).Contents (Elt F) → (⟨S640000x128, .f32⟩ : BufTy).Contents (Elt F)),
    binary main_v368 main_v369 main_v370 (mulf : (⟨S640000x128, .f32⟩ : BufTy).Contents (Elt F) → (⟨S640000x128, .f32⟩ : BufTy).Contents (Elt F) → (⟨S640000x128, .f32⟩ : BufTy).Contents (Elt F)),
    nullary main_cst_36 (constant S_ .f32 0x00000000#32),
    unary main_cst_36 main_v371 (broadcastInDim S50000x128 ![] bcast_S_S50000x128 : (⟨S_, .f32⟩ : BufTy).Contents (Elt F) → (⟨S50000x128, .f32⟩ : BufTy).Contents (Elt F)),
    unary main_v3 main_v372 (broadcastInDim S640000x1 ![0] bcast_S640000_S640000x1_0 : (⟨S640000, .i32⟩ : BufTy).Contents (Elt F) → (⟨S640000x1, .i32⟩ : BufTy).Contents (Elt F)),
    ternary main_v371 main_v372 main_v370 main_v373 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v29 main_v374 (broadcastInDim S50000x128 ![0, 1] bcast_S50000x1_S50000x128_0_1 : (⟨S50000x1, .f32⟩ : BufTy).Contents (Elt F) → (⟨S50000x128, .f32⟩ : BufTy).Contents (Elt F)),
    binary main_v361 main_v374 main_v375 (mulf : (⟨S50000x128, .f32⟩ : BufTy).Contents (Elt F) → (⟨S50000x128, .f32⟩ : BufTy).Contents (Elt F) → (⟨S50000x128, .f32⟩ : BufTy).Contents (Elt F)),
    binary main_v373 main_v375 main_v376 (addf : (⟨S50000x128, .f32⟩ : BufTy).Contents (Elt F) → (⟨S50000x128, .f32⟩ : BufTy).Contents (Elt F) → (⟨S50000x128, .f32⟩ : BufTy).Contents (Elt F)),
    unary main_arg4 main_v377 ((extractStridedSlice S1x128 ![7, 0] · slices_S8x128_S1x128_7_0) : (⟨S8x128, .f32⟩ : BufTy).Contents (Elt F) → (⟨S1x128, .f32⟩ : BufTy).Contents (Elt F)),
    reshape main_v377 main_v378 rfl shapeCasts_S1x128_S128,
    unary main_v378 main_v379 (broadcastInDim S1x128 ![1] bcast_S128_S1x128_1 : (⟨S128, .f32⟩ : BufTy).Contents (Elt F) → (⟨S1x128, .f32⟩ : BufTy).Contents (Elt F)),
    unary main_v379 main_v380 (broadcastInDim S50000x128 ![0, 1] bcast_S1x128_S50000x128_0_1 : (⟨S1x128, .f32⟩ : BufTy).Contents (Elt F) → (⟨S50000x128, .f32⟩ : BufTy).Contents (Elt F)),
    binary main_v376 main_v380 main_v381 (addf : (⟨S50000x128, .f32⟩ : BufTy).Contents (Elt F) → (⟨S50000x128, .f32⟩ : BufTy).Contents (Elt F) → (⟨S50000x128, .f32⟩ : BufTy).Contents (Elt F)),
    unary main_arg7 main_v382 ((extractStridedSlice S1x128 ![7, 0] · slices_S8x128_S1x128_7_0) : (⟨S8x128, .f32⟩ : BufTy).Contents (Elt F) → (⟨S1x128, .f32⟩ : BufTy).Contents (Elt F)),
    reshape main_v382 main_v383 rfl shapeCasts_S1x128_S128,
    unary main_v383 main_v384 (broadcastInDim S1x128 ![1] bcast_S128_S1x128_1 : (⟨S128, .f32⟩ : BufTy).Contents (Elt F) → (⟨S1x128, .f32⟩ : BufTy).Contents (Elt F)),
    unary main_v384 main_v385 (broadcastInDim S50000x128 ![0, 1] bcast_S1x128_S50000x128_0_1 : (⟨S1x128, .f32⟩ : BufTy).Contents (Elt F) → (⟨S50000x128, .f32⟩ : BufTy).Contents (Elt F)),
    binary main_v381 main_v385 main_v386 (subf : (⟨S50000x128, .f32⟩ : BufTy).Contents (Elt F) → (⟨S50000x128, .f32⟩ : BufTy).Contents (Elt F) → (⟨S50000x128, .f32⟩ : BufTy).Contents (Elt F)),
    unary main_arg8 main_v387 ((extractStridedSlice S1x128 ![7, 0] · slices_S8x128_S1x128_7_0) : (⟨S8x128, .f32⟩ : BufTy).Contents (Elt F) → (⟨S1x128, .f32⟩ : BufTy).Contents (Elt F)),
    reshape main_v387 main_v388 rfl shapeCasts_S1x128_S128,
    nullary main_cst_37 (constant S_ .f32 0x3727C5AC#32),
    unary main_cst_37 main_v389 (broadcastInDim S128 ![] bcast_S_S128 : (⟨S_, .f32⟩ : BufTy).Contents (Elt F) → (⟨S128, .f32⟩ : BufTy).Contents (Elt F)),
    binary main_v388 main_v389 main_v390 (addf : (⟨S128, .f32⟩ : BufTy).Contents (Elt F) → (⟨S128, .f32⟩ : BufTy).Contents (Elt F) → (⟨S128, .f32⟩ : BufTy).Contents (Elt F)),
    unary main_v390 main_v391 (Host.rsqrt : (⟨S128, .f32⟩ : BufTy).Contents (Elt F) → (⟨S128, .f32⟩ : BufTy).Contents (Elt F)),
    unary main_v391 main_v392 (broadcastInDim S1x128 ![1] bcast_S128_S1x128_1 : (⟨S128, .f32⟩ : BufTy).Contents (Elt F) → (⟨S1x128, .f32⟩ : BufTy).Contents (Elt F)),
    unary main_v392 main_v393 (broadcastInDim S50000x128 ![0, 1] bcast_S1x128_S50000x128_0_1 : (⟨S1x128, .f32⟩ : BufTy).Contents (Elt F) → (⟨S50000x128, .f32⟩ : BufTy).Contents (Elt F)),
    binary main_v386 main_v393 main_v394 (mulf : (⟨S50000x128, .f32⟩ : BufTy).Contents (Elt F) → (⟨S50000x128, .f32⟩ : BufTy).Contents (Elt F) → (⟨S50000x128, .f32⟩ : BufTy).Contents (Elt F)),
    unary main_arg5 main_v395 ((extractStridedSlice S1x128 ![7, 0] · slices_S8x128_S1x128_7_0) : (⟨S8x128, .f32⟩ : BufTy).Contents (Elt F) → (⟨S1x128, .f32⟩ : BufTy).Contents (Elt F)),
    reshape main_v395 main_v396 rfl shapeCasts_S1x128_S128,
    unary main_v396 main_v397 (broadcastInDim S1x128 ![1] bcast_S128_S1x128_1 : (⟨S128, .f32⟩ : BufTy).Contents (Elt F) → (⟨S1x128, .f32⟩ : BufTy).Contents (Elt F)),
    unary main_v397 main_v398 (broadcastInDim S50000x128 ![0, 1] bcast_S1x128_S50000x128_0_1 : (⟨S1x128, .f32⟩ : BufTy).Contents (Elt F) → (⟨S50000x128, .f32⟩ : BufTy).Contents (Elt F)),
    binary main_v394 main_v398 main_v399 (mulf : (⟨S50000x128, .f32⟩ : BufTy).Contents (Elt F) → (⟨S50000x128, .f32⟩ : BufTy).Contents (Elt F) → (⟨S50000x128, .f32⟩ : BufTy).Contents (Elt F)),
    unary main_arg6 main_v400 ((extractStridedSlice S1x128 ![7, 0] · slices_S8x128_S1x128_7_0) : (⟨S8x128, .f32⟩ : BufTy).Contents (Elt F) → (⟨S1x128, .f32⟩ : BufTy).Contents (Elt F)),
    reshape main_v400 main_v401 rfl shapeCasts_S1x128_S128,
    unary main_v401 main_v402 (broadcastInDim S1x128 ![1] bcast_S128_S1x128_1 : (⟨S128, .f32⟩ : BufTy).Contents (Elt F) → (⟨S1x128, .f32⟩ : BufTy).Contents (Elt F)),
    unary main_v402 main_v403 (broadcastInDim S50000x128 ![0, 1] bcast_S1x128_S50000x128_0_1 : (⟨S1x128, .f32⟩ : BufTy).Contents (Elt F) → (⟨S50000x128, .f32⟩ : BufTy).Contents (Elt F)),
    binary main_v399 main_v403 main_v404 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v404) (TRef.of (T := ⟨S50000x128, .f32⟩) main_call7_v0) (TRef.of (T := ⟨S50000x128, .f32⟩) main_v405) maximumf ]

/-- The tail: pooling over node groups and the final affine map. -/
abbrev seg9 : List (HloOp τ sig (Elt F)) :=
  [ nullary main_cst_38 (constant S_ .f32 0x00000000#32),
    unary main_cst_38 main_v406 (broadcastInDim S2048x128 ![] bcast_S_S2048x128 : (⟨S_, .f32⟩ : BufTy).Contents (Elt F) → (⟨S2048x128, .f32⟩ : BufTy).Contents (Elt F)),
    unary main_arg2 main_v407 (broadcastInDim S50000x1 ![0] bcast_S50000_S50000x1_0 : (⟨S50000, .i32⟩ : BufTy).Contents (Elt F) → (⟨S50000x1, .i32⟩ : BufTy).Contents (Elt F)),
    ternary main_v406 main_v407 main_v405 main_v408 ((fun x i u => Host.scatterAdd scatter_S2048x128_S50000x1_S50000x128_1_0_0_1 x i u) : (⟨S2048x128, .f32⟩ : BufTy).Contents (Elt F) → (⟨S50000x1, .i32⟩ : BufTy).Contents (Elt F) → (⟨S50000x128, .f32⟩ : BufTy).Contents (Elt F) → (⟨S2048x128, .f32⟩ : BufTy).Contents (Elt F)),
    nullary main_cst_39 (constant S_ .f32 0x3F800000#32),
    unary main_cst_39 main_v409 (broadcastInDim S50000 ![] bcast_S_S50000 : (⟨S_, .f32⟩ : BufTy).Contents (Elt F) → (⟨S50000, .f32⟩ : BufTy).Contents (Elt F)),
    nullary main_cst_40 (constant S_ .f32 0x00000000#32),
    unary main_cst_40 main_v410 (broadcastInDim S2048 ![] bcast_S_S2048 : (⟨S_, .f32⟩ : BufTy).Contents (Elt F) → (⟨S2048, .f32⟩ : BufTy).Contents (Elt F)),
    unary main_arg2 main_v411 (broadcastInDim S50000x1 ![0] bcast_S50000_S50000x1_0 : (⟨S50000, .i32⟩ : BufTy).Contents (Elt F) → (⟨S50000x1, .i32⟩ : BufTy).Contents (Elt F)),
    ternary main_v410 main_v411 main_v409 main_v412 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_41 (constant S_ .f32 0x3F800000#32),
    unary main_cst_41 main_v413 (broadcastInDim S2048 ![] bcast_S_S2048 : (⟨S_, .f32⟩ : BufTy).Contents (Elt F) → (⟨S2048, .f32⟩ : BufTy).Contents (Elt F)),
    binary main_v412 main_v413 main_v414 (maximumf : (⟨S2048, .f32⟩ : BufTy).Contents (Elt F) → (⟨S2048, .f32⟩ : BufTy).Contents (Elt F) → (⟨S2048, .f32⟩ : BufTy).Contents (Elt F)),
    unary main_v414 main_v415 (broadcastInDim S2048x1 ![0] bcast_S2048_S2048x1_0 : (⟨S2048, .f32⟩ : BufTy).Contents (Elt F) → (⟨S2048x1, .f32⟩ : BufTy).Contents (Elt F)),
    unary main_v415 main_v416 (broadcastInDim S2048x128 ![0, 1] bcast_S2048x1_S2048x128_0_1 : (⟨S2048x1, .f32⟩ : BufTy).Contents (Elt F) → (⟨S2048x128, .f32⟩ : BufTy).Contents (Elt F)),
    binary main_v408 main_v416 main_v417 (Host.divf : (⟨S2048x128, .f32⟩ : BufTy).Contents (Elt F) → (⟨S2048x128, .f32⟩ : BufTy).Contents (Elt F) → (⟨S2048x128, .f32⟩ : BufTy).Contents (Elt F)),
    binary main_v417 main_arg9 main_v418 ((fun l r => Host.dotGeneral dot_S2048x128_S128x5_S2048x5_1_0_0_1_n_n none l r) : (⟨S2048x128, .f32⟩ : BufTy).Contents (Elt F) → (⟨S128x5, .f32⟩ : BufTy).Contents (Elt F) → (⟨S2048x5, .f32⟩ : BufTy).Contents (Elt F)),
    unary main_arg10 main_v419 (broadcastInDim S1x5 ![1] bcast_S5_S1x5_1 : (⟨S5, .f32⟩ : BufTy).Contents (Elt F) → (⟨S1x5, .f32⟩ : BufTy).Contents (Elt F)),
    unary main_v419 main_v420 (broadcastInDim S2048x5 ![0, 1] bcast_S1x5_S2048x5_0_1 : (⟨S1x5, .f32⟩ : BufTy).Contents (Elt F) → (⟨S2048x5, .f32⟩ : BufTy).Contents (Elt F)),
    binary main_v418 main_v420 main_v421 (addf : (⟨S2048x5, .f32⟩ : BufTy).Contents (Elt F) → (⟨S2048x5, .f32⟩ : BufTy).Contents (Elt F) → (⟨S2048x5, .f32⟩ : BufTy).Contents (Elt F)) ]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The buffers at launch. -/
def U0 (m : (ℓ : Loc nD τ sig) → Buf (Elt F) ℓ) (c : Dev nD) : Valuation τ sig (Elt F) := launchContents m c
theorem U0_eq (m : (ℓ : Loc nD τ sig) → Buf (Elt F) ℓ) (c : Dev nD) : U0 m c = launchContents m c := rfl
/-- The buffers after segment 0. -/
def U1 (m : (ℓ : Loc nD τ sig) → Buf (Elt F) ℓ) (c : Dev nD) : Valuation τ sig (Elt F) := after (seg0 (F := F)) (U0 m c)
theorem U1_eq (m : (ℓ : Loc nD τ sig) → Buf (Elt F) ℓ) (c : Dev nD) : U1 m c = after (seg0 (F := F)) (U0 m c) := rfl
/-- The buffers after segment 1. -/
def U2 (m : (ℓ : Loc nD τ sig) → Buf (Elt F) ℓ) (c : Dev nD) : Valuation τ sig (Elt F) := after (seg1 (F := F)) (U1 m c)
theorem U2_eq (m : (ℓ : Loc nD τ sig) → Buf (Elt F) ℓ) (c : Dev nD) : U2 m c = after (seg1 (F := F)) (U1 m c) := rfl
/-- The buffers after segment 2. -/
def U3 (m : (ℓ : Loc nD τ sig) → Buf (Elt F) ℓ) (c : Dev nD) : Valuation τ sig (Elt F) := after (seg2 (F := F)) (U2 m c)
theorem U3_eq (m : (ℓ : Loc nD τ sig) → Buf (Elt F) ℓ) (c : Dev nD) : U3 m c = after (seg2 (F := F)) (U2 m c) := rfl
/-- The buffers after segment 3. -/
def U4 (m : (ℓ : Loc nD τ sig) → Buf (Elt F) ℓ) (c : Dev nD) : Valuation τ sig (Elt F) := after (seg3 (F := F)) (U3 m c)
theorem U4_eq (m : (ℓ : Loc nD τ sig) → Buf (Elt F) ℓ) (c : Dev nD) : U4 m c = after (seg3 (F := F)) (U3 m c) := rfl
/-- The buffers after segment 4. -/
def U5 (m : (ℓ : Loc nD τ sig) → Buf (Elt F) ℓ) (c : Dev nD) : Valuation τ sig (Elt F) := after (seg4 (F := F)) (U4 m c)
theorem U5_eq (m : (ℓ : Loc nD τ sig) → Buf (Elt F) ℓ) (c : Dev nD) : U5 m c = after (seg4 (F := F)) (U4 m c) := rfl
/-- The buffers after segment 5. -/
def U6 (m : (ℓ : Loc nD τ sig) → Buf (Elt F) ℓ) (c : Dev nD) : Valuation τ sig (Elt F) := after (seg5 (F := F)) (U5 m c)
theorem U6_eq (m : (ℓ : Loc nD τ sig) → Buf (Elt F) ℓ) (c : Dev nD) : U6 m c = after (seg5 (F := F)) (U5 m c) := rfl
/-- The buffers after segment 6. -/
def U7 (m : (ℓ : Loc nD τ sig) → Buf (Elt F) ℓ) (c : Dev nD) : Valuation τ sig (Elt F) := after (seg6 (F := F)) (U6 m c)
theorem U7_eq (m : (ℓ : Loc nD τ sig) → Buf (Elt F) ℓ) (c : Dev nD) : U7 m c = after (seg6 (F := F)) (U6 m c) := rfl
/-- The buffers after segment 7. -/
def U8 (m : (ℓ : Loc nD τ sig) → Buf (Elt F) ℓ) (c : Dev nD) : Valuation τ sig (Elt F) := after (seg7 (F := F)) (U7 m c)
theorem U8_eq (m : (ℓ : Loc nD τ sig) → Buf (Elt F) ℓ) (c : Dev nD) : U8 m c = after (seg7 (F := F)) (U7 m c) := rfl
/-- The buffers after segment 8. -/
def U9 (m : (ℓ : Loc nD τ sig) → Buf (Elt F) ℓ) (c : Dev nD) : Valuation τ sig (Elt F) := after (seg8 (F := F)) (U8 m c)
theorem U9_eq (m : (ℓ : Loc nD τ sig) → Buf (Elt F) ℓ) (c : Dev nD) : U9 m c = after (seg8 (F := F)) (U8 m c) := rfl
/-- The buffers after segment 9. -/
def U10 (m : (ℓ : Loc nD τ sig) → Buf (Elt F) ℓ) (c : Dev nD) : Valuation τ sig (Elt F) := after (seg9 (F := F)) (U9 m c)
theorem U10_eq (m : (ℓ : Loc nD τ sig) → Buf (Elt F) ℓ) (c : Dev nD) : U10 m c = after (seg9 (F := F)) (U9 m c) := rfl

end Cert.RVal

end
-- ==== Proof.RefMain.lean ====
/-
  The reference program as the straight line of its ten segments: its @main is the sequence of the segments'
  operations in order, every operation touches TensorCore buffers only and none allocates, so every weakly fair
  execution terminates with each buffer at the contents the last segment leaves.
-/
import proofs.«127734_j69286412419642_2_alg».proof.Proof.RefSegs
import Idealize.ShloMosaic.Lib.StableHlo.Run

noncomputable section

namespace Cert.RVal

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the ten segments in order. -/
abbrev opsAll : List (HloOp τ sig (Elt F)) := seg0 ++ seg1 ++ seg2 ++ seg3 ++ seg4 ++ seg5 ++ seg6 ++ seg7 ++ seg8 ++ seg9

set_option maxRecDepth 16384 in
set_option maxHeartbeats 4000000 in
/-- The reference's @main is the straight line of these operations. -/
theorem main_eq (c : Dev nD) : main (F := F) c = seq (opsAll (F := F)) := rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and none allocates. -/
theorem seg0_sub : (seg0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub ..⟩
theorem seg1_sub : (seg1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg2_sub : (seg2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg3_sub : (seg3 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg4_sub : (seg4 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg5_sub : (seg5 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg6_sub : (seg6 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg7_sub : (seg7 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg8_sub : (seg8 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg9_sub : (seg9 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

theorem seg0_fresh : (seg0 : List (HloOp τ sig (Elt F))).Forall fun op => op.fresh = ∅ := by
  simp only [List.Forall]; repeat' constructor
theorem seg1_fresh : (seg1 : List (HloOp τ sig (Elt F))).Forall fun op => op.fresh = ∅ := by
  simp only [List.Forall]; repeat' constructor
theorem seg2_fresh : (seg2 : List (HloOp τ sig (Elt F))).Forall fun op => op.fresh = ∅ := by
  simp only [List.Forall]; repeat' constructor
theorem seg3_fresh : (seg3 : List (HloOp τ sig (Elt F))).Forall fun op => op.fresh = ∅ := by
  simp only [List.Forall]; repeat' constructor
theorem seg4_fresh : (seg4 : List (HloOp τ sig (Elt F))).Forall fun op => op.fresh = ∅ := by
  simp only [List.Forall]; repeat' constructor
theorem seg5_fresh : (seg5 : List (HloOp τ sig (Elt F))).Forall fun op => op.fresh = ∅ := by
  simp only [List.Forall]; repeat' constructor
theorem seg6_fresh : (seg6 : List (HloOp τ sig (Elt F))).Forall fun op => op.fresh = ∅ := by
  simp only [List.Forall]; repeat' constructor
theorem seg7_fresh : (seg7 : List (HloOp τ sig (Elt F))).Forall fun op => op.fresh = ∅ := by
  simp only [List.Forall]; repeat' constructor
theorem seg8_fresh : (seg8 : List (HloOp τ sig (Elt F))).Forall fun op => op.fresh = ∅ := by
  simp only [List.Forall]; repeat' constructor
theorem seg9_fresh : (seg9 : List (HloOp τ sig (Elt F))).Forall fun op => op.fresh = ∅ := by
  simp only [List.Forall]; repeat' constructor

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem opsAll_sub : (opsAll : List (HloOp τ sig (Elt F))).Forall fun op => op.bufs ⊆ tcRefs τ sig :=
  forall_append (forall_append (forall_append (forall_append (forall_append (forall_append (forall_append (forall_append
    (forall_append seg0_sub seg1_sub) seg2_sub) seg3_sub) seg4_sub) seg5_sub) seg6_sub) seg7_sub) seg8_sub) seg9_sub

theorem opsAll_fresh : (opsAll : List (HloOp τ sig (Elt F))).Forall fun op => op.fresh = ∅ :=
  forall_append (forall_append (forall_append (forall_append (forall_append (forall_append (forall_append (forall_append
    (forall_append seg0_fresh seg1_fresh) seg2_fresh) seg3_fresh) seg4_fresh) seg5_fresh) seg6_fresh) seg7_fresh) seg8_fresh) seg9_fresh

/-- Running all the operations from the launch contents leaves the last boundary's contents. -/
theorem after_opsAll (m : (ℓ : Loc nD τ sig) → Buf (Elt F) ℓ) (c : Dev nD) :
    after (opsAll (F := F)) (launchContents m c) = U10 m c := by
  simp only [opsAll, after_append]
  rfl

/-- Every weakly fair execution of the reference's @main terminates with every buffer at the last boundary's contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = U10 m d (Proc.devRef .tc b) :=
  (θ_run defs _ _).mono (fun _ h d b => (h d b).trans (congrFun (after_opsAll m d) _))
    (run_seq scopedRefs_eq scopedSems_eq defs main (fun _ => opsAll) main_eq (fun _ => opsAll_sub) m ρ
      (fun _ => List.forall_iff_forall_mem.mp opsAll_fresh))

end Cert.RVal

end
-- ==== Proof.RefKeep.lean ====
/-
  Buffers that live across the reference program: no operation writes an argument array, and the two columns of the
  edge list and the three per-edge and per-node factor arrays are written once, in the first segment of operations.
  So at every later segment boundary of the program's fold of buffer contents each still holds what it held after the
  first segment — an argument array what it was launched with.
-/
import proofs.«127734_j69286412419642_2_alg».proof.Proof.RefSegs

set_option maxRecDepth 16384

noncomputable section

namespace Cert.RVal

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The argument arrays. -/
abbrev keptArgs : List (Ref sig .tc) := [main_arg0, main_arg1, main_arg2, main_arg3, main_arg4, main_arg5, main_arg6, main_arg7, main_arg8, main_arg9, main_arg10]

/-- The long-lived buffers: the argument arrays and five results of the first segment. -/
abbrev kept : List (Ref sig .tc) := [main_arg0, main_arg1, main_arg2, main_arg3, main_arg4, main_arg5, main_arg6, main_arg7, main_arg8, main_arg9, main_arg10, main_v1, main_v3, main_v11, main_v27, main_v29]

/-- Before the first segment a buffer holds what the program was launched with. -/
theorem U0_at (c : Dev nD) (b : Ref sig .tc) : U0 m c (Proc.devRef .tc b) = m ((c.tc : Thread nD τ).loc b) := rfl

set_option maxHeartbeats 1000000 in
/-- Segment 0 writes none of them: each of its operations writes one buffer, and that buffer is another. -/
theorem step0 (c : Dev nD) (b : Ref sig .tc) (hb : b ∈ keptArgs) :
    U1 m c (Proc.devRef .tc b) = U0 m c (Proc.devRef .tc b) := by
  rw [U1_eq]
  refine after_of_forall_not_mem _ _ (List.forall_iff_forall_mem.mp ?_)
  simp only [seg0, List.Forall, nullary_writes, unary_writes, binary_writes, ternary_writes, quaternary_writes, reshape_writes, binaryIndexed_writes, nary_writes, unaryIndexed_writes, Finset.mem_singleton]
  simp only [keptArgs, List.mem_cons, List.not_mem_nil, or_false] at hb
  rcases hb with rfl | rfl | rfl | rfl | rfl | rfl | rfl | rfl | rfl | rfl | rfl
  all_goals (repeat' apply And.intro)
  all_goals exact devRef_ne_of_ne (by decide)

set_option maxHeartbeats 1000000 in
/-- Segment 1 writes none of them: each of its operations writes one buffer, and that buffer is another. -/
theorem step1 (c : Dev nD) (b : Ref sig .tc) (hb : b ∈ kept) :
    U2 m c (Proc.devRef .tc b) = U1 m c (Proc.devRef .tc b) := by
  rw [U2_eq]
  refine after_of_forall_not_mem _ _ (List.forall_iff_forall_mem.mp ?_)
  simp only [seg1, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 2 writes none of them: each of its operations writes one buffer, and that buffer is another. -/
theorem step2 (c : Dev nD) (b : Ref sig .tc) (hb : b ∈ kept) :
    U3 m c (Proc.devRef .tc b) = U2 m c (Proc.devRef .tc b) := by
  rw [U3_eq]
  refine after_of_forall_not_mem _ _ (List.forall_iff_forall_mem.mp ?_)
  simp only [seg2, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 3 writes none of them: each of its operations writes one buffer, and that buffer is another. -/
theorem step3 (c : Dev nD) (b : Ref sig .tc) (hb : b ∈ kept) :
    U4 m c (Proc.devRef .tc b) = U3 m c (Proc.devRef .tc b) := by
  rw [U4_eq]
  refine after_of_forall_not_mem _ _ (List.forall_iff_forall_mem.mp ?_)
  simp only [seg3, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 4 writes none of them: each of its operations writes one buffer, and that buffer is another. -/
theorem step4 (c : Dev nD) (b : Ref sig .tc) (hb : b ∈ kept) :
    U5 m c (Proc.devRef .tc b) = U4 m c (Proc.devRef .tc b) := by
  rw [U5_eq]
  refine after_of_forall_not_mem _ _ (List.forall_iff_forall_mem.mp ?_)
  simp only [seg4, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 5 writes none of them: each of its operations writes one buffer, and that buffer is another. -/
theorem step5 (c : Dev nD) (b : Ref sig .tc) (hb : b ∈ kept) :
    U6 m c (Proc.devRef .tc b) = U5 m c (Proc.devRef .tc b) := by
  rw [U6_eq]
  refine after_of_forall_not_mem _ _ (List.forall_iff_forall_mem.mp ?_)
  simp only [seg5, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 6 writes none of them: each of its operations writes one buffer, and that buffer is another. -/
theorem step6 (c : Dev nD) (b : Ref sig .tc) (hb : b ∈ kept) :
    U7 m c (Proc.devRef .tc b) = U6 m c (Proc.devRef .tc b) := by
  rw [U7_eq]
  refine after_of_forall_not_mem _ _ (List.forall_iff_forall_mem.mp ?_)
  simp only [seg6, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 7 writes none of them: each of its operations writes one buffer, and that buffer is another. -/
theorem step7 (c : Dev nD) (b : Ref sig .tc) (hb : b ∈ kept) :
    U8 m c (Proc.devRef .tc b) = U7 m c (Proc.devRef .tc b) := by
  rw [U8_eq]
  refine after_of_forall_not_mem _ _ (List.forall_iff_forall_mem.mp ?_)
  simp only [seg7, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 8 writes none of them: each of its operations writes one buffer, and that buffer is another. -/
theorem step8 (c : Dev nD) (b : Ref sig .tc) (hb : b ∈ kept) :
    U9 m c (Proc.devRef .tc b) = U8 m c (Proc.devRef .tc b) := by
  rw [U9_eq]
  refine after_of_forall_not_mem _ _ (List.forall_iff_forall_mem.mp ?_)
  simp only [seg8, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

set_option maxHeartbeats 1000000 in
/-- Segment 9 writes none of them: each of its operations writes one buffer, and that buffer is another. -/
theorem step9 (c : Dev nD) (b : Ref sig .tc) (hb : b ∈ kept) :
    U10 m c (Proc.devRef .tc b) = U9 m c (Proc.devRef .tc b) := by
  rw [U10_eq]
  refine after_of_forall_not_mem _ _ (List.forall_iff_forall_mem.mp ?_)
  simp only [seg9, List.Forall, nullary_writes, unary_writes, binary_writes, ternary_writes, quaternary_writes, reshape_writes, binaryIndexed_writes, nary_writes, unaryIndexed_writes, Finset.mem_singleton]
  simp only [kept, List.mem_cons, List.not_mem_nil, or_false] at hb
  rcases hb with rfl | rfl | rfl | rfl | rfl | rfl | rfl | rfl | rfl | rfl | rfl | rfl | rfl | rfl | rfl | rfl
  all_goals (repeat' apply And.intro)
  all_goals exact devRef_ne_of_ne (by decide)

/-! ## The argument arrays at every boundary -/

theorem keep_arg0_1 (c : Dev nD) : U1 m c (Proc.devRef .tc main_arg0) = m ((c.tc : Thread nD τ).loc main_arg0) :=
  (step0 m c main_arg0 (by decide)).trans (U0_at m c main_arg0)
theorem keep_arg0_2 (c : Dev nD) : U2 m c (Proc.devRef .tc main_arg0) = m ((c.tc : Thread nD τ).loc main_arg0) :=
  (step1 m c main_arg0 (by decide)).trans (keep_arg0_1 m c)
theorem keep_arg0_3 (c : Dev nD) : U3 m c (Proc.devRef .tc main_arg0) = m ((c.tc : Thread nD τ).loc main_arg0) :=
  (step2 m c main_arg0 (by decide)).trans (keep_arg0_2 m c)
theorem keep_arg0_4 (c : Dev nD) : U4 m c (Proc.devRef .tc main_arg0) = m ((c.tc : Thread nD τ).loc main_arg0) :=
  (step3 m c main_arg0 (by decide)).trans (keep_arg0_3 m c)
theorem keep_arg0_5 (c : Dev nD) : U5 m c (Proc.devRef .tc main_arg0) = m ((c.tc : Thread nD τ).loc main_arg0) :=
  (step4 m c main_arg0 (by decide)).trans (keep_arg0_4 m c)
theorem keep_arg0_6 (c : Dev nD) : U6 m c (Proc.devRef .tc main_arg0) = m ((c.tc : Thread nD τ).loc main_arg0) :=
  (step5 m c main_arg0 (by decide)).trans (keep_arg0_5 m c)
theorem keep_arg0_7 (c : Dev nD) : U7 m c (Proc.devRef .tc main_arg0) = m ((c.tc : Thread nD τ).loc main_arg0) :=
  (step6 m c main_arg0 (by decide)).trans (keep_arg0_6 m c)
theorem keep_arg0_8 (c : Dev nD) : U8 m c (Proc.devRef .tc main_arg0) = m ((c.tc : Thread nD τ).loc main_arg0) :=
  (step7 m c main_arg0 (by decide)).trans (keep_arg0_7 m c)
theorem keep_arg0_9 (c : Dev nD) : U9 m c (Proc.devRef .tc main_arg0) = m ((c.tc : Thread nD τ).loc main_arg0) :=
  (step8 m c main_arg0 (by decide)).trans (keep_arg0_8 m c)
theorem keep_arg0_10 (c : Dev nD) : U10 m c (Proc.devRef .tc main_arg0) = m ((c.tc : Thread nD τ).loc main_arg0) :=
  (step9 m c main_arg0 (by decide)).trans (keep_arg0_9 m c)

theorem keep_arg1_1 (c : Dev nD) : U1 m c (Proc.devRef .tc main_arg1) = m ((c.tc : Thread nD τ).loc main_arg1) :=
  (step0 m c main_arg1 (by decide)).trans (U0_at m c main_arg1)
theorem keep_arg1_2 (c : Dev nD) : U2 m c (Proc.devRef .tc main_arg1) = m ((c.tc : Thread nD τ).loc main_arg1) :=
  (step1 m c main_arg1 (by decide)).trans (keep_arg1_1 m c)
theorem keep_arg1_3 (c : Dev nD) : U3 m c (Proc.devRef .tc main_arg1) = m ((c.tc : Thread nD τ).loc main_arg1) :=
  (step2 m c main_arg1 (by decide)).trans (keep_arg1_2 m c)
theorem keep_arg1_4 (c : Dev nD) : U4 m c (Proc.devRef .tc main_arg1) = m ((c.tc : Thread nD τ).loc main_arg1) :=
  (step3 m c main_arg1 (by decide)).trans (keep_arg1_3 m c)
theorem keep_arg1_5 (c : Dev nD) : U5 m c (Proc.devRef .tc main_arg1) = m ((c.tc : Thread nD τ).loc main_arg1) :=
  (step4 m c main_arg1 (by decide)).trans (keep_arg1_4 m c)
theorem keep_arg1_6 (c : Dev nD) : U6 m c (Proc.devRef .tc main_arg1) = m ((c.tc : Thread nD τ).loc main_arg1) :=
  (step5 m c main_arg1 (by decide)).trans (keep_arg1_5 m c)
theorem keep_arg1_7 (c : Dev nD) : U7 m c (Proc.devRef .tc main_arg1) = m ((c.tc : Thread nD τ).loc main_arg1) :=
  (step6 m c main_arg1 (by decide)).trans (keep_arg1_6 m c)
theorem keep_arg1_8 (c : Dev nD) : U8 m c (Proc.devRef .tc main_arg1) = m ((c.tc : Thread nD τ).loc main_arg1) :=
  (step7 m c main_arg1 (by decide)).trans (keep_arg1_7 m c)
theorem keep_arg1_9 (c : Dev nD) : U9 m c (Proc.devRef .tc main_arg1) = m ((c.tc : Thread nD τ).loc main_arg1) :=
  (step8 m c main_arg1 (by decide)).trans (keep_arg1_8 m c)
theorem keep_arg1_10 (c : Dev nD) : U10 m c (Proc.devRef .tc main_arg1) = m ((c.tc : Thread nD τ).loc main_arg1) :=
  (step9 m c main_arg1 (by decide)).trans (keep_arg1_9 m c)

theorem keep_arg2_1 (c : Dev nD) : U1 m c (Proc.devRef .tc main_arg2) = m ((c.tc : Thread nD τ).loc main_arg2) :=
  (step0 m c main_arg2 (by decide)).trans (U0_at m c main_arg2)
theorem keep_arg2_2 (c : Dev nD) : U2 m c (Proc.devRef .tc main_arg2) = m ((c.tc : Thread nD τ).loc main_arg2) :=
  (step1 m c main_arg2 (by decide)).trans (keep_arg2_1 m c)
theorem keep_arg2_3 (c : Dev nD) : U3 m c (Proc.devRef .tc main_arg2) = m ((c.tc : Thread nD τ).loc main_arg2) :=
  (step2 m c main_arg2 (by decide)).trans (keep_arg2_2 m c)
theorem keep_arg2_4 (c : Dev nD) : U4 m c (Proc.devRef .tc main_arg2) = m ((c.tc : Thread nD τ).loc main_arg2) :=
  (step3 m c main_arg2 (by decide)).trans (keep_arg2_3 m c)
theorem keep_arg2_5 (c : Dev nD) : U5 m c (Proc.devRef .tc main_arg2) = m ((c.tc : Thread nD τ).loc main_arg2) :=
  (step4 m c main_arg2 (by decide)).trans (keep_arg2_4 m c)
theorem keep_arg2_6 (c : Dev nD) : U6 m c (Proc.devRef .tc main_arg2) = m ((c.tc : Thread nD τ).loc main_arg2) :=
  (step5 m c main_arg2 (by decide)).trans (keep_arg2_5 m c)
theorem keep_arg2_7 (c : Dev nD) : U7 m c (Proc.devRef .tc main_arg2) = m ((c.tc : Thread nD τ).loc main_arg2) :=
  (step6 m c main_arg2 (by decide)).trans (keep_arg2_6 m c)
theorem keep_arg2_8 (c : Dev nD) : U8 m c (Proc.devRef .tc main_arg2) = m ((c.tc : Thread nD τ).loc main_arg2) :=
  (step7 m c main_arg2 (by decide)).trans (keep_arg2_7 m c)
theorem keep_arg2_9 (c : Dev nD) : U9 m c (Proc.devRef .tc main_arg2) = m ((c.tc : Thread nD τ).loc main_arg2) :=
  (step8 m c main_arg2 (by decide)).trans (keep_arg2_8 m c)
theorem keep_arg2_10 (c : Dev nD) : U10 m c (Proc.devRef .tc main_arg2) = m ((c.tc : Thread nD τ).loc main_arg2) :=
  (step9 m c main_arg2 (by decide)).trans (keep_arg2_9 m c)

theorem keep_arg3_1 (c : Dev nD) : U1 m c (Proc.devRef .tc main_arg3) = m ((c.tc : Thread nD τ).loc main_arg3) :=
  (step0 m c main_arg3 (by decide)).trans (U0_at m c main_arg3)
theorem keep_arg3_2 (c : Dev nD) : U2 m c (Proc.devRef .tc main_arg3) = m ((c.tc : Thread nD τ).loc main_arg3) :=
  (step1 m c main_arg3 (by decide)).trans (keep_arg3_1 m c)
theorem keep_arg3_3 (c : Dev nD) : U3 m c (Proc.devRef .tc main_arg3) = m ((c.tc : Thread nD τ).loc main_arg3) :=
  (step2 m c main_arg3 (by decide)).trans (keep_arg3_2 m c)
theorem keep_arg3_4 (c : Dev nD) : U4 m c (Proc.devRef .tc main_arg3) = m ((c.tc : Thread nD τ).loc main_arg3) :=
  (step3 m c main_arg3 (by decide)).trans (keep_arg3_3 m c)
theorem keep_arg3_5 (c : Dev nD) : U5 m c (Proc.devRef .tc main_arg3) = m ((c.tc : Thread nD τ).loc main_arg3) :=
  (step4 m c main_arg3 (by decide)).trans (keep_arg3_4 m c)
theorem keep_arg3_6 (c : Dev nD) : U6 m c (Proc.devRef .tc main_arg3) = m ((c.tc : Thread nD τ).loc main_arg3) :=
  (step5 m c main_arg3 (by decide)).trans (keep_arg3_5 m c)
theorem keep_arg3_7 (c : Dev nD) : U7 m c (Proc.devRef .tc main_arg3) = m ((c.tc : Thread nD τ).loc main_arg3) :=
  (step6 m c main_arg3 (by decide)).trans (keep_arg3_6 m c)
theorem keep_arg3_8 (c : Dev nD) : U8 m c (Proc.devRef .tc main_arg3) = m ((c.tc : Thread nD τ).loc main_arg3) :=
  (step7 m c main_arg3 (by decide)).trans (keep_arg3_7 m c)
theorem keep_arg3_9 (c : Dev nD) : U9 m c (Proc.devRef .tc main_arg3) = m ((c.tc : Thread nD τ).loc main_arg3) :=
  (step8 m c main_arg3 (by decide)).trans (keep_arg3_8 m c)
theorem keep_arg3_10 (c : Dev nD) : U10 m c (Proc.devRef .tc main_arg3) = m ((c.tc : Thread nD τ).loc main_arg3) :=
  (step9 m c main_arg3 (by decide)).trans (keep_arg3_9 m c)

theorem keep_arg4_1 (c : Dev nD) : U1 m c (Proc.devRef .tc main_arg4) = m ((c.tc : Thread nD τ).loc main_arg4) :=
  (step0 m c main_arg4 (by decide)).trans (U0_at m c main_arg4)
theorem keep_arg4_2 (c : Dev nD) : U2 m c (Proc.devRef .tc main_arg4) = m ((c.tc : Thread nD τ).loc main_arg4) :=
  (step1 m c main_arg4 (by decide)).trans (keep_arg4_1 m c)
theorem keep_arg4_3 (c : Dev nD) : U3 m c (Proc.devRef .tc main_arg4) = m ((c.tc : Thread nD τ).loc main_arg4) :=
  (step2 m c main_arg4 (by decide)).trans (keep_arg4_2 m c)
theorem keep_arg4_4 (c : Dev nD) : U4 m c (Proc.devRef .tc main_arg4) = m ((c.tc : Thread nD τ).loc main_arg4) :=
  (step3 m c main_arg4 (by decide)).trans (keep_arg4_3 m c)
theorem keep_arg4_5 (c : Dev nD) : U5 m c (Proc.devRef .tc main_arg4) = m ((c.tc : Thread nD τ).loc main_arg4) :=
  (step4 m c main_arg4 (by decide)).trans (keep_arg4_4 m c)
theorem keep_arg4_6 (c : Dev nD) : U6 m c (Proc.devRef .tc main_arg4) = m ((c.tc : Thread nD τ).loc main_arg4) :=
  (step5 m c main_arg4 (by decide)).trans (keep_arg4_5 m c)
theorem keep_arg4_7 (c : Dev nD) : U7 m c (Proc.devRef .tc main_arg4) = m ((c.tc : Thread nD τ).loc main_arg4) :=
  (step6 m c main_arg4 (by decide)).trans (keep_arg4_6 m c)
theorem keep_arg4_8 (c : Dev nD) : U8 m c (Proc.devRef .tc main_arg4) = m ((c.tc : Thread nD τ).loc main_arg4) :=
  (step7 m c main_arg4 (by decide)).trans (keep_arg4_7 m c)
theorem keep_arg4_9 (c : Dev nD) : U9 m c (Proc.devRef .tc main_arg4) = m ((c.tc : Thread nD τ).loc main_arg4) :=
  (step8 m c main_arg4 (by decide)).trans (keep_arg4_8 m c)
theorem keep_arg4_10 (c : Dev nD) : U10 m c (Proc.devRef .tc main_arg4) = m ((c.tc : Thread nD τ).loc main_arg4) :=
  (step9 m c main_arg4 (by decide)).trans (keep_arg4_9 m c)

theorem keep_arg5_1 (c : Dev nD) : U1 m c (Proc.devRef .tc main_arg5) = m ((c.tc : Thread nD τ).loc main_arg5) :=
  (step0 m c main_arg5 (by decide)).trans (U0_at m c main_arg5)
theorem keep_arg5_2 (c : Dev nD) : U2 m c (Proc.devRef .tc main_arg5) = m ((c.tc : Thread nD τ).loc main_arg5) :=
  (step1 m c main_arg5 (by decide)).trans (keep_arg5_1 m c)
theorem keep_arg5_3 (c : Dev nD) : U3 m c (Proc.devRef .tc main_arg5) = m ((c.tc : Thread nD τ).loc main_arg5) :=
  (step2 m c main_arg5 (by decide)).trans (keep_arg5_2 m c)
theorem keep_arg5_4 (c : Dev nD) : U4 m c (Proc.devRef .tc main_arg5) = m ((c.tc : Thread nD τ).loc main_arg5) :=
  (step3 m c main_arg5 (by decide)).trans (keep_arg5_3 m c)
theorem keep_arg5_5 (c : Dev nD) : U5 m c (Proc.devRef .tc main_arg5) = m ((c.tc : Thread nD τ).loc main_arg5) :=
  (step4 m c main_arg5 (by decide)).trans (keep_arg5_4 m c)
theorem keep_arg5_6 (c : Dev nD) : U6 m c (Proc.devRef .tc main_arg5) = m ((c.tc : Thread nD τ).loc main_arg5) :=
  (step5 m c main_arg5 (by decide)).trans (keep_arg5_5 m c)
theorem keep_arg5_7 (c : Dev nD) : U7 m c (Proc.devRef .tc main_arg5) = m ((c.tc : Thread nD τ).loc main_arg5) :=
  (step6 m c main_arg5 (by decide)).trans (keep_arg5_6 m c)
theorem keep_arg5_8 (c : Dev nD) : U8 m c (Proc.devRef .tc main_arg5) = m ((c.tc : Thread nD τ).loc main_arg5) :=
  (step7 m c main_arg5 (by decide)).trans (keep_arg5_7 m c)
theorem keep_arg5_9 (c : Dev nD) : U9 m c (Proc.devRef .tc main_arg5) = m ((c.tc : Thread nD τ).loc main_arg5) :=
  (step8 m c main_arg5 (by decide)).trans (keep_arg5_8 m c)
theorem keep_arg5_10 (c : Dev nD) : U10 m c (Proc.devRef .tc main_arg5) = m ((c.tc : Thread nD τ).loc main_arg5) :=
  (step9 m c main_arg5 (by decide)).trans (keep_arg5_9 m c)

theorem keep_arg6_1 (c : Dev nD) : U1 m c (Proc.devRef .tc main_arg6) = m ((c.tc : Thread nD τ).loc main_arg6) :=
  (step0 m c main_arg6 (by decide)).trans (U0_at m c main_arg6)
theorem keep_arg6_2 (c : Dev nD) : U2 m c (Proc.devRef .tc main_arg6) = m ((c.tc : Thread nD τ).loc main_arg6) :=
  (step1 m c main_arg6 (by decide)).trans (keep_arg6_1 m c)
theorem keep_arg6_3 (c : Dev nD) : U3 m c (Proc.devRef .tc main_arg6) = m ((c.tc : Thread nD τ).loc main_arg6) :=
  (step2 m c main_arg6 (by decide)).trans (keep_arg6_2 m c)
theorem keep_arg6_4 (c : Dev nD) : U4 m c (Proc.devRef .tc main_arg6) = m ((c.tc : Thread nD τ).loc main_arg6) :=
  (step3 m c main_arg6 (by decide)).trans (keep_arg6_3 m c)
theorem keep_arg6_5 (c : Dev nD) : U5 m c (Proc.devRef .tc main_arg6) = m ((c.tc : Thread nD τ).loc main_arg6) :=
  (step4 m c main_arg6 (by decide)).trans (keep_arg6_4 m c)
theorem keep_arg6_6 (c : Dev nD) : U6 m c (Proc.devRef .tc main_arg6) = m ((c.tc : Thread nD τ).loc main_arg6) :=
  (step5 m c main_arg6 (by decide)).trans (keep_arg6_5 m c)
theorem keep_arg6_7 (c : Dev nD) : U7 m c (Proc.devRef .tc main_arg6) = m ((c.tc : Thread nD τ).loc main_arg6) :=
  (step6 m c main_arg6 (by decide)).trans (keep_arg6_6 m c)
theorem keep_arg6_8 (c : Dev nD) : U8 m c (Proc.devRef .tc main_arg6) = m ((c.tc : Thread nD τ).loc main_arg6) :=
  (step7 m c main_arg6 (by decide)).trans (keep_arg6_7 m c)
theorem keep_arg6_9 (c : Dev nD) : U9 m c (Proc.devRef .tc main_arg6) = m ((c.tc : Thread nD τ).loc main_arg6) :=
  (step8 m c main_arg6 (by decide)).trans (keep_arg6_8 m c)
theorem keep_arg6_10 (c : Dev nD) : U10 m c (Proc.devRef .tc main_arg6) = m ((c.tc : Thread nD τ).loc main_arg6) :=
  (step9 m c main_arg6 (by decide)).trans (keep_arg6_9 m c)

theorem keep_arg7_1 (c : Dev nD) : U1 m c (Proc.devRef .tc main_arg7) = m ((c.tc : Thread nD τ).loc main_arg7) :=
  (step0 m c main_arg7 (by decide)).trans (U0_at m c main_arg7)
theorem keep_arg7_2 (c : Dev nD) : U2 m c (Proc.devRef .tc main_arg7) = m ((c.tc : Thread nD τ).loc main_arg7) :=
  (step1 m c main_arg7 (by decide)).trans (keep_arg7_1 m c)
theorem keep_arg7_3 (c : Dev nD) : U3 m c (Proc.devRef .tc main_arg7) = m ((c.tc : Thread nD τ).loc main_arg7) :=
  (step2 m c main_arg7 (by decide)).trans (keep_arg7_2 m c)
theorem keep_arg7_4 (c : Dev nD) : U4 m c (Proc.devRef .tc main_arg7) = m ((c.tc : Thread nD τ).loc main_arg7) :=
  (step3 m c main_arg7 (by decide)).trans (keep_arg7_3 m c)
theorem keep_arg7_5 (c : Dev nD) : U5 m c (Proc.devRef .tc main_arg7) = m ((c.tc : Thread nD τ).loc main_arg7) :=
  (step4 m c main_arg7 (by decide)).trans (keep_arg7_4 m c)
theorem keep_arg7_6 (c : Dev nD) : U6 m c (Proc.devRef .tc main_arg7) = m ((c.tc : Thread nD τ).loc main_arg7) :=
  (step5 m c main_arg7 (by decide)).trans (keep_arg7_5 m c)
theorem keep_arg7_7 (c : Dev nD) : U7 m c (Proc.devRef .tc main_arg7) = m ((c.tc : Thread nD τ).loc main_arg7) :=
  (step6 m c main_arg7 (by decide)).trans (keep_arg7_6 m c)
theorem keep_arg7_8 (c : Dev nD) : U8 m c (Proc.devRef .tc main_arg7) = m ((c.tc : Thread nD τ).loc main_arg7) :=
  (step7 m c main_arg7 (by decide)).trans (keep_arg7_7 m c)
theorem keep_arg7_9 (c : Dev nD) : U9 m c (Proc.devRef .tc main_arg7) = m ((c.tc : Thread nD τ).loc main_arg7) :=
  (step8 m c main_arg7 (by decide)).trans (keep_arg7_8 m c)
theorem keep_arg7_10 (c : Dev nD) : U10 m c (Proc.devRef .tc main_arg7) = m ((c.tc : Thread nD τ).loc main_arg7) :=
  (step9 m c main_arg7 (by decide)).trans (keep_arg7_9 m c)

theorem keep_arg8_1 (c : Dev nD) : U1 m c (Proc.devRef .tc main_arg8) = m ((c.tc : Thread nD τ).loc main_arg8) :=
  (step0 m c main_arg8 (by decide)).trans (U0_at m c main_arg8)
theorem keep_arg8_2 (c : Dev nD) : U2 m c (Proc.devRef .tc main_arg8) = m ((c.tc : Thread nD τ).loc main_arg8) :=
  (step1 m c main_arg8 (by decide)).trans (keep_arg8_1 m c)
theorem keep_arg8_3 (c : Dev nD) : U3 m c (Proc.devRef .tc main_arg8) = m ((c.tc : Thread nD τ).loc main_arg8) :=
  (step2 m c main_arg8 (by decide)).trans (keep_arg8_2 m c)
theorem keep_arg8_4 (c : Dev nD) : U4 m c (Proc.devRef .tc main_arg8) = m ((c.tc : Thread nD τ).loc main_arg8) :=
  (step3 m c main_arg8 (by decide)).trans (keep_arg8_3 m c)
theorem keep_arg8_5 (c : Dev nD) : U5 m c (Proc.devRef .tc main_arg8) = m ((c.tc : Thread nD τ).loc main_arg8) :=
  (step4 m c main_arg8 (by decide)).trans (keep_arg8_4 m c)
theorem keep_arg8_6 (c : Dev nD) : U6 m c (Proc.devRef .tc main_arg8) = m ((c.tc : Thread nD τ).loc main_arg8) :=
  (step5 m c main_arg8 (by decide)).trans (keep_arg8_5 m c)
theorem keep_arg8_7 (c : Dev nD) : U7 m c (Proc.devRef .tc main_arg8) = m ((c.tc : Thread nD τ).loc main_arg8) :=
  (step6 m c main_arg8 (by decide)).trans (keep_arg8_6 m c)
theorem keep_arg8_8 (c : Dev nD) : U8 m c (Proc.devRef .tc main_arg8) = m ((c.tc : Thread nD τ).loc main_arg8) :=
  (step7 m c main_arg8 (by decide)).trans (keep_arg8_7 m c)
theorem keep_arg8_9 (c : Dev nD) : U9 m c (Proc.devRef .tc main_arg8) = m ((c.tc : Thread nD τ).loc main_arg8) :=
  (step8 m c main_arg8 (by decide)).trans (keep_arg8_8 m c)
theorem keep_arg8_10 (c : Dev nD) : U10 m c (Proc.devRef .tc main_arg8) = m ((c.tc : Thread nD τ).loc main_arg8) :=
  (step9 m c main_arg8 (by decide)).trans (keep_arg8_9 m c)

theorem keep_arg9_1 (c : Dev nD) : U1 m c (Proc.devRef .tc main_arg9) = m ((c.tc : Thread nD τ).loc main_arg9) :=
  (step0 m c main_arg9 (by decide)).trans (U0_at m c main_arg9)
theorem keep_arg9_2 (c : Dev nD) : U2 m c (Proc.devRef .tc main_arg9) = m ((c.tc : Thread nD τ).loc main_arg9) :=
  (step1 m c main_arg9 (by decide)).trans (keep_arg9_1 m c)
theorem keep_arg9_3 (c : Dev nD) : U3 m c (Proc.devRef .tc main_arg9) = m ((c.tc : Thread nD τ).loc main_arg9) :=
  (step2 m c main_arg9 (by decide)).trans (keep_arg9_2 m c)
theorem keep_arg9_4 (c : Dev nD) : U4 m c (Proc.devRef .tc main_arg9) = m ((c.tc : Thread nD τ).loc main_arg9) :=
  (step3 m c main_arg9 (by decide)).trans (keep_arg9_3 m c)
theorem keep_arg9_5 (c : Dev nD) : U5 m c (Proc.devRef .tc main_arg9) = m ((c.tc : Thread nD τ).loc main_arg9) :=
  (step4 m c main_arg9 (by decide)).trans (keep_arg9_4 m c)
theorem keep_arg9_6 (c : Dev nD) : U6 m c (Proc.devRef .tc main_arg9) = m ((c.tc : Thread nD τ).loc main_arg9) :=
  (step5 m c main_arg9 (by decide)).trans (keep_arg9_5 m c)
theorem keep_arg9_7 (c : Dev nD) : U7 m c (Proc.devRef .tc main_arg9) = m ((c.tc : Thread nD τ).loc main_arg9) :=
  (step6 m c main_arg9 (by decide)).trans (keep_arg9_6 m c)
theorem keep_arg9_8 (c : Dev nD) : U8 m c (Proc.devRef .tc main_arg9) = m ((c.tc : Thread nD τ).loc main_arg9) :=
  (step7 m c main_arg9 (by decide)).trans (keep_arg9_7 m c)
theorem keep_arg9_9 (c : Dev nD) : U9 m c (Proc.devRef .tc main_arg9) = m ((c.tc : Thread nD τ).loc main_arg9) :=
  (step8 m c main_arg9 (by decide)).trans (keep_arg9_8 m c)
theorem keep_arg9_10 (c : Dev nD) : U10 m c (Proc.devRef .tc main_arg9) = m ((c.tc : Thread nD τ).loc main_arg9) :=
  (step9 m c main_arg9 (by decide)).trans (keep_arg9_9 m c)

theorem keep_arg10_1 (c : Dev nD) : U1 m c (Proc.devRef .tc main_arg10) = m ((c.tc : Thread nD τ).loc main_arg10) :=
  (step0 m c main_arg10 (by decide)).trans (U0_at m c main_arg10)
theorem keep_arg10_2 (c : Dev nD) : U2 m c (Proc.devRef .tc main_arg10) = m ((c.tc : Thread nD τ).loc main_arg10) :=
  (step1 m c main_arg10 (by decide)).trans (keep_arg10_1 m c)
theorem keep_arg10_3 (c : Dev nD) : U3 m c (Proc.devRef .tc main_arg10) = m ((c.tc : Thread nD τ).loc main_arg10) :=
  (step2 m c main_arg10 (by decide)).trans (keep_arg10_2 m c)
theorem keep_arg10_4 (c : Dev nD) : U4 m c (Proc.devRef .tc main_arg10) = m ((c.tc : Thread nD τ).loc main_arg10) :=
  (step3 m c main_arg10 (by decide)).trans (keep_arg10_3 m c)
theorem keep_arg10_5 (c : Dev nD) : U5 m c (Proc.devRef .tc main_arg10) = m ((c.tc : Thread nD τ).loc main_arg10) :=
  (step4 m c main_arg10 (by decide)).trans (keep_arg10_4 m c)
theorem keep_arg10_6 (c : Dev nD) : U6 m c (Proc.devRef .tc main_arg10) = m ((c.tc : Thread nD τ).loc main_arg10) :=
  (step5 m c main_arg10 (by decide)).trans (keep_arg10_5 m c)
theorem keep_arg10_7 (c : Dev nD) : U7 m c (Proc.devRef .tc main_arg10) = m ((c.tc : Thread nD τ).loc main_arg10) :=
  (step6 m c main_arg10 (by decide)).trans (keep_arg10_6 m c)
theorem keep_arg10_8 (c : Dev nD) : U8 m c (Proc.devRef .tc main_arg10) = m ((c.tc : Thread nD τ).loc main_arg10) :=
  (step7 m c main_arg10 (by decide)).trans (keep_arg10_7 m c)
theorem keep_arg10_9 (c : Dev nD) : U9 m c (Proc.devRef .tc main_arg10) = m ((c.tc : Thread nD τ).loc main_arg10) :=
  (step8 m c main_arg10 (by decide)).trans (keep_arg10_8 m c)
theorem keep_arg10_10 (c : Dev nD) : U10 m c (Proc.devRef .tc main_arg10) = m ((c.tc : Thread nD τ).loc main_arg10) :=
  (step9 m c main_arg10 (by decide)).trans (keep_arg10_9 m c)

/-! ## The first segment's long-lived results at every later boundary -/

theorem keep_v1_2 (c : Dev nD) : U2 m c (Proc.devRef .tc main_v1) = U1 m c (Proc.devRef .tc main_v1) :=
  step1 m c main_v1 (by decide)
theorem keep_v1_3 (c : Dev nD) : U3 m c (Proc.devRef .tc main_v1) = U1 m c (Proc.devRef .tc main_v1) :=
  (step2 m c main_v1 (by decide)).trans (keep_v1_2 m c)
theorem keep_v1_4 (c : Dev nD) : U4 m c (Proc.devRef .tc main_v1) = U1 m c (Proc.devRef .tc main_v1) :=
  (step3 m c main_v1 (by decide)).trans (keep_v1_3 m c)
theorem keep_v1_5 (c : Dev nD) : U5 m c (Proc.devRef .tc main_v1) = U1 m c (Proc.devRef .tc main_v1) :=
  (step4 m c main_v1 (by decide)).trans (keep_v1_4 m c)
theorem keep_v1_6 (c : Dev nD) : U6 m c (Proc.devRef .tc main_v1) = U1 m c (Proc.devRef .tc main_v1) :=
  (step5 m c main_v1 (by decide)).trans (keep_v1_5 m c)
theorem keep_v1_7 (c : Dev nD) : U7 m c (Proc.devRef .tc main_v1) = U1 m c (Proc.devRef .tc main_v1) :=
  (step6 m c main_v1 (by decide)).trans (keep_v1_6 m c)
theorem keep_v1_8 (c : Dev nD) : U8 m c (Proc.devRef .tc main_v1) = U1 m c (Proc.devRef .tc main_v1) :=
  (step7 m c main_v1 (by decide)).trans (keep_v1_7 m c)
theorem keep_v1_9 (c : Dev nD) : U9 m c (Proc.devRef .tc main_v1) = U1 m c (Proc.devRef .tc main_v1) :=
  (step8 m c main_v1 (by decide)).trans (keep_v1_8 m c)
theorem keep_v1_10 (c : Dev nD) : U10 m c (Proc.devRef .tc main_v1) = U1 m c (Proc.devRef .tc main_v1) :=
  (step9 m c main_v1 (by decide)).trans (keep_v1_9 m c)

theorem keep_v3_2 (c : Dev nD) : U2 m c (Proc.devRef .tc main_v3) = U1 m c (Proc.devRef .tc main_v3) :=
  step1 m c main_v3 (by decide)
theorem keep_v3_3 (c : Dev nD) : U3 m c (Proc.devRef .tc main_v3) = U1 m c (Proc.devRef .tc main_v3) :=
  (step2 m c main_v3 (by decide)).trans (keep_v3_2 m c)
theorem keep_v3_4 (c : Dev nD) : U4 m c (Proc.devRef .tc main_v3) = U1 m c (Proc.devRef .tc main_v3) :=
  (step3 m c main_v3 (by decide)).trans (keep_v3_3 m c)
theorem keep_v3_5 (c : Dev nD) : U5 m c (Proc.devRef .tc main_v3) = U1 m c (Proc.devRef .tc main_v3) :=
  (step4 m c main_v3 (by decide)).trans (keep_v3_4 m c)
theorem keep_v3_6 (c : Dev nD) : U6 m c (Proc.devRef .tc main_v3) = U1 m c (Proc.devRef .tc main_v3) :=
  (step5 m c main_v3 (by decide)).trans (keep_v3_5 m c)
theorem keep_v3_7 (c : Dev nD) : U7 m c (Proc.devRef .tc main_v3) = U1 m c (Proc.devRef .tc main_v3) :=
  (step6 m c main_v3 (by decide)).trans (keep_v3_6 m c)
theorem keep_v3_8 (c : Dev nD) : U8 m c (Proc.devRef .tc main_v3) = U1 m c (Proc.devRef .tc main_v3) :=
  (step7 m c main_v3 (by decide)).trans (keep_v3_7 m c)
theorem keep_v3_9 (c : Dev nD) : U9 m c (Proc.devRef .tc main_v3) = U1 m c (Proc.devRef .tc main_v3) :=
  (step8 m c main_v3 (by decide)).trans (keep_v3_8 m c)
theorem keep_v3_10 (c : Dev nD) : U10 m c (Proc.devRef .tc main_v3) = U1 m c (Proc.devRef .tc main_v3) :=
  (step9 m c main_v3 (by decide)).trans (keep_v3_9 m c)

theorem keep_v11_2 (c : Dev nD) : U2 m c (Proc.devRef .tc main_v11) = U1 m c (Proc.devRef .tc main_v11) :=
  step1 m c main_v11 (by decide)
theorem keep_v11_3 (c : Dev nD) : U3 m c (Proc.devRef .tc main_v11) = U1 m c (Proc.devRef .tc main_v11) :=
  (step2 m c main_v11 (by decide)).trans (keep_v11_2 m c)
theorem keep_v11_4 (c : Dev nD) : U4 m c (Proc.devRef .tc main_v11) = U1 m c (Proc.devRef .tc main_v11) :=
  (step3 m c main_v11 (by decide)).trans (keep_v11_3 m c)
theorem keep_v11_5 (c : Dev nD) : U5 m c (Proc.devRef .tc main_v11) = U1 m c (Proc.devRef .tc main_v11) :=
  (step4 m c main_v11 (by decide)).trans (keep_v11_4 m c)
theorem keep_v11_6 (c : Dev nD) : U6 m c (Proc.devRef .tc main_v11) = U1 m c (Proc.devRef .tc main_v11) :=
  (step5 m c main_v11 (by decide)).trans (keep_v11_5 m c)
theorem keep_v11_7 (c : Dev nD) : U7 m c (Proc.devRef .tc main_v11) = U1 m c (Proc.devRef .tc main_v11) :=
  (step6 m c main_v11 (by decide)).trans (keep_v11_6 m c)
theorem keep_v11_8 (c : Dev nD) : U8 m c (Proc.devRef .tc main_v11) = U1 m c (Proc.devRef .tc main_v11) :=
  (step7 m c main_v11 (by decide)).trans (keep_v11_7 m c)
theorem keep_v11_9 (c : Dev nD) : U9 m c (Proc.devRef .tc main_v11) = U1 m c (Proc.devRef .tc main_v11) :=
  (step8 m c main_v11 (by decide)).trans (keep_v11_8 m c)
theorem keep_v11_10 (c : Dev nD) : U10 m c (Proc.devRef .tc main_v11) = U1 m c (Proc.devRef .tc main_v11) :=
  (step9 m c main_v11 (by decide)).trans (keep_v11_9 m c)

theorem keep_v27_2 (c : Dev nD) : U2 m c (Proc.devRef .tc main_v27) = U1 m c (Proc.devRef .tc main_v27) :=
  step1 m c main_v27 (by decide)
theorem keep_v27_3 (c : Dev nD) : U3 m c (Proc.devRef .tc main_v27) = U1 m c (Proc.devRef .tc main_v27) :=
  (step2 m c main_v27 (by decide)).trans (keep_v27_2 m c)
theorem keep_v27_4 (c : Dev nD) : U4 m c (Proc.devRef .tc main_v27) = U1 m c (Proc.devRef .tc main_v27) :=
  (step3 m c main_v27 (by decide)).trans (keep_v27_3 m c)
theorem keep_v27_5 (c : Dev nD) : U5 m c (Proc.devRef .tc main_v27) = U1 m c (Proc.devRef .tc main_v27) :=
  (step4 m c main_v27 (by decide)).trans (keep_v27_4 m c)
theorem keep_v27_6 (c : Dev nD) : U6 m c (Proc.devRef .tc main_v27) = U1 m c (Proc.devRef .tc main_v27) :=
  (step5 m c main_v27 (by decide)).trans (keep_v27_5 m c)
theorem keep_v27_7 (c : Dev nD) : U7 m c (Proc.devRef .tc main_v27) = U1 m c (Proc.devRef .tc main_v27) :=
  (step6 m c main_v27 (by decide)).trans (keep_v27_6 m c)
theorem keep_v27_8 (c : Dev nD) : U8 m c (Proc.devRef .tc main_v27) = U1 m c (Proc.devRef .tc main_v27) :=
  (step7 m c main_v27 (by decide)).trans (keep_v27_7 m c)
theorem keep_v27_9 (c : Dev nD) : U9 m c (Proc.devRef .tc main_v27) = U1 m c (Proc.devRef .tc main_v27) :=
  (step8 m c main_v27 (by decide)).trans (keep_v27_8 m c)
theorem keep_v27_10 (c : Dev nD) : U10 m c (Proc.devRef .tc main_v27) = U1 m c (Proc.devRef .tc main_v27) :=
  (step9 m c main_v27 (by decide)).trans (keep_v27_9 m c)

theorem keep_v29_2 (c : Dev nD) : U2 m c (Proc.devRef .tc main_v29) = U1 m c (Proc.devRef .tc main_v29) :=
  step1 m c main_v29 (by decide)
theorem keep_v29_3 (c : Dev nD) : U3 m c (Proc.devRef .tc main_v29) = U1 m c (Proc.devRef .tc main_v29) :=
  (step2 m c main_v29 (by decide)).trans (keep_v29_2 m c)
theorem keep_v29_4 (c : Dev nD) : U4 m c (Proc.devRef .tc main_v29) = U1 m c (Proc.devRef .tc main_v29) :=
  (step3 m c main_v29 (by decide)).trans (keep_v29_3 m c)
theorem keep_v29_5 (c : Dev nD) : U5 m c (Proc.devRef .tc main_v29) = U1 m c (Proc.devRef .tc main_v29) :=
  (step4 m c main_v29 (by decide)).trans (keep_v29_4 m c)
theorem keep_v29_6 (c : Dev nD) : U6 m c (Proc.devRef .tc main_v29) = U1 m c (Proc.devRef .tc main_v29) :=
  (step5 m c main_v29 (by decide)).trans (keep_v29_5 m c)
theorem keep_v29_7 (c : Dev nD) : U7 m c (Proc.devRef .tc main_v29) = U1 m c (Proc.devRef .tc main_v29) :=
  (step6 m c main_v29 (by decide)).trans (keep_v29_6 m c)
theorem keep_v29_8 (c : Dev nD) : U8 m c (Proc.devRef .tc main_v29) = U1 m c (Proc.devRef .tc main_v29) :=
  (step7 m c main_v29 (by decide)).trans (keep_v29_7 m c)
theorem keep_v29_9 (c : Dev nD) : U9 m c (Proc.devRef .tc main_v29) = U1 m c (Proc.devRef .tc main_v29) :=
  (step8 m c main_v29 (by decide)).trans (keep_v29_8 m c)
theorem keep_v29_10 (c : Dev nD) : U10 m c (Proc.devRef .tc main_v29) = U1 m c (Proc.devRef .tc main_v29) :=
  (step9 m c main_v29 (by decide)).trans (keep_v29_9 m c)

end Cert.RVal

end
-- ==== Proof.RefStepsA.lean ====
/-
  Each segment of the reference program read at the buffers the later segments use: from any buffer contents that
  hold the segment's inputs, the segment's operations, folded in order, leave at each named buffer the value the
  corresponding stage of the program's reading writes. A round's segment needs the previous round's output (the
  input features for the first), the two edge columns, the repeated per-edge and per-node factors and the six
  parameter stacks; the set-up segment needs only the edge list; the tail needs the last round's output, the group
  column and the output weights and bias.
-/
import proofs.«127734_j69286412419642_2_alg».proof.Proof.RefSegs

noncomputable section

namespace Cert.RVal

open Cert.ReferenceIdeal Cert.ReferenceIdeal.Gen Cert.ReferenceIdeal.Read Idealize.ShloMosaic Idealize.ShloMosaic.TcCoe Idealize.SL.Sem Idealize.ShloMosaic.StableHlo

variable (V : Valuation τ sig (Elt Ideal))
variable (x0 : (⟨S50000x128, .f32⟩ : BufTy).Contents (Elt Ideal)) (x1 : (⟨S2x640000, .i32⟩ : BufTy).Contents (Elt Ideal))
  (x2 : (⟨S50000, .i32⟩ : BufTy).Contents (Elt Ideal)) (x3 : (⟨S8x128x128, .f32⟩ : BufTy).Contents (Elt Ideal))
  (x4 x5 x6 x7 x8 : (⟨S8x128, .f32⟩ : BufTy).Contents (Elt Ideal)) (x9 : (⟨S128x5, .f32⟩ : BufTy).Contents (Elt Ideal))
  (x10 : (⟨S5, .f32⟩ : BufTy).Contents (Elt Ideal))

/-! ## The set-up segment -/

/-- The set-up segment leaves at the buffer of operation 1 the value that stage writes, a function of the edge list. -/
theorem seg0_v1 (ha1 : V (Proc.devRef .tc main_arg1) = x1) :
    after (seg0 (F := Ideal)) V (Proc.devRef .tc main_v1) = val_main_v1 (F := Ideal) x1 := by
  after_results_simp
  rw [ha1]
  rfl

/-- The set-up segment leaves at the buffer of operation 3 the value that stage writes, a function of the edge list. -/
theorem seg0_v3 (ha1 : V (Proc.devRef .tc main_arg1) = x1) :
    after (seg0 (F := Ideal)) V (Proc.devRef .tc main_v3) = val_main_v3 (F := Ideal) x1 := by
  after_results_simp
  rw [ha1]
  rfl

/-- The set-up segment leaves at the buffer of operation 11 the value that stage writes, a function of the edge list. -/
theorem seg0_v11 (ha1 : V (Proc.devRef .tc main_arg1) = x1) :
    after (seg0 (F := Ideal)) V (Proc.devRef .tc main_v11) = val_main_v11 (F := Ideal) x1 := by
  after_results_simp
  rw [ha1]
  rfl

/-- The set-up segment leaves at the buffer of operation 27 the value that stage writes, a function of the edge list. -/
theorem seg0_v27 (ha1 : V (Proc.devRef .tc main_arg1) = x1) :
    after (seg0 (F := Ideal)) V (Proc.devRef .tc main_v27) = val_main_v27 (F := Ideal) x1 := by
  after_results_simp
  rw [ha1]
  rfl

/-- The set-up segment leaves at the buffer of operation 29 the value that stage writes, a function of the edge list. -/
theorem seg0_v29 (ha1 : V (Proc.devRef .tc main_arg1) = x1) :
    after (seg0 (F := Ideal)) V (Proc.devRef .tc main_v29) = val_main_v29 (F := Ideal) x1 := by
  after_results_simp
  rw [ha1]
  rfl

/-! ## Rounds 0 and 1 -/

/-- ROUND 0 READ OFF ITS SEGMENT: from any contents that hold the input features, the two edge columns, the
    two repeated factors and the parameter stacks, the segment's operations leave the round's output at its buffer. -/
theorem rstep0
    (hH : V (Proc.devRef .tc main_arg0) = x0)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg1 (F := Ideal)) V (Proc.devRef .tc main_v76) = val_main_v76 (F := Ideal) x0 x1 x3 x4 x5 x6 x7 x8 := by
  after_results_simp
  rw [hH, h1, h3, h27, h29, ha3, ha4, ha5, ha6, ha7, ha8]
  rfl

/-- ROUND 1 READ OFF ITS SEGMENT: from any contents that hold the previous round's output, the two edge columns, the
    two repeated factors and the parameter stacks, the segment's operations leave the round's output at its buffer. -/
theorem rstep1
    (hH : V (Proc.devRef .tc main_v76) = val_main_v76 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg2 (F := Ideal)) V (Proc.devRef .tc main_v123) = val_main_v123 (F := Ideal) x0 x1 x3 x4 x5 x6 x7 x8 := by
  after_results_simp
  rw [hH, h1, h3, h27, h29, ha3, ha4, ha5, ha6, ha7, ha8]
  rfl

end Cert.RVal

end
-- ==== Proof.RefStepsB.lean ====
/-
  Each segment of the reference program read at the buffers the later segments use: from any buffer contents that
  hold the segment's inputs, the segment's operations, folded in order, leave at each named buffer the value the
  corresponding stage of the program's reading writes. A round's segment needs the previous round's output (the
  input features for the first), the two edge columns, the repeated per-edge and per-node factors and the six
  parameter stacks; the set-up segment needs only the edge list; the tail needs the last round's output, the group
  column and the output weights and bias.
-/
import proofs.«127734_j69286412419642_2_alg».proof.Proof.RefSegs

noncomputable section

namespace Cert.RVal

open Cert.ReferenceIdeal Cert.ReferenceIdeal.Gen Cert.ReferenceIdeal.Read Idealize.ShloMosaic Idealize.ShloMosaic.TcCoe Idealize.SL.Sem Idealize.ShloMosaic.StableHlo

variable (V : Valuation τ sig (Elt Ideal))
variable (x0 : (⟨S50000x128, .f32⟩ : BufTy).Contents (Elt Ideal)) (x1 : (⟨S2x640000, .i32⟩ : BufTy).Contents (Elt Ideal))
  (x2 : (⟨S50000, .i32⟩ : BufTy).Contents (Elt Ideal)) (x3 : (⟨S8x128x128, .f32⟩ : BufTy).Contents (Elt Ideal))
  (x4 x5 x6 x7 x8 : (⟨S8x128, .f32⟩ : BufTy).Contents (Elt Ideal)) (x9 : (⟨S128x5, .f32⟩ : BufTy).Contents (Elt Ideal))
  (x10 : (⟨S5, .f32⟩ : BufTy).Contents (Elt Ideal))

/-! ## Rounds 2 and 3 -/

/-- ROUND 2 READ OFF ITS SEGMENT: from any contents that hold the previous round's output, the two edge columns, the
    two repeated factors and the parameter stacks, the segment's operations leave the round's output at its buffer. -/
theorem rstep2
    (hH : V (Proc.devRef .tc main_v123) = val_main_v123 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg3 (F := Ideal)) V (Proc.devRef .tc main_v170) = val_main_v170 (F := Ideal) x0 x1 x3 x4 x5 x6 x7 x8 := by
  after_results_simp
  rw [hH, h1, h3, h27, h29, ha3, ha4, ha5, ha6, ha7, ha8]
  rfl

/-- ROUND 3 READ OFF ITS SEGMENT: from any contents that hold the previous round's output, the two edge columns, the
    two repeated factors and the parameter stacks, the segment's operations leave the round's output at its buffer. -/
theorem rstep3
    (hH : V (Proc.devRef .tc main_v170) = val_main_v170 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg4 (F := Ideal)) V (Proc.devRef .tc main_v217) = val_main_v217 (F := Ideal) x0 x1 x3 x4 x5 x6 x7 x8 := by
  after_results_simp
  rw [hH, h1, h3, h27, h29, ha3, ha4, ha5, ha6, ha7, ha8]
  rfl

end Cert.RVal

end
-- ==== Proof.RefStepsC.lean ====
/-
  Each segment of the reference program read at the buffers the later segments use: from any buffer contents that
  hold the segment's inputs, the segment's operations, folded in order, leave at each named buffer the value the
  corresponding stage of the program's reading writes. A round's segment needs the previous round's output (the
  input features for the first), the two edge columns, the repeated per-edge and per-node factors and the six
  parameter stacks; the set-up segment needs only the edge list; the tail needs the last round's output, the group
  column and the output weights and bias.
-/
import proofs.«127734_j69286412419642_2_alg».proof.Proof.RefSegs

noncomputable section

namespace Cert.RVal

open Cert.ReferenceIdeal Cert.ReferenceIdeal.Gen Cert.ReferenceIdeal.Read Idealize.ShloMosaic Idealize.ShloMosaic.TcCoe Idealize.SL.Sem Idealize.ShloMosaic.StableHlo

variable (V : Valuation τ sig (Elt Ideal))
variable (x0 : (⟨S50000x128, .f32⟩ : BufTy).Contents (Elt Ideal)) (x1 : (⟨S2x640000, .i32⟩ : BufTy).Contents (Elt Ideal))
  (x2 : (⟨S50000, .i32⟩ : BufTy).Contents (Elt Ideal)) (x3 : (⟨S8x128x128, .f32⟩ : BufTy).Contents (Elt Ideal))
  (x4 x5 x6 x7 x8 : (⟨S8x128, .f32⟩ : BufTy).Contents (Elt Ideal)) (x9 : (⟨S128x5, .f32⟩ : BufTy).Contents (Elt Ideal))
  (x10 : (⟨S5, .f32⟩ : BufTy).Contents (Elt Ideal))

/-! ## Rounds 4 and 5 -/

/-- ROUND 4 READ OFF ITS SEGMENT: from any contents that hold the previous round's output, the two edge columns, the
    two repeated factors and the parameter stacks, the segment's operations leave the round's output at its buffer. -/
theorem rstep4
    (hH : V (Proc.devRef .tc main_v217) = val_main_v217 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg5 (F := Ideal)) V (Proc.devRef .tc main_v264) = val_main_v264 (F := Ideal) x0 x1 x3 x4 x5 x6 x7 x8 := by
  after_results_simp
  rw [hH, h1, h3, h27, h29, ha3, ha4, ha5, ha6, ha7, ha8]
  rfl

/-- ROUND 5 READ OFF ITS SEGMENT: from any contents that hold the previous round's output, the two edge columns, the
    two repeated factors and the parameter stacks, the segment's operations leave the round's output at its buffer. -/
theorem rstep5
    (hH : V (Proc.devRef .tc main_v264) = val_main_v264 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg6 (F := Ideal)) V (Proc.devRef .tc main_v311) = val_main_v311 (F := Ideal) x0 x1 x3 x4 x5 x6 x7 x8 := by
  after_results_simp
  rw [hH, h1, h3, h27, h29, ha3, ha4, ha5, ha6, ha7, ha8]
  rfl

end Cert.RVal

end
-- ==== Proof.RefStepsD.lean ====
/-
  Each segment of the reference program read at the buffers the later segments use: from any buffer contents that
  hold the segment's inputs, the segment's operations, folded in order, leave at each named buffer the value the
  corresponding stage of the program's reading writes. A round's segment needs the previous round's output (the
  input features for the first), the two edge columns, the repeated per-edge and per-node factors and the six
  parameter stacks; the set-up segment needs only the edge list; the tail needs the last round's output, the group
  column and the output weights and bias.
-/
import proofs.«127734_j69286412419642_2_alg».proof.Proof.RefSegs

noncomputable section

namespace Cert.RVal

open Cert.ReferenceIdeal Cert.ReferenceIdeal.Gen Cert.ReferenceIdeal.Read Idealize.ShloMosaic Idealize.ShloMosaic.TcCoe Idealize.SL.Sem Idealize.ShloMosaic.StableHlo

variable (V : Valuation τ sig (Elt Ideal))
variable (x0 : (⟨S50000x128, .f32⟩ : BufTy).Contents (Elt Ideal)) (x1 : (⟨S2x640000, .i32⟩ : BufTy).Contents (Elt Ideal))
  (x2 : (⟨S50000, .i32⟩ : BufTy).Contents (Elt Ideal)) (x3 : (⟨S8x128x128, .f32⟩ : BufTy).Contents (Elt Ideal))
  (x4 x5 x6 x7 x8 : (⟨S8x128, .f32⟩ : BufTy).Contents (Elt Ideal)) (x9 : (⟨S128x5, .f32⟩ : BufTy).Contents (Elt Ideal))
  (x10 : (⟨S5, .f32⟩ : BufTy).Contents (Elt Ideal))

/-! ## Rounds 6 and 7, and the tail -/

/-- ROUND 6 READ OFF ITS SEGMENT: from any contents that hold the previous round's output, the two edge columns, the
    two repeated factors and the parameter stacks, the segment's operations leave the round's output at its buffer. -/
theorem rstep6
    (hH : V (Proc.devRef .tc main_v311) = val_main_v311 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg7 (F := Ideal)) V (Proc.devRef .tc main_v358) = val_main_v358 (F := Ideal) x0 x1 x3 x4 x5 x6 x7 x8 := by
  after_results_simp
  rw [hH, h1, h3, h27, h29, ha3, ha4, ha5, ha6, ha7, ha8]
  rfl

/-- ROUND 7 READ OFF ITS SEGMENT: from any contents that hold the previous round's output, the two edge columns, the
    two repeated factors and the parameter stacks, the segment's operations leave the round's output at its buffer. -/
theorem rstep7
    (hH : V (Proc.devRef .tc main_v358) = val_main_v358 (F := Ideal) x0 x1 x3 x4 x5 x6 x7 x8)
    (h1 : V (Proc.devRef .tc main_v1) = val_main_v1 (F := Ideal) x1) (h3 : V (Proc.devRef .tc main_v3) = val_main_v3 (F := Ideal) x1)
    (h27 : V (Proc.devRef .tc main_v27) = val_main_v27 (F := Ideal) x1) (h29 : V (Proc.devRef .tc main_v29) = val_main_v29 (F := Ideal) x1)
    (ha3 : V (Proc.devRef .tc main_arg3) = x3) (ha4 : V (Proc.devRef .tc main_arg4) = x4) (ha5 : V (Proc.devRef .tc main_arg5) = x5)
    (ha6 : V (Proc.devRef .tc main_arg6) = x6) (ha7 : V (Proc.devRef .tc main_arg7) = x7) (ha8 : V (Proc.devRef .tc main_arg8) = x8) :
    after (seg8 (F := Ideal)) V (Proc.devRef .tc main_v405) = val_main_v405 (F := Ideal) x0 x1 x3 x4 x5 x6 x7 x8 := by
  after_results_simp
  rw [hH, h1, h3, h27, h29, ha3, ha4, ha5, ha6, ha7, ha8]
  rfl

/-- THE TAIL READ OFF ITS SEGMENT: from any contents that hold the last round's output, the group column and the
    output weights and bias, the segment's operations leave the program's result at its buffer. -/
theorem rtail
    (hH : V (Proc.devRef .tc main_v405) = val_main_v405 (F := Ideal) x0 x1 x3 x4 x5 x6 x7 x8)
    (ha2 : V (Proc.devRef .tc main_arg2) = x2) (ha9 : V (Proc.devRef .tc main_arg9) = x9) (ha10 : V (Proc.devRef .tc main_arg10) = x10) :
    after (seg9 (F := Ideal)) V (Proc.devRef .tc main_v421) = val_main_v421 (F := Ideal) x0 x1 x2 x3 x4 x5 x6 x7 x8 x9 x10 := by
  after_results_simp
  rw [hH, ha2, ha9, ha10]
  rfl

end Cert.RVal

end
-- ==== Proof.RefRun.lean ====
/-
  The reference program's run, assembled from its segments: the set-up segment leaves the edge columns and the
  factor arrays at their values of the launch arguments; each round's segment, reading the previous round's output,
  those arrays and the arguments — all unchanged by the segments in between —, leaves that round's value; the tail
  leaves the result. Every weakly fair execution therefore terminates with the result buffer at the reference's
  value of the arguments, and the arguments as they were.
-/
import proofs.«127734_j69286412419642_2_alg».proof.Proof.RefMain
import proofs.«127734_j69286412419642_2_alg».proof.Proof.RefKeep
import proofs.«127734_j69286412419642_2_alg».proof.Proof.RefStepsA
import proofs.«127734_j69286412419642_2_alg».proof.Proof.RefStepsB
import proofs.«127734_j69286412419642_2_alg».proof.Proof.RefStepsC
import proofs.«127734_j69286412419642_2_alg».proof.Proof.RefStepsD

noncomputable section

namespace Cert.RVal

open Cert.ReferenceIdeal Cert.ReferenceIdeal.Gen Cert.ReferenceIdeal.Read Idealize.ShloMosaic Idealize.ShloMosaic.TcCoe Idealize.SL.Sem
  Idealize.ShloMosaic.StableHlo

section Assemble
variable (m : (ℓ : Loc nD τ sig) → Buf (Elt Ideal) ℓ) (c : Dev nD)

/-! ## After the set-up segment -/

theorem seg0_at_v1 : U1 m c (Proc.devRef .tc main_v1) = val_main_v1 (F := Ideal) (m ((c.tc : Thread nD τ).loc main_arg1)) := by
  rw [U1_eq]; exact seg0_v1 (U0 m c) _ rfl
theorem seg0_at_v3 : U1 m c (Proc.devRef .tc main_v3) = val_main_v3 (F := Ideal) (m ((c.tc : Thread nD τ).loc main_arg1)) := by
  rw [U1_eq]; exact seg0_v3 (U0 m c) _ rfl
theorem seg0_at_v27 : U1 m c (Proc.devRef .tc main_v27) = val_main_v27 (F := Ideal) (m ((c.tc : Thread nD τ).loc main_arg1)) := by
  rw [U1_eq]; exact seg0_v27 (U0 m c) _ rfl
theorem seg0_at_v29 : U1 m c (Proc.devRef .tc main_v29) = val_main_v29 (F := Ideal) (m ((c.tc : Thread nD τ).loc main_arg1)) := by
  rw [U1_eq]; exact seg0_v29 (U0 m c) _ rfl

/-! ## The eight rounds -/

/-- Round 0's output, at the boundary after it, is the reference's value for that round at the launch arguments. -/
theorem out0 : U2 m c (Proc.devRef .tc main_v76) = val_main_v76 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U2_eq]
  exact rstep0 (U1 m c) _ _ _ _ _ _ _ _ (keep_arg0_1 m c) (seg0_at_v1 m c) (seg0_at_v3 m c) (seg0_at_v27 m c) (seg0_at_v29 m c)
    (keep_arg3_1 m c) (keep_arg4_1 m c) (keep_arg5_1 m c) (keep_arg6_1 m c) (keep_arg7_1 m c) (keep_arg8_1 m c)

/-- Round 1's output, at the boundary after it, is the reference's value for that round at the launch arguments. -/
theorem out1 : U3 m c (Proc.devRef .tc main_v123) = val_main_v123 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U3_eq]
  exact rstep1 (U2 m c) _ _ _ _ _ _ _ _ (out0 m c) ((keep_v1_2 m c).trans (seg0_at_v1 m c)) ((keep_v3_2 m c).trans (seg0_at_v3 m c)) ((keep_v27_2 m c).trans (seg0_at_v27 m c)) ((keep_v29_2 m c).trans (seg0_at_v29 m c))
    (keep_arg3_2 m c) (keep_arg4_2 m c) (keep_arg5_2 m c) (keep_arg6_2 m c) (keep_arg7_2 m c) (keep_arg8_2 m c)

/-- Round 2's output, at the boundary after it, is the reference's value for that round at the launch arguments. -/
theorem out2 : U4 m c (Proc.devRef .tc main_v170) = val_main_v170 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U4_eq]
  exact rstep2 (U3 m c) _ _ _ _ _ _ _ _ (out1 m c) ((keep_v1_3 m c).trans (seg0_at_v1 m c)) ((keep_v3_3 m c).trans (seg0_at_v3 m c)) ((keep_v27_3 m c).trans (seg0_at_v27 m c)) ((keep_v29_3 m c).trans (seg0_at_v29 m c))
    (keep_arg3_3 m c) (keep_arg4_3 m c) (keep_arg5_3 m c) (keep_arg6_3 m c) (keep_arg7_3 m c) (keep_arg8_3 m c)

/-- Round 3's output, at the boundary after it, is the reference's value for that round at the launch arguments. -/
theorem out3 : U5 m c (Proc.devRef .tc main_v217) = val_main_v217 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U5_eq]
  exact rstep3 (U4 m c) _ _ _ _ _ _ _ _ (out2 m c) ((keep_v1_4 m c).trans (seg0_at_v1 m c)) ((keep_v3_4 m c).trans (seg0_at_v3 m c)) ((keep_v27_4 m c).trans (seg0_at_v27 m c)) ((keep_v29_4 m c).trans (seg0_at_v29 m c))
    (keep_arg3_4 m c) (keep_arg4_4 m c) (keep_arg5_4 m c) (keep_arg6_4 m c) (keep_arg7_4 m c) (keep_arg8_4 m c)

/-- Round 4's output, at the boundary after it, is the reference's value for that round at the launch arguments. -/
theorem out4 : U6 m c (Proc.devRef .tc main_v264) = val_main_v264 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U6_eq]
  exact rstep4 (U5 m c) _ _ _ _ _ _ _ _ (out3 m c) ((keep_v1_5 m c).trans (seg0_at_v1 m c)) ((keep_v3_5 m c).trans (seg0_at_v3 m c)) ((keep_v27_5 m c).trans (seg0_at_v27 m c)) ((keep_v29_5 m c).trans (seg0_at_v29 m c))
    (keep_arg3_5 m c) (keep_arg4_5 m c) (keep_arg5_5 m c) (keep_arg6_5 m c) (keep_arg7_5 m c) (keep_arg8_5 m c)

/-- Round 5's output, at the boundary after it, is the reference's value for that round at the launch arguments. -/
theorem out5 : U7 m c (Proc.devRef .tc main_v311) = val_main_v311 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U7_eq]
  exact rstep5 (U6 m c) _ _ _ _ _ _ _ _ (out4 m c) ((keep_v1_6 m c).trans (seg0_at_v1 m c)) ((keep_v3_6 m c).trans (seg0_at_v3 m c)) ((keep_v27_6 m c).trans (seg0_at_v27 m c)) ((keep_v29_6 m c).trans (seg0_at_v29 m c))
    (keep_arg3_6 m c) (keep_arg4_6 m c) (keep_arg5_6 m c) (keep_arg6_6 m c) (keep_arg7_6 m c) (keep_arg8_6 m c)

/-- Round 6's output, at the boundary after it, is the reference's value for that round at the launch arguments. -/
theorem out6 : U8 m c (Proc.devRef .tc main_v358) = val_main_v358 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U8_eq]
  exact rstep6 (U7 m c) _ _ _ _ _ _ _ _ (out5 m c) ((keep_v1_7 m c).trans (seg0_at_v1 m c)) ((keep_v3_7 m c).trans (seg0_at_v3 m c)) ((keep_v27_7 m c).trans (seg0_at_v27 m c)) ((keep_v29_7 m c).trans (seg0_at_v29 m c))
    (keep_arg3_7 m c) (keep_arg4_7 m c) (keep_arg5_7 m c) (keep_arg6_7 m c) (keep_arg7_7 m c) (keep_arg8_7 m c)

/-- Round 7's output, at the boundary after it, is the reference's value for that round at the launch arguments. -/
theorem out7 : U9 m c (Proc.devRef .tc main_v405) = val_main_v405 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U9_eq]
  exact rstep7 (U8 m c) _ _ _ _ _ _ _ _ (out6 m c) ((keep_v1_8 m c).trans (seg0_at_v1 m c)) ((keep_v3_8 m c).trans (seg0_at_v3 m c)) ((keep_v27_8 m c).trans (seg0_at_v27 m c)) ((keep_v29_8 m c).trans (seg0_at_v29 m c))
    (keep_arg3_8 m c) (keep_arg4_8 m c) (keep_arg5_8 m c) (keep_arg6_8 m c) (keep_arg7_8 m c) (keep_arg8_8 m c)

/-! ## The tail -/

theorem out_tail : U10 m c (Proc.devRef .tc main_v421) = val_main_v421 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [U10_eq]
  exact rtail (U9 m c) _ _ _ _ _ _ _ _ _ _ _ (out7 m c) (keep_arg2_9 m c) (keep_arg9_9 m c) (keep_arg10_9 m c)

end Assemble

/-! ## The run -/

/-- On every device, from any memory with zero counters: every weakly fair execution of the reference's @main
    terminates with the result at the reference's value of the arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v421) = val_main_v421 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_v421).trans (out_tail m c),
      (h c main_arg0).trans (keep_arg0_10 m c),
      (h c main_arg1).trans (keep_arg1_10 m c),
      (h c main_arg2).trans (keep_arg2_10 m c),
      (h c main_arg3).trans (keep_arg3_10 m c),
      (h c main_arg4).trans (keep_arg4_10 m c),
      (h c main_arg5).trans (keep_arg5_10 m c),
      (h c main_arg6).trans (keep_arg6_10 m c),
      (h c main_arg7).trans (keep_arg7_10 m c),
      (h c main_arg8).trans (keep_arg8_10 m c),
      (h c main_arg9).trans (keep_arg9_10 m c),
      (h c main_arg10).trans (keep_arg10_10 m c)⟩)
    (run_all m ρ)

end Cert.RVal

end
-- ==== Proof.lean ====
/-
  The certificate's claim: the three programs run to the end without a fault and leave their argument arrays as
  launched; the idealized kernel is the kernel's own text read over the extended reals (no rewrite was applied); and
  the idealized kernel and the idealized reference, run from memories that agree on the arguments, end with the same
  result array.

  Both programs compute eight rounds of a normalised neighbourhood sum over a graph, a mean over node groups and a
  final affine map. They differ in one place: the reference scales every edge's contribution by the factors of both
  its ends before summing, the kernel folds the sender's factor into the summand and applies the receiver's factor
  once, to the finished sum. The factor is one plus an edge count, to the power −1/2: a non-negative real, and
  multiplication by a non-negative real distributes over any sum of extended reals. So the rounds agree one by one,
  and the two tails are the same operations of equal arrays.
-/
import proofs.«127734_j69286412419642_2_alg».proof.Defs
import proofs.«127734_j69286412419642_2_alg».proof.Proof.Gen.Kernel
import proofs.«127734_j69286412419642_2_alg».proof.Proof.Gen.Kernel.Skeleton
import proofs.«127734_j69286412419642_2_alg».proof.Proof.Gen.Kernel.Launch
import proofs.«127734_j69286412419642_2_alg».proof.Proof.Gen.Kernel.Points
import proofs.«127734_j69286412419642_2_alg».proof.Proof.Gen.Kernel.Frame
import proofs.«127734_j69286412419642_2_alg».proof.Proof.Gen.KernelIdeal
import proofs.«127734_j69286412419642_2_alg».proof.Proof.Gen.KernelIdeal.Skeleton
import proofs.«127734_j69286412419642_2_alg».proof.Proof.Gen.KernelIdeal.Launch
import proofs.«127734_j69286412419642_2_alg».proof.Proof.Gen.KernelIdeal.Points
import proofs.«127734_j69286412419642_2_alg».proof.Proof.Gen.KernelIdeal.Frame
import proofs.«127734_j69286412419642_2_alg».proof.Proof.Gen.ReferenceIdeal
import proofs.«127734_j69286412419642_2_alg».proof.Proof.Gen.Pre_finite_inputs
import proofs.«127734_j69286412419642_2_alg».proof.Proof.KRun
import proofs.«127734_j69286412419642_2_alg».proof.Proof.Final
import proofs.«127734_j69286412419642_2_alg».proof.Proof.RefRun
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RVal.ref_run m ρ)

/-- Both idealized programs end at the kernel's last boundary contents of the result: the kernel by its run, the
    reference because its last operation's value is that array (`Cert.KVal.final_eq`) once the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W34 m ρ c (Proc.devRef .tc Cert.KernelIdeal.main_v266), Cert.KVal.run_result (F := Ideal) m ρ, ?_⟩
  refine (θ_run Cert.ReferenceIdeal.defs _ _).mono (fun _ h c => ⟨(h c).1.trans ?_, (h c).2⟩)
    (Cert.RVal.ref_run m' ρ')
  obtain ⟨h0, h1, h2, h3, h4, h5, h6, h7, h8, h9, h10⟩ := hagree c
  rw [h0, h1, h2, h3, h4, h5, h6, h7, h8, h9, h10]
  exact (Cert.KVal.final_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
